-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v323) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x512x512 : Shape := ⟨4, ![8, 3, 512, 512]⟩
abbrev S_ : Shape := ⟨0, ![]⟩

class Facts : Prop where
  bcast_S_S8x3x512x512 : S_.BroadcastsInDim S8x3x512x512 (![] : Fin 0 → Fin S8x3x512x512.rank)
  reducesTo_S8x3x512x512_S_d0_1_2_3 : S8x3x512x512.ReducesTo [0, 1, 2, 3] S_
  h_S_ : 0 < S_.numel

variable [Facts]

def fn {F : FTy → Type} [FloatOps F] (main_arg0 : FVec F S8x3x512x512 .f32) (main_arg1 : FVec F S8x3x512x512 .f32) : IVec S_ 1 :=
  let main_v0 : FVec F S8x3x512x512 .f32 := Host.absf main_arg0
  let main_cst : FVec F S_ .f32 := constant S_ .f32 0x7F800000#32
  let main_v1 : FVec F S8x3x512x512 .f32 := broadcastInDim S8x3x512x512 ![] bcast_S_S8x3x512x512 main_cst
  let main_v2 : IVec S8x3x512x512 1 := cmpf .olt main_v0 main_v1
  let main_c : IVec S_ 1 := constantI S_ 1 1#1
  let main_v3 : IVec S_ 1 := (fun x v => Host.reduce IntOp.andi x v reducesTo_S8x3x512x512_S_d0_1_2_3 h_S_) main_v2 main_c
  let main_v4 : FVec F S8x3x512x512 .f32 := Host.absf main_arg1
  let main_cst_0 : FVec F S_ .f32 := constant S_ .f32 0x7F800000#32
  let main_v5 : FVec F S8x3x512x512 .f32 := broadcastInDim S8x3x512x512 ![] bcast_S_S8x3x512x512 main_cst_0
  let main_v6 : IVec S8x3x512x512 1 := cmpf .olt main_v4 main_v5
  let main_c_1 : IVec S_ 1 := constantI S_ 1 1#1
  let main_v7 : IVec S_ 1 := (fun x v => Host.reduce IntOp.andi x v reducesTo_S8x3x512x512_S_d0_1_2_3 h_S_) main_v6 main_c_1
  let main_v8 : IVec S_ 1 := andi main_v3 main_v7
  main_v8
-- ==== Kernel.lean ====
abbrev S8x3x512x512 : Shape := ⟨4, ![8, 3, 512, 512]⟩
abbrev S_ : Shape := ⟨0, ![]⟩
abbrev S8x3x1x512 : Shape := ⟨4, ![8, 3, 1, 512]⟩
abbrev S8x3x3x512 : Shape := ⟨4, ![8, 3, 3, 512]⟩
abbrev S8x3x515x512 : Shape := ⟨4, ![8, 3, 515, 512]⟩
abbrev S8x3x518x512 : Shape := ⟨4, ![8, 3, 518, 512]⟩
abbrev S8x3x518x1 : Shape := ⟨4, ![8, 3, 518, 1]⟩
abbrev S8x3x518x3 : Shape := ⟨4, ![8, 3, 518, 3]⟩
abbrev S8x3x518x515 : Shape := ⟨4, ![8, 3, 518, 515]⟩
abbrev S8x3x518x518 : Shape := ⟨4, ![8, 3, 518, 518]⟩
abbrev S8x1x128 : Shape := ⟨3, ![8, 1, 128]⟩
abbrev S1x3x518x518 : Shape := ⟨4, ![1, 3, 518, 518]⟩
abbrev S1x1x128 : Shape := ⟨3, ![1, 1, 128]⟩
abbrev S3x518x518 : Shape := ⟨3, ![3, 518, 518]⟩
abbrev S1x518x518 : Shape := ⟨3, ![1, 518, 518]⟩
abbrev S518x518 : Shape := ⟨2, ![518, 518]⟩
abbrev S512x512 : Shape := ⟨2, ![512, 512]⟩
abbrev S512x518 : Shape := ⟨2, ![512, 518]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1x1x1 : Shape := ⟨3, ![1, 1, 1]⟩
abbrev S8x1x1 : Shape := ⟨3, ![8, 1, 1]⟩
abbrev S8 : Shape := ⟨1, ![8]⟩

abbrev nBuf : Space → Nat
  | .hbm => 43
  | .vmem => 6
  | .smem => 0
  | _ => 0

abbrev bufTy : (tb : Table) → Fin (tcTables nBuf tb) → BufTy
  | .hbm, ⟨0, _⟩ => ⟨S8x3x512x512, .f32⟩
  | .hbm, ⟨1, _⟩ => ⟨S8x3x512x512, .f32⟩
  | .hbm, ⟨2, _⟩ => ⟨S_, .i32⟩
  | .hbm, ⟨3, _⟩ => ⟨S8x3x1x512, .f32⟩
  | .hbm, ⟨4, _⟩ => ⟨S8x3x3x512, .f32⟩
  | .hbm, ⟨5, _⟩ => ⟨S8x3x3x512, .f32⟩
  | .hbm, ⟨6, _⟩ => ⟨S8x3x515x512, .f32⟩
  | .hbm, ⟨7, _⟩ => ⟨S8x3x1x512, .f32⟩
  | .hbm, ⟨8, _⟩ => ⟨S8x3x3x512, .f32⟩
  | .hbm, ⟨9, _⟩ => ⟨S8x3x3x512, .f32⟩
  | .hbm, ⟨10, _⟩ => ⟨S8x3x518x512, .f32⟩
  | .hbm, ⟨11, _⟩ => ⟨S8x3x518x1, .f32⟩
  | .hbm, ⟨12, _⟩ => ⟨S8x3x518x3, .f32⟩
  | .hbm, ⟨13, _⟩ => ⟨S8x3x518x3, .f32⟩
  | .hbm, ⟨14, _⟩ => ⟨S8x3x518x515, .f32⟩
  | .hbm, ⟨15, _⟩ => ⟨S8x3x518x1, .f32⟩
  | .hbm, ⟨16, _⟩ => ⟨S8x3x518x3, .f32⟩
  | .hbm, ⟨17, _⟩ => ⟨S8x3x518x3, .f32⟩
  | .hbm, ⟨18, _⟩ => ⟨S8x3x518x518, .f32⟩
  | .hbm, ⟨19, _⟩ => ⟨S_, .i32⟩
  | .hbm, ⟨20, _⟩ => ⟨S8x3x1x512, .f32⟩
  | .hbm, ⟨21, _⟩ => ⟨S8x3x3x512, .f32⟩
  | .hbm, ⟨22, _⟩ => ⟨S8x3x3x512, .f32⟩
  | .hbm, ⟨23, _⟩ => ⟨S8x3x515x512, .f32⟩
  | .hbm, ⟨24, _⟩ => ⟨S8x3x1x512, .f32⟩
  | .hbm, ⟨25, _⟩ => ⟨S8x3x3x512, .f32⟩
  | .hbm, ⟨26, _⟩ => ⟨S8x3x3x512, .f32⟩
  | .hbm, ⟨27, _⟩ => ⟨S8x3x518x512, .f32⟩
  | .hbm, ⟨28, _⟩ => ⟨S8x3x518x1, .f32⟩
  | .hbm, ⟨29, _⟩ => ⟨S8x3x518x3, .f32⟩
  | .hbm, ⟨30, _⟩ => ⟨S8x3x518x3, .f32⟩
  | .hbm, ⟨31, _⟩ => ⟨S8x3x518x515, .f32⟩
  | .hbm, ⟨32, _⟩ => ⟨S8x3x518x1, .f32⟩
  | .hbm, ⟨33, _⟩ => ⟨S8x3x518x3, .f32⟩
  | .hbm, ⟨34, _⟩ => ⟨S8x3x518x3, .f32⟩
  | .hbm, ⟨35, _⟩ => ⟨S8x3x518x518, .f32⟩
  | .hbm, ⟨36, _⟩ => ⟨S8x1x128, .f32⟩
  | .hbm, ⟨37, _⟩ => ⟨S8x1x1, .f32⟩
  | .hbm, ⟨38, _⟩ => ⟨S8, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S1x3x518x518, .f32⟩
  | .local _ .vmem, ⟨1, _⟩ => ⟨S1x3x518x518, .f32⟩
  | .local _ .vmem, ⟨2, _⟩ => ⟨S1x3x518x518, .f32⟩
  | .local _ .vmem, ⟨3, _⟩ => ⟨S1x3x518x518, .f32⟩
  | .local _ .vmem, ⟨4, _⟩ => ⟨S1x1x128, .f32⟩
  | .local _ .vmem, ⟨5, _⟩ => ⟨S1x1x128, .f32⟩
  | _, _ => ⟨S8x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_v11 : Ref sig .tc := ⟨.hbm, 14, rfl⟩
abbrev main_call0_v12 : Ref sig .tc := ⟨.hbm, 15, rfl⟩
abbrev main_call0_v13 : Ref sig .tc := ⟨.hbm, 16, rfl⟩
abbrev main_call0_v14 : Ref sig .tc := ⟨.hbm, 17, rfl⟩
abbrev main_v0 : Ref sig .tc := ⟨.hbm, 18, rfl⟩
abbrev main_c_0 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_v6 : Ref sig .tc := ⟨.hbm, 26, rfl⟩
abbrev main_call1_v7 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_call1_v12 : Ref sig .tc := ⟨.hbm, 32, rfl⟩
abbrev main_call1_v13 : Ref sig .tc := ⟨.hbm, 33, rfl⟩
abbrev main_call1_v14 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_cst : Ref sig .tc := ⟨.hbm, 39, rfl⟩
abbrev main_v5 : Ref sig .tc := ⟨.hbm, 40, rfl⟩
abbrev main_cst_1 : Ref sig .tc := ⟨.hbm, 41, rfl⟩
abbrev main_v6 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x518x518 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x518x518 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S8x3x512x512_S8x3x1x512_0_0_0_0 : S8x3x512x512.Slices ![0, 0, 0, 0] S8x3x1x512
  slices_S8x3x512x512_S8x3x3x512_0_0_1_0 : S8x3x512x512.Slices ![0, 0, 1, 0] S8x3x3x512
  concatenates_S8x3x3x512_S8x3x512x512_S8x3x515x512_d2 : Shape.Concatenates [S8x3x3x512, S8x3x512x512] S8x3x515x512 2
  slices_S8x3x515x512_S8x3x1x512_0_0_514_0 : S8x3x515x512.Slices ![0, 0, 514, 0] S8x3x1x512
  slices_S8x3x515x512_S8x3x3x512_0_0_511_0 : S8x3x515x512.Slices ![0, 0, 511, 0] S8x3x3x512
  concatenates_S8x3x515x512_S8x3x3x512_S8x3x518x512_d2 : Shape.Concatenates [S8x3x515x512, S8x3x3x512] S8x3x518x512 2
  slices_S8x3x518x512_S8x3x518x1_0_0_0_0 : S8x3x518x512.Slices ![0, 0, 0, 0] S8x3x518x1
  slices_S8x3x518x512_S8x3x518x3_0_0_0_1 : S8x3x518x512.Slices ![0, 0, 0, 1] S8x3x518x3
  concatenates_S8x3x518x3_S8x3x518x512_S8x3x518x515_d3 : Shape.Concatenates [S8x3x518x3, S8x3x518x512] S8x3x518x515 3
  slices_S8x3x518x515_S8x3x518x1_0_0_0_514 : S8x3x518x515.Slices ![0, 0, 0, 514] S8x3x518x1
  slices_S8x3x518x515_S8x3x518x3_0_0_0_511 : S8x3x518x515.Slices ![0, 0, 0, 511] S8x3x518x3
  concatenates_S8x3x518x515_S8x3x518x3_S8x3x518x518_d3 : Shape.Concatenates [S8x3x518x515, S8x3x518x3] S8x3x518x518 3
  inb_S1x3x518x518_S1x3x518x518_0_0_0_0 : ∀ a, (![0, 0, 0, 0] : Fin 4 → Nat) a + S1x3x518x518.size a ≤ S1x3x518x518.size a
  h_S1x3x518x518 : 0 < S1x3x518x518.numel
  shapeCasts_S1x3x518x518_S3x518x518 : S1x3x518x518.ShapeCasts S3x518x518
  slices_S3x518x518_o0_0_0_S1x518x518 : S3x518x518.Slices ![0, 0, 0] S1x518x518
  shapeCasts_S1x518x518_S518x518 : S1x518x518.ShapeCasts S518x518
  slices_S3x518x518_o1_0_0_S1x518x518 : S3x518x518.Slices ![1, 0, 0] S1x518x518
  slices_S3x518x518_o2_0_0_S1x518x518 : S3x518x518.Slices ![2, 0, 0] S1x518x518
  slices_S518x518_o3_3_S512x512 : S518x518.Slices ![3, 3] S512x512
  slices_S518x518_o0_0_S512x518 : S518x518.Slices ![0, 0] S512x518
  slices_S512x518_o0_0_S512x512 : S512x518.Slices ![0, 0] S512x512
  natLt_1_32 : 1 < 32
  slices_S512x518_o0_1_S512x512 : S512x518.Slices ![0, 1] S512x512
  slices_S512x518_o0_2_S512x512 : S512x518.Slices ![0, 2] S512x512
  slices_S512x518_o0_3_S512x512 : S512x518.Slices ![0, 3] S512x512
  slices_S512x518_o0_4_S512x512 : S512x518.Slices ![0, 4] S512x512
  slices_S512x518_o0_5_S512x512 : S512x518.Slices ![0, 5] S512x512
  slices_S512x518_o0_6_S512x512 : S512x518.Slices ![0, 6] S512x512
  slices_S518x518_o1_0_S512x518 : S518x518.Slices ![1, 0] S512x518
  slices_S518x518_o2_0_S512x518 : S518x518.Slices ![2, 0] S512x518
  slices_S518x518_o3_0_S512x518 : S518x518.Slices ![3, 0] S512x518
  slices_S518x518_o4_0_S512x518 : S518x518.Slices ![4, 0] S512x518
  slices_S518x518_o5_0_S512x518 : S518x518.Slices ![5, 0] S512x518
  slices_S518x518_o6_0_S512x518 : S518x518.Slices ![6, 0] S512x518
  reduces_S512x512_S512 : S512x512.Reduces [1] S512
  shapeCasts_S512_S512x1 : S512.ShapeCasts S512x1
  reduces_S512x1_S1 : S512x1.Reduces [0] S1
  shapeCasts_S1_S1x1 : S1.ShapeCasts S1x1
  shapeCasts_S1x1_S1x1x1 : S1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  slices_S8x1x128_S8x1x1_0_0_0 : S8x1x128.Slices ![0, 0, 0] S8x1x1
  shapeCasts_S8x1x1_S8 : S8x1x1.ShapeCasts S8
  reducesTo_S8_S_d0 : S8.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x518x518.size a ≤ S8x3x518x518.size a
  hwx0_0 : ∀ i : grid0.Coords, EltTy.bits .f32 = 32 ∨ (Rect.block (s := S8x3x518x518) S1x3x518x518.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x518x518.size a ≤ S8x3x518x518.size a
  hwx0_1 : ∀ i : grid0.Coords, EltTy.bits .f32 = 32 ∨ (Rect.block (s := S8x3x518x518) S1x3x518x518.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S8x1x128.size a
  hwx0_2 : ∀ i : grid0.Coords, EltTy.bits .f32 = 32 ∨ (Rect.block (s := S8x1x128) S1x1x128.size (cc0_transform_2 i) (hinb0_2 i)).WholeWords (EltTy.packing .f32)

variable [Facts₀]

abbrev win0_0 : Pipeline.Window sig grid0 :=
  Pipeline.Window.ofSpec (Memref.whole main_v0) S1x3x518x518.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3x518x518.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x3x512x512 : Shape := ⟨4, ![8, 3, 512, 512]⟩
abbrev S8x1x512x512 : Shape := ⟨4, ![8, 1, 512, 512]⟩
abbrev S_ : Shape := ⟨0, ![]⟩
abbrev S8x1x1x512 : Shape := ⟨4, ![8, 1, 1, 512]⟩
abbrev S8x1x3x512 : Shape := ⟨4, ![8, 1, 3, 512]⟩
abbrev S8x1x515x512 : Shape := ⟨4, ![8, 1, 515, 512]⟩
abbrev S8x1x518x512 : Shape := ⟨4, ![8, 1, 518, 512]⟩
abbrev S8x1x518x1 : Shape := ⟨4, ![8, 1, 518, 1]⟩
abbrev S8x1x518x3 : Shape := ⟨4, ![8, 1, 518, 3]⟩
abbrev S8x1x518x515 : Shape := ⟨4, ![8, 1, 518, 515]⟩
abbrev S8x1x518x518 : Shape := ⟨4, ![8, 1, 518, 518]⟩
abbrev S8x16x512x512 : Shape := ⟨4, ![8, 16, 512, 512]⟩
abbrev S8x48x512x512 : Shape := ⟨4, ![8, 48, 512, 512]⟩

abbrev nBuf : Space → Nat
  | .hbm => 366
  | .vmem => 0
  | .smem => 0
  | _ => 0

abbrev hbmTy0_0 (i : Nat) : BufTy := match i % 128 with
  | 0 => ⟨S8x3x512x512, .f32⟩
  | 1 => ⟨S8x3x512x512, .f32⟩
  | 2 => ⟨S8x1x512x512, .f32⟩
  | 3 => ⟨S_, .f32⟩
  | 4 => ⟨S8x1x512x512, .f32⟩
  | 5 => ⟨S8x1x512x512, .f32⟩
  | 6 => ⟨S8x1x512x512, .f32⟩
  | 7 => ⟨S_, .f32⟩
  | 8 => ⟨S8x1x512x512, .f32⟩
  | 9 => ⟨S8x1x512x512, .f32⟩
  | 10 => ⟨S8x1x512x512, .f32⟩
  | 11 => ⟨S8x1x512x512, .f32⟩
  | 12 => ⟨S_, .f32⟩
  | 13 => ⟨S8x1x512x512, .f32⟩
  | 14 => ⟨S8x1x512x512, .f32⟩
  | 15 => ⟨S8x1x512x512, .f32⟩
  | 16 => ⟨S_, .i32⟩
  | 17 => ⟨S8x1x1x512, .f32⟩
  | 18 => ⟨S8x1x3x512, .f32⟩
  | 19 => ⟨S8x1x3x512, .f32⟩
  | 20 => ⟨S8x1x515x512, .f32⟩
  | 21 => ⟨S8x1x1x512, .f32⟩
  | 22 => ⟨S8x1x3x512, .f32⟩
  | 23 => ⟨S8x1x3x512, .f32⟩
  | 24 => ⟨S8x1x518x512, .f32⟩
  | 25 => ⟨S8x1x518x1, .f32⟩
  | 26 => ⟨S8x1x518x3, .f32⟩
  | 27 => ⟨S8x1x518x3, .f32⟩
  | 28 => ⟨S8x1x518x515, .f32⟩
  | 29 => ⟨S8x1x518x1, .f32⟩
  | 30 => ⟨S8x1x518x3, .f32⟩
  | 31 => ⟨S8x1x518x3, .f32⟩
  | 32 => ⟨S8x1x518x518, .f32⟩
  | 33 => ⟨S8x1x512x512, .f32⟩
  | 34 => ⟨S8x1x512x512, .i1⟩
  | 35 => ⟨S8x1x512x512, .f32⟩
  | 36 => ⟨S8x1x512x512, .f32⟩
  | 37 => ⟨S8x1x512x512, .i1⟩
  | 38 => ⟨S8x1x512x512, .f32⟩
  | 39 => ⟨S8x1x512x512, .f32⟩
  | 40 => ⟨S8x1x512x512, .i1⟩
  | 41 => ⟨S8x1x512x512, .f32⟩
  | 42 => ⟨S8x1x512x512, .f32⟩
  | 43 => ⟨S8x1x512x512, .i1⟩
  | 44 => ⟨S8x1x512x512, .f32⟩
  | 45 => ⟨S8x1x512x512, .f32⟩
  | 46 => ⟨S8x1x512x512, .i1⟩
  | 47 => ⟨S8x1x512x512, .f32⟩
  | 48 => ⟨S8x1x512x512, .f32⟩
  | 49 => ⟨S8x1x512x512, .i1⟩
  | 50 => ⟨S8x1x512x512, .f32⟩
  | 51 => ⟨S8x1x512x512, .f32⟩
  | 52 => ⟨S8x1x512x512, .i1⟩
  | 53 => ⟨S8x1x512x512, .f32⟩
  | 54 => ⟨S8x1x512x512, .f32⟩
  | 55 => ⟨S8x1x512x512, .i1⟩
  | 56 => ⟨S8x1x512x512, .f32⟩
  | 57 => ⟨S8x1x512x512, .f32⟩
  | 58 => ⟨S8x1x512x512, .i1⟩
  | 59 => ⟨S8x1x512x512, .f32⟩
  | 60 => ⟨S8x1x512x512, .f32⟩
  | 61 => ⟨S8x1x512x512, .i1⟩
  | 62 => ⟨S8x1x512x512, .f32⟩
  | 63 => ⟨S8x1x512x512, .f32⟩
  | 64 => ⟨S8x1x512x512, .i1⟩
  | 65 => ⟨S8x1x512x512, .f32⟩
  | 66 => ⟨S8x1x512x512, .f32⟩
  | 67 => ⟨S8x1x512x512, .i1⟩
  | 68 => ⟨S8x1x512x512, .f32⟩
  | 69 => ⟨S8x1x512x512, .f32⟩
  | 70 => ⟨S8x1x512x512, .i1⟩
  | 71 => ⟨S8x1x512x512, .f32⟩
  | 72 => ⟨S8x1x512x512, .f32⟩
  | 73 => ⟨S8x1x512x512, .i1⟩
  | 74 => ⟨S8x1x512x512, .f32⟩
  | 75 => ⟨S8x1x512x512, .f32⟩
  | 76 => ⟨S8x1x512x512, .i1⟩
  | 77 => ⟨S8x1x512x512, .f32⟩
  | 78 => ⟨S8x1x512x512, .f32⟩
  | 79 => ⟨S8x1x512x512, .i1⟩
  | 80 => ⟨S8x1x512x512, .f32⟩
  | 81 => ⟨S8x1x512x512, .f32⟩
  | 82 => ⟨S8x1x512x512, .i1⟩
  | 83 => ⟨S8x1x512x512, .f32⟩
  | 84 => ⟨S8x1x512x512, .f32⟩
  | 85 => ⟨S8x1x512x512, .i1⟩
  | 86 => ⟨S8x1x512x512, .f32⟩
  | 87 => ⟨S8x1x512x512, .f32⟩
  | 88 => ⟨S8x1x512x512, .i1⟩
  | 89 => ⟨S8x1x512x512, .f32⟩
  | 90 => ⟨S8x1x512x512, .f32⟩
  | 91 => ⟨S8x1x512x512, .i1⟩
  | 92 => ⟨S8x1x512x512, .f32⟩
  | 93 => ⟨S8x1x512x512, .f32⟩
  | 94 => ⟨S8x1x512x512, .i1⟩
  | 95 => ⟨S8x1x512x512, .f32⟩
  | 96 => ⟨S8x1x512x512, .f32⟩
  | 97 => ⟨S8x1x512x512, .i1⟩
  | 98 => ⟨S8x1x512x512, .f32⟩
  | 99 => ⟨S8x1x512x512, .f32⟩
  | 100 => ⟨S8x1x512x512, .i1⟩
  | 101 => ⟨S8x1x512x512, .f32⟩
  | 102 => ⟨S8x1x512x512, .f32⟩
  | 103 => ⟨S8x1x512x512, .i1⟩
  | 104 => ⟨S8x1x512x512, .f32⟩
  | 105 => ⟨S8x1x512x512, .f32⟩
  | 106 => ⟨S8x1x512x512, .i1⟩
  | 107 => ⟨S8x1x512x512, .f32⟩
  | 108 => ⟨S8x1x512x512, .f32⟩
  | 109 => ⟨S8x1x512x512, .i1⟩
  | 110 => ⟨S8x1x512x512, .f32⟩
  | 111 => ⟨S8x1x512x512, .f32⟩
  | 112 => ⟨S8x1x512x512, .i1⟩
  | 113 => ⟨S8x1x512x512, .f32⟩
  | 114 => ⟨S8x1x512x512, .f32⟩
  | 115 => ⟨S8x1x512x512, .i1⟩
  | 116 => ⟨S8x1x512x512, .f32⟩
  | 117 => ⟨S8x1x512x512, .f32⟩
  | 118 => ⟨S8x1x512x512, .i1⟩
  | 119 => ⟨S8x1x512x512, .f32⟩
  | 120 => ⟨S8x1x512x512, .f32⟩
  | 121 => ⟨S8x1x512x512, .i1⟩
  | 122 => ⟨S8x1x512x512, .f32⟩
  | 123 => ⟨S8x1x512x512, .f32⟩
  | 124 => ⟨S8x1x512x512, .i1⟩
  | 125 => ⟨S8x1x512x512, .f32⟩
  | 126 => ⟨S8x1x512x512, .f32⟩
  | 127 => ⟨S8x1x512x512, .i1⟩
  | _ => ⟨S8x3x512x512, .f32⟩

abbrev hbmTy0_1 (i : Nat) : BufTy := match i % 128 with
  | 0 => ⟨S8x1x512x512, .f32⟩
  | 1 => ⟨S8x1x512x512, .f32⟩
  | 2 => ⟨S8x1x512x512, .i1⟩
  | 3 => ⟨S8x1x512x512, .f32⟩
  | 4 => ⟨S8x1x512x512, .f32⟩
  | 5 => ⟨S8x1x512x512, .i1⟩
  | 6 => ⟨S8x1x512x512, .f32⟩
  | 7 => ⟨S8x1x512x512, .f32⟩
  | 8 => ⟨S8x1x512x512, .i1⟩
  | 9 => ⟨S8x1x512x512, .f32⟩
  | 10 => ⟨S8x1x512x512, .f32⟩
  | 11 => ⟨S8x1x512x512, .i1⟩
  | 12 => ⟨S8x1x512x512, .f32⟩
  | 13 => ⟨S8x1x512x512, .f32⟩
  | 14 => ⟨S8x1x512x512, .i1⟩
  | 15 => ⟨S8x1x512x512, .f32⟩
  | 16 => ⟨S8x1x512x512, .f32⟩
  | 17 => ⟨S8x1x512x512, .i1⟩
  | 18 => ⟨S8x1x512x512, .f32⟩
  | 19 => ⟨S8x1x512x512, .f32⟩
  | 20 => ⟨S8x1x512x512, .i1⟩
  | 21 => ⟨S8x1x512x512, .f32⟩
  | 22 => ⟨S8x1x512x512, .f32⟩
  | 23 => ⟨S8x1x512x512, .i1⟩
  | 24 => ⟨S8x1x512x512, .f32⟩
  | 25 => ⟨S8x1x512x512, .f32⟩
  | 26 => ⟨S8x1x512x512, .i1⟩
  | 27 => ⟨S8x1x512x512, .f32⟩
  | 28 => ⟨S8x1x512x512, .f32⟩
  | 29 => ⟨S8x1x512x512, .i1⟩
  | 30 => ⟨S8x1x512x512, .f32⟩
  | 31 => ⟨S8x1x512x512, .f32⟩
  | 32 => ⟨S8x1x512x512, .i1⟩
  | 33 => ⟨S8x1x512x512, .f32⟩
  | 34 => ⟨S8x1x512x512, .f32⟩
  | 35 => ⟨S8x1x512x512, .i1⟩
  | 36 => ⟨S8x1x512x512, .f32⟩
  | 37 => ⟨S8x1x512x512, .f32⟩
  | 38 => ⟨S8x1x512x512, .i1⟩
  | 39 => ⟨S8x1x512x512, .f32⟩
  | 40 => ⟨S8x1x512x512, .f32⟩
  | 41 => ⟨S8x1x512x512, .i1⟩
  | 42 => ⟨S8x1x512x512, .f32⟩
  | 43 => ⟨S8x1x512x512, .f32⟩
  | 44 => ⟨S8x1x512x512, .i1⟩
  | 45 => ⟨S8x1x512x512, .f32⟩
  | 46 => ⟨S8x1x512x512, .f32⟩
  | 47 => ⟨S8x1x512x512, .i1⟩
  | 48 => ⟨S8x1x512x512, .f32⟩
  | 49 => ⟨S8x16x512x512, .f32⟩
  | 50 => ⟨S8x16x512x512, .f32⟩
  | 51 => ⟨S8x16x512x512, .f32⟩
  | 52 => ⟨S8x48x512x512, .f32⟩
  | 53 => ⟨S8x1x512x512, .f32⟩
  | 54 => ⟨S_, .f32⟩
  | 55 => ⟨S8x1x512x512, .f32⟩
  | 56 => ⟨S8x1x512x512, .f32⟩
  | 57 => ⟨S8x1x512x512, .f32⟩
  | 58 => ⟨S_, .f32⟩
  | 59 => ⟨S8x1x512x512, .f32⟩
  | 60 => ⟨S8x1x512x512, .f32⟩
  | 61 => ⟨S8x1x512x512, .f32⟩
  | 62 => ⟨S8x1x512x512, .f32⟩
  | 63 => ⟨S_, .f32⟩
  | 64 => ⟨S8x1x512x512, .f32⟩
  | 65 => ⟨S8x1x512x512, .f32⟩
  | 66 => ⟨S8x1x512x512, .f32⟩
  | 67 => ⟨S_, .i32⟩
  | 68 => ⟨S8x1x1x512, .f32⟩
  | 69 => ⟨S8x1x3x512, .f32⟩
  | 70 => ⟨S8x1x3x512, .f32⟩
  | 71 => ⟨S8x1x515x512, .f32⟩
  | 72 => ⟨S8x1x1x512, .f32⟩
  | 73 => ⟨S8x1x3x512, .f32⟩
  | 74 => ⟨S8x1x3x512, .f32⟩
  | 75 => ⟨S8x1x518x512, .f32⟩
  | 76 => ⟨S8x1x518x1, .f32⟩
  | 77 => ⟨S8x1x518x3, .f32⟩
  | 78 => ⟨S8x1x518x3, .f32⟩
  | 79 => ⟨S8x1x518x515, .f32⟩
  | 80 => ⟨S8x1x518x1, .f32⟩
  | 81 => ⟨S8x1x518x3, .f32⟩
  | 82 => ⟨S8x1x518x3, .f32⟩
  | 83 => ⟨S8x1x518x518, .f32⟩
  | 84 => ⟨S8x1x512x512, .f32⟩
  | 85 => ⟨S8x1x512x512, .i1⟩
  | 86 => ⟨S8x1x512x512, .f32⟩
  | 87 => ⟨S8x1x512x512, .f32⟩
  | 88 => ⟨S8x1x512x512, .i1⟩
  | 89 => ⟨S8x1x512x512, .f32⟩
  | 90 => ⟨S8x1x512x512, .f32⟩
  | 91 => ⟨S8x1x512x512, .i1⟩
  | 92 => ⟨S8x1x512x512, .f32⟩
  | 93 => ⟨S8x1x512x512, .f32⟩
  | 94 => ⟨S8x1x512x512, .i1⟩
  | 95 => ⟨S8x1x512x512, .f32⟩
  | 96 => ⟨S8x1x512x512, .f32⟩
  | 97 => ⟨S8x1x512x512, .i1⟩
  | 98 => ⟨S8x1x512x512, .f32⟩
  | 99 => ⟨S8x1x512x512, .f32⟩
  | 100 => ⟨S8x1x512x512, .i1⟩
  | 101 => ⟨S8x1x512x512, .f32⟩
  | 102 => ⟨S8x1x512x512, .f32⟩
  | 103 => ⟨S8x1x512x512, .i1⟩
  | 104 => ⟨S8x1x512x512, .f32⟩
  | 105 => ⟨S8x1x512x512, .f32⟩
  | 106 => ⟨S8x1x512x512, .i1⟩
  | 107 => ⟨S8x1x512x512, .f32⟩
  | 108 => ⟨S8x1x512x512, .f32⟩
  | 109 => ⟨S8x1x512x512, .i1⟩
  | 110 => ⟨S8x1x512x512, .f32⟩
  | 111 => ⟨S8x1x512x512, .f32⟩
  | 112 => ⟨S8x1x512x512, .i1⟩
  | 113 => ⟨S8x1x512x512, .f32⟩
  | 114 => ⟨S8x1x512x512, .f32⟩
  | 115 => ⟨S8x1x512x512, .i1⟩
  | 116 => ⟨S8x1x512x512, .f32⟩
  | 117 => ⟨S8x1x512x512, .f32⟩
  | 118 => ⟨S8x1x512x512, .i1⟩
  | 119 => ⟨S8x1x512x512, .f32⟩
  | 120 => ⟨S8x1x512x512, .f32⟩
  | 121 => ⟨S8x1x512x512, .i1⟩
  | 122 => ⟨S8x1x512x512, .f32⟩
  | 123 => ⟨S8x1x512x512, .f32⟩
  | 124 => ⟨S8x1x512x512, .i1⟩
  | 125 => ⟨S8x1x512x512, .f32⟩
  | 126 => ⟨S8x1x512x512, .f32⟩
  | 127 => ⟨S8x1x512x512, .i1⟩
  | _ => ⟨S8x3x512x512, .f32⟩

abbrev hbmTy0_2 (i : Nat) : BufTy := match i % 128 with
  | 0 => ⟨S8x1x512x512, .f32⟩
  | 1 => ⟨S8x1x512x512, .f32⟩
  | 2 => ⟨S8x1x512x512, .i1⟩
  | 3 => ⟨S8x1x512x512, .f32⟩
  | 4 => ⟨S8x1x512x512, .f32⟩
  | 5 => ⟨S8x1x512x512, .i1⟩
  | 6 => ⟨S8x1x512x512, .f32⟩
  | 7 => ⟨S8x1x512x512, .f32⟩
  | 8 => ⟨S8x1x512x512, .i1⟩
  | 9 => ⟨S8x1x512x512, .f32⟩
  | 10 => ⟨S8x1x512x512, .f32⟩
  | 11 => ⟨S8x1x512x512, .i1⟩
  | 12 => ⟨S8x1x512x512, .f32⟩
  | 13 => ⟨S8x1x512x512, .f32⟩
  | 14 => ⟨S8x1x512x512, .i1⟩
  | 15 => ⟨S8x1x512x512, .f32⟩
  | 16 => ⟨S8x1x512x512, .f32⟩
  | 17 => ⟨S8x1x512x512, .i1⟩
  | 18 => ⟨S8x1x512x512, .f32⟩
  | 19 => ⟨S8x1x512x512, .f32⟩
  | 20 => ⟨S8x1x512x512, .i1⟩
  | 21 => ⟨S8x1x512x512, .f32⟩
  | 22 => ⟨S8x1x512x512, .f32⟩
  | 23 => ⟨S8x1x512x512, .i1⟩
  | 24 => ⟨S8x1x512x512, .f32⟩
  | 25 => ⟨S8x1x512x512, .f32⟩
  | 26 => ⟨S8x1x512x512, .i1⟩
  | 27 => ⟨S8x1x512x512, .f32⟩
  | 28 => ⟨S8x1x512x512, .f32⟩
  | 29 => ⟨S8x1x512x512, .i1⟩
  | 30 => ⟨S8x1x512x512, .f32⟩
  | 31 => ⟨S8x1x512x512, .f32⟩
  | 32 => ⟨S8x1x512x512, .i1⟩
  | 33 => ⟨S8x1x512x512, .f32⟩
  | 34 => ⟨S8x1x512x512, .f32⟩
  | 35 => ⟨S8x1x512x512, .i1⟩
  | 36 => ⟨S8x1x512x512, .f32⟩
  | 37 => ⟨S8x1x512x512, .f32⟩
  | 38 => ⟨S8x1x512x512, .i1⟩
  | 39 => ⟨S8x1x512x512, .f32⟩
  | 40 => ⟨S8x1x512x512, .f32⟩
  | 41 => ⟨S8x1x512x512, .i1⟩
  | 42 => ⟨S8x1x512x512, .f32⟩
  | 43 => ⟨S8x1x512x512, .f32⟩
  | 44 => ⟨S8x1x512x512, .i1⟩
  | 45 => ⟨S8x1x512x512, .f32⟩
  | 46 => ⟨S8x1x512x512, .f32⟩
  | 47 => ⟨S8x1x512x512, .i1⟩
  | 48 => ⟨S8x1x512x512, .f32⟩
  | 49 => ⟨S8x1x512x512, .f32⟩
  | 50 => ⟨S8x1x512x512, .i1⟩
  | 51 => ⟨S8x1x512x512, .f32⟩
  | 52 => ⟨S8x1x512x512, .f32⟩
  | 53 => ⟨S8x1x512x512, .i1⟩
  | 54 => ⟨S8x1x512x512, .f32⟩
  | 55 => ⟨S8x1x512x512, .f32⟩
  | 56 => ⟨S8x1x512x512, .i1⟩
  | 57 => ⟨S8x1x512x512, .f32⟩
  | 58 => ⟨S8x1x512x512, .f32⟩
  | 59 => ⟨S8x1x512x512, .i1⟩
  | 60 => ⟨S8x1x512x512, .f32⟩
  | 61 => ⟨S8x1x512x512, .f32⟩
  | 62 => ⟨S8x1x512x512, .i1⟩
  | 63 => ⟨S8x1x512x512, .f32⟩
  | 64 => ⟨S8x1x512x512, .f32⟩
  | 65 => ⟨S8x1x512x512, .i1⟩
  | 66 => ⟨S8x1x512x512, .f32⟩
  | 67 => ⟨S8x1x512x512, .f32⟩
  | 68 => ⟨S8x1x512x512, .i1⟩
  | 69 => ⟨S8x1x512x512, .f32⟩
  | 70 => ⟨S8x1x512x512, .f32⟩
  | 71 => ⟨S8x1x512x512, .i1⟩
  | 72 => ⟨S8x1x512x512, .f32⟩
  | 73 => ⟨S8x1x512x512, .f32⟩
  | 74 => ⟨S8x1x512x512, .i1⟩
  | 75 => ⟨S8x1x512x512, .f32⟩
  | 76 => ⟨S8x1x512x512, .f32⟩
  | 77 => ⟨S8x1x512x512, .i1⟩
  | 78 => ⟨S8x1x512x512, .f32⟩
  | 79 => ⟨S8x1x512x512, .f32⟩
  | 80 => ⟨S8x1x512x512, .i1⟩
  | 81 => ⟨S8x1x512x512, .f32⟩
  | 82 => ⟨S8x1x512x512, .f32⟩
  | 83 => ⟨S8x1x512x512, .i1⟩
  | 84 => ⟨S8x1x512x512, .f32⟩
  | 85 => ⟨S8x1x512x512, .f32⟩
  | 86 => ⟨S8x1x512x512, .i1⟩
  | 87 => ⟨S8x1x512x512, .f32⟩
  | 88 => ⟨S8x1x512x512, .f32⟩
  | 89 => ⟨S8x1x512x512, .i1⟩
  | 90 => ⟨S8x1x512x512, .f32⟩
  | 91 => ⟨S8x1x512x512, .f32⟩
  | 92 => ⟨S8x1x512x512, .i1⟩
  | 93 => ⟨S8x1x512x512, .f32⟩
  | 94 => ⟨S8x1x512x512, .f32⟩
  | 95 => ⟨S8x1x512x512, .i1⟩
  | 96 => ⟨S8x1x512x512, .f32⟩
  | 97 => ⟨S8x1x512x512, .f32⟩
  | 98 => ⟨S8x1x512x512, .i1⟩
  | 99 => ⟨S8x1x512x512, .f32⟩
  | 100 => ⟨S8x16x512x512, .f32⟩
  | 101 => ⟨S8x16x512x512, .f32⟩
  | 102 => ⟨S8x16x512x512, .f32⟩
  | 103 => ⟨S8x48x512x512, .f32⟩
  | 104 => ⟨S8x48x512x512, .f32⟩
  | 105 => ⟨S8x48x512x512, .f32⟩
  | 106 => ⟨S_, .f32⟩
  | 107 => ⟨S_, .f32⟩
  | 108 => ⟨S_, .f32⟩
  | 109 => ⟨S_, .f32⟩
  | _ => ⟨S8x3x512x512, .f32⟩

abbrev hbmTy (i : Nat) : BufTy := match i / 128 with
  | 0 => hbmTy0_0 i
  | 1 => hbmTy0_1 i
  | 2 => hbmTy0_2 i
  | _ => ⟨S8x3x512x512, .f32⟩

abbrev bufTy : (tb : Table) → Fin (tcTables nBuf tb) → BufTy
  | .hbm, ⟨i, _⟩ => hbmTy i
  | _, _ => ⟨S8x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_cst_2 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_cst_3 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_cst_4 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_c_5 : Ref sig .tc := ⟨.hbm, 195, rfl⟩
abbrev main_call1_v0 : Ref sig .tc := ⟨.hbm, 196, rfl⟩
abbrev main_call1_v1 : Ref sig .tc := ⟨.hbm, 197, rfl⟩
abbrev main_call1_v2 : Ref sig .tc := ⟨.hbm, 198, rfl⟩
abbrev main_call1_v3 : Ref sig .tc := ⟨.hbm, 199, rfl⟩
abbrev main_call1_v4 : Ref sig .tc := ⟨.hbm, 200, rfl⟩
abbrev main_call1_v5 : Ref sig .tc := ⟨.hbm, 201, rfl⟩
abbrev main_call1_v6 : Ref sig .tc := ⟨.hbm, 202, rfl⟩
abbrev main_call1_v7 : Ref sig .tc := ⟨.hbm, 203, rfl⟩
abbrev main_call1_v8 : Ref sig .tc := ⟨.hbm, 204, rfl⟩
abbrev main_call1_v9 : Ref sig .tc := ⟨.hbm, 205, rfl⟩
abbrev main_call1_v10 : Ref sig .tc := ⟨.hbm, 206, rfl⟩
abbrev main_call1_v11 : Ref sig .tc := ⟨.hbm, 207, rfl⟩
abbrev main_call1_v12 : Ref sig .tc := ⟨.hbm, 208, rfl⟩
abbrev main_call1_v13 : Ref sig .tc := ⟨.hbm, 209, rfl⟩
abbrev main_call1_v14 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_v208 : Ref sig .tc := ⟨.hbm, 248, rfl⟩
abbrev main_v209 : Ref sig .tc := ⟨.hbm, 249, rfl⟩
abbrev main_v210 : Ref sig .tc := ⟨.hbm, 250, rfl⟩
abbrev main_v211 : Ref sig .tc := ⟨.hbm, 251, rfl⟩
abbrev main_v212 : Ref sig .tc := ⟨.hbm, 252, rfl⟩
abbrev main_v213 : Ref sig .tc := ⟨.hbm, 253, rfl⟩
abbrev main_v214 : Ref sig .tc := ⟨.hbm, 254, rfl⟩
abbrev main_v215 : Ref sig .tc := ⟨.hbm, 255, rfl⟩
abbrev main_v216 : Ref sig .tc := ⟨.hbm, 256, rfl⟩
abbrev main_v217 : Ref sig .tc := ⟨.hbm, 257, rfl⟩
abbrev main_v218 : Ref sig .tc := ⟨.hbm, 258, rfl⟩
abbrev main_v219 : Ref sig .tc := ⟨.hbm, 259, rfl⟩
abbrev main_v220 : Ref sig .tc := ⟨.hbm, 260, rfl⟩
abbrev main_v221 : Ref sig .tc := ⟨.hbm, 261, rfl⟩
abbrev main_v222 : Ref sig .tc := ⟨.hbm, 262, rfl⟩
abbrev main_v223 : Ref sig .tc := ⟨.hbm, 263, rfl⟩
abbrev main_v224 : Ref sig .tc := ⟨.hbm, 264, rfl⟩
abbrev main_v225 : Ref sig .tc := ⟨.hbm, 265, rfl⟩
abbrev main_v226 : Ref sig .tc := ⟨.hbm, 266, rfl⟩
abbrev main_v227 : Ref sig .tc := ⟨.hbm, 267, rfl⟩
abbrev main_v228 : Ref sig .tc := ⟨.hbm, 268, rfl⟩
abbrev main_v229 : Ref sig .tc := ⟨.hbm, 269, rfl⟩
abbrev main_v230 : Ref sig .tc := ⟨.hbm, 270, rfl⟩
abbrev main_v231 : Ref sig .tc := ⟨.hbm, 271, rfl⟩
abbrev main_v232 : Ref sig .tc := ⟨.hbm, 272, rfl⟩
abbrev main_v233 : Ref sig .tc := ⟨.hbm, 273, rfl⟩
abbrev main_v234 : Ref sig .tc := ⟨.hbm, 274, rfl⟩
abbrev main_v235 : Ref sig .tc := ⟨.hbm, 275, rfl⟩
abbrev main_v236 : Ref sig .tc := ⟨.hbm, 276, rfl⟩
abbrev main_v237 : Ref sig .tc := ⟨.hbm, 277, rfl⟩
abbrev main_v238 : Ref sig .tc := ⟨.hbm, 278, rfl⟩
abbrev main_v239 : Ref sig .tc := ⟨.hbm, 279, rfl⟩
abbrev main_v240 : Ref sig .tc := ⟨.hbm, 280, rfl⟩
abbrev main_v241 : Ref sig .tc := ⟨.hbm, 281, rfl⟩
abbrev main_v242 : Ref sig .tc := ⟨.hbm, 282, rfl⟩
abbrev main_v243 : Ref sig .tc := ⟨.hbm, 283, rfl⟩
abbrev main_v244 : Ref sig .tc := ⟨.hbm, 284, rfl⟩
abbrev main_v245 : Ref sig .tc := ⟨.hbm, 285, rfl⟩
abbrev main_v246 : Ref sig .tc := ⟨.hbm, 286, rfl⟩
abbrev main_v247 : Ref sig .tc := ⟨.hbm, 287, rfl⟩
abbrev main_v248 : Ref sig .tc := ⟨.hbm, 288, rfl⟩
abbrev main_v249 : Ref sig .tc := ⟨.hbm, 289, rfl⟩
abbrev main_v250 : Ref sig .tc := ⟨.hbm, 290, rfl⟩
abbrev main_v251 : Ref sig .tc := ⟨.hbm, 291, rfl⟩
abbrev main_v252 : Ref sig .tc := ⟨.hbm, 292, rfl⟩
abbrev main_v253 : Ref sig .tc := ⟨.hbm, 293, rfl⟩
abbrev main_v254 : Ref sig .tc := ⟨.hbm, 294, rfl⟩
abbrev main_v255 : Ref sig .tc := ⟨.hbm, 295, rfl⟩
abbrev main_v256 : Ref sig .tc := ⟨.hbm, 296, rfl⟩
abbrev main_v257 : Ref sig .tc := ⟨.hbm, 297, rfl⟩
abbrev main_v258 : Ref sig .tc := ⟨.hbm, 298, rfl⟩
abbrev main_v259 : Ref sig .tc := ⟨.hbm, 299, rfl⟩
abbrev main_v260 : Ref sig .tc := ⟨.hbm, 300, rfl⟩
abbrev main_v261 : Ref sig .tc := ⟨.hbm, 301, rfl⟩
abbrev main_v262 : Ref sig .tc := ⟨.hbm, 302, rfl⟩
abbrev main_v263 : Ref sig .tc := ⟨.hbm, 303, rfl⟩
abbrev main_v264 : Ref sig .tc := ⟨.hbm, 304, rfl⟩
abbrev main_v265 : Ref sig .tc := ⟨.hbm, 305, rfl⟩
abbrev main_v266 : Ref sig .tc := ⟨.hbm, 306, rfl⟩
abbrev main_v267 : Ref sig .tc := ⟨.hbm, 307, rfl⟩
abbrev main_v268 : Ref sig .tc := ⟨.hbm, 308, rfl⟩
abbrev main_v269 : Ref sig .tc := ⟨.hbm, 309, rfl⟩
abbrev main_v270 : Ref sig .tc := ⟨.hbm, 310, rfl⟩
abbrev main_v271 : Ref sig .tc := ⟨.hbm, 311, rfl⟩
abbrev main_v272 : Ref sig .tc := ⟨.hbm, 312, rfl⟩
abbrev main_v273 : Ref sig .tc := ⟨.hbm, 313, rfl⟩
abbrev main_v274 : Ref sig .tc := ⟨.hbm, 314, rfl⟩
abbrev main_v275 : Ref sig .tc := ⟨.hbm, 315, rfl⟩
abbrev main_v276 : Ref sig .tc := ⟨.hbm, 316, rfl⟩
abbrev main_v277 : Ref sig .tc := ⟨.hbm, 317, rfl⟩
abbrev main_v278 : Ref sig .tc := ⟨.hbm, 318, rfl⟩
abbrev main_v279 : Ref sig .tc := ⟨.hbm, 319, rfl⟩
abbrev main_v280 : Ref sig .tc := ⟨.hbm, 320, rfl⟩
abbrev main_v281 : Ref sig .tc := ⟨.hbm, 321, rfl⟩
abbrev main_v282 : Ref sig .tc := ⟨.hbm, 322, rfl⟩
abbrev main_v283 : Ref sig .tc := ⟨.hbm, 323, rfl⟩
abbrev main_v284 : Ref sig .tc := ⟨.hbm, 324, rfl⟩
abbrev main_v285 : Ref sig .tc := ⟨.hbm, 325, rfl⟩
abbrev main_v286 : Ref sig .tc := ⟨.hbm, 326, rfl⟩
abbrev main_v287 : Ref sig .tc := ⟨.hbm, 327, rfl⟩
abbrev main_v288 : Ref sig .tc := ⟨.hbm, 328, rfl⟩
abbrev main_v289 : Ref sig .tc := ⟨.hbm, 329, rfl⟩
abbrev main_v290 : Ref sig .tc := ⟨.hbm, 330, rfl⟩
abbrev main_v291 : Ref sig .tc := ⟨.hbm, 331, rfl⟩
abbrev main_v292 : Ref sig .tc := ⟨.hbm, 332, rfl⟩
abbrev main_v293 : Ref sig .tc := ⟨.hbm, 333, rfl⟩
abbrev main_v294 : Ref sig .tc := ⟨.hbm, 334, rfl⟩
abbrev main_v295 : Ref sig .tc := ⟨.hbm, 335, rfl⟩
abbrev main_v296 : Ref sig .tc := ⟨.hbm, 336, rfl⟩
abbrev main_v297 : Ref sig .tc := ⟨.hbm, 337, rfl⟩
abbrev main_v298 : Ref sig .tc := ⟨.hbm, 338, rfl⟩
abbrev main_v299 : Ref sig .tc := ⟨.hbm, 339, rfl⟩
abbrev main_v300 : Ref sig .tc := ⟨.hbm, 340, rfl⟩
abbrev main_v301 : Ref sig .tc := ⟨.hbm, 341, rfl⟩
abbrev main_v302 : Ref sig .tc := ⟨.hbm, 342, rfl⟩
abbrev main_v303 : Ref sig .tc := ⟨.hbm, 343, rfl⟩
abbrev main_v304 : Ref sig .tc := ⟨.hbm, 344, rfl⟩
abbrev main_v305 : Ref sig .tc := ⟨.hbm, 345, rfl⟩
abbrev main_v306 : Ref sig .tc := ⟨.hbm, 346, rfl⟩
abbrev main_v307 : Ref sig .tc := ⟨.hbm, 347, rfl⟩
abbrev main_v308 : Ref sig .tc := ⟨.hbm, 348, rfl⟩
abbrev main_v309 : Ref sig .tc := ⟨.hbm, 349, rfl⟩
abbrev main_v310 : Ref sig .tc := ⟨.hbm, 350, rfl⟩
abbrev main_v311 : Ref sig .tc := ⟨.hbm, 351, rfl⟩
abbrev main_v312 : Ref sig .tc := ⟨.hbm, 352, rfl⟩
abbrev main_v313 : Ref sig .tc := ⟨.hbm, 353, rfl⟩
abbrev main_v314 : Ref sig .tc := ⟨.hbm, 354, rfl⟩
abbrev main_v315 : Ref sig .tc := ⟨.hbm, 355, rfl⟩
abbrev main_v316 : Ref sig .tc := ⟨.hbm, 356, rfl⟩
abbrev main_v317 : Ref sig .tc := ⟨.hbm, 357, rfl⟩
abbrev main_v318 : Ref sig .tc := ⟨.hbm, 358, rfl⟩
abbrev main_v319 : Ref sig .tc := ⟨.hbm, 359, rfl⟩
abbrev main_v320 : Ref sig .tc := ⟨.hbm, 360, rfl⟩
abbrev main_v321 : Ref sig .tc := ⟨.hbm, 361, rfl⟩
abbrev main_cst_6 : Ref sig .tc := ⟨.hbm, 362, rfl⟩
abbrev main_v322 : Ref sig .tc := ⟨.hbm, 363, rfl⟩
abbrev main_cst_7 : Ref sig .tc := ⟨.hbm, 364, rfl⟩
abbrev main_v323 : Ref sig .tc := ⟨.hbm, 365, rfl⟩

abbrev nD : Nat := 1
abbrev τ : Topo := Topo.v7x

variable {F : FTy → Type} [FloatOps F]

class Facts₀ : Prop where
  slices_S8x3x512x512_S8x1x512x512_0_0_0_0 : S8x3x512x512.Slices ![0, 0, 0, 0] S8x1x512x512
  bcast_S_S8x1x512x512 : S_.BroadcastsInDim S8x1x512x512 (![] : Fin 0 → Fin S8x1x512x512.rank)
  slices_S8x3x512x512_S8x1x512x512_0_1_0_0 : S8x3x512x512.Slices ![0, 1, 0, 0] S8x1x512x512
  slices_S8x3x512x512_S8x1x512x512_0_2_0_0 : S8x3x512x512.Slices ![0, 2, 0, 0] S8x1x512x512
  slices_S8x1x512x512_S8x1x1x512_0_0_0_0 : S8x1x512x512.Slices ![0, 0, 0, 0] S8x1x1x512
  slices_S8x1x512x512_S8x1x3x512_0_0_1_0 : S8x1x512x512.Slices ![0, 0, 1, 0] S8x1x3x512
  concatenates_S8x1x3x512_S8x1x512x512_S8x1x515x512_d2 : Shape.Concatenates [S8x1x3x512, S8x1x512x512] S8x1x515x512 2
  slices_S8x1x515x512_S8x1x1x512_0_0_514_0 : S8x1x515x512.Slices ![0, 0, 514, 0] S8x1x1x512
  slices_S8x1x515x512_S8x1x3x512_0_0_511_0 : S8x1x515x512.Slices ![0, 0, 511, 0] S8x1x3x512
  concatenates_S8x1x515x512_S8x1x3x512_S8x1x518x512_d2 : Shape.Concatenates [S8x1x515x512, S8x1x3x512] S8x1x518x512 2
  slices_S8x1x518x512_S8x1x518x1_0_0_0_0 : S8x1x518x512.Slices ![0, 0, 0, 0] S8x1x518x1
  slices_S8x1x518x512_S8x1x518x3_0_0_0_1 : S8x1x518x512.Slices ![0, 0, 0, 1] S8x1x518x3
  concatenates_S8x1x518x3_S8x1x518x512_S8x1x518x515_d3 : Shape.Concatenates [S8x1x518x3, S8x1x518x512] S8x1x518x515 3
  slices_S8x1x518x515_S8x1x518x1_0_0_0_514 : S8x1x518x515.Slices ![0, 0, 0, 514] S8x1x518x1
  slices_S8x1x518x515_S8x1x518x3_0_0_0_511 : S8x1x518x515.Slices ![0, 0, 0, 511] S8x1x518x3
  concatenates_S8x1x518x515_S8x1x518x3_S8x1x518x518_d3 : Shape.Concatenates [S8x1x518x515, S8x1x518x3] S8x1x518x518 3
  slices_S8x1x518x518_S8x1x512x512_0_0_0_0 : S8x1x518x518.Slices ![0, 0, 0, 0] S8x1x512x512
  slices_S8x1x518x518_S8x1x512x512_0_0_0_1 : S8x1x518x518.Slices ![0, 0, 0, 1] S8x1x512x512
  slices_S8x1x518x518_S8x1x512x512_0_0_0_2 : S8x1x518x518.Slices ![0, 0, 0, 2] S8x1x512x512
  slices_S8x1x518x518_S8x1x512x512_0_0_0_3 : S8x1x518x518.Slices ![0, 0, 0, 3] S8x1x512x512
  slices_S8x1x518x518_S8x1x512x512_0_0_0_4 : S8x1x518x518.Slices ![0, 0, 0, 4] S8x1x512x512
  slices_S8x1x518x518_S8x1x512x512_0_0_0_5 : S8x1x518x518.Slices ![0, 0, 0, 5] S8x1x512x512
  slices_S8x1x518x518_S8x1x512x512_0_0_0_6 : S8x1x518x518.Slices ![0, 0, 0, 6] S8x1x512x512
  slices_S8x1x518x518_S8x1x512x512_0_0_1_0 : S8x1x518x518.Slices ![0, 0, 1, 0] S8x1x512x512
  slices_S8x1x518x518_S8x1x512x512_0_0_1_1 : S8x1x518x518.Slices ![0, 0, 1, 1] S8x1x512x512
  slices_S8x1x518x518_S8x1x512x512_0_0_1_2 : S8x1x518x518.Slices ![0, 0, 1, 2] S8x1x512x512
  slices_S8x1x518x518_S8x1x512x512_0_0_1_3 : S8x1x518x518.Slices ![0, 0, 1, 3] S8x1x512x512
  slices_S8x1x518x518_S8x1x512x512_0_0_1_4 : S8x1x518x518.Slices ![0, 0, 1, 4] S8x1x512x512
  slices_S8x1x518x518_S8x1x512x512_0_0_1_5 : S8x1x518x518.Slices ![0, 0, 1, 5] S8x1x512x512
  slices_S8x1x518x518_S8x1x512x512_0_0_1_6 : S8x1x518x518.Slices ![0, 0, 1, 6] S8x1x512x512
  slices_S8x1x518x518_S8x1x512x512_0_0_2_0 : S8x1x518x518.Slices ![0, 0, 2, 0] S8x1x512x512
  slices_S8x1x518x518_S8x1x512x512_0_0_2_1 : S8x1x518x518.Slices ![0, 0, 2, 1] S8x1x512x512
  slices_S8x1x518x518_S8x1x512x512_0_0_2_2 : S8x1x518x518.Slices ![0, 0, 2, 2] S8x1x512x512
  slices_S8x1x518x518_S8x1x512x512_0_0_2_3 : S8x1x518x518.Slices ![0, 0, 2, 3] S8x1x512x512
  slices_S8x1x518x518_S8x1x512x512_0_0_2_4 : S8x1x518x518.Slices ![0, 0, 2, 4] S8x1x512x512
  slices_S8x1x518x518_S8x1x512x512_0_0_2_5 : S8x1x518x518.Slices ![0, 0, 2, 5] S8x1x512x512
  slices_S8x1x518x518_S8x1x512x512_0_0_2_6 : S8x1x518x518.Slices ![0, 0, 2, 6] S8x1x512x512
  slices_S8x1x518x518_S8x1x512x512_0_0_3_0 : S8x1x518x518.Slices ![0, 0, 3, 0] S8x1x512x512
  slices_S8x1x518x518_S8x1x512x512_0_0_3_1 : S8x1x518x518.Slices ![0, 0, 3, 1] S8x1x512x512
  slices_S8x1x518x518_S8x1x512x512_0_0_3_2 : S8x1x518x518.Slices ![0, 0, 3, 2] S8x1x512x512
  slices_S8x1x518x518_S8x1x512x512_0_0_3_4 : S8x1x518x518.Slices ![0, 0, 3, 4] S8x1x512x512
  slices_S8x1x518x518_S8x1x512x512_0_0_3_5 : S8x1x518x518.Slices ![0, 0, 3, 5] S8x1x512x512
  slices_S8x1x518x518_S8x1x512x512_0_0_3_6 : S8x1x518x518.Slices ![0, 0, 3, 6] S8x1x512x512
  slices_S8x1x518x518_S8x1x512x512_0_0_4_0 : S8x1x518x518.Slices ![0, 0, 4, 0] S8x1x512x512
  slices_S8x1x518x518_S8x1x512x512_0_0_4_1 : S8x1x518x518.Slices ![0, 0, 4, 1] S8x1x512x512
  slices_S8x1x518x518_S8x1x512x512_0_0_4_2 : S8x1x518x518.Slices ![0, 0, 4, 2] S8x1x512x512
  slices_S8x1x518x518_S8x1x512x512_0_0_4_3 : S8x1x518x518.Slices ![0, 0, 4, 3] S8x1x512x512
  slices_S8x1x518x518_S8x1x512x512_0_0_4_4 : S8x1x518x518.Slices ![0, 0, 4, 4] S8x1x512x512
  slices_S8x1x518x518_S8x1x512x512_0_0_4_5 : S8x1x518x518.Slices ![0, 0, 4, 5] S8x1x512x512
  slices_S8x1x518x518_S8x1x512x512_0_0_4_6 : S8x1x518x518.Slices ![0, 0, 4, 6] S8x1x512x512
  slices_S8x1x518x518_S8x1x512x512_0_0_5_0 : S8x1x518x518.Slices ![0, 0, 5, 0] S8x1x512x512
  slices_S8x1x518x518_S8x1x512x512_0_0_5_1 : S8x1x518x518.Slices ![0, 0, 5, 1] S8x1x512x512
  slices_S8x1x518x518_S8x1x512x512_0_0_5_2 : S8x1x518x518.Slices ![0, 0, 5, 2] S8x1x512x512
  slices_S8x1x518x518_S8x1x512x512_0_0_5_3 : S8x1x518x518.Slices ![0, 0, 5, 3] S8x1x512x512
  slices_S8x1x518x518_S8x1x512x512_0_0_5_4 : S8x1x518x518.Slices ![0, 0, 5, 4] S8x1x512x512
  slices_S8x1x518x518_S8x1x512x512_0_0_5_5 : S8x1x518x518.Slices ![0, 0, 5, 5] S8x1x512x512
  slices_S8x1x518x518_S8x1x512x512_0_0_5_6 : S8x1x518x518.Slices ![0, 0, 5, 6] S8x1x512x512
  slices_S8x1x518x518_S8x1x512x512_0_0_6_0 : S8x1x518x518.Slices ![0, 0, 6, 0] S8x1x512x512
  slices_S8x1x518x518_S8x1x512x512_0_0_6_1 : S8x1x518x518.Slices ![0, 0, 6, 1] S8x1x512x512
  slices_S8x1x518x518_S8x1x512x512_0_0_6_2 : S8x1x518x518.Slices ![0, 0, 6, 2] S8x1x512x512
  slices_S8x1x518x518_S8x1x512x512_0_0_6_3 : S8x1x518x518.Slices ![0, 0, 6, 3] S8x1x512x512
  slices_S8x1x518x518_S8x1x512x512_0_0_6_4 : S8x1x518x518.Slices ![0, 0, 6, 4] S8x1x512x512
  slices_S8x1x518x518_S8x1x512x512_0_0_6_5 : S8x1x518x518.Slices ![0, 0, 6, 5] S8x1x512x512
  slices_S8x1x518x518_S8x1x512x512_0_0_6_6 : S8x1x518x518.Slices ![0, 0, 6, 6] S8x1x512x512
  concatenates_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x16x512x512_d1 : Shape.Concatenates [S8x1x512x512, S8x1x512x512, S8x1x512x512, S8x1x512x512, S8x1x512x512, S8x1x512x512, S8x1x512x512, S8x1x512x512, S8x1x512x512, S8x1x512x512, S8x1x512x512, S8x1x512x512, S8x1x512x512, S8x1x512x512, S8x1x512x512, S8x1x512x512] S8x16x512x512 1
  concatenates_S8x16x512x512_S8x16x512x512_S8x16x512x512_S8x48x512x512_d1 : Shape.Concatenates [S8x16x512x512, S8x16x512x512, S8x16x512x512] S8x48x512x512 1
  reducesTo_S8x48x512x512_S_d0_1_2_3 : S8x48x512x512.ReducesTo [0, 1, 2, 3] S_
  h_S_ : 0 < S_.numel

variable [Facts₀]

class Facts : Prop extends Facts₀ where

variable [Facts]
-- ==== Proof.KerAcc.lean ====
/-
  The kernel body's arithmetic, restated. From the two loaded blocks the body forms the two padded grayscale images
  (`k0_pay2`: the weighted sum of the three channel slices), crops the centre 512 × 512 of each, and for each of the 48
  window offsets (i, j) ≠ (3, 3), in row-major order, adds to an accumulator that starts at zero the 0/1 image
  "the two census bits differ": the exclusive or of "centre > image shifted by (i, j)" for the two images, widened to 32
  bits and converted to a float (`diff`). The accumulator is summed along its rows, then along the resulting column, and
  the one number is broadcast over the output block (`tail`).
-/
import proofs.«131024_j38895223833176_2_alg».proof.Proof.Gen.KernelIdeal.Skeleton

noncomputable section

namespace Cert.KernelIdeal.KerTerm

open Cert.KernelIdeal Cert.KernelIdeal.Gen Idealize.ShloMosaic

variable {F : FTy → Type} [FloatOps F]

/-- A slab of 512 rows starting at row `i` fits in the padded image, for every window row `i`. -/
theorem slab_fits : ∀ i : Fin 7, S518x518.Slices ![i.val, 0] S512x518 := by decide
/-- 512 columns starting at column `j` fit in a slab, for every window column `j`. -/
theorem cols_fit : ∀ j : Fin 7, S512x518.Slices ![0, j.val] S512x512 := by decide

/-- The centre crop of a padded image. -/
def centre (g : FVec F S518x518 .f32) : FVec F S512x512 .f32 :=
  extractStridedSlice S512x512 ![3, 3] g slices_S518x518_o3_3_S512x512

/-- The padded image shifted by the window offset (i, j): rows i … i + 511, then columns j … j + 511. -/
def shifted (g : FVec F S518x518 .f32) (i j : Fin 7) : FVec F S512x512 .f32 :=
  extractStridedSlice S512x512 ![0, j.val] (extractStridedSlice S512x518 ![i.val, 0] g (slab_fits i)) (cols_fit j)

/-- Where the two images' census bits at offset (i, j) differ, as a 0/1 float image. -/
def diff (gp gt : FVec F S518x518 .f32) (i j : Fin 7) : FVec F S512x512 .f32 :=
  sitofp .f32 (extui 32 (xori (cmpf .ogt (centre gp) (shifted gp i j)) (cmpf .ogt (centre gt) (shifted gt i j))) natLt_1_32)

/-- The 48 window offsets other than the centre, in row-major order. -/
def offsets : List (Fin 7 × Fin 7) :=
  [(0, 0), (0, 1), (0, 2), (0, 3), (0, 4), (0, 5), (0, 6), (1, 0), (1, 1), (1, 2), (1, 3), (1, 4), (1, 5), (1, 6), (2, 0), (2, 1), (2, 2), (2, 3), (2, 4), (2, 5), (2, 6), (3, 0), (3, 1), (3, 2), (3, 4), (3, 5), (3, 6), (4, 0), (4, 1), (4, 2), (4, 3), (4, 4), (4, 5), (4, 6), (5, 0), (5, 1), (5, 2), (5, 3), (5, 4), (5, 5), (5, 6), (6, 0), (6, 1), (6, 2), (6, 3), (6, 4), (6, 5), (6, 6)]

/-- The accumulator after all 48 offsets, from zero. -/
def acc (gp gt : FVec F S518x518 .f32) : FVec F S512x512 .f32 :=
  offsets.foldl (fun a p => addf a (diff gp gt p.1 p.2)) (broadcast S512x512 (Scalar.ofBits .f32 0x00000000#32))

/-- The row sums, their sum, and its broadcast over the output block. -/
def tail (a : FVec F S512x512 .f32) : FVec F S1x1x128 .f32 :=
  broadcastTo S1x1x128 (shapeCast S1x1x1 (shapeCast S1x1
    (multiReduction .add [0] S1 (shapeCast S512x1 (multiReduction .add [1] S512 a 0x00000000#32 reduces_S512x512_S512 (.inl rfl) rfl)
      shapeCasts_S512_S512x1) 0x00000000#32 reduces_S512x1_S1 (.inl rfl) rfl) shapeCasts_S1_S1x1) shapeCasts_S1x1_S1x1x1)
    broadcasts_S1x1x1_S1x1x128

/-- The body's stored value is `tail` of `acc` of the two padded grayscale images. -/
theorem payload_eq (v0 v2 : Vec F S1x3x518x518 .f32) :
    k0_pay1 (k0_pay4 v0) (k0_pay5 v2) (k0_pay31 (k0_pay2 v0)) (k0_pay32 (k0_pay3 v2)) (k0_pay33 (k0_pay2 v0) (k0_pay3 v2) (k0_pay4 v0) (k0_pay5 v2) (k0_pay27 (k0_pay2 v0)) (k0_pay28 (k0_pay3 v2)) (k0_pay29 (k0_pay2 v0) (k0_pay3 v2) (k0_pay4 v0) (k0_pay5 v2) (k0_pay23 (k0_pay2 v0)) (k0_pay24 (k0_pay3 v2)) (k0_pay25 (k0_pay2 v0) (k0_pay3 v2) (k0_pay4 v0) (k0_pay5 v2) (k0_pay19 (k0_pay2 v0)) (k0_pay20 (k0_pay3 v2)) (k0_pay21 (k0_pay2 v0) (k0_pay3 v2) (k0_pay4 v0) (k0_pay5 v2) (k0_pay14 (k0_pay2 v0)) (k0_pay15 (k0_pay3 v2)) (k0_pay16 (k0_pay2 v0) (k0_pay3 v2) (k0_pay4 v0) (k0_pay5 v2) (k0_pay10 (k0_pay2 v0)) (k0_pay11 (k0_pay3 v2)) (k0_pay12 (k0_pay2 v0) (k0_pay3 v2) (k0_pay4 v0) (k0_pay5 v2) (k0_pay6 (F := F)) (k0_pay7 v0) (k0_pay8 v2) (k0_pay9 v0 v2)) (k0_pay13 (k0_pay2 v0))) (k0_pay17 (k0_pay3 v2)) (k0_pay18 (k0_pay2 v0) (k0_pay4 v0))) (k0_pay22 (k0_pay2 v0) (k0_pay3 v2) (k0_pay4 v0) (k0_pay5 v2))) (k0_pay26 (k0_pay2 v0) (k0_pay3 v2) (k0_pay4 v0) (k0_pay5 v2))) (k0_pay30 (k0_pay2 v0))) (k0_pay34 (k0_pay3 v2)) (k0_pay35 (k0_pay2 v0) (k0_pay4 v0))
      = tail (acc (k0_pay2 v0) (k0_pay2 v2)) := by
  rfl

end Cert.KernelIdeal.KerTerm

end
-- ==== Proof.Spec.lean ====
/-
  The census count that both programs compute, as ONE function of the two RGB batches.

  An image batch is read by its four coordinates (batch, channel, row, column). Its grayscale value at a pixel is the
  fixed linear combination `(w0 · R + w1 · G) + w2 · B` of the three channels, the weights the binary values of
  0.299, 0.587 and 0.114 in single precision. The image is extended by three pixels on every side by REFLECTION about the
  border pixel (`refl`: padded coordinate `k` reads coordinate `3 - k`, `k - 3` or `1025 - k` of the 512 originals).
  For each of the 48 offsets `(oi f, oj f)` of a 7 × 7 window other than its centre, the census feature of a pixel is the
  one-bit comparison "centre gray value > gray value of the padded image at the pixel shifted by the offset"; the loss
  counts, over every batch, offset and pixel, where the two images' features DIFFER (`delta`), and divides the count
  by the number of features, 8 · 48 · 512 · 512 = 3 · 2^25, a single-precision number.
-/
import Idealize.ShloMosaic.PureOps.Ideal
import Idealize.ShloMosaic.Lib.ValueIdx

noncomputable section

open scoped BigOperators

namespace Cert.Census

open Idealize.ShloMosaic

/-- An RGB batch by coordinates: batch, channel, row, column. -/
abbrev Img := Fin 8 → Fin 3 → Fin 512 → Fin 512 → EReal

/-- Reflection of a padded coordinate (0 … 517) into the 512 original ones: three mirrored pixels, the image, three
    mirrored pixels (the border pixel itself is not repeated). -/
def refl (k : Fin 518) : Fin 512 :=
  ⟨if k.val < 3 then 3 - k.val else if k.val < 515 then k.val - 3 else 1025 - k.val, by
    have := k.isLt; split_ifs <;> omega⟩

/-- The three grayscale weights: single precision's 0.299, 0.587, 0.114, as the extended reals they denote. -/
def w0 : EReal := Ideal.ofBits .f32 0x3E991687#32
def w1 : EReal := Ideal.ofBits .f32 0x3F1645A2#32
def w2 : EReal := Ideal.ofBits .f32 0x3DE978D5#32

/-- The grayscale value of a pixel. -/
def gray (X : Img) (b : Fin 8) (h w : Fin 512) : EReal := (w0 * X b 0 h w + w1 * X b 1 h w) + w2 * X b 2 h w

/-- The grayscale value of the reflect-padded image at padded coordinates. -/
def grayPad (X : Img) (b : Fin 8) (k l : Fin 518) : EReal := gray X b (refl k) (refl l)

/-- Row offset of feature `f`: the 49 window positions in row-major order with the centre (position 24) left out. -/
def oi (f : Fin 48) : Nat := (if f.val < 24 then f.val else f.val + 1) / 7
/-- Column offset of feature `f`. -/
def oj (f : Fin 48) : Nat := (if f.val < 24 then f.val else f.val + 1) % 7

theorem oi_le (f : Fin 48) : oi f ≤ 6 := by have := f.isLt; unfold oi; split_ifs <;> omega
theorem oj_le (f : Fin 48) : oj f ≤ 6 := by unfold oj; split_ifs <;> omega

/-- A pixel coordinate shifted by a window offset, as a padded coordinate. -/
def shift (h : Fin 512) (o : Nat) (ho : o ≤ 6) : Fin 518 := ⟨h.val + o, by have := h.isLt; omega⟩

/-- The one-bit census feature: centre gray value greater than the padded gray value at the shifted pixel. -/
def feat (X : Img) (b : Fin 8) (f : Fin 48) (h w : Fin 512) : BitVec 1 :=
  FloatOps.cmpf (F := Ideal) (φ := .f32) .ogt (gray X b h w) (grayPad X b (shift h (oi f) (oi_le f)) (shift w (oj f) (oj_le f)))

/-- Whether two feature bits differ, as the number 0 or 1. -/
def delta (a b : BitVec 1) : EReal := if a = b then 0 else 1

/-- The number of (batch, offset, pixel) positions at which the two images' census features differ. -/
def count (X Y : Img) : EReal :=
  ∑ b : Fin 8, ∑ f : Fin 48, ∑ h : Fin 512, ∑ w : Fin 512, delta (feat X b f h w) (feat Y b f h w)

/-- The loss: the count (accumulated from zero) over the number of features, 3 · 2^25 in single precision. -/
def result (X Y : Img) : EReal := Ideal.div (0 + count X Y) (Ideal.ofBits .f32 0x4CC00000#32)

/-- An array of shape [8, 3, 512, 512] read by coordinates. -/
def img (x : (⟨4, ![8, 3, 512, 512]⟩ : Shape).Idx → EReal) : Img := fun b ch h w => x (ValueIdx.ix4 b ch h w)

end Cert.Census

end
-- ==== Proof.KerAccIdx.lean ====
/-
  The kernel body's arithmetic read at one pixel, over the extended reals. The padded grayscale image at a padded
  pixel is the weighted sum of the block's three channels there; the centre crop reads the padded pixel shifted by (3, 3)
  and the image shifted by a window offset (i, j) the padded pixel shifted by (i, j); the 0/1 image "the two bits differ" is,
  at a pixel, `delta` of the two comparison bits; the accumulator is the sum over the 48 offsets from zero; and the two
  reductions add the accumulator over all 512 × 512 pixels.
-/
import proofs.«131024_j38895223833176_2_alg».proof.Proof.KerAcc
import proofs.«131024_j38895223833176_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KerTerm

open Cert.KernelIdeal Cert.KernelIdeal.Gen Idealize.ShloMosaic Idealize.ShloMosaic.ValueIdx Cert.Census

/-- One channel of the loaded block, as the body slices it out, at a padded pixel. -/
theorem chan_apply (v0 : Vec Ideal S1x3x518x518 .f32) (ch : Fin 3) (h1 : S3x518x518.Slices ![ch.val, 0, 0] S1x518x518) (k l : Fin 518) :
    shapeCast S518x518 (extractStridedSlice S1x518x518 ![ch.val, 0, 0] (shapeCast S3x518x518 v0 shapeCasts_S1x3x518x518_S3x518x518) h1)
      shapeCasts_S1x518x518_S518x518 (ix2 k l) = v0 (ix4 (0 : Fin 1) ch k l) :=
  (shapeCast_1ab_ab_apply _ _ k l).trans ((extractStridedSlice_apply _ _ _ _ (ix3 ch k l) (fun a => by
    match a with
    | ⟨0, _⟩ => exact (Nat.add_zero _).symm
    | ⟨1, _⟩ => exact (Nat.zero_add _).symm
    | ⟨2, _⟩ => exact (Nat.zero_add _).symm)).trans (shapeCast_1abc_abc_apply _ _ ch k l))

/-- The padded grayscale image at a padded pixel: the weighted sum of the block's three channels there. -/
theorem gk_apply (v0 : Vec Ideal S1x3x518x518 .f32) (k l : Fin 518) :
    k0_pay2 (F := Ideal) v0 (ix2 k l)
      = (w0 * v0 (ix4 (0 : Fin 1) (0 : Fin 3) k l) + w1 * v0 (ix4 (0 : Fin 1) (1 : Fin 3) k l)) + w2 * v0 (ix4 (0 : Fin 1) (2 : Fin 3) k l) := by
  unfold k0_pay2
  refine congrArg₂ (· + ·) (congrArg₂ (· + ·) (congrArg (w0 * ·) ?_) (congrArg (w1 * ·) ?_)) (congrArg (w2 * ·) ?_)
  · exact chan_apply v0 0 _ k l
  · exact chan_apply v0 1 _ k l
  · exact chan_apply v0 2 _ k l

theorem le6 (i : Fin 7) : i.val ≤ 6 := Nat.le_of_lt_succ i.isLt

/-- The centre crop at a pixel reads the padded image at the pixel shifted by (3, 3). -/
theorem centre_apply (g : FVec Ideal S518x518 .f32) (h w : Fin 512) :
    centre g (ix2 h w) = g (ix2 (shift h 3 (by omega)) (shift w 3 (by omega))) :=
  extractStridedSlice_apply _ _ _ _ _ (fun a => by
    match a with
    | ⟨0, _⟩ => exact Nat.add_comm _ _
    | ⟨1, _⟩ => exact Nat.add_comm _ _)

/-- The image shifted by the window offset (i, j) at a pixel reads the padded image at the pixel shifted by (i, j). -/
theorem shifted_apply (g : FVec Ideal S518x518 .f32) (i j : Fin 7) (h w : Fin 512) :
    shifted g i j (ix2 h w) = g (ix2 (shift h i.val (le6 i)) (shift w j.val (le6 j))) :=
  (slice2_axis1_apply j.val _ (cols_fit j) h w (shift w j.val (le6 j)) (Nat.add_comm _ _)).trans
    (slice2_axis0_apply i.val g (slab_fits i) h (shift w j.val (le6 j)) (shift h i.val (le6 i)) (Nat.add_comm _ _))

/-- The exclusive or of two bits, widened and converted to a float, is 1 where they differ and 0 where they agree. -/
theorem delta_kernel (a b : BitVec 1) : FloatOps.sitofp (F := Ideal) .f32 ((a ^^^ b).setWidth 32) = delta a b := by
  rcases BitVec.eq_zero_or_eq_one a with rfl | rfl <;> rcases BitVec.eq_zero_or_eq_one b with rfl | rfl <;>
    simp [delta, FloatOps.sitofp]

/-- The census bit of a padded grayscale image at a pixel and a window offset. -/
def bit (g : FVec Ideal S518x518 .f32) (i j : Fin 7) (h w : Fin 512) : BitVec 1 :=
  FloatOps.cmpf (F := Ideal) (φ := .f32) .ogt (g (ix2 (shift h 3 (by omega)) (shift w 3 (by omega))))
    (g (ix2 (shift h i.val (le6 i)) (shift w j.val (le6 j))))

/-- Where the two images' census bits differ, at a pixel. -/
theorem diff_apply (gp gt : FVec Ideal S518x518 .f32) (i j : Fin 7) (h w : Fin 512) :
    diff gp gt i j (ix2 h w) = delta (bit gp i j h w) (bit gt i j h w) := by
  unfold diff bit
  show FloatOps.sitofp (F := Ideal) .f32
      ((FloatOps.cmpf .ogt (centre gp (ix2 h w)) (shifted gp i j (ix2 h w))
        ^^^ FloatOps.cmpf .ogt (centre gt (ix2 h w)) (shifted gt i j (ix2 h w))).setWidth 32) = _
  rw [centre_apply, centre_apply, shifted_apply, shifted_apply, delta_kernel]

/-- A left fold of vector additions, read at an index: the start value there plus the sum of the terms there. -/
theorem foldl_addf_apply {β : Type} {s : Shape} (L : List β) (g : β → FVec Ideal s .f32) (z : FVec Ideal s .f32) (idx : s.Idx) :
    (L.foldl (fun a p => addf a (g p)) z) idx = z idx + (L.map fun p => g p idx).sum := by
  induction L generalizing z with
  | nil => simp
  | cons p L ih => rw [List.foldl_cons, ih, List.map_cons, List.sum_cons, addf_apply, add_assoc]

/-- The accumulator at a pixel: the number of window offsets at which the two census bits differ. -/
theorem acc_apply (gp gt : FVec Ideal S518x518 .f32) (h w : Fin 512) :
    acc gp gt (ix2 h w) = (offsets.map fun p => delta (bit gp p.1 p.2 h w) (bit gt p.1 p.2 h w)).sum := by
  unfold acc
  rw [foldl_addf_apply]
  simp only [diff_apply]
  show (Ideal.ofBits .f32 0x00000000#32 : EReal) + _ = _
  rw [Ideal.ofBits_zero_f32, zero_add]

/-- The two reductions and the broadcast: every lane of the output block holds the accumulator's sum over all pixels. -/
theorem tail_apply (a : FVec Ideal S512x512 .f32) (l : Fin 128) :
    tail a (ix3 (0 : Fin 1) (0 : Fin 1) l) = ∑ h : Fin 512, ∑ w : Fin 512, a (ix2 h w) := by
  unfold tail
  refine (broadcastTo_apply _ _ _ (ix3 (0 : Fin 1) (0 : Fin 1) (0 : Fin 1)) (fun a => by
    match a with
    | ⟨0, _⟩ => rfl
    | ⟨1, _⟩ => rfl
    | ⟨2, _⟩ => rfl)).trans ?_
  refine (shapeCast_apply _ _ _ (ix2 (0 : Fin 1) (0 : Fin 1)) (by decide)).trans ?_
  refine (shapeCast_apply _ _ _ (ix1 (0 : Fin 1)) (by decide)).trans ?_
  refine (Ideal.multiReduction_add_single _ _ _ _ _ _).trans ?_
  show ∑ k : Fin 512, _ = _
  refine Finset.sum_congr rfl (fun k _ => ?_)
  refine (shapeCast_apply _ _ _ (ix1 k) ?_).trans ?_
  · rw [Shape.rowMajor_val_one, Shape.rowMajor_val_two]
    show k.val = k.val * 1 + 0
    omega
  refine (Ideal.multiReduction_add_single _ _ _ _ _ _).trans ?_
  show ∑ w : Fin 512, _ = _
  refine Finset.sum_congr rfl (fun w _ => ?_)
  exact congrArg a (funext fun d => by
    match d with
    | ⟨0, _⟩ => rfl
    | ⟨1, _⟩ => rfl)

end Cert.KernelIdeal.KerTerm

end
-- ==== Proof.KerBody.lean ====
/-
  One grid point's output, as the specification's count for that batch image. When the two loaded blocks are the
  reflect-padded images of batch entry `b` — block element (0, ch, k, l) is the image's channel `ch` at the reflected
  coordinates — the padded grayscale image is the specification's `grayPad`, its centre crop the unpadded grayscale image
  (reflecting a coordinate shifted by 3 gives the coordinate back), each comparison bit the specification's feature bit,
  and the list of 48 offsets enumerates the features in the specification's order. So every lane of the point's output block
  is the number of (pixel, feature) pairs of that batch entry at which the two images' features differ.
-/
import proofs.«131024_j38895223833176_2_alg».proof.Proof.KerAccIdx

noncomputable section

open scoped BigOperators

namespace Cert.KernelIdeal.KerTerm

open Cert.KernelIdeal Cert.KernelIdeal.Gen Idealize.ShloMosaic Idealize.ShloMosaic.ValueIdx Cert.Census

/-- Reflecting a pixel coordinate shifted by 3 gives the coordinate back: the centre of the window is the pixel itself. -/
theorem refl_shift3 (h : Fin 512) : refl (shift h 3 (by omega)) = h := by
  apply Fin.ext
  have := h.isLt
  unfold Census.refl Census.shift
  dsimp only
  split_ifs <;> omega

/-- The window offset of feature `f`, as a pair of window coordinates. -/
def offsetOf (f : Fin 48) : Fin 7 × Fin 7 := (⟨oi f, Nat.lt_succ_of_le (oi_le f)⟩, ⟨oj f, Nat.lt_succ_of_le (oj_le f)⟩)

/-- The body's list of offsets enumerates the 48 features in order. -/
theorem offsets_eq : offsets = List.ofFn offsetOf := by decide

/-- A sum over the body's offsets is the sum over the 48 features. -/
theorem sum_offsets (Φ : Fin 7 × Fin 7 → EReal) : (offsets.map Φ).sum = ∑ f : Fin 48, Φ (offsetOf f) := by
  rw [offsets_eq, List.map_ofFn, List.sum_ofFn]
  rfl

/-- The padded grayscale image of a block that holds the reflect-padded image of batch entry `b`. -/
theorem gk_pad (X : Img) (b : Fin 8) (v0 : Vec Ideal S1x3x518x518 .f32)
    (h0 : ∀ (ch : Fin 3) (k l : Fin 518), v0 (ix4 (0 : Fin 1) ch k l) = X b ch (refl k) (refl l)) (k l : Fin 518) :
    k0_pay2 (F := Ideal) v0 (ix2 k l) = grayPad X b k l := by
  rw [gk_apply, h0, h0, h0]
  rfl

/-- A comparison bit of such a block is the specification's feature bit. -/
theorem bit_pad (X : Img) (b : Fin 8) (v0 : Vec Ideal S1x3x518x518 .f32)
    (h0 : ∀ (ch : Fin 3) (k l : Fin 518), v0 (ix4 (0 : Fin 1) ch k l) = X b ch (refl k) (refl l)) (f : Fin 48) (h w : Fin 512) :
    bit (k0_pay2 (F := Ideal) v0) (offsetOf f).1 (offsetOf f).2 h w = feat X b f h w := by
  unfold bit feat
  rw [gk_pad X b v0 h0, gk_pad X b v0 h0]
  unfold grayPad
  rw [refl_shift3, refl_shift3]
  rfl

/-- Every lane of a grid point's output block: the count of differing features of its batch entry. -/
theorem body_value (X Y : Img) (b : Fin 8) (v0 v2 : Vec Ideal S1x3x518x518 .f32)
    (h0 : ∀ (ch : Fin 3) (k l : Fin 518), v0 (ix4 (0 : Fin 1) ch k l) = X b ch (refl k) (refl l))
    (h2 : ∀ (ch : Fin 3) (k l : Fin 518), v2 (ix4 (0 : Fin 1) ch k l) = Y b ch (refl k) (refl l)) (l : Fin 128) :
    tail (acc (k0_pay2 (F := Ideal) v0) (k0_pay2 v2)) (ix3 (0 : Fin 1) (0 : Fin 1) l)
      = ∑ h : Fin 512, ∑ w : Fin 512, ∑ f : Fin 48, delta (feat X b f h w) (feat Y b f h w) := by
  rw [tail_apply]
  refine Finset.sum_congr rfl (fun h _ => Finset.sum_congr rfl (fun w _ => ?_))
  rw [acc_apply, sum_offsets]
  refine Finset.sum_congr rfl (fun f _ => ?_)
  rw [bit_pad X b v0 h0, bit_pad Y b v2 h2]

end Cert.KernelIdeal.KerTerm

end
-- ==== Proof.KerPad.lean ====
/-
  The reflect padding of the kernel's RGB inputs, as the four host stages that build it: three mirrored rows are put
  above the image (a slice of rows 1 … 3, reversed along the row axis, then a concatenation), three below (rows 511 … 513
  of the result, reversed, concatenated after it), and the same along the column axis, on the left and on the right.
-/
import proofs.«131024_j38895223833176_2_alg».proof.Proof.Gen.KernelIdeal

noncomputable section

namespace Cert.KernelIdeal.KerTerm

open Cert.KernelIdeal Cert.KernelIdeal.Gen Idealize.ShloMosaic

variable {F : FTy → Type} [FloatOps F]

/-- Three mirrored rows above: rows 1 … 3 reversed, then the image. -/
def padTop (x : FVec F S8x3x512x512 .f32) : FVec F S8x3x515x512 .f32 :=
  concatenate S8x3x515x512 2
    [⟨S8x3x3x512, Host.reverse [2] (extractStridedSlice S8x3x3x512 ![0, 0, 1, 0] x slices_S8x3x512x512_S8x3x3x512_0_0_1_0)⟩,
     ⟨S8x3x512x512, x⟩] concatenates_S8x3x3x512_S8x3x512x512_S8x3x515x512_d2

/-- Three mirrored rows below: the array, then its rows 511 … 513 reversed. -/
def padBottom (x : FVec F S8x3x515x512 .f32) : FVec F S8x3x518x512 .f32 :=
  concatenate S8x3x518x512 2
    [⟨S8x3x515x512, x⟩,
     ⟨S8x3x3x512, Host.reverse [2] (extractStridedSlice S8x3x3x512 ![0, 0, 511, 0] x slices_S8x3x515x512_S8x3x3x512_0_0_511_0)⟩]
    concatenates_S8x3x515x512_S8x3x3x512_S8x3x518x512_d2

/-- Three mirrored columns on the left: columns 1 … 3 reversed, then the array. -/
def padLeft (x : FVec F S8x3x518x512 .f32) : FVec F S8x3x518x515 .f32 :=
  concatenate S8x3x518x515 3
    [⟨S8x3x518x3, Host.reverse [3] (extractStridedSlice S8x3x518x3 ![0, 0, 0, 1] x slices_S8x3x518x512_S8x3x518x3_0_0_0_1)⟩,
     ⟨S8x3x518x512, x⟩] concatenates_S8x3x518x3_S8x3x518x512_S8x3x518x515_d3

/-- Three mirrored columns on the right: the array, then its columns 511 … 513 reversed. -/
def padRight (x : FVec F S8x3x518x515 .f32) : FVec F S8x3x518x518 .f32 :=
  concatenate S8x3x518x518 3
    [⟨S8x3x518x515, x⟩,
     ⟨S8x3x518x3, Host.reverse [3] (extractStridedSlice S8x3x518x3 ![0, 0, 0, 511] x slices_S8x3x518x515_S8x3x518x3_0_0_0_511)⟩]
    concatenates_S8x3x518x515_S8x3x518x3_S8x3x518x518_d3

/-- The reflect padding by three on both image axes. -/
def pad (x : FVec F S8x3x512x512 .f32) : FVec F S8x3x518x518 .f32 := padRight (padLeft (padBottom (padTop x)))

end Cert.KernelIdeal.KerTerm

end
-- ==== Proof.KerPadIdx.lean ====
/-
  The reflect padding read at an index: padded coordinates (k, l) of the padded array read coordinates
  (refl k, refl l) of the image, where refl mirrors three pixels about each border pixel.

  Each of the four stages is a two-piece concatenation along one axis, one piece the operand and the other a
  three-wide slice of the operand reversed along that axis. Putting the mirrored piece FIRST makes coordinate r read
  3 - r for r < 3 (slice offset 1, reversed: 1 + (2 - r)) and r - 3 otherwise (`lo`); putting it LAST makes coordinate r
  read r for r < 515 and 1028 - r otherwise (slice offset 511, reversed: 511 + (2 - (r - 515))) (`hi`). The padding is
  `hi` then `lo` on each image axis, and lo (hi k) = refl k.
-/
import proofs.«131024_j38895223833176_2_alg».proof.Proof.KerPad
import proofs.«131024_j38895223833176_2_alg».proof.Proof.Spec
import Idealize.ShloMosaic.Lib.Pipeline.Value

noncomputable section

namespace Cert.KernelIdeal.KerTerm

open Cert.KernelIdeal Cert.KernelIdeal.Gen Idealize.ShloMosaic

variable {F : FTy → Type} [FloatOps F]

/-- Where a coordinate of an axis with three mirrored entries put in front reads the original axis. -/
def lo (r : Fin 515) : Fin 512 := ⟨if r.val < 3 then 3 - r.val else r.val - 3, by have := r.isLt; split_ifs <;> omega⟩

/-- Where a coordinate of an axis with three mirrored entries put behind reads the 515-long axis. -/
def hi (r : Fin 518) : Fin 515 := ⟨if r.val < 515 then r.val else 1028 - r.val, by have := r.isLt; split_ifs <;> omega⟩

/-- Mirrored entries behind, then in front, is the reflection about both border pixels. -/
theorem lo_hi (k : Fin 518) : lo (hi k) = Cert.Census.refl k := by
  apply Fin.ext
  have := k.isLt
  show (if (if k.val < 515 then k.val else 1028 - k.val) < 3 then 3 - (if k.val < 515 then k.val else 1028 - k.val)
      else (if k.val < 515 then k.val else 1028 - k.val) - 3)
    = if k.val < 3 then 3 - k.val else if k.val < 515 then k.val - 3 else 1025 - k.val
  split_ifs <;> omega

/-- Three mirrored rows above: row r reads row lo r of the image. -/
theorem padTop_apply (x : FVec F S8x3x512x512 .f32) (b : Fin 8) (ch : Fin 3) (r : Fin 515) (c : Fin 512) :
    padTop x (ValueIdx.ix4 b ch r c) = x (ValueIdx.ix4 b ch (lo r) c) := by
  unfold padTop
  by_cases hr : r.val < 3
  · refine (concatenate_pair_apply_left (t := S8x3x515x512) (s₁ := S8x3x3x512) (s₂ := S8x3x512x512) 2 _ _ _
      (ValueIdx.ix4 b ch r c) rfl (ValueIdx.ix4 b ch (⟨r.val, hr⟩ : Fin 3) c) ?_).trans ?_
    · intro a; match a with | ⟨0, _⟩ => rfl | ⟨1, _⟩ => rfl | ⟨2, _⟩ => rfl | ⟨3, _⟩ => rfl
    · unfold Host.reverse
      refine extractStridedSlice_apply _ x _ _ _ ?_
      intro a
      match a with
      | ⟨0, _⟩ => simp
      | ⟨1, _⟩ => simp
      | ⟨2, _⟩ => simp [lo, hr]; omega
      | ⟨3, _⟩ => simp
  · have hr' : 3 ≤ r.val := Nat.le_of_not_lt hr
    have hlt := r.isLt
    refine (concatenate_pair_apply_right (t := S8x3x515x512) (s₁ := S8x3x3x512) (s₂ := S8x3x512x512) 2 _ _ _
      (ValueIdx.ix4 b ch r c) rfl rfl (ValueIdx.ix4 b ch (lo r) c) ?_ ?_).trans rfl
    · intro a; match a with
      | ⟨0, _⟩ => intro _; rfl
      | ⟨1, _⟩ => intro _; rfl
      | ⟨2, _⟩ => intro h; exact absurd rfl h
      | ⟨3, _⟩ => intro _; rfl
    · show (lo r).val + 3 = r.val
      simp [lo, hr]; omega

/-- Three mirrored rows below: row r reads row hi r of the operand. -/
theorem padBottom_apply (x : FVec F S8x3x515x512 .f32) (b : Fin 8) (ch : Fin 3) (r : Fin 518) (c : Fin 512) :
    padBottom x (ValueIdx.ix4 b ch r c) = x (ValueIdx.ix4 b ch (hi r) c) := by
  unfold padBottom
  have hlt := r.isLt
  by_cases hr : r.val < 515
  · refine (concatenate_pair_apply_left (t := S8x3x518x512) (s₁ := S8x3x515x512) (s₂ := S8x3x3x512) 2 _ _ _
      (ValueIdx.ix4 b ch r c) rfl (ValueIdx.ix4 b ch (hi r) c) ?_).trans rfl
    intro a; match a with
    | ⟨0, _⟩ => rfl
    | ⟨1, _⟩ => rfl
    | ⟨2, _⟩ => show (hi r).val = r.val; simp [hi, hr]
    | ⟨3, _⟩ => rfl
  · have hr' : 515 ≤ r.val := Nat.le_of_not_lt hr
    refine (concatenate_pair_apply_right (t := S8x3x518x512) (s₁ := S8x3x515x512) (s₂ := S8x3x3x512) 2 _ _ _
      (ValueIdx.ix4 b ch r c) rfl rfl (ValueIdx.ix4 b ch (⟨r.val - 515, by omega⟩ : Fin 3) c) ?_ ?_).trans ?_
    · intro a; match a with
      | ⟨0, _⟩ => intro _; rfl
      | ⟨1, _⟩ => intro _; rfl
      | ⟨2, _⟩ => intro h; exact absurd rfl h
      | ⟨3, _⟩ => intro _; rfl
    · show r.val - 515 + 515 = r.val
      omega
    · unfold Host.reverse
      refine extractStridedSlice_apply _ x _ _ _ ?_
      intro a
      match a with
      | ⟨0, _⟩ => simp
      | ⟨1, _⟩ => simp
      | ⟨2, _⟩ => simp [hi, hr]; omega
      | ⟨3, _⟩ => simp

/-- Three mirrored columns on the left: column c reads column lo c of the operand. -/
theorem padLeft_apply (x : FVec F S8x3x518x512 .f32) (b : Fin 8) (ch : Fin 3) (r : Fin 518) (c : Fin 515) :
    padLeft x (ValueIdx.ix4 b ch r c) = x (ValueIdx.ix4 b ch r (lo c)) := by
  unfold padLeft
  by_cases hc : c.val < 3
  · refine (concatenate_pair_apply_left (t := S8x3x518x515) (s₁ := S8x3x518x3) (s₂ := S8x3x518x512) 3 _ _ _
      (ValueIdx.ix4 b ch r c) rfl (ValueIdx.ix4 b ch r (⟨c.val, hc⟩ : Fin 3)) ?_).trans ?_
    · intro a; match a with | ⟨0, _⟩ => rfl | ⟨1, _⟩ => rfl | ⟨2, _⟩ => rfl | ⟨3, _⟩ => rfl
    · unfold Host.reverse
      refine extractStridedSlice_apply _ x _ _ _ ?_
      intro a
      match a with
      | ⟨0, _⟩ => simp
      | ⟨1, _⟩ => simp
      | ⟨2, _⟩ => simp
      | ⟨3, _⟩ => simp [lo, hc]; omega
  · have hc' : 3 ≤ c.val := Nat.le_of_not_lt hc
    have hlt := c.isLt
    refine (concatenate_pair_apply_right (t := S8x3x518x515) (s₁ := S8x3x518x3) (s₂ := S8x3x518x512) 3 _ _ _
      (ValueIdx.ix4 b ch r c) rfl rfl (ValueIdx.ix4 b ch r (lo c)) ?_ ?_).trans rfl
    · intro a; match a with
      | ⟨0, _⟩ => intro _; rfl
      | ⟨1, _⟩ => intro _; rfl
      | ⟨2, _⟩ => intro _; rfl
      | ⟨3, _⟩ => intro h; exact absurd rfl h
    · show (lo c).val + 3 = c.val
      simp [lo, hc]; omega

/-- Three mirrored columns on the right: column c reads column hi c of the operand. -/
theorem padRight_apply (x : FVec F S8x3x518x515 .f32) (b : Fin 8) (ch : Fin 3) (r : Fin 518) (c : Fin 518) :
    padRight x (ValueIdx.ix4 b ch r c) = x (ValueIdx.ix4 b ch r (hi c)) := by
  unfold padRight
  have hlt := c.isLt
  by_cases hc : c.val < 515
  · refine (concatenate_pair_apply_left (t := S8x3x518x518) (s₁ := S8x3x518x515) (s₂ := S8x3x518x3) 3 _ _ _
      (ValueIdx.ix4 b ch r c) rfl (ValueIdx.ix4 b ch r (hi c)) ?_).trans rfl
    intro a; match a with
    | ⟨0, _⟩ => rfl
    | ⟨1, _⟩ => rfl
    | ⟨2, _⟩ => rfl
    | ⟨3, _⟩ => show (hi c).val = c.val; simp [hi, hc]
  · have hc' : 515 ≤ c.val := Nat.le_of_not_lt hc
    refine (concatenate_pair_apply_right (t := S8x3x518x518) (s₁ := S8x3x518x515) (s₂ := S8x3x518x3) 3 _ _ _
      (ValueIdx.ix4 b ch r c) rfl rfl (ValueIdx.ix4 b ch r (⟨c.val - 515, by omega⟩ : Fin 3)) ?_ ?_).trans ?_
    · intro a; match a with
      | ⟨0, _⟩ => intro _; rfl
      | ⟨1, _⟩ => intro _; rfl
      | ⟨2, _⟩ => intro _; rfl
      | ⟨3, _⟩ => intro h; exact absurd rfl h
    · show c.val - 515 + 515 = c.val
      omega
    · unfold Host.reverse
      refine extractStridedSlice_apply _ x _ _ _ ?_
      intro a
      match a with
      | ⟨0, _⟩ => simp
      | ⟨1, _⟩ => simp
      | ⟨2, _⟩ => simp
      | ⟨3, _⟩ => simp [hi, hc]; omega

/-- The padded array at padded coordinates (k, l) is the image at the reflected coordinates. -/
theorem pad_apply (x : FVec F S8x3x512x512 .f32) (b : Fin 8) (ch : Fin 3) (k l : Fin 518) :
    pad x (ValueIdx.ix4 b ch k l) = x (ValueIdx.ix4 b ch (Cert.Census.refl k) (Cert.Census.refl l)) := by
  unfold pad
  rw [padRight_apply, padLeft_apply, padBottom_apply, padTop_apply, lo_hi, lo_hi]

end Cert.KernelIdeal.KerTerm

end
-- ==== Proof.KerValue.lean ====
/-
  The kernel's output array after the region. Grid point `t` loads block `t` of the two reflect-padded inputs (the whole
  padded image of batch entry `t`), and writes back block `t` of the [8, 1, 128] output: 128 lanes all holding that batch
  entry's count of differing census features. The eight blocks tile the output, so the array ends holding, at (b, 0, l),
  the count of batch entry `b`.
-/
import proofs.«131024_j38895223833176_2_alg».proof.Proof.Gen.KernelIdeal.Frame
import proofs.«131024_j38895223833176_2_alg».proof.Proof.KerBody
import proofs.«131024_j38895223833176_2_alg».proof.Proof.KerPadIdx

set_option maxRecDepth 16384

noncomputable section

open scoped BigOperators

namespace Cert.KernelIdeal.KerValue

open Cert.KernelIdeal Cert.KernelIdeal.Gen Cert.KernelIdeal.KerTerm Idealize.ShloMosaic Idealize.ShloMosaic.TcCoe
open Idealize.ShloMosaic.ValueIdx Idealize.SL.Sem Cert.Census
open Idealize.ShloMosaic.Pipeline (Dat Cfg Window)

variable (m : (ℓ : Loc nD τ sig) → Buf (Elt Ideal) ℓ)

/-- The count of differing census features of batch entry `b`. -/
def perBatch (X Y : Img) (b : Fin 8) : EReal :=
  ∑ h : Fin 512, ∑ w : Fin 512, ∑ f : Fin 48, delta (feat X b f h w) (feat Y b f h w)

/-- What the output array ends holding: at (b, 0, l) the count of batch entry `b`. -/
def G (X Y : Img) : S8x1x128.Idx → EReal := fun i => perBatch X Y (i 0)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The printed index maps over the grid: point `t` takes block `t` along the batch axis and block 0 along the others. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 3) = t.val ∧ win0_2.index t (1 : Fin 3) = 0 ∧ win0_2.index t (2 : Fin 3) = 0 :=
  (by decide +kernel : ∀ t : Fin grid0.N, _)

/-- A grid point as a batch entry. -/
def bOf (t : Fin cfg0.N) : Fin 8 := ⟨t.val, lt_of_lt_of_eq t.isLt N_0⟩

/-- Input window 0's block at point `t` is batch entry `t` of the padded first input. -/
theorem iblk0 (c : Dev nD) (t : Fin cfg0.N) (ch : Fin 3) (k l : Fin 518) :
    iblk m c 0 t (ix4 (0 : Fin 1) ch k l) = V m c main_v0 (ix4 (bOf t) ch k l) := by
  show V m c main_v0 (((cfg0.win 0).blk t).view.emb (ix4 (0 : Fin 1) ch k l)) = V m c main_v0 (ix4 (bOf t) ch k l)
  obtain ⟨e0, e1, e2, e3, -⟩ := idx_facts t
  refine congrArg _ (funext fun a => Fin.ext ?_)
  match a with
  | ⟨0, _⟩ => show win0_0.index t (0 : Fin 4) * 1 + 1 * 0 = t.val; omega
  | ⟨1, _⟩ => show win0_0.index t (1 : Fin 4) * 3 + 1 * ch.val = ch.val; omega
  | ⟨2, _⟩ => show win0_0.index t (2 : Fin 4) * 518 + 1 * k.val = k.val; omega
  | ⟨3, _⟩ => show win0_0.index t (3 : Fin 4) * 518 + 1 * l.val = l.val; omega

/-- Input window 1's block at point `t` is batch entry `t` of the padded second input. -/
theorem iblk1 (c : Dev nD) (t : Fin cfg0.N) (ch : Fin 3) (k l : Fin 518) :
    iblk m c 1 t (ix4 (0 : Fin 1) ch k l) = V m c main_v1 (ix4 (bOf t) ch k l) := by
  show V m c main_v1 (((cfg0.win 1).blk t).view.emb (ix4 (0 : Fin 1) ch k l)) = V m c main_v1 (ix4 (bOf t) ch k l)
  obtain ⟨-, -, -, -, e0, e1, e2, e3, -⟩ := idx_facts t
  refine congrArg _ (funext fun a => Fin.ext ?_)
  match a with
  | ⟨0, _⟩ => show win0_1.index t (0 : Fin 4) * 1 + 1 * 0 = t.val; omega
  | ⟨1, _⟩ => show win0_1.index t (1 : Fin 4) * 3 + 1 * ch.val = ch.val; omega
  | ⟨2, _⟩ => show win0_1.index t (2 : Fin 4) * 518 + 1 * k.val = k.val; omega
  | ⟨3, _⟩ => show win0_1.index t (3 : Fin 4) * 518 + 1 * l.val = l.val; omega

/-- An index of the output array is in point `t`'s block iff each coordinate is in the block's range on its axis. -/
theorem mem_blk (t : Fin cfg0.N) (i : S8x1x128.Idx) :
    i ∈ ((cfg0.win 2).blk t).view.set ↔ ∀ a : Fin 3, win0_2.index t a * S1x1x128.size a ≤ (i a).val ∧ (i a).val < win0_2.index t a * S1x1x128.size a + S1x1x128.size a := by
  show i ∈ ((View.whole main_v2).slice (win0_2.rect t)).set ↔ _
  rw [View.set_slice_whole, Rect.mem_set_unit]
  exact Iff.rfl

section
variable (hV0 : ∀ (c : Dev nD) (i : S8x3x518x518.Idx), V m c main_v0 i = pad (F := Ideal) (m ((c : Thread nD τ).loc main_arg0)) i)
variable (hV1 : ∀ (c : Dev nD) (i : S8x3x518x518.Idx), V m c main_v1 i = pad (F := Ideal) (m ((c : Thread nD τ).loc main_arg1)) i)
include hV0 hV1

/-- What point `t` writes back is block `t` of `G` of the two arguments. -/
theorem flushed_eq (c : Dev nD) (t : Fin cfg0.N) :
    (dats m 0 c).flushed 2 t = ((cfg0.win 2).blk t).view.read (Elt Ideal)
      (G (img (m ((c : Thread nD τ).loc main_arg0))) (img (m ((c : Thread nD τ).loc main_arg1)))) := by
  show (cfg0.win 2).cut (grid0.coords t) ((dats m 0 c).after 2 t) = _
  rw [after0_2]
  unfold out0_2
  rw [View.canon_unit_zero hz3]
  simp only [View.ld_unit_zero (S := S1x3x518x518) hz4]
  rw [payload_eq]
  refine funext fun (j : S1x1x128.Idx) => ?_
  obtain ⟨a, b, l, rfl⟩ : ∃ (a : Fin 1) (b : Fin 1) (l : Fin 128), j = ix3 a b l := ⟨j 0, j 1, j 2, eq_ix3 j⟩
  obtain rfl : a = 0 := Subsingleton.elim _ _
  obtain rfl : b = 0 := Subsingleton.elim _ _
  show tail (acc (k0_pay2 (iblk m c 0 t)) (k0_pay2 (iblk m c 1 t))) (ix3 (0 : Fin 1) (0 : Fin 1) l)
    = G (img (m ((c : Thread nD τ).loc main_arg0))) (img (m ((c : Thread nD τ).loc main_arg1)))
        (((cfg0.win 2).blk t).view.emb (ix3 (0 : Fin 1) (0 : Fin 1) l))
  refine (body_value (img (m ((c : Thread nD τ).loc main_arg0))) (img (m ((c : Thread nD τ).loc main_arg1))) (bOf t)
    (iblk m c 0 t) (iblk m c 1 t) (fun ch k l' => ?_) (fun ch k l' => ?_) l).trans ?_
  · rw [iblk0 m c t ch k l', hV0 c, pad_apply]; rfl
  · rw [iblk1 m c t ch k l', hV1 c, pad_apply]; rfl
  · obtain ⟨-, -, -, -, -, -, -, -, e0, -⟩ := idx_facts t
    unfold G perBatch
    have eb : (((cfg0.win 2).blk t).view.emb (ix3 (0 : Fin 1) (0 : Fin 1) l)) 0 = bOf t :=
      Fin.ext (by show win0_2.index t (0 : Fin 3) * 1 + 1 * 0 = t.val; omega)
    rw [eb]

/-- The output array after the region. -/
theorem final (c : Dev nD) :
    (dats m 0 c).arrAt 2 cfg0.N = G (img (m ((c : Thread nD τ).loc main_arg0))) (img (m ((c : Thread nD τ).loc main_arg1))) :=
  (dats m 0 c).arrAt_eq_of_cover 2 _ (fun t _ => flushed_eq m hV0 hV1 c t) (fun i => by
    have hi0 : (i 0).val < 8 := (i 0).isLt
    have hi1 : (i 1).val < 1 := (i 1).isLt
    have hi2 : (i 2).val < 128 := (i 2).isLt
    let t : Fin cfg0.N := ⟨(i 0).val, lt_of_lt_of_eq hi0 N_0.symm⟩
    obtain ⟨-, -, -, -, -, -, -, -, e0, e1, e2⟩ := idx_facts t
    refine ⟨t, flush0_2 t, ?_⟩
    rw [mem_blk]
    intro a
    match a with
    | ⟨0, _⟩ => show win0_2.index t (0 : Fin 3) * 1 ≤ (i 0).val ∧ (i 0).val < win0_2.index t (0 : Fin 3) * 1 + 1; have : t.val = (i 0).val := rfl; omega
    | ⟨1, _⟩ => show win0_2.index t (1 : Fin 3) * 1 ≤ (i 1).val ∧ (i 1).val < win0_2.index t (1 : Fin 3) * 1 + 1; omega
    | ⟨2, _⟩ => show win0_2.index t (2 : Fin 3) * 128 ≤ (i 2).val ∧ (i 2).val < win0_2.index t (2 : Fin 3) * 128 + 128; omega)

end

end Cert.KernelIdeal.KerValue

end
-- ==== Proof.KerTailVal.lean ====
/-
  The host operations after the region, read over the extended reals: lane 0 of each batch entry's output block is
  sliced out, the eight numbers are summed from zero, and the sum is divided by the number of features; and the sum over
  the batch of the per-batch counts is the specification's count, the sums over pixels and features exchanged.
-/
import proofs.«131024_j38895223833176_2_alg».proof.Proof.KerValue
import Idealize.ShloMosaic.Lib.IdealHost

noncomputable section

open scoped BigOperators

namespace Cert.KernelIdeal.KerValue

open Cert.KernelIdeal Cert.KernelIdeal.Gen Idealize.ShloMosaic Idealize.ShloMosaic.ValueIdx Cert.Census

/-- The sum over the batch of the per-batch counts is the count: the sums over pixels and over features commute. -/
theorem sum_perBatch (X Y : Img) : ∑ b : Fin 8, perBatch X Y b = Census.count X Y := by
  unfold perBatch Census.count
  refine Finset.sum_congr rfl (fun b _ => ?_)
  rw [show (∑ h : Fin 512, ∑ w : Fin 512, ∑ f : Fin 48, delta (feat X b f h w) (feat Y b f h w))
        = ∑ h : Fin 512, ∑ f : Fin 48, ∑ w : Fin 512, delta (feat X b f h w) (feat Y b f h w) from
      Finset.sum_congr rfl (fun h _ => Finset.sum_comm)]
  exact Finset.sum_comm

/-- The host tail of an output array: the sum from zero of its entries (b, 0, 0), over the feature count. -/
theorem tail_value (arr : FVec Ideal S8x1x128 .f32) (j : S_.Idx) :
    Host.divf (Host.reduceAdd (shapeCast S8 (extractStridedSlice S8x1x1 ![0, 0, 0] arr slices_S8x1x128_S8x1x1_0_0_0) shapeCasts_S8x1x1_S8)
        (constant (F := Ideal) S_ .f32 0x00000000#32) reducesTo_S8_S_d0 h_S_) (constant (F := Ideal) S_ .f32 0x4CC00000#32) j
      = Ideal.div (0 + ∑ b : Fin 8, arr (ix3 b (0 : Fin 1) (0 : Fin 128))) (Ideal.ofBits .f32 0x4CC00000#32) := by
  rw [hostDivf_apply, hostReduceAdd_apply, Ideal.hostReduceAdd_total reducesTo_S8_S_d0 (fun b => b.elim0)]
  show Ideal.div ((Ideal.ofBits .f32 0x00000000#32 : EReal) + ∑ i : S8.Idx, _) (Ideal.ofBits .f32 0x4CC00000#32) = _
  rw [Ideal.ofBits_zero_f32]
  refine congrArg (fun s => Ideal.div (0 + s) _) ?_
  refine (Fintype.sum_equiv (⟨fun i => i 0, fun b => ix1 b, fun i => (eq_ix1 i).symm, fun _ => rfl⟩ : S8.Idx ≃ Fin 8) _
    (fun b : Fin 8 => arr (ix3 b (0 : Fin 1) (0 : Fin 128))) (fun i => ?_))
  obtain ⟨b, rfl⟩ : ∃ b : Fin 8, i = ix1 b := ⟨i 0, eq_ix1 i⟩
  show shapeCast S8 _ shapeCasts_S8x1x1_S8 (ix1 b) = arr (ix3 b (0 : Fin 1) (0 : Fin 128))
  refine (shapeCast_apply _ _ _ (ix3 b (0 : Fin 1) (0 : Fin 1)) ?_).trans ?_
  · rw [Shape.rowMajor_val_three, Shape.rowMajor_val_one]
    show (b.val * 1 + 0) * 1 + 0 = b.val
    omega
  · exact extractStridedSlice_apply _ _ _ _ _ (fun a => by
      match a with
      | ⟨0, _⟩ => exact (Nat.zero_add _).symm
      | ⟨1, _⟩ => exact (Nat.zero_add _).symm
      | ⟨2, _⟩ => exact (Nat.zero_add _).symm)

end Cert.KernelIdeal.KerValue

end
-- ==== Proof.KerHost.lean ====
/-
  The kernel program's host side read as functions of the launch memory: the two padded inputs the region finds are the
  reflect padding of the two arguments, and the value the lines after the region leave is the quotient, by the number of
  features, of the sum over the batch of the region's per-batch partial counts.
-/
import proofs.«131024_j38895223833176_2_alg».proof.Proof.Gen.KernelIdeal.Frame
import proofs.«131024_j38895223833176_2_alg».proof.Proof.KerPad

noncomputable section

namespace Cert.KernelIdeal.KerTerm

open Cert.KernelIdeal Cert.KernelIdeal.Gen
open Idealize.ShloMosaic Idealize.ShloMosaic.TcCoe Idealize.ShloMosaic.Tactic
open Idealize.ShloMosaic.Pipeline (Dat Cfg Window)

variable {F : FTy → Type} [FloatOps F] (m : (ℓ : Loc nD τ sig) → Buf (Elt F) ℓ)

/-- A value moved to a typed reference's buffer and read back at the value's type is the value. -/
theorem ofBuf_toBuf {T : BufTy} (x : StableHlo.TRef sig T) (v : T.Contents (Elt F)) : x.ofBuf (x.toBuf v) = v := by
  obtain ⟨r, rfl, h1, h2⟩ := x
  rfl

/-- A value moved to a typed reference's buffer is the value (the buffer's type is the value's). -/
theorem toBuf_heq {T : BufTy} (x : StableHlo.TRef sig T) (v w : T.Contents (Elt F)) (h : v = w) : HEq (x.toBuf v) w := by
  subst h; exact cast_heq _ _

/-- The first padded input, as the region finds it, is the reflect padding of the first argument as launched:
    the sixteen host operations that build it are the four padding stages (the one-row and one-column slices they also
    take are read by nothing). -/
theorem V_main_v0 (c : Dev nD) :
    (V m c main_v0 : S8x3x518x518.Idx → Elt F .f32) = pad (m ((c : Thread nD τ).loc main_arg0)) := by
  dsimp only [Gen.V, Gen.V0]
  simp only [Gen.hostOps0, Gen.hostOps0_1, Gen.hostOps0_2, Gen.hostOps0_3, List.flatten_cons, List.flatten_nil, List.append_nil,
    List.cons_append, List.nil_append]
  after_results
  have hL : (StableHlo.TRef.of main_arg0 : StableHlo.TRef sig ⟨S8x3x512x512, .f32⟩).ofBuf (m (c, Proc.devRef .tc main_arg0))
      = m ((c : Thread nD τ).loc main_arg0) := rfl
  rw [hL]
  refine eq_of_heq (toBuf_heq _ _ _ ?_)
  repeat rw [ofBuf_toBuf]
  unfold pad padRight padLeft padBottom padTop
  rfl

set_option maxHeartbeats 4000000 in
/-- The second padded input, as the region finds it, is the reflect padding of the second argument as launched:
    the sixteen host operations that build it are the four padding stages (the one-row and one-column slices they also
    take are read by nothing). -/
theorem V_main_v1 (c : Dev nD) :
    (V m c main_v1 : S8x3x518x518.Idx → Elt F .f32) = pad (m ((c : Thread nD τ).loc main_arg1)) := by
  dsimp only [Gen.V, Gen.V0]
  simp only [Gen.hostOps0, Gen.hostOps0_1, Gen.hostOps0_2, Gen.hostOps0_3, List.flatten_cons, List.flatten_nil, List.append_nil,
    List.cons_append, List.nil_append]
  after_results
  have hL : (StableHlo.TRef.of main_arg1 : StableHlo.TRef sig ⟨S8x3x512x512, .f32⟩).ofBuf (m (c, Proc.devRef .tc main_arg1))
      = m ((c : Thread nD τ).loc main_arg1) := rfl
  rw [hL]
  refine eq_of_heq (toBuf_heq _ _ _ ?_)
  repeat rw [ofBuf_toBuf]
  unfold pad padRight padLeft padBottom padTop
  rfl

/-- What the lines after the region leave in the result buffer: the region's output array (one partial count per batch, in
    lane 0 of a 128-lane row), its lane 0 taken, reshaped to the eight batches, summed from zero, and divided by the
    number of features. -/
theorem tail_v6 (c : Dev nD) :
    Pipeline.afterTail₀ cfgs (dats m) 0 (V0 m) [hostOps1] c main_v6
      = Host.divf (Host.reduceAdd
          (shapeCast S8 (extractStridedSlice S8x1x1 ![0, 0, 0] ((dats m 0 c).arrAt 2 cfg0.N) slices_S8x1x128_S8x1x1_0_0_0)
            shapeCasts_S8x1x1_S8)
          (constant S_ .f32 0x00000000#32) reducesTo_S8_S_d0 h_S_) (constant S_ .f32 0x4CC00000#32) := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v2)
      = (dats m 0 c).arrAt 2 cfg0.N := Pipeline.withArrays_arr spec0 launch0.win.arr_inj c _ _ 2
  rw [e]
  rfl

/-- A final state of the frame run holds, in the result buffer, what the lines after the region leave there. -/
theorem post_v6 (r : PUnit × MemSt nD τ sig (Elt F))
    (h : Pipeline.FramePost cfgs (dats m) 0 (Pipeline.afterTail₀ cfgs (dats m) 0 (V0 m) [hostOps1]) r) (c : Dev nD) :
    r.2.mem ((c : Thread nD τ).loc main_v6) = Pipeline.afterTail₀ cfgs (dats m) 0 (V0 m) [hostOps1] c main_v6 :=
  (h c).2 main_v6 (Pipeline.mem_restRefs_of main_v6 (by decide) (by decide))

end Cert.KernelIdeal.KerTerm

end
-- ==== Proof.KerRun.lean ====
/-
  The idealized kernel's run, read: every weakly fair execution terminates with the result buffer holding the
  specification's loss of the two arguments — the region's output array holds the per-batch counts, the lines after the
  region sum lane 0 over the batch from zero and divide by the feature count, and the per-batch counts add up to the count —
  and with the two arguments unchanged.
-/
import proofs.«131024_j38895223833176_2_alg».proof.Proof.KerTailVal
import proofs.«131024_j38895223833176_2_alg».proof.Proof.KerHost

noncomputable section

open scoped BigOperators

namespace Cert.KernelIdeal.KerValue

open Cert.KernelIdeal Cert.KernelIdeal.Gen Cert.KernelIdeal.KerTerm Idealize.ShloMosaic Idealize.ShloMosaic.TcCoe
open Idealize.ShloMosaic.ValueIdx Idealize.SL.Sem Cert.Census

variable (m : (ℓ : Loc nD τ sig) → Buf (Elt Ideal) ℓ) (ρ : Dev nD → PrngReg)

/-- The output array after the region, with the two padded inputs identified. -/
theorem final' (c : Dev nD) :
    (dats m 0 c).arrAt 2 cfg0.N = G (img (m ((c : Thread nD τ).loc main_arg0))) (img (m ((c : Thread nD τ).loc main_arg1))) :=
  final m (fun c i => congrFun (V_main_v0 m c) i) (fun c i => congrFun (V_main_v1 m c) i) c

/-- What the lines after the region leave in the result buffer: the loss. -/
theorem v6_value (c : Dev nD) :
    Pipeline.afterTail₀ cfgs (dats m) 0 (V0 m) [hostOps1] c main_v6
      = fun _ => Census.result (img (m ((c : Thread nD τ).loc main_arg0))) (img (m ((c : Thread nD τ).loc main_arg1))) := by
  rw [tail_v6, final']
  funext j
  rw [tail_value]
  unfold Census.result
  rw [← sum_perBatch]
  rfl

/-- The run: the result buffer ends at the loss, the arguments unchanged. -/
theorem run : θ_run defs (onTc (τ := τ) (main (F := Ideal))) ⟨m, fun _ => 0, ρ⟩ fun r => ∀ c : Dev nD,
      r.2.mem ((c.tc : Thread nD τ).loc main_v6)
        = (fun _ => Census.result (img (m ((c.tc : Thread nD τ).loc main_arg0))) (img (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨(post_v6 m r h c).trans (v6_value m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KerValue

end
-- ==== Proof.RefPad.lean ====
/-
  The reflect padding of the reference's grayscale image, as the four host stages that build it: three mirrored rows are put
  above the image (a slice of rows 1 … 3, reversed along the row axis, then a concatenation), three below (rows 511 … 513
  of the result, reversed, concatenated after it), and the same along the column axis, on the left and on the right.
  Before it, the grayscale image: the weighted sum of the three channel slices.
-/
import proofs.«131024_j38895223833176_2_alg».proof.Proof.Gen.ReferenceIdeal

noncomputable section

namespace Cert.ReferenceIdeal.RefTerm

open Cert.ReferenceIdeal Cert.ReferenceIdeal.Gen Idealize.ShloMosaic

variable {F : FTy → Type} [FloatOps F]

/-- The grayscale image `(w0 · R + w1 · G) + w2 · B`, each weight a broadcast scalar constant, each channel a slice. -/
def gray (x : FVec F S8x3x512x512 .f32) : FVec F S8x1x512x512 .f32 :=
  addf (addf
    (mulf (broadcastInDim S8x1x512x512 ![] bcast_S_S8x1x512x512 (constant S_ .f32 0x3E991687#32))
      (extractStridedSlice S8x1x512x512 ![0, 0, 0, 0] x slices_S8x3x512x512_S8x1x512x512_0_0_0_0))
    (mulf (broadcastInDim S8x1x512x512 ![] bcast_S_S8x1x512x512 (constant S_ .f32 0x3F1645A2#32))
      (extractStridedSlice S8x1x512x512 ![0, 1, 0, 0] x slices_S8x3x512x512_S8x1x512x512_0_1_0_0)))
    (mulf (broadcastInDim S8x1x512x512 ![] bcast_S_S8x1x512x512 (constant S_ .f32 0x3DE978D5#32))
      (extractStridedSlice S8x1x512x512 ![0, 2, 0, 0] x slices_S8x3x512x512_S8x1x512x512_0_2_0_0))

/-- Three mirrored rows above: rows 1 … 3 reversed, then the image. -/
def padTop (x : FVec F S8x1x512x512 .f32) : FVec F S8x1x515x512 .f32 :=
  concatenate S8x1x515x512 2
    [⟨S8x1x3x512, Host.reverse [2] (extractStridedSlice S8x1x3x512 ![0, 0, 1, 0] x slices_S8x1x512x512_S8x1x3x512_0_0_1_0)⟩,
     ⟨S8x1x512x512, x⟩] concatenates_S8x1x3x512_S8x1x512x512_S8x1x515x512_d2

/-- Three mirrored rows below: the array, then its rows 511 … 513 reversed. -/
def padBottom (x : FVec F S8x1x515x512 .f32) : FVec F S8x1x518x512 .f32 :=
  concatenate S8x1x518x512 2
    [⟨S8x1x515x512, x⟩,
     ⟨S8x1x3x512, Host.reverse [2] (extractStridedSlice S8x1x3x512 ![0, 0, 511, 0] x slices_S8x1x515x512_S8x1x3x512_0_0_511_0)⟩]
    concatenates_S8x1x515x512_S8x1x3x512_S8x1x518x512_d2

/-- Three mirrored columns on the left: columns 1 … 3 reversed, then the array. -/
def padLeft (x : FVec F S8x1x518x512 .f32) : FVec F S8x1x518x515 .f32 :=
  concatenate S8x1x518x515 3
    [⟨S8x1x518x3, Host.reverse [3] (extractStridedSlice S8x1x518x3 ![0, 0, 0, 1] x slices_S8x1x518x512_S8x1x518x3_0_0_0_1)⟩,
     ⟨S8x1x518x512, x⟩] concatenates_S8x1x518x3_S8x1x518x512_S8x1x518x515_d3

/-- Three mirrored columns on the right: the array, then its columns 511 … 513 reversed. -/
def padRight (x : FVec F S8x1x518x515 .f32) : FVec F S8x1x518x518 .f32 :=
  concatenate S8x1x518x518 3
    [⟨S8x1x518x515, x⟩,
     ⟨S8x1x518x3, Host.reverse [3] (extractStridedSlice S8x1x518x3 ![0, 0, 0, 511] x slices_S8x1x518x515_S8x1x518x3_0_0_0_511)⟩]
    concatenates_S8x1x518x515_S8x1x518x3_S8x1x518x518_d3

/-- The reflect padding by three on both image axes. -/
def pad (x : FVec F S8x1x512x512 .f32) : FVec F S8x1x518x518 .f32 := padRight (padLeft (padBottom (padTop x)))

end Cert.ReferenceIdeal.RefTerm

end
-- ==== Proof.RefTerm.lean ====
/-
  The reference program's result as one term of its two arguments. Each image is made gray, the gray image is reflect
  padded by three, and for each of the 48 offsets (dy, dx) of the 7 × 7 window other than its centre the feature
  "the gray image is greater than the padded gray image shifted by (dy, dx)" is taken as 0 or 1; the 48 features are
  laid along the channel axis (three concatenations of sixteen, then the concatenation of the three, the offsets in
  row-major order). The result is the sum over all entries of the absolute difference of the two images' feature
  arrays, divided by a constant.
-/
import proofs.«131024_j38895223833176_2_alg».proof.Proof.RefPad

noncomputable section

namespace Cert.ReferenceIdeal.RefTerm

open Cert.ReferenceIdeal Cert.ReferenceIdeal.Gen Idealize.ShloMosaic

variable {F : FTy → Type} [FloatOps F]

/-- One census feature: 1 where the gray image `g` exceeds the padded gray image `gp` read at offset `off`, else 0. -/
def feat (g : FVec F S8x1x512x512 .f32) (gp : FVec F S8x1x518x518 .f32) (off : Fin 4 → Nat)
    (h : S8x1x518x518.Slices off S8x1x512x512) : FVec F S8x1x512x512 .f32 :=
  uitofp .f32 (cmpf .ogt g (extractStridedSlice S8x1x512x512 off gp h))

/-- Features 0 … 15 of the 48, along the channel axis. -/
def band0 (g : FVec F S8x1x512x512 .f32) (gp : FVec F S8x1x518x518 .f32) : FVec F S8x16x512x512 .f32 :=
  concatenate S8x16x512x512 1
    [⟨S8x1x512x512, feat g gp ![0, 0, 0, 0] slices_S8x1x518x518_S8x1x512x512_0_0_0_0⟩,
     ⟨S8x1x512x512, feat g gp ![0, 0, 0, 1] slices_S8x1x518x518_S8x1x512x512_0_0_0_1⟩,
     ⟨S8x1x512x512, feat g gp ![0, 0, 0, 2] slices_S8x1x518x518_S8x1x512x512_0_0_0_2⟩,
     ⟨S8x1x512x512, feat g gp ![0, 0, 0, 3] slices_S8x1x518x518_S8x1x512x512_0_0_0_3⟩,
     ⟨S8x1x512x512, feat g gp ![0, 0, 0, 4] slices_S8x1x518x518_S8x1x512x512_0_0_0_4⟩,
     ⟨S8x1x512x512, feat g gp ![0, 0, 0, 5] slices_S8x1x518x518_S8x1x512x512_0_0_0_5⟩,
     ⟨S8x1x512x512, feat g gp ![0, 0, 0, 6] slices_S8x1x518x518_S8x1x512x512_0_0_0_6⟩,
     ⟨S8x1x512x512, feat g gp ![0, 0, 1, 0] slices_S8x1x518x518_S8x1x512x512_0_0_1_0⟩,
     ⟨S8x1x512x512, feat g gp ![0, 0, 1, 1] slices_S8x1x518x518_S8x1x512x512_0_0_1_1⟩,
     ⟨S8x1x512x512, feat g gp ![0, 0, 1, 2] slices_S8x1x518x518_S8x1x512x512_0_0_1_2⟩,
     ⟨S8x1x512x512, feat g gp ![0, 0, 1, 3] slices_S8x1x518x518_S8x1x512x512_0_0_1_3⟩,
     ⟨S8x1x512x512, feat g gp ![0, 0, 1, 4] slices_S8x1x518x518_S8x1x512x512_0_0_1_4⟩,
     ⟨S8x1x512x512, feat g gp ![0, 0, 1, 5] slices_S8x1x518x518_S8x1x512x512_0_0_1_5⟩,
     ⟨S8x1x512x512, feat g gp ![0, 0, 1, 6] slices_S8x1x518x518_S8x1x512x512_0_0_1_6⟩,
     ⟨S8x1x512x512, feat g gp ![0, 0, 2, 0] slices_S8x1x518x518_S8x1x512x512_0_0_2_0⟩,
     ⟨S8x1x512x512, feat g gp ![0, 0, 2, 1] slices_S8x1x518x518_S8x1x512x512_0_0_2_1⟩]
    concatenates_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x16x512x512_d1

/-- Features 16 … 31 of the 48, along the channel axis. -/
def band1 (g : FVec F S8x1x512x512 .f32) (gp : FVec F S8x1x518x518 .f32) : FVec F S8x16x512x512 .f32 :=
  concatenate S8x16x512x512 1
    [⟨S8x1x512x512, feat g gp ![0, 0, 2, 2] slices_S8x1x518x518_S8x1x512x512_0_0_2_2⟩,
     ⟨S8x1x512x512, feat g gp ![0, 0, 2, 3] slices_S8x1x518x518_S8x1x512x512_0_0_2_3⟩,
     ⟨S8x1x512x512, feat g gp ![0, 0, 2, 4] slices_S8x1x518x518_S8x1x512x512_0_0_2_4⟩,
     ⟨S8x1x512x512, feat g gp ![0, 0, 2, 5] slices_S8x1x518x518_S8x1x512x512_0_0_2_5⟩,
     ⟨S8x1x512x512, feat g gp ![0, 0, 2, 6] slices_S8x1x518x518_S8x1x512x512_0_0_2_6⟩,
     ⟨S8x1x512x512, feat g gp ![0, 0, 3, 0] slices_S8x1x518x518_S8x1x512x512_0_0_3_0⟩,
     ⟨S8x1x512x512, feat g gp ![0, 0, 3, 1] slices_S8x1x518x518_S8x1x512x512_0_0_3_1⟩,
     ⟨S8x1x512x512, feat g gp ![0, 0, 3, 2] slices_S8x1x518x518_S8x1x512x512_0_0_3_2⟩,
     ⟨S8x1x512x512, feat g gp ![0, 0, 3, 4] slices_S8x1x518x518_S8x1x512x512_0_0_3_4⟩,
     ⟨S8x1x512x512, feat g gp ![0, 0, 3, 5] slices_S8x1x518x518_S8x1x512x512_0_0_3_5⟩,
     ⟨S8x1x512x512, feat g gp ![0, 0, 3, 6] slices_S8x1x518x518_S8x1x512x512_0_0_3_6⟩,
     ⟨S8x1x512x512, feat g gp ![0, 0, 4, 0] slices_S8x1x518x518_S8x1x512x512_0_0_4_0⟩,
     ⟨S8x1x512x512, feat g gp ![0, 0, 4, 1] slices_S8x1x518x518_S8x1x512x512_0_0_4_1⟩,
     ⟨S8x1x512x512, feat g gp ![0, 0, 4, 2] slices_S8x1x518x518_S8x1x512x512_0_0_4_2⟩,
     ⟨S8x1x512x512, feat g gp ![0, 0, 4, 3] slices_S8x1x518x518_S8x1x512x512_0_0_4_3⟩,
     ⟨S8x1x512x512, feat g gp ![0, 0, 4, 4] slices_S8x1x518x518_S8x1x512x512_0_0_4_4⟩]
    concatenates_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x16x512x512_d1

/-- Features 32 … 47 of the 48, along the channel axis. -/
def band2 (g : FVec F S8x1x512x512 .f32) (gp : FVec F S8x1x518x518 .f32) : FVec F S8x16x512x512 .f32 :=
  concatenate S8x16x512x512 1
    [⟨S8x1x512x512, feat g gp ![0, 0, 4, 5] slices_S8x1x518x518_S8x1x512x512_0_0_4_5⟩,
     ⟨S8x1x512x512, feat g gp ![0, 0, 4, 6] slices_S8x1x518x518_S8x1x512x512_0_0_4_6⟩,
     ⟨S8x1x512x512, feat g gp ![0, 0, 5, 0] slices_S8x1x518x518_S8x1x512x512_0_0_5_0⟩,
     ⟨S8x1x512x512, feat g gp ![0, 0, 5, 1] slices_S8x1x518x518_S8x1x512x512_0_0_5_1⟩,
     ⟨S8x1x512x512, feat g gp ![0, 0, 5, 2] slices_S8x1x518x518_S8x1x512x512_0_0_5_2⟩,
     ⟨S8x1x512x512, feat g gp ![0, 0, 5, 3] slices_S8x1x518x518_S8x1x512x512_0_0_5_3⟩,
     ⟨S8x1x512x512, feat g gp ![0, 0, 5, 4] slices_S8x1x518x518_S8x1x512x512_0_0_5_4⟩,
     ⟨S8x1x512x512, feat g gp ![0, 0, 5, 5] slices_S8x1x518x518_S8x1x512x512_0_0_5_5⟩,
     ⟨S8x1x512x512, feat g gp ![0, 0, 5, 6] slices_S8x1x518x518_S8x1x512x512_0_0_5_6⟩,
     ⟨S8x1x512x512, feat g gp ![0, 0, 6, 0] slices_S8x1x518x518_S8x1x512x512_0_0_6_0⟩,
     ⟨S8x1x512x512, feat g gp ![0, 0, 6, 1] slices_S8x1x518x518_S8x1x512x512_0_0_6_1⟩,
     ⟨S8x1x512x512, feat g gp ![0, 0, 6, 2] slices_S8x1x518x518_S8x1x512x512_0_0_6_2⟩,
     ⟨S8x1x512x512, feat g gp ![0, 0, 6, 3] slices_S8x1x518x518_S8x1x512x512_0_0_6_3⟩,
     ⟨S8x1x512x512, feat g gp ![0, 0, 6, 4] slices_S8x1x518x518_S8x1x512x512_0_0_6_4⟩,
     ⟨S8x1x512x512, feat g gp ![0, 0, 6, 5] slices_S8x1x518x518_S8x1x512x512_0_0_6_5⟩,
     ⟨S8x1x512x512, feat g gp ![0, 0, 6, 6] slices_S8x1x518x518_S8x1x512x512_0_0_6_6⟩]
    concatenates_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x16x512x512_d1

/-- The 48 features of a gray image and its padded copy, along the channel axis. -/
def censusOf (g : FVec F S8x1x512x512 .f32) (gp : FVec F S8x1x518x518 .f32) : FVec F S8x48x512x512 .f32 :=
  concatenate S8x48x512x512 1
    [⟨S8x16x512x512, band0 g gp⟩, ⟨S8x16x512x512, band1 g gp⟩, ⟨S8x16x512x512, band2 g gp⟩]
    concatenates_S8x16x512x512_S8x16x512x512_S8x16x512x512_S8x48x512x512_d1

/-- The census features of an image: those of its gray image against the gray image's reflect padding. -/
def census (x : FVec F S8x3x512x512 .f32) : FVec F S8x48x512x512 .f32 := censusOf (gray x) (pad (gray x))

/-- The reference's result: the sum of the absolute feature differences over all entries, divided by a constant. -/
def out (x y : FVec F S8x3x512x512 .f32) : FVec F S_ .f32 :=
  Host.divf (Host.reduceAdd (Host.absf (subf (census x) (census y))) (constant S_ .f32 0x00000000#32)
    reducesTo_S8x48x512x512_S_d0_1_2_3 h_S_) (constant S_ .f32 0x4CC00000#32)

end Cert.ReferenceIdeal.RefTerm

end
-- ==== Proof.RefSimp.lean ====
/-
  The simp set `ref_read`, registered here because a simp set must exist before the modules that add to it. It holds,
  for each stage of the reference program's operation list, the contents of the buffers later stages read as a term of
  the contents before the stage, and the fact that the stage leaves every buffer it does not write as it was.
-/
import Lean.Meta.Tactic.Simp.RegisterCommand

/-- Reads the contents after a run of stages at one buffer: each stage either wrote the buffer (its own equation) or
    left it alone (the buffer is not among those it writes, by computation). -/
register_simp_attr ref_read
-- ==== Proof.RefBase.lean ====
/-
  What the stages of the reference program's operation list are stated with: the two halves of a census feature (the
  comparison of the gray image against a shifted copy of its padding, and the truth value as 0 or 1), the closing mean of
  two feature arrays, and the fact that a property of every element of two lists holds of every element of their
  concatenation.
-/
import proofs.«131024_j38895223833176_2_alg».proof.Proof.RefTerm
import proofs.«131024_j38895223833176_2_alg».proof.Proof.RefSimp
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Where the gray image `g` exceeds the padded gray image `gp` read at offset `off`. -/
def gt (g : FVec F S8x1x512x512 .f32) (gp : FVec F S8x1x518x518 .f32) (off : Fin 4 → Nat)
    (h : S8x1x518x518.Slices off S8x1x512x512) : (⟨S8x1x512x512, .i1⟩ : BufTy).Contents (Elt F) :=
  cmpf .ogt g (extractStridedSlice S8x1x512x512 off gp h)

/-- A truth value as 0 or 1. -/
def ofMask (c : (⟨S8x1x512x512, .i1⟩ : BufTy).Contents (Elt F)) : FVec F S8x1x512x512 .f32 := uitofp .f32 c

/-- A census feature is the comparison, read as 0 or 1. -/
theorem feat_eq (g : FVec F S8x1x512x512 .f32) (gp : FVec F S8x1x518x518 .f32) (off : Fin 4 → Nat)
    (h : S8x1x518x518.Slices off S8x1x512x512) : RefTerm.feat g gp off h = ofMask (gt g gp off h) := rfl

/-- The sum over all entries of the absolute difference of two feature arrays, divided by the constant. -/
def meanAbs (a b : FVec F S8x48x512x512 .f32) : FVec F S_ .f32 :=
  Host.divf (Host.reduceAdd (Host.absf (subf a b)) (constant S_ .f32 0x00000000#32)
    reducesTo_S8x48x512x512_S_d0_1_2_3 h_S_) (constant S_ .f32 0x4CC00000#32)

/-- The reference's result term is that quantity of the two images' feature arrays. -/
theorem out_eq_meanAbs (x y : FVec F S8x3x512x512 .f32) :
    RefTerm.out x y = meanAbs (RefTerm.census x) (RefTerm.census y) := rfl

/-- What holds of every element of two lists holds of every element of their concatenation. -/
theorem forall_mem_append {α : Type} {p : α → Prop} {l₁ l₂ : List α} (h₁ : ∀ a ∈ l₁, p a) (h₂ : ∀ a ∈ l₂, p a) :
    ∀ a ∈ l₁ ++ l₂, p a := fun a h => (List.mem_append.mp h).elim (h₁ a) (h₂ a)

end Cert.ReferenceIdeal.RefRun

end
-- ==== Proof.RefOps0.lean ====
/- The reference program's statements 1 … 60 (its window main_part0) as lists of host operations, a call of an
   outlined function as the callee's operations over the call's buffers, cut into the program's stages. Of each stage:
   its operations use the device's buffers and allocate none; it writes the listed buffers and leaves every other as it
   was; and the buffers later stages read hold, after it, the stated term of the contents before it. The window is its
   stages run in order. -/
import proofs.«131024_j38895223833176_2_alg».proof.Proof.RefBase

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- 15 operations: an image made gray: three channel slices, each times its broadcast weight, added (and the padding call's integer operand). -/
abbrev gray_x : List (HloOp τ sig (Elt F)) :=
  [ unary main_arg0 main_v0 ((extractStridedSlice S8x1x512x512 ![0, 0, 0, 0] · slices_S8x3x512x512_S8x1x512x512_0_0_0_0) : (⟨S8x3x512x512, .f32⟩ : BufTy).Contents (Elt F) → (⟨S8x1x512x512, .f32⟩ : BufTy).Contents (Elt F)),
    nullary main_cst (constant S_ .f32 0x3E991687#32),
    unary main_cst main_v1 (broadcastInDim S8x1x512x512 ![] bcast_S_S8x1x512x512 : (⟨S_, .f32⟩ : BufTy).Contents (Elt F) → (⟨S8x1x512x512, .f32⟩ : BufTy).Contents (Elt F)),
    binary main_v1 main_v0 main_v2 (mulf : (⟨S8x1x512x512, .f32⟩ : BufTy).Contents (Elt F) → (⟨S8x1x512x512, .f32⟩ : BufTy).Contents (Elt F) → (⟨S8x1x512x512, .f32⟩ : BufTy).Contents (Elt F)),
    unary main_arg0 main_v3 ((extractStridedSlice S8x1x512x512 ![0, 1, 0, 0] · slices_S8x3x512x512_S8x1x512x512_0_1_0_0) : (⟨S8x3x512x512, .f32⟩ : BufTy).Contents (Elt F) → (⟨S8x1x512x512, .f32⟩ : BufTy).Contents (Elt F)),
    nullary main_cst_0 (constant S_ .f32 0x3F1645A2#32),
    unary main_cst_0 main_v4 (broadcastInDim S8x1x512x512 ![] bcast_S_S8x1x512x512 : (⟨S_, .f32⟩ : BufTy).Contents (Elt F) → (⟨S8x1x512x512, .f32⟩ : BufTy).Contents (Elt F)),
    binary main_v4 main_v3 main_v5 (mulf : (⟨S8x1x512x512, .f32⟩ : BufTy).Contents (Elt F) → (⟨S8x1x512x512, .f32⟩ : BufTy).Contents (Elt F) → (⟨S8x1x512x512, .f32⟩ : BufTy).Contents (Elt F)),
    binary main_v2 main_v5 main_v6 (addf : (⟨S8x1x512x512, .f32⟩ : BufTy).Contents (Elt F) → (⟨S8x1x512x512, .f32⟩ : BufTy).Contents (Elt F) → (⟨S8x1x512x512, .f32⟩ : BufTy).Contents (Elt F)),
    unary main_arg0 main_v7 ((extractStridedSlice S8x1x512x512 ![0, 2, 0, 0] · slices_S8x3x512x512_S8x1x512x512_0_2_0_0) : (⟨S8x3x512x512, .f32⟩ : BufTy).Contents (Elt F) → (⟨S8x1x512x512, .f32⟩ : BufTy).Contents (Elt F)),
    nullary main_cst_1 (constant S_ .f32 0x3DE978D5#32),
    unary main_cst_1 main_v8 (broadcastInDim S8x1x512x512 ![] bcast_S_S8x1x512x512 : (⟨S_, .f32⟩ : BufTy).Contents (Elt F) → (⟨S8x1x512x512, .f32⟩ : BufTy).Contents (Elt F)),
    binary main_v8 main_v7 main_v9 (mulf : (⟨S8x1x512x512, .f32⟩ : BufTy).Contents (Elt F) → (⟨S8x1x512x512, .f32⟩ : BufTy).Contents (Elt F) → (⟨S8x1x512x512, .f32⟩ : BufTy).Contents (Elt F)),
    binary main_v6 main_v9 main_v10 (addf : (⟨S8x1x512x512, .f32⟩ : BufTy).Contents (Elt F) → (⟨S8x1x512x512, .f32⟩ : BufTy).Contents (Elt F) → (⟨S8x1x512x512, .f32⟩ : BufTy).Contents (Elt F)),
    nullary main_c (constantI S_ 32 0#32) ]
theorem gray_x_sub : ∀ op ∈ (gray_x : List (HloOp τ sig (Elt F))), op.bufs ⊆ tcRefs τ sig :=
  List.forall_iff_forall_mem.mp (show (gray_x : List (HloOp τ sig (Elt F))).Forall (fun op => op.bufs ⊆ tcRefs τ sig) from ⟨unary_bufs_sub .., nullary_bufs_sub .., unary_bufs_sub .., binary_bufs_sub .., unary_bufs_sub .., nullary_bufs_sub .., unary_bufs_sub .., binary_bufs_sub .., binary_bufs_sub .., unary_bufs_sub .., nullary_bufs_sub .., unary_bufs_sub .., binary_bufs_sub .., binary_bufs_sub .., nullary_bufs_sub ..⟩)
theorem gray_x_fresh : ∀ op ∈ (gray_x : List (HloOp τ sig (Elt F))), op.fresh = ∅ := by
  intro _ h; (repeat (cases h with | head => rfl | tail _ h => ?_)); exact nomatch h
/-- The buffers the stage writes. -/
abbrev gray_x_W : List (Ref sig .tc) := [main_v0, main_cst, main_v1, main_v2, main_v3, main_cst_0, main_v4, main_v5, main_v6, main_v7, main_cst_1, main_v8, main_v9, main_v10, main_c]
theorem gray_x_writes : (gray_x : List (HloOp τ sig (Elt F))).Forall fun op => op.writes ⊆ (gray_x_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem gray_x_keep (W : Valuation τ sig (Elt F)) (r : Ref sig .tc) (h : r ∉ gray_x_W) :
    after gray_x W (no_index (Proc.devRef .tc r)) = W (Proc.devRef .tc r) :=
  after_of_writes_sub gray_x W gray_x_writes h
attribute [local irreducible] extractStridedSlice broadcastInDim in
set_option maxRecDepth 100000 in
set_option maxHeartbeats 4000000 in
@[ref_read] theorem gray_x_main_v10 (W : Valuation τ sig (Elt F)) :
    after gray_x W (no_index (Proc.devRef .tc main_v10)) = RefTerm.gray (F := F) (W (main_arg0 : DevRef τ sig)) := by
  simp only [gray_x]
  after_results_simp
  all_goals rfl

/-- 16 operations: the gray image's reflect padding: the padding function's sixteen operations over the call's buffers. -/
abbrev pad_x : List (HloOp τ sig (Elt F)) :=
  [ TRef.unary (.of main_v10 : StableHlo.TRef sig ⟨S8x1x512x512, .f32⟩) main_call0.v0 (extractStridedSlice S8x1x1x512 ![0, 0, 0, 0] · slices_S8x1x512x512_S8x1x1x512_0_0_0_0),
    TRef.unary (.of main_v10 : StableHlo.TRef sig ⟨S8x1x512x512, .f32⟩) main_call0.v1 (extractStridedSlice S8x1x3x512 ![0, 0, 1, 0] · slices_S8x1x512x512_S8x1x3x512_0_0_1_0),
    TRef.unary main_call0.v1 main_call0.call0.v0 (Host.reverse [2]),
    TRef.binary main_call0.call0.v0 (.of main_v10 : StableHlo.TRef sig ⟨S8x1x512x512, .f32⟩) main_call0.v3 (fun a b => concatenate S8x1x515x512 2 [⟨S8x1x3x512, a⟩, ⟨S8x1x512x512, b⟩] concatenates_S8x1x3x512_S8x1x512x512_S8x1x515x512_d2),
    TRef.unary main_call0.v3 main_call0.v4 (extractStridedSlice S8x1x1x512 ![0, 0, 514, 0] · slices_S8x1x515x512_S8x1x1x512_0_0_514_0),
    TRef.unary main_call0.v3 main_call0.v5 (extractStridedSlice S8x1x3x512 ![0, 0, 511, 0] · slices_S8x1x515x512_S8x1x3x512_0_0_511_0),
    TRef.unary main_call0.v5 main_call0.call1.v0 (Host.reverse [2]),
    TRef.binary main_call0.v3 main_call0.call1.v0 main_call0.v7 (fun a b => concatenate S8x1x518x512 2 [⟨S8x1x515x512, a⟩, ⟨S8x1x3x512, b⟩] concatenates_S8x1x515x512_S8x1x3x512_S8x1x518x512_d2),
    TRef.unary main_call0.v7 main_call0.v8 (extractStridedSlice S8x1x518x1 ![0, 0, 0, 0] · slices_S8x1x518x512_S8x1x518x1_0_0_0_0),
    TRef.unary main_call0.v7 main_call0.v9 (extractStridedSlice S8x1x518x3 ![0, 0, 0, 1] · slices_S8x1x518x512_S8x1x518x3_0_0_0_1),
    TRef.unary main_call0.v9 main_call0.call2.v0 (Host.reverse [3]),
    TRef.binary main_call0.call2.v0 main_call0.v7 main_call0.v11 (fun a b => concatenate S8x1x518x515 3 [⟨S8x1x518x3, a⟩, ⟨S8x1x518x512, b⟩] concatenates_S8x1x518x3_S8x1x518x512_S8x1x518x515_d3),
    TRef.unary main_call0.v11 main_call0.v12 (extractStridedSlice S8x1x518x1 ![0, 0, 0, 514] · slices_S8x1x518x515_S8x1x518x1_0_0_0_514),
    TRef.unary main_call0.v11 main_call0.v13 (extractStridedSlice S8x1x518x3 ![0, 0, 0, 511] · slices_S8x1x518x515_S8x1x518x3_0_0_0_511),
    TRef.unary main_call0.v13 main_call0.call3.v0 (Host.reverse [3]),
    TRef.binary main_call0.v11 main_call0.call3.v0 main_call0.v15 (fun a b => concatenate S8x1x518x518 3 [⟨S8x1x518x515, a⟩, ⟨S8x1x518x3, b⟩] concatenates_S8x1x518x515_S8x1x518x3_S8x1x518x518_d3) ]
theorem pad_x_sub : ∀ op ∈ (pad_x : List (HloOp τ sig (Elt F))), op.bufs ⊆ tcRefs τ sig :=
  List.forall_iff_forall_mem.mp (show (pad_x : List (HloOp τ sig (Elt F))).Forall (fun op => op.bufs ⊆ tcRefs τ sig) from ⟨unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub ..⟩)
theorem pad_x_fresh : ∀ op ∈ (pad_x : List (HloOp τ sig (Elt F))), op.fresh = ∅ := by
  intro _ h; (repeat (cases h with | head => rfl | tail _ h => ?_)); exact nomatch h
/-- The buffers the stage writes. -/
abbrev pad_x_W : List (Ref sig .tc) := [main_call0_v0, main_call0_v1, main_call0_v2, main_call0_v3, main_call0_v4, main_call0_v5, main_call0_v6, main_call0_v7, main_call0_v8, main_call0_v9, main_call0_v10, main_call0_v11, main_call0_v12, main_call0_v13, main_call0_v14, main_v11]
theorem pad_x_writes : (pad_x : List (HloOp τ sig (Elt F))).Forall fun op => op.writes ⊆ (pad_x_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem pad_x_keep (W : Valuation τ sig (Elt F)) (r : Ref sig .tc) (h : r ∉ pad_x_W) :
    after pad_x W (no_index (Proc.devRef .tc r)) = W (Proc.devRef .tc r) :=
  after_of_writes_sub pad_x W pad_x_writes h
attribute [local irreducible] concatenate extractStridedSlice Host.reverse in
set_option maxRecDepth 100000 in
set_option maxHeartbeats 4000000 in
@[ref_read] theorem pad_x_main_v11 (W : Valuation τ sig (Elt F)) :
    after pad_x W (no_index (Proc.devRef .tc main_v11)) = RefTerm.pad (F := F) (W (main_v10 : DevRef τ sig)) := by
  simp only [pad_x]
  after_results_simp
  all_goals rfl

/-- 3 operations: the census feature at window offset (0, 0): the padded gray image sliced there, the gray image compared against it, the truth value as 0 or 1. -/
abbrev feat_x0 : List (HloOp τ sig (Elt F)) :=
  [ unary main_v11 main_v12 ((extractStridedSlice S8x1x512x512 ![0, 0, 0, 0] · slices_S8x1x518x518_S8x1x512x512_0_0_0_0) : (⟨S8x1x518x518, .f32⟩ : BufTy).Contents (Elt F) → (⟨S8x1x512x512, .f32⟩ : BufTy).Contents (Elt F)),
    binary main_v10 main_v12 main_v13 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v13 main_v14 (uitofp .f32 : (⟨S8x1x512x512, .i1⟩ : BufTy).Contents (Elt F) → (⟨S8x1x512x512, .f32⟩ : BufTy).Contents (Elt F)) ]
theorem feat_x0_sub : ∀ op ∈ (feat_x0 : List (HloOp τ sig (Elt F))), op.bufs ⊆ tcRefs τ sig :=
  List.forall_iff_forall_mem.mp (show (feat_x0 : List (HloOp τ sig (Elt F))).Forall (fun op => op.bufs ⊆ tcRefs τ sig) from ⟨unary_bufs_sub .., binary_bufs_sub .., unary_bufs_sub ..⟩)
theorem feat_x0_fresh : ∀ op ∈ (feat_x0 : List (HloOp τ sig (Elt F))), op.fresh = ∅ := by
  intro _ h; (repeat (cases h with | head => rfl | tail _ h => ?_)); exact nomatch h
/-- The buffers the stage writes. -/
abbrev feat_x0_W : List (Ref sig .tc) := [main_v12, main_v13, main_v14]
theorem feat_x0_writes : (feat_x0 : List (HloOp τ sig (Elt F))).Forall fun op => op.writes ⊆ (feat_x0_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x0_keep (W : Valuation τ sig (Elt F)) (r : Ref sig .tc) (h : r ∉ feat_x0_W) :
    after feat_x0 W (no_index (Proc.devRef .tc r)) = W (Proc.devRef .tc r) :=
  after_of_writes_sub feat_x0 W feat_x0_writes h
attribute [local irreducible] extractStridedSlice in
set_option maxRecDepth 100000 in
set_option maxHeartbeats 4000000 in
@[ref_read] theorem feat_x0_main_v14 (W : Valuation τ sig (Elt F)) :
    after feat_x0 W (no_index (Proc.devRef .tc main_v14)) = RefTerm.feat (F := F) (W (main_v10 : DevRef τ sig)) (W (main_v11 : DevRef τ sig)) ![0, 0, 0, 0] slices_S8x1x518x518_S8x1x512x512_0_0_0_0 := by
  simp only [feat_x0]
  after_results_simp
  all_goals rfl

/-- 3 operations: the census feature at window offset (0, 1): the padded gray image sliced there, the gray image compared against it, the truth value as 0 or 1. -/
abbrev feat_x1 : List (HloOp τ sig (Elt F)) :=
  [ unary main_v11 main_v15 ((extractStridedSlice S8x1x512x512 ![0, 0, 0, 1] · slices_S8x1x518x518_S8x1x512x512_0_0_0_1) : (⟨S8x1x518x518, .f32⟩ : BufTy).Contents (Elt F) → (⟨S8x1x512x512, .f32⟩ : BufTy).Contents (Elt F)),
    binary main_v10 main_v15 main_v16 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v16 main_v17 (uitofp .f32 : (⟨S8x1x512x512, .i1⟩ : BufTy).Contents (Elt F) → (⟨S8x1x512x512, .f32⟩ : BufTy).Contents (Elt F)) ]
theorem feat_x1_sub : ∀ op ∈ (feat_x1 : List (HloOp τ sig (Elt F))), op.bufs ⊆ tcRefs τ sig :=
  List.forall_iff_forall_mem.mp (show (feat_x1 : List (HloOp τ sig (Elt F))).Forall (fun op => op.bufs ⊆ tcRefs τ sig) from ⟨unary_bufs_sub .., binary_bufs_sub .., unary_bufs_sub ..⟩)
theorem feat_x1_fresh : ∀ op ∈ (feat_x1 : List (HloOp τ sig (Elt F))), op.fresh = ∅ := by
  intro _ h; (repeat (cases h with | head => rfl | tail _ h => ?_)); exact nomatch h
/-- The buffers the stage writes. -/
abbrev feat_x1_W : List (Ref sig .tc) := [main_v15, main_v16, main_v17]
theorem feat_x1_writes : (feat_x1 : List (HloOp τ sig (Elt F))).Forall fun op => op.writes ⊆ (feat_x1_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x1_keep (W : Valuation τ sig (Elt F)) (r : Ref sig .tc) (h : r ∉ feat_x1_W) :
    after feat_x1 W (no_index (Proc.devRef .tc r)) = W (Proc.devRef .tc r) :=
  after_of_writes_sub feat_x1 W feat_x1_writes h
attribute [local irreducible] extractStridedSlice in
set_option maxRecDepth 100000 in
set_option maxHeartbeats 4000000 in
@[ref_read] theorem feat_x1_main_v17 (W : Valuation τ sig (Elt F)) :
    after feat_x1 W (no_index (Proc.devRef .tc main_v17)) = RefTerm.feat (F := F) (W (main_v10 : DevRef τ sig)) (W (main_v11 : DevRef τ sig)) ![0, 0, 0, 1] slices_S8x1x518x518_S8x1x512x512_0_0_0_1 := by
  simp only [feat_x1]
  after_results_simp
  all_goals rfl

/-- 3 operations: the census feature at window offset (0, 2): the padded gray image sliced there, the gray image compared against it, the truth value as 0 or 1. -/
abbrev feat_x2 : List (HloOp τ sig (Elt F)) :=
  [ unary main_v11 main_v18 ((extractStridedSlice S8x1x512x512 ![0, 0, 0, 2] · slices_S8x1x518x518_S8x1x512x512_0_0_0_2) : (⟨S8x1x518x518, .f32⟩ : BufTy).Contents (Elt F) → (⟨S8x1x512x512, .f32⟩ : BufTy).Contents (Elt F)),
    binary main_v10 main_v18 main_v19 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v19 main_v20 (uitofp .f32 : (⟨S8x1x512x512, .i1⟩ : BufTy).Contents (Elt F) → (⟨S8x1x512x512, .f32⟩ : BufTy).Contents (Elt F)) ]
theorem feat_x2_sub : ∀ op ∈ (feat_x2 : List (HloOp τ sig (Elt F))), op.bufs ⊆ tcRefs τ sig :=
  List.forall_iff_forall_mem.mp (show (feat_x2 : List (HloOp τ sig (Elt F))).Forall (fun op => op.bufs ⊆ tcRefs τ sig) from ⟨unary_bufs_sub .., binary_bufs_sub .., unary_bufs_sub ..⟩)
theorem feat_x2_fresh : ∀ op ∈ (feat_x2 : List (HloOp τ sig (Elt F))), op.fresh = ∅ := by
  intro _ h; (repeat (cases h with | head => rfl | tail _ h => ?_)); exact nomatch h
/-- The buffers the stage writes. -/
abbrev feat_x2_W : List (Ref sig .tc) := [main_v18, main_v19, main_v20]
theorem feat_x2_writes : (feat_x2 : List (HloOp τ sig (Elt F))).Forall fun op => op.writes ⊆ (feat_x2_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x2_keep (W : Valuation τ sig (Elt F)) (r : Ref sig .tc) (h : r ∉ feat_x2_W) :
    after feat_x2 W (no_index (Proc.devRef .tc r)) = W (Proc.devRef .tc r) :=
  after_of_writes_sub feat_x2 W feat_x2_writes h
attribute [local irreducible] extractStridedSlice in
set_option maxRecDepth 100000 in
set_option maxHeartbeats 4000000 in
@[ref_read] theorem feat_x2_main_v20 (W : Valuation τ sig (Elt F)) :
    after feat_x2 W (no_index (Proc.devRef .tc main_v20)) = RefTerm.feat (F := F) (W (main_v10 : DevRef τ sig)) (W (main_v11 : DevRef τ sig)) ![0, 0, 0, 2] slices_S8x1x518x518_S8x1x512x512_0_0_0_2 := by
  simp only [feat_x2]
  after_results_simp
  all_goals rfl

/-- 3 operations: the census feature at window offset (0, 3): the padded gray image sliced there, the gray image compared against it, the truth value as 0 or 1. -/
abbrev feat_x3 : List (HloOp τ sig (Elt F)) :=
  [ unary main_v11 main_v21 ((extractStridedSlice S8x1x512x512 ![0, 0, 0, 3] · slices_S8x1x518x518_S8x1x512x512_0_0_0_3) : (⟨S8x1x518x518, .f32⟩ : BufTy).Contents (Elt F) → (⟨S8x1x512x512, .f32⟩ : BufTy).Contents (Elt F)),
    binary main_v10 main_v21 main_v22 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v22 main_v23 (uitofp .f32 : (⟨S8x1x512x512, .i1⟩ : BufTy).Contents (Elt F) → (⟨S8x1x512x512, .f32⟩ : BufTy).Contents (Elt F)) ]
theorem feat_x3_sub : ∀ op ∈ (feat_x3 : List (HloOp τ sig (Elt F))), op.bufs ⊆ tcRefs τ sig :=
  List.forall_iff_forall_mem.mp (show (feat_x3 : List (HloOp τ sig (Elt F))).Forall (fun op => op.bufs ⊆ tcRefs τ sig) from ⟨unary_bufs_sub .., binary_bufs_sub .., unary_bufs_sub ..⟩)
theorem feat_x3_fresh : ∀ op ∈ (feat_x3 : List (HloOp τ sig (Elt F))), op.fresh = ∅ := by
  intro _ h; (repeat (cases h with | head => rfl | tail _ h => ?_)); exact nomatch h
/-- The buffers the stage writes. -/
abbrev feat_x3_W : List (Ref sig .tc) := [main_v21, main_v22, main_v23]
theorem feat_x3_writes : (feat_x3 : List (HloOp τ sig (Elt F))).Forall fun op => op.writes ⊆ (feat_x3_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x3_keep (W : Valuation τ sig (Elt F)) (r : Ref sig .tc) (h : r ∉ feat_x3_W) :
    after feat_x3 W (no_index (Proc.devRef .tc r)) = W (Proc.devRef .tc r) :=
  after_of_writes_sub feat_x3 W feat_x3_writes h
attribute [local irreducible] extractStridedSlice in
set_option maxRecDepth 100000 in
set_option maxHeartbeats 4000000 in
@[ref_read] theorem feat_x3_main_v23 (W : Valuation τ sig (Elt F)) :
    after feat_x3 W (no_index (Proc.devRef .tc main_v23)) = RefTerm.feat (F := F) (W (main_v10 : DevRef τ sig)) (W (main_v11 : DevRef τ sig)) ![0, 0, 0, 3] slices_S8x1x518x518_S8x1x512x512_0_0_0_3 := by
  simp only [feat_x3]
  after_results_simp
  all_goals rfl

/-- 3 operations: the census feature at window offset (0, 4): the padded gray image sliced there, the gray image compared against it, the truth value as 0 or 1. -/
abbrev feat_x4 : List (HloOp τ sig (Elt F)) :=
  [ unary main_v11 main_v24 ((extractStridedSlice S8x1x512x512 ![0, 0, 0, 4] · slices_S8x1x518x518_S8x1x512x512_0_0_0_4) : (⟨S8x1x518x518, .f32⟩ : BufTy).Contents (Elt F) → (⟨S8x1x512x512, .f32⟩ : BufTy).Contents (Elt F)),
    binary main_v10 main_v24 main_v25 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v25 main_v26 (uitofp .f32 : (⟨S8x1x512x512, .i1⟩ : BufTy).Contents (Elt F) → (⟨S8x1x512x512, .f32⟩ : BufTy).Contents (Elt F)) ]
theorem feat_x4_sub : ∀ op ∈ (feat_x4 : List (HloOp τ sig (Elt F))), op.bufs ⊆ tcRefs τ sig :=
  List.forall_iff_forall_mem.mp (show (feat_x4 : List (HloOp τ sig (Elt F))).Forall (fun op => op.bufs ⊆ tcRefs τ sig) from ⟨unary_bufs_sub .., binary_bufs_sub .., unary_bufs_sub ..⟩)
theorem feat_x4_fresh : ∀ op ∈ (feat_x4 : List (HloOp τ sig (Elt F))), op.fresh = ∅ := by
  intro _ h; (repeat (cases h with | head => rfl | tail _ h => ?_)); exact nomatch h
/-- The buffers the stage writes. -/
abbrev feat_x4_W : List (Ref sig .tc) := [main_v24, main_v25, main_v26]
theorem feat_x4_writes : (feat_x4 : List (HloOp τ sig (Elt F))).Forall fun op => op.writes ⊆ (feat_x4_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x4_keep (W : Valuation τ sig (Elt F)) (r : Ref sig .tc) (h : r ∉ feat_x4_W) :
    after feat_x4 W (no_index (Proc.devRef .tc r)) = W (Proc.devRef .tc r) :=
  after_of_writes_sub feat_x4 W feat_x4_writes h
attribute [local irreducible] extractStridedSlice in
set_option maxRecDepth 100000 in
set_option maxHeartbeats 4000000 in
@[ref_read] theorem feat_x4_main_v26 (W : Valuation τ sig (Elt F)) :
    after feat_x4 W (no_index (Proc.devRef .tc main_v26)) = RefTerm.feat (F := F) (W (main_v10 : DevRef τ sig)) (W (main_v11 : DevRef τ sig)) ![0, 0, 0, 4] slices_S8x1x518x518_S8x1x512x512_0_0_0_4 := by
  simp only [feat_x4]
  after_results_simp
  all_goals rfl

/-- 3 operations: the census feature at window offset (0, 5): the padded gray image sliced there, the gray image compared against it, the truth value as 0 or 1. -/
abbrev feat_x5 : List (HloOp τ sig (Elt F)) :=
  [ unary main_v11 main_v27 ((extractStridedSlice S8x1x512x512 ![0, 0, 0, 5] · slices_S8x1x518x518_S8x1x512x512_0_0_0_5) : (⟨S8x1x518x518, .f32⟩ : BufTy).Contents (Elt F) → (⟨S8x1x512x512, .f32⟩ : BufTy).Contents (Elt F)),
    binary main_v10 main_v27 main_v28 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v28 main_v29 (uitofp .f32 : (⟨S8x1x512x512, .i1⟩ : BufTy).Contents (Elt F) → (⟨S8x1x512x512, .f32⟩ : BufTy).Contents (Elt F)) ]
theorem feat_x5_sub : ∀ op ∈ (feat_x5 : List (HloOp τ sig (Elt F))), op.bufs ⊆ tcRefs τ sig :=
  List.forall_iff_forall_mem.mp (show (feat_x5 : List (HloOp τ sig (Elt F))).Forall (fun op => op.bufs ⊆ tcRefs τ sig) from ⟨unary_bufs_sub .., binary_bufs_sub .., unary_bufs_sub ..⟩)
theorem feat_x5_fresh : ∀ op ∈ (feat_x5 : List (HloOp τ sig (Elt F))), op.fresh = ∅ := by
  intro _ h; (repeat (cases h with | head => rfl | tail _ h => ?_)); exact nomatch h
/-- The buffers the stage writes. -/
abbrev feat_x5_W : List (Ref sig .tc) := [main_v27, main_v28, main_v29]
theorem feat_x5_writes : (feat_x5 : List (HloOp τ sig (Elt F))).Forall fun op => op.writes ⊆ (feat_x5_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x5_keep (W : Valuation τ sig (Elt F)) (r : Ref sig .tc) (h : r ∉ feat_x5_W) :
    after feat_x5 W (no_index (Proc.devRef .tc r)) = W (Proc.devRef .tc r) :=
  after_of_writes_sub feat_x5 W feat_x5_writes h
attribute [local irreducible] extractStridedSlice in
set_option maxRecDepth 100000 in
set_option maxHeartbeats 4000000 in
@[ref_read] theorem feat_x5_main_v29 (W : Valuation τ sig (Elt F)) :
    after feat_x5 W (no_index (Proc.devRef .tc main_v29)) = RefTerm.feat (F := F) (W (main_v10 : DevRef τ sig)) (W (main_v11 : DevRef τ sig)) ![0, 0, 0, 5] slices_S8x1x518x518_S8x1x512x512_0_0_0_5 := by
  simp only [feat_x5]
  after_results_simp
  all_goals rfl

/-- 3 operations: the census feature at window offset (0, 6): the padded gray image sliced there, the gray image compared against it, the truth value as 0 or 1. -/
abbrev feat_x6 : List (HloOp τ sig (Elt F)) :=
  [ unary main_v11 main_v30 ((extractStridedSlice S8x1x512x512 ![0, 0, 0, 6] · slices_S8x1x518x518_S8x1x512x512_0_0_0_6) : (⟨S8x1x518x518, .f32⟩ : BufTy).Contents (Elt F) → (⟨S8x1x512x512, .f32⟩ : BufTy).Contents (Elt F)),
    binary main_v10 main_v30 main_v31 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v31 main_v32 (uitofp .f32 : (⟨S8x1x512x512, .i1⟩ : BufTy).Contents (Elt F) → (⟨S8x1x512x512, .f32⟩ : BufTy).Contents (Elt F)) ]
theorem feat_x6_sub : ∀ op ∈ (feat_x6 : List (HloOp τ sig (Elt F))), op.bufs ⊆ tcRefs τ sig :=
  List.forall_iff_forall_mem.mp (show (feat_x6 : List (HloOp τ sig (Elt F))).Forall (fun op => op.bufs ⊆ tcRefs τ sig) from ⟨unary_bufs_sub .., binary_bufs_sub .., unary_bufs_sub ..⟩)
theorem feat_x6_fresh : ∀ op ∈ (feat_x6 : List (HloOp τ sig (Elt F))), op.fresh = ∅ := by
  intro _ h; (repeat (cases h with | head => rfl | tail _ h => ?_)); exact nomatch h
/-- The buffers the stage writes. -/
abbrev feat_x6_W : List (Ref sig .tc) := [main_v30, main_v31, main_v32]
theorem feat_x6_writes : (feat_x6 : List (HloOp τ sig (Elt F))).Forall fun op => op.writes ⊆ (feat_x6_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x6_keep (W : Valuation τ sig (Elt F)) (r : Ref sig .tc) (h : r ∉ feat_x6_W) :
    after feat_x6 W (no_index (Proc.devRef .tc r)) = W (Proc.devRef .tc r) :=
  after_of_writes_sub feat_x6 W feat_x6_writes h
attribute [local irreducible] extractStridedSlice in
set_option maxRecDepth 100000 in
set_option maxHeartbeats 4000000 in
@[ref_read] theorem feat_x6_main_v32 (W : Valuation τ sig (Elt F)) :
    after feat_x6 W (no_index (Proc.devRef .tc main_v32)) = RefTerm.feat (F := F) (W (main_v10 : DevRef τ sig)) (W (main_v11 : DevRef τ sig)) ![0, 0, 0, 6] slices_S8x1x518x518_S8x1x512x512_0_0_0_6 := by
  simp only [feat_x6]
  after_results_simp
  all_goals rfl

/-- 3 operations: the census feature at window offset (1, 0): the padded gray image sliced there, the gray image compared against it, the truth value as 0 or 1. -/
abbrev feat_x7 : List (HloOp τ sig (Elt F)) :=
  [ unary main_v11 main_v33 ((extractStridedSlice S8x1x512x512 ![0, 0, 1, 0] · slices_S8x1x518x518_S8x1x512x512_0_0_1_0) : (⟨S8x1x518x518, .f32⟩ : BufTy).Contents (Elt F) → (⟨S8x1x512x512, .f32⟩ : BufTy).Contents (Elt F)),
    binary main_v10 main_v33 main_v34 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v34 main_v35 (uitofp .f32 : (⟨S8x1x512x512, .i1⟩ : BufTy).Contents (Elt F) → (⟨S8x1x512x512, .f32⟩ : BufTy).Contents (Elt F)) ]
theorem feat_x7_sub : ∀ op ∈ (feat_x7 : List (HloOp τ sig (Elt F))), op.bufs ⊆ tcRefs τ sig :=
  List.forall_iff_forall_mem.mp (show (feat_x7 : List (HloOp τ sig (Elt F))).Forall (fun op => op.bufs ⊆ tcRefs τ sig) from ⟨unary_bufs_sub .., binary_bufs_sub .., unary_bufs_sub ..⟩)
theorem feat_x7_fresh : ∀ op ∈ (feat_x7 : List (HloOp τ sig (Elt F))), op.fresh = ∅ := by
  intro _ h; (repeat (cases h with | head => rfl | tail _ h => ?_)); exact nomatch h
/-- The buffers the stage writes. -/
abbrev feat_x7_W : List (Ref sig .tc) := [main_v33, main_v34, main_v35]
theorem feat_x7_writes : (feat_x7 : List (HloOp τ sig (Elt F))).Forall fun op => op.writes ⊆ (feat_x7_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x7_keep (W : Valuation τ sig (Elt F)) (r : Ref sig .tc) (h : r ∉ feat_x7_W) :
    after feat_x7 W (no_index (Proc.devRef .tc r)) = W (Proc.devRef .tc r) :=
  after_of_writes_sub feat_x7 W feat_x7_writes h
attribute [local irreducible] extractStridedSlice in
set_option maxRecDepth 100000 in
set_option maxHeartbeats 4000000 in
@[ref_read] theorem feat_x7_main_v35 (W : Valuation τ sig (Elt F)) :
    after feat_x7 W (no_index (Proc.devRef .tc main_v35)) = RefTerm.feat (F := F) (W (main_v10 : DevRef τ sig)) (W (main_v11 : DevRef τ sig)) ![0, 0, 1, 0] slices_S8x1x518x518_S8x1x512x512_0_0_1_0 := by
  simp only [feat_x7]
  after_results_simp
  all_goals rfl

/-- 3 operations: the census feature at window offset (1, 1): the padded gray image sliced there, the gray image compared against it, the truth value as 0 or 1. -/
abbrev feat_x8 : List (HloOp τ sig (Elt F)) :=
  [ unary main_v11 main_v36 ((extractStridedSlice S8x1x512x512 ![0, 0, 1, 1] · slices_S8x1x518x518_S8x1x512x512_0_0_1_1) : (⟨S8x1x518x518, .f32⟩ : BufTy).Contents (Elt F) → (⟨S8x1x512x512, .f32⟩ : BufTy).Contents (Elt F)),
    binary main_v10 main_v36 main_v37 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v37 main_v38 (uitofp .f32 : (⟨S8x1x512x512, .i1⟩ : BufTy).Contents (Elt F) → (⟨S8x1x512x512, .f32⟩ : BufTy).Contents (Elt F)) ]
theorem feat_x8_sub : ∀ op ∈ (feat_x8 : List (HloOp τ sig (Elt F))), op.bufs ⊆ tcRefs τ sig :=
  List.forall_iff_forall_mem.mp (show (feat_x8 : List (HloOp τ sig (Elt F))).Forall (fun op => op.bufs ⊆ tcRefs τ sig) from ⟨unary_bufs_sub .., binary_bufs_sub .., unary_bufs_sub ..⟩)
theorem feat_x8_fresh : ∀ op ∈ (feat_x8 : List (HloOp τ sig (Elt F))), op.fresh = ∅ := by
  intro _ h; (repeat (cases h with | head => rfl | tail _ h => ?_)); exact nomatch h
/-- The buffers the stage writes. -/
abbrev feat_x8_W : List (Ref sig .tc) := [main_v36, main_v37, main_v38]
theorem feat_x8_writes : (feat_x8 : List (HloOp τ sig (Elt F))).Forall fun op => op.writes ⊆ (feat_x8_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x8_keep (W : Valuation τ sig (Elt F)) (r : Ref sig .tc) (h : r ∉ feat_x8_W) :
    after feat_x8 W (no_index (Proc.devRef .tc r)) = W (Proc.devRef .tc r) :=
  after_of_writes_sub feat_x8 W feat_x8_writes h
attribute [local irreducible] extractStridedSlice in
set_option maxRecDepth 100000 in
set_option maxHeartbeats 4000000 in
@[ref_read] theorem feat_x8_main_v38 (W : Valuation τ sig (Elt F)) :
    after feat_x8 W (no_index (Proc.devRef .tc main_v38)) = RefTerm.feat (F := F) (W (main_v10 : DevRef τ sig)) (W (main_v11 : DevRef τ sig)) ![0, 0, 1, 1] slices_S8x1x518x518_S8x1x512x512_0_0_1_1 := by
  simp only [feat_x8]
  after_results_simp
  all_goals rfl

/-- 3 operations: the census feature at window offset (1, 2): the padded gray image sliced there, the gray image compared against it, the truth value as 0 or 1. -/
abbrev feat_x9 : List (HloOp τ sig (Elt F)) :=
  [ unary main_v11 main_v39 ((extractStridedSlice S8x1x512x512 ![0, 0, 1, 2] · slices_S8x1x518x518_S8x1x512x512_0_0_1_2) : (⟨S8x1x518x518, .f32⟩ : BufTy).Contents (Elt F) → (⟨S8x1x512x512, .f32⟩ : BufTy).Contents (Elt F)),
    binary main_v10 main_v39 main_v40 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v40 main_v41 (uitofp .f32 : (⟨S8x1x512x512, .i1⟩ : BufTy).Contents (Elt F) → (⟨S8x1x512x512, .f32⟩ : BufTy).Contents (Elt F)) ]
theorem feat_x9_sub : ∀ op ∈ (feat_x9 : List (HloOp τ sig (Elt F))), op.bufs ⊆ tcRefs τ sig :=
  List.forall_iff_forall_mem.mp (show (feat_x9 : List (HloOp τ sig (Elt F))).Forall (fun op => op.bufs ⊆ tcRefs τ sig) from ⟨unary_bufs_sub .., binary_bufs_sub .., unary_bufs_sub ..⟩)
theorem feat_x9_fresh : ∀ op ∈ (feat_x9 : List (HloOp τ sig (Elt F))), op.fresh = ∅ := by
  intro _ h; (repeat (cases h with | head => rfl | tail _ h => ?_)); exact nomatch h
/-- The buffers the stage writes. -/
abbrev feat_x9_W : List (Ref sig .tc) := [main_v39, main_v40, main_v41]
theorem feat_x9_writes : (feat_x9 : List (HloOp τ sig (Elt F))).Forall fun op => op.writes ⊆ (feat_x9_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x9_keep (W : Valuation τ sig (Elt F)) (r : Ref sig .tc) (h : r ∉ feat_x9_W) :
    after feat_x9 W (no_index (Proc.devRef .tc r)) = W (Proc.devRef .tc r) :=
  after_of_writes_sub feat_x9 W feat_x9_writes h
attribute [local irreducible] extractStridedSlice in
set_option maxRecDepth 100000 in
set_option maxHeartbeats 4000000 in
@[ref_read] theorem feat_x9_main_v41 (W : Valuation τ sig (Elt F)) :
    after feat_x9 W (no_index (Proc.devRef .tc main_v41)) = RefTerm.feat (F := F) (W (main_v10 : DevRef τ sig)) (W (main_v11 : DevRef τ sig)) ![0, 0, 1, 2] slices_S8x1x518x518_S8x1x512x512_0_0_1_2 := by
  simp only [feat_x9]
  after_results_simp
  all_goals rfl

/-- 3 operations: the census feature at window offset (1, 3): the padded gray image sliced there, the gray image compared against it, the truth value as 0 or 1. -/
abbrev feat_x10 : List (HloOp τ sig (Elt F)) :=
  [ unary main_v11 main_v42 ((extractStridedSlice S8x1x512x512 ![0, 0, 1, 3] · slices_S8x1x518x518_S8x1x512x512_0_0_1_3) : (⟨S8x1x518x518, .f32⟩ : BufTy).Contents (Elt F) → (⟨S8x1x512x512, .f32⟩ : BufTy).Contents (Elt F)),
    binary main_v10 main_v42 main_v43 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v43 main_v44 (uitofp .f32 : (⟨S8x1x512x512, .i1⟩ : BufTy).Contents (Elt F) → (⟨S8x1x512x512, .f32⟩ : BufTy).Contents (Elt F)) ]
theorem feat_x10_sub : ∀ op ∈ (feat_x10 : List (HloOp τ sig (Elt F))), op.bufs ⊆ tcRefs τ sig :=
  List.forall_iff_forall_mem.mp (show (feat_x10 : List (HloOp τ sig (Elt F))).Forall (fun op => op.bufs ⊆ tcRefs τ sig) from ⟨unary_bufs_sub .., binary_bufs_sub .., unary_bufs_sub ..⟩)
theorem feat_x10_fresh : ∀ op ∈ (feat_x10 : List (HloOp τ sig (Elt F))), op.fresh = ∅ := by
  intro _ h; (repeat (cases h with | head => rfl | tail _ h => ?_)); exact nomatch h
/-- The buffers the stage writes. -/
abbrev feat_x10_W : List (Ref sig .tc) := [main_v42, main_v43, main_v44]
theorem feat_x10_writes : (feat_x10 : List (HloOp τ sig (Elt F))).Forall fun op => op.writes ⊆ (feat_x10_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x10_keep (W : Valuation τ sig (Elt F)) (r : Ref sig .tc) (h : r ∉ feat_x10_W) :
    after feat_x10 W (no_index (Proc.devRef .tc r)) = W (Proc.devRef .tc r) :=
  after_of_writes_sub feat_x10 W feat_x10_writes h
attribute [local irreducible] extractStridedSlice in
set_option maxRecDepth 100000 in
set_option maxHeartbeats 4000000 in
@[ref_read] theorem feat_x10_main_v44 (W : Valuation τ sig (Elt F)) :
    after feat_x10 W (no_index (Proc.devRef .tc main_v44)) = RefTerm.feat (F := F) (W (main_v10 : DevRef τ sig)) (W (main_v11 : DevRef τ sig)) ![0, 0, 1, 3] slices_S8x1x518x518_S8x1x512x512_0_0_1_3 := by
  simp only [feat_x10]
  after_results_simp
  all_goals rfl

/-- 3 operations: the census feature at window offset (1, 4): the padded gray image sliced there, the gray image compared against it, the truth value as 0 or 1. -/
abbrev feat_x11 : List (HloOp τ sig (Elt F)) :=
  [ unary main_v11 main_v45 ((extractStridedSlice S8x1x512x512 ![0, 0, 1, 4] · slices_S8x1x518x518_S8x1x512x512_0_0_1_4) : (⟨S8x1x518x518, .f32⟩ : BufTy).Contents (Elt F) → (⟨S8x1x512x512, .f32⟩ : BufTy).Contents (Elt F)),
    binary main_v10 main_v45 main_v46 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v46 main_v47 (uitofp .f32 : (⟨S8x1x512x512, .i1⟩ : BufTy).Contents (Elt F) → (⟨S8x1x512x512, .f32⟩ : BufTy).Contents (Elt F)) ]
theorem feat_x11_sub : ∀ op ∈ (feat_x11 : List (HloOp τ sig (Elt F))), op.bufs ⊆ tcRefs τ sig :=
  List.forall_iff_forall_mem.mp (show (feat_x11 : List (HloOp τ sig (Elt F))).Forall (fun op => op.bufs ⊆ tcRefs τ sig) from ⟨unary_bufs_sub .., binary_bufs_sub .., unary_bufs_sub ..⟩)
theorem feat_x11_fresh : ∀ op ∈ (feat_x11 : List (HloOp τ sig (Elt F))), op.fresh = ∅ := by
  intro _ h; (repeat (cases h with | head => rfl | tail _ h => ?_)); exact nomatch h
/-- The buffers the stage writes. -/
abbrev feat_x11_W : List (Ref sig .tc) := [main_v45, main_v46, main_v47]
theorem feat_x11_writes : (feat_x11 : List (HloOp τ sig (Elt F))).Forall fun op => op.writes ⊆ (feat_x11_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x11_keep (W : Valuation τ sig (Elt F)) (r : Ref sig .tc) (h : r ∉ feat_x11_W) :
    after feat_x11 W (no_index (Proc.devRef .tc r)) = W (Proc.devRef .tc r) :=
  after_of_writes_sub feat_x11 W feat_x11_writes h
attribute [local irreducible] extractStridedSlice in
set_option maxRecDepth 100000 in
set_option maxHeartbeats 4000000 in
@[ref_read] theorem feat_x11_main_v47 (W : Valuation τ sig (Elt F)) :
    after feat_x11 W (no_index (Proc.devRef .tc main_v47)) = RefTerm.feat (F := F) (W (main_v10 : DevRef τ sig)) (W (main_v11 : DevRef τ sig)) ![0, 0, 1, 4] slices_S8x1x518x518_S8x1x512x512_0_0_1_4 := by
  simp only [feat_x11]
  after_results_simp
  all_goals rfl

/-- 3 operations: the census feature at window offset (1, 5): the padded gray image sliced there, the gray image compared against it, the truth value as 0 or 1. -/
abbrev feat_x12 : List (HloOp τ sig (Elt F)) :=
  [ unary main_v11 main_v48 ((extractStridedSlice S8x1x512x512 ![0, 0, 1, 5] · slices_S8x1x518x518_S8x1x512x512_0_0_1_5) : (⟨S8x1x518x518, .f32⟩ : BufTy).Contents (Elt F) → (⟨S8x1x512x512, .f32⟩ : BufTy).Contents (Elt F)),
    binary main_v10 main_v48 main_v49 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v49 main_v50 (uitofp .f32 : (⟨S8x1x512x512, .i1⟩ : BufTy).Contents (Elt F) → (⟨S8x1x512x512, .f32⟩ : BufTy).Contents (Elt F)) ]
theorem feat_x12_sub : ∀ op ∈ (feat_x12 : List (HloOp τ sig (Elt F))), op.bufs ⊆ tcRefs τ sig :=
  List.forall_iff_forall_mem.mp (show (feat_x12 : List (HloOp τ sig (Elt F))).Forall (fun op => op.bufs ⊆ tcRefs τ sig) from ⟨unary_bufs_sub .., binary_bufs_sub .., unary_bufs_sub ..⟩)
theorem feat_x12_fresh : ∀ op ∈ (feat_x12 : List (HloOp τ sig (Elt F))), op.fresh = ∅ := by
  intro _ h; (repeat (cases h with | head => rfl | tail _ h => ?_)); exact nomatch h
/-- The buffers the stage writes. -/
abbrev feat_x12_W : List (Ref sig .tc) := [main_v48, main_v49, main_v50]
theorem feat_x12_writes : (feat_x12 : List (HloOp τ sig (Elt F))).Forall fun op => op.writes ⊆ (feat_x12_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x12_keep (W : Valuation τ sig (Elt F)) (r : Ref sig .tc) (h : r ∉ feat_x12_W) :
    after feat_x12 W (no_index (Proc.devRef .tc r)) = W (Proc.devRef .tc r) :=
  after_of_writes_sub feat_x12 W feat_x12_writes h
attribute [local irreducible] extractStridedSlice in
set_option maxRecDepth 100000 in
set_option maxHeartbeats 4000000 in
@[ref_read] theorem feat_x12_main_v50 (W : Valuation τ sig (Elt F)) :
    after feat_x12 W (no_index (Proc.devRef .tc main_v50)) = RefTerm.feat (F := F) (W (main_v10 : DevRef τ sig)) (W (main_v11 : DevRef τ sig)) ![0, 0, 1, 5] slices_S8x1x518x518_S8x1x512x512_0_0_1_5 := by
  simp only [feat_x12]
  after_results_simp
  all_goals rfl

/-- 3 operations: the census feature at window offset (1, 6): the padded gray image sliced there, the gray image compared against it, the truth value as 0 or 1. -/
abbrev feat_x13 : List (HloOp τ sig (Elt F)) :=
  [ unary main_v11 main_v51 ((extractStridedSlice S8x1x512x512 ![0, 0, 1, 6] · slices_S8x1x518x518_S8x1x512x512_0_0_1_6) : (⟨S8x1x518x518, .f32⟩ : BufTy).Contents (Elt F) → (⟨S8x1x512x512, .f32⟩ : BufTy).Contents (Elt F)),
    binary main_v10 main_v51 main_v52 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v52 main_v53 (uitofp .f32 : (⟨S8x1x512x512, .i1⟩ : BufTy).Contents (Elt F) → (⟨S8x1x512x512, .f32⟩ : BufTy).Contents (Elt F)) ]
theorem feat_x13_sub : ∀ op ∈ (feat_x13 : List (HloOp τ sig (Elt F))), op.bufs ⊆ tcRefs τ sig :=
  List.forall_iff_forall_mem.mp (show (feat_x13 : List (HloOp τ sig (Elt F))).Forall (fun op => op.bufs ⊆ tcRefs τ sig) from ⟨unary_bufs_sub .., binary_bufs_sub .., unary_bufs_sub ..⟩)
theorem feat_x13_fresh : ∀ op ∈ (feat_x13 : List (HloOp τ sig (Elt F))), op.fresh = ∅ := by
  intro _ h; (repeat (cases h with | head => rfl | tail _ h => ?_)); exact nomatch h
/-- The buffers the stage writes. -/
abbrev feat_x13_W : List (Ref sig .tc) := [main_v51, main_v52, main_v53]
theorem feat_x13_writes : (feat_x13 : List (HloOp τ sig (Elt F))).Forall fun op => op.writes ⊆ (feat_x13_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x13_keep (W : Valuation τ sig (Elt F)) (r : Ref sig .tc) (h : r ∉ feat_x13_W) :
    after feat_x13 W (no_index (Proc.devRef .tc r)) = W (Proc.devRef .tc r) :=
  after_of_writes_sub feat_x13 W feat_x13_writes h
attribute [local irreducible] extractStridedSlice in
set_option maxRecDepth 100000 in
set_option maxHeartbeats 4000000 in
@[ref_read] theorem feat_x13_main_v53 (W : Valuation τ sig (Elt F)) :
    after feat_x13 W (no_index (Proc.devRef .tc main_v53)) = RefTerm.feat (F := F) (W (main_v10 : DevRef τ sig)) (W (main_v11 : DevRef τ sig)) ![0, 0, 1, 6] slices_S8x1x518x518_S8x1x512x512_0_0_1_6 := by
  simp only [feat_x13]
  after_results_simp
  all_goals rfl

/-- 2 operations: the census feature at window offset (2, 0): the padded gray image sliced there, the gray image compared against it, the truth value as 0 or 1 (its slice and comparison). -/
abbrev feat_x14a : List (HloOp τ sig (Elt F)) :=
  [ unary main_v11 main_v54 ((extractStridedSlice S8x1x512x512 ![0, 0, 2, 0] · slices_S8x1x518x518_S8x1x512x512_0_0_2_0) : (⟨S8x1x518x518, .f32⟩ : BufTy).Contents (Elt F) → (⟨S8x1x512x512, .f32⟩ : BufTy).Contents (Elt F)),
    binary main_v10 main_v54 main_v55 (cmpf .ogt : (⟨S8x1x512x512, .f32⟩ : BufTy).Contents (Elt F) → (⟨S8x1x512x512, .f32⟩ : BufTy).Contents (Elt F) → (⟨S8x1x512x512, .i1⟩ : BufTy).Contents (Elt F)) ]
theorem feat_x14a_sub : ∀ op ∈ (feat_x14a : List (HloOp τ sig (Elt F))), op.bufs ⊆ tcRefs τ sig :=
  List.forall_iff_forall_mem.mp (show (feat_x14a : List (HloOp τ sig (Elt F))).Forall (fun op => op.bufs ⊆ tcRefs τ sig) from ⟨unary_bufs_sub .., binary_bufs_sub ..⟩)
theorem feat_x14a_fresh : ∀ op ∈ (feat_x14a : List (HloOp τ sig (Elt F))), op.fresh = ∅ := by
  intro _ h; (repeat (cases h with | head => rfl | tail _ h => ?_)); exact nomatch h
/-- The buffers the stage writes. -/
abbrev feat_x14a_W : List (Ref sig .tc) := [main_v54, main_v55]
theorem feat_x14a_writes : (feat_x14a : List (HloOp τ sig (Elt F))).Forall fun op => op.writes ⊆ (feat_x14a_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x14a_keep (W : Valuation τ sig (Elt F)) (r : Ref sig .tc) (h : r ∉ feat_x14a_W) :
    after feat_x14a W (no_index (Proc.devRef .tc r)) = W (Proc.devRef .tc r) :=
  after_of_writes_sub feat_x14a W feat_x14a_writes h
attribute [local irreducible] extractStridedSlice in
set_option maxRecDepth 100000 in
set_option maxHeartbeats 4000000 in
@[ref_read] theorem feat_x14a_main_v55 (W : Valuation τ sig (Elt F)) :
    after feat_x14a W (no_index (Proc.devRef .tc main_v55)) = gt (F := F) (W (main_v10 : DevRef τ sig)) (W (main_v11 : DevRef τ sig)) ![0, 0, 2, 0] slices_S8x1x518x518_S8x1x512x512_0_0_2_0 := by
  simp only [feat_x14a]
  after_results_simp
  all_goals rfl

/-- Window main_part0's 75 operations, as printed. -/
abbrev ops0_flat : List (HloOp τ sig (Elt F)) :=
  [ unary main_arg0 main_v0 ((extractStridedSlice S8x1x512x512 ![0, 0, 0, 0] · slices_S8x3x512x512_S8x1x512x512_0_0_0_0) : (⟨S8x3x512x512, .f32⟩ : BufTy).Contents (Elt F) → (⟨S8x1x512x512, .f32⟩ : BufTy).Contents (Elt F)),
    nullary main_cst (constant S_ .f32 0x3E991687#32),
    unary main_cst main_v1 (broadcastInDim S8x1x512x512 ![] bcast_S_S8x1x512x512 : (⟨S_, .f32⟩ : BufTy).Contents (Elt F) → (⟨S8x1x512x512, .f32⟩ : BufTy).Contents (Elt F)),
    binary main_v1 main_v0 main_v2 (mulf : (⟨S8x1x512x512, .f32⟩ : BufTy).Contents (Elt F) → (⟨S8x1x512x512, .f32⟩ : BufTy).Contents (Elt F) → (⟨S8x1x512x512, .f32⟩ : BufTy).Contents (Elt F)),
    unary main_arg0 main_v3 ((extractStridedSlice S8x1x512x512 ![0, 1, 0, 0] · slices_S8x3x512x512_S8x1x512x512_0_1_0_0) : (⟨S8x3x512x512, .f32⟩ : BufTy).Contents (Elt F) → (⟨S8x1x512x512, .f32⟩ : BufTy).Contents (Elt F)),
    nullary main_cst_0 (constant S_ .f32 0x3F1645A2#32),
    unary main_cst_0 main_v4 (broadcastInDim S8x1x512x512 ![] bcast_S_S8x1x512x512 : (⟨S_, .f32⟩ : BufTy).Contents (Elt F) → (⟨S8x1x512x512, .f32⟩ : BufTy).Contents (Elt F)),
    binary main_v4 main_v3 main_v5 (mulf : (⟨S8x1x512x512, .f32⟩ : BufTy).Contents (Elt F) → (⟨S8x1x512x512, .f32⟩ : BufTy).Contents (Elt F) → (⟨S8x1x512x512, .f32⟩ : BufTy).Contents (Elt F)),
    binary main_v2 main_v5 main_v6 (addf : (⟨S8x1x512x512, .f32⟩ : BufTy).Contents (Elt F) → (⟨S8x1x512x512, .f32⟩ : BufTy).Contents (Elt F) → (⟨S8x1x512x512, .f32⟩ : BufTy).Contents (Elt F)),
    unary main_arg0 main_v7 ((extractStridedSlice S8x1x512x512 ![0, 2, 0, 0] · slices_S8x3x512x512_S8x1x512x512_0_2_0_0) : (⟨S8x3x512x512, .f32⟩ : BufTy).Contents (Elt F) → (⟨S8x1x512x512, .f32⟩ : BufTy).Contents (Elt F)),
    nullary main_cst_1 (constant S_ .f32 0x3DE978D5#32),
    unary main_cst_1 main_v8 (broadcastInDim S8x1x512x512 ![] bcast_S_S8x1x512x512 : (⟨S_, .f32⟩ : BufTy).Contents (Elt F) → (⟨S8x1x512x512, .f32⟩ : BufTy).Contents (Elt F)),
    binary main_v8 main_v7 main_v9 (mulf : (⟨S8x1x512x512, .f32⟩ : BufTy).Contents (Elt F) → (⟨S8x1x512x512, .f32⟩ : BufTy).Contents (Elt F) → (⟨S8x1x512x512, .f32⟩ : BufTy).Contents (Elt F)),
    binary main_v6 main_v9 main_v10 (addf : (⟨S8x1x512x512, .f32⟩ : BufTy).Contents (Elt F) → (⟨S8x1x512x512, .f32⟩ : BufTy).Contents (Elt F) → (⟨S8x1x512x512, .f32⟩ : BufTy).Contents (Elt F)),
    nullary main_c (constantI S_ 32 0#32),
    TRef.unary (.of main_v10 : StableHlo.TRef sig ⟨S8x1x512x512, .f32⟩) main_call0.v0 (extractStridedSlice S8x1x1x512 ![0, 0, 0, 0] · slices_S8x1x512x512_S8x1x1x512_0_0_0_0),
    TRef.unary (.of main_v10 : StableHlo.TRef sig ⟨S8x1x512x512, .f32⟩) main_call0.v1 (extractStridedSlice S8x1x3x512 ![0, 0, 1, 0] · slices_S8x1x512x512_S8x1x3x512_0_0_1_0),
    TRef.unary main_call0.v1 main_call0.call0.v0 (Host.reverse [2]),
    TRef.binary main_call0.call0.v0 (.of main_v10 : StableHlo.TRef sig ⟨S8x1x512x512, .f32⟩) main_call0.v3 (fun a b => concatenate S8x1x515x512 2 [⟨S8x1x3x512, a⟩, ⟨S8x1x512x512, b⟩] concatenates_S8x1x3x512_S8x1x512x512_S8x1x515x512_d2),
    TRef.unary main_call0.v3 main_call0.v4 (extractStridedSlice S8x1x1x512 ![0, 0, 514, 0] · slices_S8x1x515x512_S8x1x1x512_0_0_514_0),
    TRef.unary main_call0.v3 main_call0.v5 (extractStridedSlice S8x1x3x512 ![0, 0, 511, 0] · slices_S8x1x515x512_S8x1x3x512_0_0_511_0),
    TRef.unary main_call0.v5 main_call0.call1.v0 (Host.reverse [2]),
    TRef.binary main_call0.v3 main_call0.call1.v0 main_call0.v7 (fun a b => concatenate S8x1x518x512 2 [⟨S8x1x515x512, a⟩, ⟨S8x1x3x512, b⟩] concatenates_S8x1x515x512_S8x1x3x512_S8x1x518x512_d2),
    TRef.unary main_call0.v7 main_call0.v8 (extractStridedSlice S8x1x518x1 ![0, 0, 0, 0] · slices_S8x1x518x512_S8x1x518x1_0_0_0_0),
    TRef.unary main_call0.v7 main_call0.v9 (extractStridedSlice S8x1x518x3 ![0, 0, 0, 1] · slices_S8x1x518x512_S8x1x518x3_0_0_0_1),
    TRef.unary main_call0.v9 main_call0.call2.v0 (Host.reverse [3]),
    TRef.binary main_call0.call2.v0 main_call0.v7 main_call0.v11 (fun a b => concatenate S8x1x518x515 3 [⟨S8x1x518x3, a⟩, ⟨S8x1x518x512, b⟩] concatenates_S8x1x518x3_S8x1x518x512_S8x1x518x515_d3),
    TRef.unary main_call0.v11 main_call0.v12 (extractStridedSlice S8x1x518x1 ![0, 0, 0, 514] · slices_S8x1x518x515_S8x1x518x1_0_0_0_514),
    TRef.unary main_call0.v11 main_call0.v13 (extractStridedSlice S8x1x518x3 ![0, 0, 0, 511] · slices_S8x1x518x515_S8x1x518x3_0_0_0_511),
    TRef.unary main_call0.v13 main_call0.call3.v0 (Host.reverse [3]),
    TRef.binary main_call0.v11 main_call0.call3.v0 main_call0.v15 (fun a b => concatenate S8x1x518x518 3 [⟨S8x1x518x515, a⟩, ⟨S8x1x518x3, b⟩] concatenates_S8x1x518x515_S8x1x518x3_S8x1x518x518_d3),
    unary main_v11 main_v12 ((extractStridedSlice S8x1x512x512 ![0, 0, 0, 0] · slices_S8x1x518x518_S8x1x512x512_0_0_0_0) : (⟨S8x1x518x518, .f32⟩ : BufTy).Contents (Elt F) → (⟨S8x1x512x512, .f32⟩ : BufTy).Contents (Elt F)),
    binary main_v10 main_v12 main_v13 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v13 main_v14 (uitofp .f32 : (⟨S8x1x512x512, .i1⟩ : BufTy).Contents (Elt F) → (⟨S8x1x512x512, .f32⟩ : BufTy).Contents (Elt F)),
    unary main_v11 main_v15 ((extractStridedSlice S8x1x512x512 ![0, 0, 0, 1] · slices_S8x1x518x518_S8x1x512x512_0_0_0_1) : (⟨S8x1x518x518, .f32⟩ : BufTy).Contents (Elt F) → (⟨S8x1x512x512, .f32⟩ : BufTy).Contents (Elt F)),
    binary main_v10 main_v15 main_v16 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v16 main_v17 (uitofp .f32 : (⟨S8x1x512x512, .i1⟩ : BufTy).Contents (Elt F) → (⟨S8x1x512x512, .f32⟩ : BufTy).Contents (Elt F)),
    unary main_v11 main_v18 ((extractStridedSlice S8x1x512x512 ![0, 0, 0, 2] · slices_S8x1x518x518_S8x1x512x512_0_0_0_2) : (⟨S8x1x518x518, .f32⟩ : BufTy).Contents (Elt F) → (⟨S8x1x512x512, .f32⟩ : BufTy).Contents (Elt F)),
    binary main_v10 main_v18 main_v19 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v19 main_v20 (uitofp .f32 : (⟨S8x1x512x512, .i1⟩ : BufTy).Contents (Elt F) → (⟨S8x1x512x512, .f32⟩ : BufTy).Contents (Elt F)),
    unary main_v11 main_v21 ((extractStridedSlice S8x1x512x512 ![0, 0, 0, 3] · slices_S8x1x518x518_S8x1x512x512_0_0_0_3) : (⟨S8x1x518x518, .f32⟩ : BufTy).Contents (Elt F) → (⟨S8x1x512x512, .f32⟩ : BufTy).Contents (Elt F)),
    binary main_v10 main_v21 main_v22 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v22 main_v23 (uitofp .f32 : (⟨S8x1x512x512, .i1⟩ : BufTy).Contents (Elt F) → (⟨S8x1x512x512, .f32⟩ : BufTy).Contents (Elt F)),
    unary main_v11 main_v24 ((extractStridedSlice S8x1x512x512 ![0, 0, 0, 4] · slices_S8x1x518x518_S8x1x512x512_0_0_0_4) : (⟨S8x1x518x518, .f32⟩ : BufTy).Contents (Elt F) → (⟨S8x1x512x512, .f32⟩ : BufTy).Contents (Elt F)),
    binary main_v10 main_v24 main_v25 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v25 main_v26 (uitofp .f32 : (⟨S8x1x512x512, .i1⟩ : BufTy).Contents (Elt F) → (⟨S8x1x512x512, .f32⟩ : BufTy).Contents (Elt F)),
    unary main_v11 main_v27 ((extractStridedSlice S8x1x512x512 ![0, 0, 0, 5] · slices_S8x1x518x518_S8x1x512x512_0_0_0_5) : (⟨S8x1x518x518, .f32⟩ : BufTy).Contents (Elt F) → (⟨S8x1x512x512, .f32⟩ : BufTy).Contents (Elt F)),
    binary main_v10 main_v27 main_v28 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v28 main_v29 (uitofp .f32 : (⟨S8x1x512x512, .i1⟩ : BufTy).Contents (Elt F) → (⟨S8x1x512x512, .f32⟩ : BufTy).Contents (Elt F)),
    unary main_v11 main_v30 ((extractStridedSlice S8x1x512x512 ![0, 0, 0, 6] · slices_S8x1x518x518_S8x1x512x512_0_0_0_6) : (⟨S8x1x518x518, .f32⟩ : BufTy).Contents (Elt F) → (⟨S8x1x512x512, .f32⟩ : BufTy).Contents (Elt F)),
    binary main_v10 main_v30 main_v31 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v31 main_v32 (uitofp .f32 : (⟨S8x1x512x512, .i1⟩ : BufTy).Contents (Elt F) → (⟨S8x1x512x512, .f32⟩ : BufTy).Contents (Elt F)),
    unary main_v11 main_v33 ((extractStridedSlice S8x1x512x512 ![0, 0, 1, 0] · slices_S8x1x518x518_S8x1x512x512_0_0_1_0) : (⟨S8x1x518x518, .f32⟩ : BufTy).Contents (Elt F) → (⟨S8x1x512x512, .f32⟩ : BufTy).Contents (Elt F)),
    binary main_v10 main_v33 main_v34 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v34 main_v35 (uitofp .f32 : (⟨S8x1x512x512, .i1⟩ : BufTy).Contents (Elt F) → (⟨S8x1x512x512, .f32⟩ : BufTy).Contents (Elt F)),
    unary main_v11 main_v36 ((extractStridedSlice S8x1x512x512 ![0, 0, 1, 1] · slices_S8x1x518x518_S8x1x512x512_0_0_1_1) : (⟨S8x1x518x518, .f32⟩ : BufTy).Contents (Elt F) → (⟨S8x1x512x512, .f32⟩ : BufTy).Contents (Elt F)),
    binary main_v10 main_v36 main_v37 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v37 main_v38 (uitofp .f32 : (⟨S8x1x512x512, .i1⟩ : BufTy).Contents (Elt F) → (⟨S8x1x512x512, .f32⟩ : BufTy).Contents (Elt F)),
    unary main_v11 main_v39 ((extractStridedSlice S8x1x512x512 ![0, 0, 1, 2] · slices_S8x1x518x518_S8x1x512x512_0_0_1_2) : (⟨S8x1x518x518, .f32⟩ : BufTy).Contents (Elt F) → (⟨S8x1x512x512, .f32⟩ : BufTy).Contents (Elt F)),
    binary main_v10 main_v39 main_v40 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v40 main_v41 (uitofp .f32 : (⟨S8x1x512x512, .i1⟩ : BufTy).Contents (Elt F) → (⟨S8x1x512x512, .f32⟩ : BufTy).Contents (Elt F)),
    unary main_v11 main_v42 ((extractStridedSlice S8x1x512x512 ![0, 0, 1, 3] · slices_S8x1x518x518_S8x1x512x512_0_0_1_3) : (⟨S8x1x518x518, .f32⟩ : BufTy).Contents (Elt F) → (⟨S8x1x512x512, .f32⟩ : BufTy).Contents (Elt F)),
    binary main_v10 main_v42 main_v43 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v43 main_v44 (uitofp .f32 : (⟨S8x1x512x512, .i1⟩ : BufTy).Contents (Elt F) → (⟨S8x1x512x512, .f32⟩ : BufTy).Contents (Elt F)),
    unary main_v11 main_v45 ((extractStridedSlice S8x1x512x512 ![0, 0, 1, 4] · slices_S8x1x518x518_S8x1x512x512_0_0_1_4) : (⟨S8x1x518x518, .f32⟩ : BufTy).Contents (Elt F) → (⟨S8x1x512x512, .f32⟩ : BufTy).Contents (Elt F)),
    binary main_v10 main_v45 main_v46 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v46 main_v47 (uitofp .f32 : (⟨S8x1x512x512, .i1⟩ : BufTy).Contents (Elt F) → (⟨S8x1x512x512, .f32⟩ : BufTy).Contents (Elt F)),
    unary main_v11 main_v48 ((extractStridedSlice S8x1x512x512 ![0, 0, 1, 5] · slices_S8x1x518x518_S8x1x512x512_0_0_1_5) : (⟨S8x1x518x518, .f32⟩ : BufTy).Contents (Elt F) → (⟨S8x1x512x512, .f32⟩ : BufTy).Contents (Elt F)),
    binary main_v10 main_v48 main_v49 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v49 main_v50 (uitofp .f32 : (⟨S8x1x512x512, .i1⟩ : BufTy).Contents (Elt F) → (⟨S8x1x512x512, .f32⟩ : BufTy).Contents (Elt F)),
    unary main_v11 main_v51 ((extractStridedSlice S8x1x512x512 ![0, 0, 1, 6] · slices_S8x1x518x518_S8x1x512x512_0_0_1_6) : (⟨S8x1x518x518, .f32⟩ : BufTy).Contents (Elt F) → (⟨S8x1x512x512, .f32⟩ : BufTy).Contents (Elt F)),
    binary main_v10 main_v51 main_v52 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v52 main_v53 (uitofp .f32 : (⟨S8x1x512x512, .i1⟩ : BufTy).Contents (Elt F) → (⟨S8x1x512x512, .f32⟩ : BufTy).Contents (Elt F)),
    unary main_v11 main_v54 ((extractStridedSlice S8x1x512x512 ![0, 0, 2, 0] · slices_S8x1x518x518_S8x1x512x512_0_0_2_0) : (⟨S8x1x518x518, .f32⟩ : BufTy).Contents (Elt F) → (⟨S8x1x512x512, .f32⟩ : BufTy).Contents (Elt F)),
    binary main_v10 main_v54 main_v55 (cmpf .ogt : (⟨S8x1x512x512, .f32⟩ : BufTy).Contents (Elt F) → (⟨S8x1x512x512, .f32⟩ : BufTy).Contents (Elt F) → (⟨S8x1x512x512, .i1⟩ : BufTy).Contents (Elt F)) ]

set_option maxRecDepth 100000 in
set_option maxHeartbeats 4000000 in
theorem main_part0_flat_eq (c : Dev nD) : main_part0 (F := F) c = seq ops0_flat := by
  simp only [main_part0, fn_pad.body, fn_flip.body, fn_flip_0.body, seq, bind_assoc, pure_bind]
  all_goals rfl

/-- Window main_part0's operations: its stages in order. -/
def ops0 : List (HloOp τ sig (Elt F)) := gray_x ++ (pad_x ++ (feat_x0 ++ (feat_x1 ++ (feat_x2 ++ (feat_x3 ++ (feat_x4 ++ (feat_x5 ++ (feat_x6 ++ (feat_x7 ++ (feat_x8 ++ (feat_x9 ++ (feat_x10 ++ (feat_x11 ++ (feat_x12 ++ (feat_x13 ++ (feat_x14a))))))))))))))))

set_option maxRecDepth 100000 in
set_option maxHeartbeats 4000000 in
/-- The stages in order are the window's operations: the same list, cut. -/
theorem ops0_flat_eq : (ops0_flat : List (HloOp τ sig (Elt F))) = ops0 := by
  simp only [ops0, ops0_flat, gray_x, pad_x, feat_x0, feat_x1, feat_x2, feat_x3, feat_x4, feat_x5, feat_x6, feat_x7, feat_x8, feat_x9, feat_x10, feat_x11, feat_x12, feat_x13, feat_x14a, List.cons_append, List.nil_append]

theorem main_part0_eq (c : Dev nD) : main_part0 (F := F) c = seq ops0 :=
  (main_part0_flat_eq c).trans (congrArg seq ops0_flat_eq)

theorem ops0_sub : ∀ op ∈ (ops0 : List (HloOp τ sig (Elt F))), op.bufs ⊆ tcRefs τ sig := by
  unfold ops0; exact forall_mem_append gray_x_sub (forall_mem_append pad_x_sub (forall_mem_append feat_x0_sub (forall_mem_append feat_x1_sub (forall_mem_append feat_x2_sub (forall_mem_append feat_x3_sub (forall_mem_append feat_x4_sub (forall_mem_append feat_x5_sub (forall_mem_append feat_x6_sub (forall_mem_append feat_x7_sub (forall_mem_append feat_x8_sub (forall_mem_append feat_x9_sub (forall_mem_append feat_x10_sub (forall_mem_append feat_x11_sub (forall_mem_append feat_x12_sub (forall_mem_append feat_x13_sub feat_x14a_sub)))))))))))))))
theorem ops0_fresh : ∀ op ∈ (ops0 : List (HloOp τ sig (Elt F))), op.fresh = ∅ := by
  unfold ops0; exact forall_mem_append gray_x_fresh (forall_mem_append pad_x_fresh (forall_mem_append feat_x0_fresh (forall_mem_append feat_x1_fresh (forall_mem_append feat_x2_fresh (forall_mem_append feat_x3_fresh (forall_mem_append feat_x4_fresh (forall_mem_append feat_x5_fresh (forall_mem_append feat_x6_fresh (forall_mem_append feat_x7_fresh (forall_mem_append feat_x8_fresh (forall_mem_append feat_x9_fresh (forall_mem_append feat_x10_fresh (forall_mem_append feat_x11_fresh (forall_mem_append feat_x12_fresh (forall_mem_append feat_x13_fresh feat_x14a_fresh)))))))))))))))

end Cert.ReferenceIdeal.RefRun

end
-- ==== Proof.RefOps1.lean ====
/- The reference program's statements 61 … 120 (its window main_part1) as lists of host operations, a call of an
   outlined function as the callee's operations over the call's buffers, cut into the program's stages. Of each stage:
   its operations use the device's buffers and allocate none; it writes the listed buffers and leaves every other as it
   was; and the buffers later stages read hold, after it, the stated term of the contents before it. The window is its
   stages run in order. -/
import proofs.«131024_j38895223833176_2_alg».proof.Proof.RefBase

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- 1 operation: the census feature at window offset (2, 0): the padded gray image sliced there, the gray image compared against it, the truth value as 0 or 1 (its conversion). -/
abbrev feat_x14b : List (HloOp τ sig (Elt F)) :=
  [ unary main_v55 main_v56 (uitofp .f32 : (⟨S8x1x512x512, .i1⟩ : BufTy).Contents (Elt F) → (⟨S8x1x512x512, .f32⟩ : BufTy).Contents (Elt F)) ]
theorem feat_x14b_sub : ∀ op ∈ (feat_x14b : List (HloOp τ sig (Elt F))), op.bufs ⊆ tcRefs τ sig :=
  List.forall_iff_forall_mem.mp (show (feat_x14b : List (HloOp τ sig (Elt F))).Forall (fun op => op.bufs ⊆ tcRefs τ sig) from unary_bufs_sub ..)
theorem feat_x14b_fresh : ∀ op ∈ (feat_x14b : List (HloOp τ sig (Elt F))), op.fresh = ∅ := by
  intro _ h; (repeat (cases h with | head => rfl | tail _ h => ?_)); exact nomatch h
/-- The buffers the stage writes. -/
abbrev feat_x14b_W : List (Ref sig .tc) := [main_v56]
theorem feat_x14b_writes : (feat_x14b : List (HloOp τ sig (Elt F))).Forall fun op => op.writes ⊆ (feat_x14b_W.map (Proc.devRef (τ := τ) .tc)).toFinset := by
  simp only [List.Forall]; exact (by simp only [nullary_writes, unary_writes, binary_writes, nary_writes, Finset.singleton_subset_iff, List.mem_toFinset]; exact List.mem_map_of_mem (by decide))
/-- A buffer the stage does not write keeps its contents through it. -/
@[ref_read] theorem feat_x14b_keep (W : Valuation τ sig (Elt F)) (r : Ref sig .tc) (h : r ∉ feat_x14b_W) :
    after feat_x14b W (no_index (Proc.devRef .tc r)) = W (Proc.devRef .tc r) :=
  after_of_writes_sub feat_x14b W feat_x14b_writes h
attribute [local irreducible] extractStridedSlice in
set_option maxRecDepth 100000 in
set_option maxHeartbeats 4000000 in
@[ref_read] theorem feat_x14b_main_v56 (W : Valuation τ sig (Elt F)) :
    after feat_x14b W (no_index (Proc.devRef .tc main_v56)) = ofMask (F := F) (W (main_v55 : DevRef τ sig)) := by
  simp only [feat_x14b]
  after_results_simp
  all_goals rfl

/-- 3 operations: the census feature at window offset (2, 1): the padded gray image sliced there, the gray image compared against it, the truth value as 0 or 1. -/
abbrev feat_x15 : List (HloOp τ sig (Elt F)) :=
  [ unary main_v11 main_v57 ((extractStridedSlice S8x1x512x512 ![0, 0, 2, 1] · slices_S8x1x518x518_S8x1x512x512_0_0_2_1) : (⟨S8x1x518x518, .f32⟩ : BufTy).Contents (Elt F) → (⟨S8x1x512x512, .f32⟩ : BufTy).Contents (Elt F)),
    binary main_v10 main_v57 main_v58 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v58 main_v59 (uitofp .f32 : (⟨S8x1x512x512, .i1⟩ : BufTy).Contents (Elt F) → (⟨S8x1x512x512, .f32⟩ : BufTy).Contents (Elt F)) ]
theorem feat_x15_sub : ∀ op ∈ (feat_x15 : List (HloOp τ sig (Elt F))), op.bufs ⊆ tcRefs τ sig :=
  List.forall_iff_forall_mem.mp (show (feat_x15 : List (HloOp τ sig (Elt F))).Forall (fun op => op.bufs ⊆ tcRefs τ sig) from ⟨unary_bufs_sub .., binary_bufs_sub .., unary_bufs_sub ..⟩)
theorem feat_x15_fresh : ∀ op ∈ (feat_x15 : List (HloOp τ sig (Elt F))), op.fresh = ∅ := by
  intro _ h; (repeat (cases h with | head => rfl | tail _ h => ?_)); exact nomatch h
/-- The buffers the stage writes. -/
abbrev feat_x15_W : List (Ref sig .tc) := [main_v57, main_v58, main_v59]
theorem feat_x15_writes : (feat_x15 : List (HloOp τ sig (Elt F))).Forall fun op => op.writes ⊆ (feat_x15_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x15_keep (W : Valuation τ sig (Elt F)) (r : Ref sig .tc) (h : r ∉ feat_x15_W) :
    after feat_x15 W (no_index (Proc.devRef .tc r)) = W (Proc.devRef .tc r) :=
  after_of_writes_sub feat_x15 W feat_x15_writes h
attribute [local irreducible] extractStridedSlice in
set_option maxRecDepth 100000 in
set_option maxHeartbeats 4000000 in
@[ref_read] theorem feat_x15_main_v59 (W : Valuation τ sig (Elt F)) :
    after feat_x15 W (no_index (Proc.devRef .tc main_v59)) = RefTerm.feat (F := F) (W (main_v10 : DevRef τ sig)) (W (main_v11 : DevRef τ sig)) ![0, 0, 2, 1] slices_S8x1x518x518_S8x1x512x512_0_0_2_1 := by
  simp only [feat_x15]
  after_results_simp
  all_goals rfl

/-- 3 operations: the census feature at window offset (2, 2): the padded gray image sliced there, the gray image compared against it, the truth value as 0 or 1. -/
abbrev feat_x16 : List (HloOp τ sig (Elt F)) :=
  [ unary main_v11 main_v60 ((extractStridedSlice S8x1x512x512 ![0, 0, 2, 2] · slices_S8x1x518x518_S8x1x512x512_0_0_2_2) : (⟨S8x1x518x518, .f32⟩ : BufTy).Contents (Elt F) → (⟨S8x1x512x512, .f32⟩ : BufTy).Contents (Elt F)),
    binary main_v10 main_v60 main_v61 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v61 main_v62 (uitofp .f32 : (⟨S8x1x512x512, .i1⟩ : BufTy).Contents (Elt F) → (⟨S8x1x512x512, .f32⟩ : BufTy).Contents (Elt F)) ]
theorem feat_x16_sub : ∀ op ∈ (feat_x16 : List (HloOp τ sig (Elt F))), op.bufs ⊆ tcRefs τ sig :=
  List.forall_iff_forall_mem.mp (show (feat_x16 : List (HloOp τ sig (Elt F))).Forall (fun op => op.bufs ⊆ tcRefs τ sig) from ⟨unary_bufs_sub .., binary_bufs_sub .., unary_bufs_sub ..⟩)
theorem feat_x16_fresh : ∀ op ∈ (feat_x16 : List (HloOp τ sig (Elt F))), op.fresh = ∅ := by
  intro _ h; (repeat (cases h with | head => rfl | tail _ h => ?_)); exact nomatch h
/-- The buffers the stage writes. -/
abbrev feat_x16_W : List (Ref sig .tc) := [main_v60, main_v61, main_v62]
theorem feat_x16_writes : (feat_x16 : List (HloOp τ sig (Elt F))).Forall fun op => op.writes ⊆ (feat_x16_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x16_keep (W : Valuation τ sig (Elt F)) (r : Ref sig .tc) (h : r ∉ feat_x16_W) :
    after feat_x16 W (no_index (Proc.devRef .tc r)) = W (Proc.devRef .tc r) :=
  after_of_writes_sub feat_x16 W feat_x16_writes h
attribute [local irreducible] extractStridedSlice in
set_option maxRecDepth 100000 in
set_option maxHeartbeats 4000000 in
@[ref_read] theorem feat_x16_main_v62 (W : Valuation τ sig (Elt F)) :
    after feat_x16 W (no_index (Proc.devRef .tc main_v62)) = RefTerm.feat (F := F) (W (main_v10 : DevRef τ sig)) (W (main_v11 : DevRef τ sig)) ![0, 0, 2, 2] slices_S8x1x518x518_S8x1x512x512_0_0_2_2 := by
  simp only [feat_x16]
  after_results_simp
  all_goals rfl

/-- 3 operations: the census feature at window offset (2, 3): the padded gray image sliced there, the gray image compared against it, the truth value as 0 or 1. -/
abbrev feat_x17 : List (HloOp τ sig (Elt F)) :=
  [ unary main_v11 main_v63 ((extractStridedSlice S8x1x512x512 ![0, 0, 2, 3] · slices_S8x1x518x518_S8x1x512x512_0_0_2_3) : (⟨S8x1x518x518, .f32⟩ : BufTy).Contents (Elt F) → (⟨S8x1x512x512, .f32⟩ : BufTy).Contents (Elt F)),
    binary main_v10 main_v63 main_v64 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v64 main_v65 (uitofp .f32 : (⟨S8x1x512x512, .i1⟩ : BufTy).Contents (Elt F) → (⟨S8x1x512x512, .f32⟩ : BufTy).Contents (Elt F)) ]
theorem feat_x17_sub : ∀ op ∈ (feat_x17 : List (HloOp τ sig (Elt F))), op.bufs ⊆ tcRefs τ sig :=
  List.forall_iff_forall_mem.mp (show (feat_x17 : List (HloOp τ sig (Elt F))).Forall (fun op => op.bufs ⊆ tcRefs τ sig) from ⟨unary_bufs_sub .., binary_bufs_sub .., unary_bufs_sub ..⟩)
theorem feat_x17_fresh : ∀ op ∈ (feat_x17 : List (HloOp τ sig (Elt F))), op.fresh = ∅ := by
  intro _ h; (repeat (cases h with | head => rfl | tail _ h => ?_)); exact nomatch h
/-- The buffers the stage writes. -/
abbrev feat_x17_W : List (Ref sig .tc) := [main_v63, main_v64, main_v65]
theorem feat_x17_writes : (feat_x17 : List (HloOp τ sig (Elt F))).Forall fun op => op.writes ⊆ (feat_x17_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x17_keep (W : Valuation τ sig (Elt F)) (r : Ref sig .tc) (h : r ∉ feat_x17_W) :
    after feat_x17 W (no_index (Proc.devRef .tc r)) = W (Proc.devRef .tc r) :=
  after_of_writes_sub feat_x17 W feat_x17_writes h
attribute [local irreducible] extractStridedSlice in
set_option maxRecDepth 100000 in
set_option maxHeartbeats 4000000 in
@[ref_read] theorem feat_x17_main_v65 (W : Valuation τ sig (Elt F)) :
    after feat_x17 W (no_index (Proc.devRef .tc main_v65)) = RefTerm.feat (F := F) (W (main_v10 : DevRef τ sig)) (W (main_v11 : DevRef τ sig)) ![0, 0, 2, 3] slices_S8x1x518x518_S8x1x512x512_0_0_2_3 := by
  simp only [feat_x17]
  after_results_simp
  all_goals rfl

/-- 3 operations: the census feature at window offset (2, 4): the padded gray image sliced there, the gray image compared against it, the truth value as 0 or 1. -/
abbrev feat_x18 : List (HloOp τ sig (Elt F)) :=
  [ unary main_v11 main_v66 ((extractStridedSlice S8x1x512x512 ![0, 0, 2, 4] · slices_S8x1x518x518_S8x1x512x512_0_0_2_4) : (⟨S8x1x518x518, .f32⟩ : BufTy).Contents (Elt F) → (⟨S8x1x512x512, .f32⟩ : BufTy).Contents (Elt F)),
    binary main_v10 main_v66 main_v67 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v67 main_v68 (uitofp .f32 : (⟨S8x1x512x512, .i1⟩ : BufTy).Contents (Elt F) → (⟨S8x1x512x512, .f32⟩ : BufTy).Contents (Elt F)) ]
theorem feat_x18_sub : ∀ op ∈ (feat_x18 : List (HloOp τ sig (Elt F))), op.bufs ⊆ tcRefs τ sig :=
  List.forall_iff_forall_mem.mp (show (feat_x18 : List (HloOp τ sig (Elt F))).Forall (fun op => op.bufs ⊆ tcRefs τ sig) from ⟨unary_bufs_sub .., binary_bufs_sub .., unary_bufs_sub ..⟩)
theorem feat_x18_fresh : ∀ op ∈ (feat_x18 : List (HloOp τ sig (Elt F))), op.fresh = ∅ := by
  intro _ h; (repeat (cases h with | head => rfl | tail _ h => ?_)); exact nomatch h
/-- The buffers the stage writes. -/
abbrev feat_x18_W : List (Ref sig .tc) := [main_v66, main_v67, main_v68]
theorem feat_x18_writes : (feat_x18 : List (HloOp τ sig (Elt F))).Forall fun op => op.writes ⊆ (feat_x18_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x18_keep (W : Valuation τ sig (Elt F)) (r : Ref sig .tc) (h : r ∉ feat_x18_W) :
    after feat_x18 W (no_index (Proc.devRef .tc r)) = W (Proc.devRef .tc r) :=
  after_of_writes_sub feat_x18 W feat_x18_writes h
attribute [local irreducible] extractStridedSlice in
set_option maxRecDepth 100000 in
set_option maxHeartbeats 4000000 in
@[ref_read] theorem feat_x18_main_v68 (W : Valuation τ sig (Elt F)) :
    after feat_x18 W (no_index (Proc.devRef .tc main_v68)) = RefTerm.feat (F := F) (W (main_v10 : DevRef τ sig)) (W (main_v11 : DevRef τ sig)) ![0, 0, 2, 4] slices_S8x1x518x518_S8x1x512x512_0_0_2_4 := by
  simp only [feat_x18]
  after_results_simp
  all_goals rfl

/-- 3 operations: the census feature at window offset (2, 5): the padded gray image sliced there, the gray image compared against it, the truth value as 0 or 1. -/
abbrev feat_x19 : List (HloOp τ sig (Elt F)) :=
  [ unary main_v11 main_v69 ((extractStridedSlice S8x1x512x512 ![0, 0, 2, 5] · slices_S8x1x518x518_S8x1x512x512_0_0_2_5) : (⟨S8x1x518x518, .f32⟩ : BufTy).Contents (Elt F) → (⟨S8x1x512x512, .f32⟩ : BufTy).Contents (Elt F)),
    binary main_v10 main_v69 main_v70 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v70 main_v71 (uitofp .f32 : (⟨S8x1x512x512, .i1⟩ : BufTy).Contents (Elt F) → (⟨S8x1x512x512, .f32⟩ : BufTy).Contents (Elt F)) ]
theorem feat_x19_sub : ∀ op ∈ (feat_x19 : List (HloOp τ sig (Elt F))), op.bufs ⊆ tcRefs τ sig :=
  List.forall_iff_forall_mem.mp (show (feat_x19 : List (HloOp τ sig (Elt F))).Forall (fun op => op.bufs ⊆ tcRefs τ sig) from ⟨unary_bufs_sub .., binary_bufs_sub .., unary_bufs_sub ..⟩)
theorem feat_x19_fresh : ∀ op ∈ (feat_x19 : List (HloOp τ sig (Elt F))), op.fresh = ∅ := by
  intro _ h; (repeat (cases h with | head => rfl | tail _ h => ?_)); exact nomatch h
/-- The buffers the stage writes. -/
abbrev feat_x19_W : List (Ref sig .tc) := [main_v69, main_v70, main_v71]
theorem feat_x19_writes : (feat_x19 : List (HloOp τ sig (Elt F))).Forall fun op => op.writes ⊆ (feat_x19_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x19_keep (W : Valuation τ sig (Elt F)) (r : Ref sig .tc) (h : r ∉ feat_x19_W) :
    after feat_x19 W (no_index (Proc.devRef .tc r)) = W (Proc.devRef .tc r) :=
  after_of_writes_sub feat_x19 W feat_x19_writes h
attribute [local irreducible] extractStridedSlice in
set_option maxRecDepth 100000 in
set_option maxHeartbeats 4000000 in
@[ref_read] theorem feat_x19_main_v71 (W : Valuation τ sig (Elt F)) :
    after feat_x19 W (no_index (Proc.devRef .tc main_v71)) = RefTerm.feat (F := F) (W (main_v10 : DevRef τ sig)) (W (main_v11 : DevRef τ sig)) ![0, 0, 2, 5] slices_S8x1x518x518_S8x1x512x512_0_0_2_5 := by
  simp only [feat_x19]
  after_results_simp
  all_goals rfl

/-- 3 operations: the census feature at window offset (2, 6): the padded gray image sliced there, the gray image compared against it, the truth value as 0 or 1. -/
abbrev feat_x20 : List (HloOp τ sig (Elt F)) :=
  [ unary main_v11 main_v72 ((extractStridedSlice S8x1x512x512 ![0, 0, 2, 6] · slices_S8x1x518x518_S8x1x512x512_0_0_2_6) : (⟨S8x1x518x518, .f32⟩ : BufTy).Contents (Elt F) → (⟨S8x1x512x512, .f32⟩ : BufTy).Contents (Elt F)),
    binary main_v10 main_v72 main_v73 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v73 main_v74 (uitofp .f32 : (⟨S8x1x512x512, .i1⟩ : BufTy).Contents (Elt F) → (⟨S8x1x512x512, .f32⟩ : BufTy).Contents (Elt F)) ]
theorem feat_x20_sub : ∀ op ∈ (feat_x20 : List (HloOp τ sig (Elt F))), op.bufs ⊆ tcRefs τ sig :=
  List.forall_iff_forall_mem.mp (show (feat_x20 : List (HloOp τ sig (Elt F))).Forall (fun op => op.bufs ⊆ tcRefs τ sig) from ⟨unary_bufs_sub .., binary_bufs_sub .., unary_bufs_sub ..⟩)
theorem feat_x20_fresh : ∀ op ∈ (feat_x20 : List (HloOp τ sig (Elt F))), op.fresh = ∅ := by
  intro _ h; (repeat (cases h with | head => rfl | tail _ h => ?_)); exact nomatch h
/-- The buffers the stage writes. -/
abbrev feat_x20_W : List (Ref sig .tc) := [main_v72, main_v73, main_v74]
theorem feat_x20_writes : (feat_x20 : List (HloOp τ sig (Elt F))).Forall fun op => op.writes ⊆ (feat_x20_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x20_keep (W : Valuation τ sig (Elt F)) (r : Ref sig .tc) (h : r ∉ feat_x20_W) :
    after feat_x20 W (no_index (Proc.devRef .tc r)) = W (Proc.devRef .tc r) :=
  after_of_writes_sub feat_x20 W feat_x20_writes h
attribute [local irreducible] extractStridedSlice in
set_option maxRecDepth 100000 in
set_option maxHeartbeats 4000000 in
@[ref_read] theorem feat_x20_main_v74 (W : Valuation τ sig (Elt F)) :
    after feat_x20 W (no_index (Proc.devRef .tc main_v74)) = RefTerm.feat (F := F) (W (main_v10 : DevRef τ sig)) (W (main_v11 : DevRef τ sig)) ![0, 0, 2, 6] slices_S8x1x518x518_S8x1x512x512_0_0_2_6 := by
  simp only [feat_x20]
  after_results_simp
  all_goals rfl

/-- 3 operations: the census feature at window offset (3, 0): the padded gray image sliced there, the gray image compared against it, the truth value as 0 or 1. -/
abbrev feat_x21 : List (HloOp τ sig (Elt F)) :=
  [ unary main_v11 main_v75 ((extractStridedSlice S8x1x512x512 ![0, 0, 3, 0] · slices_S8x1x518x518_S8x1x512x512_0_0_3_0) : (⟨S8x1x518x518, .f32⟩ : BufTy).Contents (Elt F) → (⟨S8x1x512x512, .f32⟩ : BufTy).Contents (Elt F)),
    binary main_v10 main_v75 main_v76 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v76 main_v77 (uitofp .f32 : (⟨S8x1x512x512, .i1⟩ : BufTy).Contents (Elt F) → (⟨S8x1x512x512, .f32⟩ : BufTy).Contents (Elt F)) ]
theorem feat_x21_sub : ∀ op ∈ (feat_x21 : List (HloOp τ sig (Elt F))), op.bufs ⊆ tcRefs τ sig :=
  List.forall_iff_forall_mem.mp (show (feat_x21 : List (HloOp τ sig (Elt F))).Forall (fun op => op.bufs ⊆ tcRefs τ sig) from ⟨unary_bufs_sub .., binary_bufs_sub .., unary_bufs_sub ..⟩)
theorem feat_x21_fresh : ∀ op ∈ (feat_x21 : List (HloOp τ sig (Elt F))), op.fresh = ∅ := by
  intro _ h; (repeat (cases h with | head => rfl | tail _ h => ?_)); exact nomatch h
/-- The buffers the stage writes. -/
abbrev feat_x21_W : List (Ref sig .tc) := [main_v75, main_v76, main_v77]
theorem feat_x21_writes : (feat_x21 : List (HloOp τ sig (Elt F))).Forall fun op => op.writes ⊆ (feat_x21_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x21_keep (W : Valuation τ sig (Elt F)) (r : Ref sig .tc) (h : r ∉ feat_x21_W) :
    after feat_x21 W (no_index (Proc.devRef .tc r)) = W (Proc.devRef .tc r) :=
  after_of_writes_sub feat_x21 W feat_x21_writes h
attribute [local irreducible] extractStridedSlice in
set_option maxRecDepth 100000 in
set_option maxHeartbeats 4000000 in
@[ref_read] theorem feat_x21_main_v77 (W : Valuation τ sig (Elt F)) :
    after feat_x21 W (no_index (Proc.devRef .tc main_v77)) = RefTerm.feat (F := F) (W (main_v10 : DevRef τ sig)) (W (main_v11 : DevRef τ sig)) ![0, 0, 3, 0] slices_S8x1x518x518_S8x1x512x512_0_0_3_0 := by
  simp only [feat_x21]
  after_results_simp
  all_goals rfl

/-- 3 operations: the census feature at window offset (3, 1): the padded gray image sliced there, the gray image compared against it, the truth value as 0 or 1. -/
abbrev feat_x22 : List (HloOp τ sig (Elt F)) :=
  [ unary main_v11 main_v78 ((extractStridedSlice S8x1x512x512 ![0, 0, 3, 1] · slices_S8x1x518x518_S8x1x512x512_0_0_3_1) : (⟨S8x1x518x518, .f32⟩ : BufTy).Contents (Elt F) → (⟨S8x1x512x512, .f32⟩ : BufTy).Contents (Elt F)),
    binary main_v10 main_v78 main_v79 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v79 main_v80 (uitofp .f32 : (⟨S8x1x512x512, .i1⟩ : BufTy).Contents (Elt F) → (⟨S8x1x512x512, .f32⟩ : BufTy).Contents (Elt F)) ]
theorem feat_x22_sub : ∀ op ∈ (feat_x22 : List (HloOp τ sig (Elt F))), op.bufs ⊆ tcRefs τ sig :=
  List.forall_iff_forall_mem.mp (show (feat_x22 : List (HloOp τ sig (Elt F))).Forall (fun op => op.bufs ⊆ tcRefs τ sig) from ⟨unary_bufs_sub .., binary_bufs_sub .., unary_bufs_sub ..⟩)
theorem feat_x22_fresh : ∀ op ∈ (feat_x22 : List (HloOp τ sig (Elt F))), op.fresh = ∅ := by
  intro _ h; (repeat (cases h with | head => rfl | tail _ h => ?_)); exact nomatch h
/-- The buffers the stage writes. -/
abbrev feat_x22_W : List (Ref sig .tc) := [main_v78, main_v79, main_v80]
theorem feat_x22_writes : (feat_x22 : List (HloOp τ sig (Elt F))).Forall fun op => op.writes ⊆ (feat_x22_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x22_keep (W : Valuation τ sig (Elt F)) (r : Ref sig .tc) (h : r ∉ feat_x22_W) :
    after feat_x22 W (no_index (Proc.devRef .tc r)) = W (Proc.devRef .tc r) :=
  after_of_writes_sub feat_x22 W feat_x22_writes h
attribute [local irreducible] extractStridedSlice in
set_option maxRecDepth 100000 in
set_option maxHeartbeats 4000000 in
@[ref_read] theorem feat_x22_main_v80 (W : Valuation τ sig (Elt F)) :
    after feat_x22 W (no_index (Proc.devRef .tc main_v80)) = RefTerm.feat (F := F) (W (main_v10 : DevRef τ sig)) (W (main_v11 : DevRef τ sig)) ![0, 0, 3, 1] slices_S8x1x518x518_S8x1x512x512_0_0_3_1 := by
  simp only [feat_x22]
  after_results_simp
  all_goals rfl

/-- 3 operations: the census feature at window offset (3, 2): the padded gray image sliced there, the gray image compared against it, the truth value as 0 or 1. -/
abbrev feat_x23 : List (HloOp τ sig (Elt F)) :=
  [ unary main_v11 main_v81 ((extractStridedSlice S8x1x512x512 ![0, 0, 3, 2] · slices_S8x1x518x518_S8x1x512x512_0_0_3_2) : (⟨S8x1x518x518, .f32⟩ : BufTy).Contents (Elt F) → (⟨S8x1x512x512, .f32⟩ : BufTy).Contents (Elt F)),
    binary main_v10 main_v81 main_v82 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v82 main_v83 (uitofp .f32 : (⟨S8x1x512x512, .i1⟩ : BufTy).Contents (Elt F) → (⟨S8x1x512x512, .f32⟩ : BufTy).Contents (Elt F)) ]
theorem feat_x23_sub : ∀ op ∈ (feat_x23 : List (HloOp τ sig (Elt F))), op.bufs ⊆ tcRefs τ sig :=
  List.forall_iff_forall_mem.mp (show (feat_x23 : List (HloOp τ sig (Elt F))).Forall (fun op => op.bufs ⊆ tcRefs τ sig) from ⟨unary_bufs_sub .., binary_bufs_sub .., unary_bufs_sub ..⟩)
theorem feat_x23_fresh : ∀ op ∈ (feat_x23 : List (HloOp τ sig (Elt F))), op.fresh = ∅ := by
  intro _ h; (repeat (cases h with | head => rfl | tail _ h => ?_)); exact nomatch h
/-- The buffers the stage writes. -/
abbrev feat_x23_W : List (Ref sig .tc) := [main_v81, main_v82, main_v83]
theorem feat_x23_writes : (feat_x23 : List (HloOp τ sig (Elt F))).Forall fun op => op.writes ⊆ (feat_x23_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x23_keep (W : Valuation τ sig (Elt F)) (r : Ref sig .tc) (h : r ∉ feat_x23_W) :
    after feat_x23 W (no_index (Proc.devRef .tc r)) = W (Proc.devRef .tc r) :=
  after_of_writes_sub feat_x23 W feat_x23_writes h
attribute [local irreducible] extractStridedSlice in
set_option maxRecDepth 100000 in
set_option maxHeartbeats 4000000 in
@[ref_read] theorem feat_x23_main_v83 (W : Valuation τ sig (Elt F)) :
    after feat_x23 W (no_index (Proc.devRef .tc main_v83)) = RefTerm.feat (F := F) (W (main_v10 : DevRef τ sig)) (W (main_v11 : DevRef τ sig)) ![0, 0, 3, 2] slices_S8x1x518x518_S8x1x512x512_0_0_3_2 := by
  simp only [feat_x23]
  after_results_simp
  all_goals rfl

/-- 3 operations: the census feature at window offset (3, 4): the padded gray image sliced there, the gray image compared against it, the truth value as 0 or 1. -/
abbrev feat_x24 : List (HloOp τ sig (Elt F)) :=
  [ unary main_v11 main_v84 ((extractStridedSlice S8x1x512x512 ![0, 0, 3, 4] · slices_S8x1x518x518_S8x1x512x512_0_0_3_4) : (⟨S8x1x518x518, .f32⟩ : BufTy).Contents (Elt F) → (⟨S8x1x512x512, .f32⟩ : BufTy).Contents (Elt F)),
    binary main_v10 main_v84 main_v85 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v85 main_v86 (uitofp .f32 : (⟨S8x1x512x512, .i1⟩ : BufTy).Contents (Elt F) → (⟨S8x1x512x512, .f32⟩ : BufTy).Contents (Elt F)) ]
theorem feat_x24_sub : ∀ op ∈ (feat_x24 : List (HloOp τ sig (Elt F))), op.bufs ⊆ tcRefs τ sig :=
  List.forall_iff_forall_mem.mp (show (feat_x24 : List (HloOp τ sig (Elt F))).Forall (fun op => op.bufs ⊆ tcRefs τ sig) from ⟨unary_bufs_sub .., binary_bufs_sub .., unary_bufs_sub ..⟩)
theorem feat_x24_fresh : ∀ op ∈ (feat_x24 : List (HloOp τ sig (Elt F))), op.fresh = ∅ := by
  intro _ h; (repeat (cases h with | head => rfl | tail _ h => ?_)); exact nomatch h
/-- The buffers the stage writes. -/
abbrev feat_x24_W : List (Ref sig .tc) := [main_v84, main_v85, main_v86]
theorem feat_x24_writes : (feat_x24 : List (HloOp τ sig (Elt F))).Forall fun op => op.writes ⊆ (feat_x24_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x24_keep (W : Valuation τ sig (Elt F)) (r : Ref sig .tc) (h : r ∉ feat_x24_W) :
    after feat_x24 W (no_index (Proc.devRef .tc r)) = W (Proc.devRef .tc r) :=
  after_of_writes_sub feat_x24 W feat_x24_writes h
attribute [local irreducible] extractStridedSlice in
set_option maxRecDepth 100000 in
set_option maxHeartbeats 4000000 in
@[ref_read] theorem feat_x24_main_v86 (W : Valuation τ sig (Elt F)) :
    after feat_x24 W (no_index (Proc.devRef .tc main_v86)) = RefTerm.feat (F := F) (W (main_v10 : DevRef τ sig)) (W (main_v11 : DevRef τ sig)) ![0, 0, 3, 4] slices_S8x1x518x518_S8x1x512x512_0_0_3_4 := by
  simp only [feat_x24]
  after_results_simp
  all_goals rfl

/-- 3 operations: the census feature at window offset (3, 5): the padded gray image sliced there, the gray image compared against it, the truth value as 0 or 1. -/
abbrev feat_x25 : List (HloOp τ sig (Elt F)) :=
  [ unary main_v11 main_v87 ((extractStridedSlice S8x1x512x512 ![0, 0, 3, 5] · slices_S8x1x518x518_S8x1x512x512_0_0_3_5) : (⟨S8x1x518x518, .f32⟩ : BufTy).Contents (Elt F) → (⟨S8x1x512x512, .f32⟩ : BufTy).Contents (Elt F)),
    binary main_v10 main_v87 main_v88 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v88 main_v89 (uitofp .f32 : (⟨S8x1x512x512, .i1⟩ : BufTy).Contents (Elt F) → (⟨S8x1x512x512, .f32⟩ : BufTy).Contents (Elt F)) ]
theorem feat_x25_sub : ∀ op ∈ (feat_x25 : List (HloOp τ sig (Elt F))), op.bufs ⊆ tcRefs τ sig :=
  List.forall_iff_forall_mem.mp (show (feat_x25 : List (HloOp τ sig (Elt F))).Forall (fun op => op.bufs ⊆ tcRefs τ sig) from ⟨unary_bufs_sub .., binary_bufs_sub .., unary_bufs_sub ..⟩)
theorem feat_x25_fresh : ∀ op ∈ (feat_x25 : List (HloOp τ sig (Elt F))), op.fresh = ∅ := by
  intro _ h; (repeat (cases h with | head => rfl | tail _ h => ?_)); exact nomatch h
/-- The buffers the stage writes. -/
abbrev feat_x25_W : List (Ref sig .tc) := [main_v87, main_v88, main_v89]
theorem feat_x25_writes : (feat_x25 : List (HloOp τ sig (Elt F))).Forall fun op => op.writes ⊆ (feat_x25_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x25_keep (W : Valuation τ sig (Elt F)) (r : Ref sig .tc) (h : r ∉ feat_x25_W) :
    after feat_x25 W (no_index (Proc.devRef .tc r)) = W (Proc.devRef .tc r) :=
  after_of_writes_sub feat_x25 W feat_x25_writes h
attribute [local irreducible] extractStridedSlice in
set_option maxRecDepth 100000 in
set_option maxHeartbeats 4000000 in
@[ref_read] theorem feat_x25_main_v89 (W : Valuation τ sig (Elt F)) :
    after feat_x25 W (no_index (Proc.devRef .tc main_v89)) = RefTerm.feat (F := F) (W (main_v10 : DevRef τ sig)) (W (main_v11 : DevRef τ sig)) ![0, 0, 3, 5] slices_S8x1x518x518_S8x1x512x512_0_0_3_5 := by
  simp only [feat_x25]
  after_results_simp
  all_goals rfl

/-- 3 operations: the census feature at window offset (3, 6): the padded gray image sliced there, the gray image compared against it, the truth value as 0 or 1. -/
abbrev feat_x26 : List (HloOp τ sig (Elt F)) :=
  [ unary main_v11 main_v90 ((extractStridedSlice S8x1x512x512 ![0, 0, 3, 6] · slices_S8x1x518x518_S8x1x512x512_0_0_3_6) : (⟨S8x1x518x518, .f32⟩ : BufTy).Contents (Elt F) → (⟨S8x1x512x512, .f32⟩ : BufTy).Contents (Elt F)),
    binary main_v10 main_v90 main_v91 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v91 main_v92 (uitofp .f32 : (⟨S8x1x512x512, .i1⟩ : BufTy).Contents (Elt F) → (⟨S8x1x512x512, .f32⟩ : BufTy).Contents (Elt F)) ]
theorem feat_x26_sub : ∀ op ∈ (feat_x26 : List (HloOp τ sig (Elt F))), op.bufs ⊆ tcRefs τ sig :=
  List.forall_iff_forall_mem.mp (show (feat_x26 : List (HloOp τ sig (Elt F))).Forall (fun op => op.bufs ⊆ tcRefs τ sig) from ⟨unary_bufs_sub .., binary_bufs_sub .., unary_bufs_sub ..⟩)
theorem feat_x26_fresh : ∀ op ∈ (feat_x26 : List (HloOp τ sig (Elt F))), op.fresh = ∅ := by
  intro _ h; (repeat (cases h with | head => rfl | tail _ h => ?_)); exact nomatch h
/-- The buffers the stage writes. -/
abbrev feat_x26_W : List (Ref sig .tc) := [main_v90, main_v91, main_v92]
theorem feat_x26_writes : (feat_x26 : List (HloOp τ sig (Elt F))).Forall fun op => op.writes ⊆ (feat_x26_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x26_keep (W : Valuation τ sig (Elt F)) (r : Ref sig .tc) (h : r ∉ feat_x26_W) :
    after feat_x26 W (no_index (Proc.devRef .tc r)) = W (Proc.devRef .tc r) :=
  after_of_writes_sub feat_x26 W feat_x26_writes h
attribute [local irreducible] extractStridedSlice in
set_option maxRecDepth 100000 in
set_option maxHeartbeats 4000000 in
@[ref_read] theorem feat_x26_main_v92 (W : Valuation τ sig (Elt F)) :
    after feat_x26 W (no_index (Proc.devRef .tc main_v92)) = RefTerm.feat (F := F) (W (main_v10 : DevRef τ sig)) (W (main_v11 : DevRef τ sig)) ![0, 0, 3, 6] slices_S8x1x518x518_S8x1x512x512_0_0_3_6 := by
  simp only [feat_x26]
  after_results_simp
  all_goals rfl

/-- 3 operations: the census feature at window offset (4, 0): the padded gray image sliced there, the gray image compared against it, the truth value as 0 or 1. -/
abbrev feat_x27 : List (HloOp τ sig (Elt F)) :=
  [ unary main_v11 main_v93 ((extractStridedSlice S8x1x512x512 ![0, 0, 4, 0] · slices_S8x1x518x518_S8x1x512x512_0_0_4_0) : (⟨S8x1x518x518, .f32⟩ : BufTy).Contents (Elt F) → (⟨S8x1x512x512, .f32⟩ : BufTy).Contents (Elt F)),
    binary main_v10 main_v93 main_v94 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v94 main_v95 (uitofp .f32 : (⟨S8x1x512x512, .i1⟩ : BufTy).Contents (Elt F) → (⟨S8x1x512x512, .f32⟩ : BufTy).Contents (Elt F)) ]
theorem feat_x27_sub : ∀ op ∈ (feat_x27 : List (HloOp τ sig (Elt F))), op.bufs ⊆ tcRefs τ sig :=
  List.forall_iff_forall_mem.mp (show (feat_x27 : List (HloOp τ sig (Elt F))).Forall (fun op => op.bufs ⊆ tcRefs τ sig) from ⟨unary_bufs_sub .., binary_bufs_sub .., unary_bufs_sub ..⟩)
theorem feat_x27_fresh : ∀ op ∈ (feat_x27 : List (HloOp τ sig (Elt F))), op.fresh = ∅ := by
  intro _ h; (repeat (cases h with | head => rfl | tail _ h => ?_)); exact nomatch h
/-- The buffers the stage writes. -/
abbrev feat_x27_W : List (Ref sig .tc) := [main_v93, main_v94, main_v95]
theorem feat_x27_writes : (feat_x27 : List (HloOp τ sig (Elt F))).Forall fun op => op.writes ⊆ (feat_x27_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x27_keep (W : Valuation τ sig (Elt F)) (r : Ref sig .tc) (h : r ∉ feat_x27_W) :
    after feat_x27 W (no_index (Proc.devRef .tc r)) = W (Proc.devRef .tc r) :=
  after_of_writes_sub feat_x27 W feat_x27_writes h
attribute [local irreducible] extractStridedSlice in
set_option maxRecDepth 100000 in
set_option maxHeartbeats 4000000 in
@[ref_read] theorem feat_x27_main_v95 (W : Valuation τ sig (Elt F)) :
    after feat_x27 W (no_index (Proc.devRef .tc main_v95)) = RefTerm.feat (F := F) (W (main_v10 : DevRef τ sig)) (W (main_v11 : DevRef τ sig)) ![0, 0, 4, 0] slices_S8x1x518x518_S8x1x512x512_0_0_4_0 := by
  simp only [feat_x27]
  after_results_simp
  all_goals rfl

/-- 3 operations: the census feature at window offset (4, 1): the padded gray image sliced there, the gray image compared against it, the truth value as 0 or 1. -/
abbrev feat_x28 : List (HloOp τ sig (Elt F)) :=
  [ unary main_v11 main_v96 ((extractStridedSlice S8x1x512x512 ![0, 0, 4, 1] · slices_S8x1x518x518_S8x1x512x512_0_0_4_1) : (⟨S8x1x518x518, .f32⟩ : BufTy).Contents (Elt F) → (⟨S8x1x512x512, .f32⟩ : BufTy).Contents (Elt F)),
    binary main_v10 main_v96 main_v97 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v97 main_v98 (uitofp .f32 : (⟨S8x1x512x512, .i1⟩ : BufTy).Contents (Elt F) → (⟨S8x1x512x512, .f32⟩ : BufTy).Contents (Elt F)) ]
theorem feat_x28_sub : ∀ op ∈ (feat_x28 : List (HloOp τ sig (Elt F))), op.bufs ⊆ tcRefs τ sig :=
  List.forall_iff_forall_mem.mp (show (feat_x28 : List (HloOp τ sig (Elt F))).Forall (fun op => op.bufs ⊆ tcRefs τ sig) from ⟨unary_bufs_sub .., binary_bufs_sub .., unary_bufs_sub ..⟩)
theorem feat_x28_fresh : ∀ op ∈ (feat_x28 : List (HloOp τ sig (Elt F))), op.fresh = ∅ := by
  intro _ h; (repeat (cases h with | head => rfl | tail _ h => ?_)); exact nomatch h
/-- The buffers the stage writes. -/
abbrev feat_x28_W : List (Ref sig .tc) := [main_v96, main_v97, main_v98]
theorem feat_x28_writes : (feat_x28 : List (HloOp τ sig (Elt F))).Forall fun op => op.writes ⊆ (feat_x28_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x28_keep (W : Valuation τ sig (Elt F)) (r : Ref sig .tc) (h : r ∉ feat_x28_W) :
    after feat_x28 W (no_index (Proc.devRef .tc r)) = W (Proc.devRef .tc r) :=
  after_of_writes_sub feat_x28 W feat_x28_writes h
attribute [local irreducible] extractStridedSlice in
set_option maxRecDepth 100000 in
set_option maxHeartbeats 4000000 in
@[ref_read] theorem feat_x28_main_v98 (W : Valuation τ sig (Elt F)) :
    after feat_x28 W (no_index (Proc.devRef .tc main_v98)) = RefTerm.feat (F := F) (W (main_v10 : DevRef τ sig)) (W (main_v11 : DevRef τ sig)) ![0, 0, 4, 1] slices_S8x1x518x518_S8x1x512x512_0_0_4_1 := by
  simp only [feat_x28]
  after_results_simp
  all_goals rfl

/-- 3 operations: the census feature at window offset (4, 2): the padded gray image sliced there, the gray image compared against it, the truth value as 0 or 1. -/
abbrev feat_x29 : List (HloOp τ sig (Elt F)) :=
  [ unary main_v11 main_v99 ((extractStridedSlice S8x1x512x512 ![0, 0, 4, 2] · slices_S8x1x518x518_S8x1x512x512_0_0_4_2) : (⟨S8x1x518x518, .f32⟩ : BufTy).Contents (Elt F) → (⟨S8x1x512x512, .f32⟩ : BufTy).Contents (Elt F)),
    binary main_v10 main_v99 main_v100 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v100 main_v101 (uitofp .f32 : (⟨S8x1x512x512, .i1⟩ : BufTy).Contents (Elt F) → (⟨S8x1x512x512, .f32⟩ : BufTy).Contents (Elt F)) ]
theorem feat_x29_sub : ∀ op ∈ (feat_x29 : List (HloOp τ sig (Elt F))), op.bufs ⊆ tcRefs τ sig :=
  List.forall_iff_forall_mem.mp (show (feat_x29 : List (HloOp τ sig (Elt F))).Forall (fun op => op.bufs ⊆ tcRefs τ sig) from ⟨unary_bufs_sub .., binary_bufs_sub .., unary_bufs_sub ..⟩)
theorem feat_x29_fresh : ∀ op ∈ (feat_x29 : List (HloOp τ sig (Elt F))), op.fresh = ∅ := by
  intro _ h; (repeat (cases h with | head => rfl | tail _ h => ?_)); exact nomatch h
/-- The buffers the stage writes. -/
abbrev feat_x29_W : List (Ref sig .tc) := [main_v99, main_v100, main_v101]
theorem feat_x29_writes : (feat_x29 : List (HloOp τ sig (Elt F))).Forall fun op => op.writes ⊆ (feat_x29_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x29_keep (W : Valuation τ sig (Elt F)) (r : Ref sig .tc) (h : r ∉ feat_x29_W) :
    after feat_x29 W (no_index (Proc.devRef .tc r)) = W (Proc.devRef .tc r) :=
  after_of_writes_sub feat_x29 W feat_x29_writes h
attribute [local irreducible] extractStridedSlice in
set_option maxRecDepth 100000 in
set_option maxHeartbeats 4000000 in
@[ref_read] theorem feat_x29_main_v101 (W : Valuation τ sig (Elt F)) :
    after feat_x29 W (no_index (Proc.devRef .tc main_v101)) = RefTerm.feat (F := F) (W (main_v10 : DevRef τ sig)) (W (main_v11 : DevRef τ sig)) ![0, 0, 4, 2] slices_S8x1x518x518_S8x1x512x512_0_0_4_2 := by
  simp only [feat_x29]
  after_results_simp
  all_goals rfl

/-- 3 operations: the census feature at window offset (4, 3): the padded gray image sliced there, the gray image compared against it, the truth value as 0 or 1. -/
abbrev feat_x30 : List (HloOp τ sig (Elt F)) :=
  [ unary main_v11 main_v102 ((extractStridedSlice S8x1x512x512 ![0, 0, 4, 3] · slices_S8x1x518x518_S8x1x512x512_0_0_4_3) : (⟨S8x1x518x518, .f32⟩ : BufTy).Contents (Elt F) → (⟨S8x1x512x512, .f32⟩ : BufTy).Contents (Elt F)),
    binary main_v10 main_v102 main_v103 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v103 main_v104 (uitofp .f32 : (⟨S8x1x512x512, .i1⟩ : BufTy).Contents (Elt F) → (⟨S8x1x512x512, .f32⟩ : BufTy).Contents (Elt F)) ]
theorem feat_x30_sub : ∀ op ∈ (feat_x30 : List (HloOp τ sig (Elt F))), op.bufs ⊆ tcRefs τ sig :=
  List.forall_iff_forall_mem.mp (show (feat_x30 : List (HloOp τ sig (Elt F))).Forall (fun op => op.bufs ⊆ tcRefs τ sig) from ⟨unary_bufs_sub .., binary_bufs_sub .., unary_bufs_sub ..⟩)
theorem feat_x30_fresh : ∀ op ∈ (feat_x30 : List (HloOp τ sig (Elt F))), op.fresh = ∅ := by
  intro _ h; (repeat (cases h with | head => rfl | tail _ h => ?_)); exact nomatch h
/-- The buffers the stage writes. -/
abbrev feat_x30_W : List (Ref sig .tc) := [main_v102, main_v103, main_v104]
theorem feat_x30_writes : (feat_x30 : List (HloOp τ sig (Elt F))).Forall fun op => op.writes ⊆ (feat_x30_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x30_keep (W : Valuation τ sig (Elt F)) (r : Ref sig .tc) (h : r ∉ feat_x30_W) :
    after feat_x30 W (no_index (Proc.devRef .tc r)) = W (Proc.devRef .tc r) :=
  after_of_writes_sub feat_x30 W feat_x30_writes h
attribute [local irreducible] extractStridedSlice in
set_option maxRecDepth 100000 in
set_option maxHeartbeats 4000000 in
@[ref_read] theorem feat_x30_main_v104 (W : Valuation τ sig (Elt F)) :
    after feat_x30 W (no_index (Proc.devRef .tc main_v104)) = RefTerm.feat (F := F) (W (main_v10 : DevRef τ sig)) (W (main_v11 : DevRef τ sig)) ![0, 0, 4, 3] slices_S8x1x518x518_S8x1x512x512_0_0_4_3 := by
  simp only [feat_x30]
  after_results_simp
  all_goals rfl

/-- 3 operations: the census feature at window offset (4, 4): the padded gray image sliced there, the gray image compared against it, the truth value as 0 or 1. -/
abbrev feat_x31 : List (HloOp τ sig (Elt F)) :=
  [ unary main_v11 main_v105 ((extractStridedSlice S8x1x512x512 ![0, 0, 4, 4] · slices_S8x1x518x518_S8x1x512x512_0_0_4_4) : (⟨S8x1x518x518, .f32⟩ : BufTy).Contents (Elt F) → (⟨S8x1x512x512, .f32⟩ : BufTy).Contents (Elt F)),
    binary main_v10 main_v105 main_v106 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v106 main_v107 (uitofp .f32 : (⟨S8x1x512x512, .i1⟩ : BufTy).Contents (Elt F) → (⟨S8x1x512x512, .f32⟩ : BufTy).Contents (Elt F)) ]
theorem feat_x31_sub : ∀ op ∈ (feat_x31 : List (HloOp τ sig (Elt F))), op.bufs ⊆ tcRefs τ sig :=
  List.forall_iff_forall_mem.mp (show (feat_x31 : List (HloOp τ sig (Elt F))).Forall (fun op => op.bufs ⊆ tcRefs τ sig) from ⟨unary_bufs_sub .., binary_bufs_sub .., unary_bufs_sub ..⟩)
theorem feat_x31_fresh : ∀ op ∈ (feat_x31 : List (HloOp τ sig (Elt F))), op.fresh = ∅ := by
  intro _ h; (repeat (cases h with | head => rfl | tail _ h => ?_)); exact nomatch h
/-- The buffers the stage writes. -/
abbrev feat_x31_W : List (Ref sig .tc) := [main_v105, main_v106, main_v107]
theorem feat_x31_writes : (feat_x31 : List (HloOp τ sig (Elt F))).Forall fun op => op.writes ⊆ (feat_x31_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x31_keep (W : Valuation τ sig (Elt F)) (r : Ref sig .tc) (h : r ∉ feat_x31_W) :
    after feat_x31 W (no_index (Proc.devRef .tc r)) = W (Proc.devRef .tc r) :=
  after_of_writes_sub feat_x31 W feat_x31_writes h
attribute [local irreducible] extractStridedSlice in
set_option maxRecDepth 100000 in
set_option maxHeartbeats 4000000 in
@[ref_read] theorem feat_x31_main_v107 (W : Valuation τ sig (Elt F)) :
    after feat_x31 W (no_index (Proc.devRef .tc main_v107)) = RefTerm.feat (F := F) (W (main_v10 : DevRef τ sig)) (W (main_v11 : DevRef τ sig)) ![0, 0, 4, 4] slices_S8x1x518x518_S8x1x512x512_0_0_4_4 := by
  simp only [feat_x31]
  after_results_simp
  all_goals rfl

/-- 3 operations: the census feature at window offset (4, 5): the padded gray image sliced there, the gray image compared against it, the truth value as 0 or 1. -/
abbrev feat_x32 : List (HloOp τ sig (Elt F)) :=
  [ unary main_v11 main_v108 ((extractStridedSlice S8x1x512x512 ![0, 0, 4, 5] · slices_S8x1x518x518_S8x1x512x512_0_0_4_5) : (⟨S8x1x518x518, .f32⟩ : BufTy).Contents (Elt F) → (⟨S8x1x512x512, .f32⟩ : BufTy).Contents (Elt F)),
    binary main_v10 main_v108 main_v109 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v109 main_v110 (uitofp .f32 : (⟨S8x1x512x512, .i1⟩ : BufTy).Contents (Elt F) → (⟨S8x1x512x512, .f32⟩ : BufTy).Contents (Elt F)) ]
theorem feat_x32_sub : ∀ op ∈ (feat_x32 : List (HloOp τ sig (Elt F))), op.bufs ⊆ tcRefs τ sig :=
  List.forall_iff_forall_mem.mp (show (feat_x32 : List (HloOp τ sig (Elt F))).Forall (fun op => op.bufs ⊆ tcRefs τ sig) from ⟨unary_bufs_sub .., binary_bufs_sub .., unary_bufs_sub ..⟩)
theorem feat_x32_fresh : ∀ op ∈ (feat_x32 : List (HloOp τ sig (Elt F))), op.fresh = ∅ := by
  intro _ h; (repeat (cases h with | head => rfl | tail _ h => ?_)); exact nomatch h
/-- The buffers the stage writes. -/
abbrev feat_x32_W : List (Ref sig .tc) := [main_v108, main_v109, main_v110]
theorem feat_x32_writes : (feat_x32 : List (HloOp τ sig (Elt F))).Forall fun op => op.writes ⊆ (feat_x32_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x32_keep (W : Valuation τ sig (Elt F)) (r : Ref sig .tc) (h : r ∉ feat_x32_W) :
    after feat_x32 W (no_index (Proc.devRef .tc r)) = W (Proc.devRef .tc r) :=
  after_of_writes_sub feat_x32 W feat_x32_writes h
attribute [local irreducible] extractStridedSlice in
set_option maxRecDepth 100000 in
set_option maxHeartbeats 4000000 in
@[ref_read] theorem feat_x32_main_v110 (W : Valuation τ sig (Elt F)) :
    after feat_x32 W (no_index (Proc.devRef .tc main_v110)) = RefTerm.feat (F := F) (W (main_v10 : DevRef τ sig)) (W (main_v11 : DevRef τ sig)) ![0, 0, 4, 5] slices_S8x1x518x518_S8x1x512x512_0_0_4_5 := by
  simp only [feat_x32]
  after_results_simp
  all_goals rfl

/-- 3 operations: the census feature at window offset (4, 6): the padded gray image sliced there, the gray image compared against it, the truth value as 0 or 1. -/
abbrev feat_x33 : List (HloOp τ sig (Elt F)) :=
  [ unary main_v11 main_v111 ((extractStridedSlice S8x1x512x512 ![0, 0, 4, 6] · slices_S8x1x518x518_S8x1x512x512_0_0_4_6) : (⟨S8x1x518x518, .f32⟩ : BufTy).Contents (Elt F) → (⟨S8x1x512x512, .f32⟩ : BufTy).Contents (Elt F)),
    binary main_v10 main_v111 main_v112 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v112 main_v113 (uitofp .f32 : (⟨S8x1x512x512, .i1⟩ : BufTy).Contents (Elt F) → (⟨S8x1x512x512, .f32⟩ : BufTy).Contents (Elt F)) ]
theorem feat_x33_sub : ∀ op ∈ (feat_x33 : List (HloOp τ sig (Elt F))), op.bufs ⊆ tcRefs τ sig :=
  List.forall_iff_forall_mem.mp (show (feat_x33 : List (HloOp τ sig (Elt F))).Forall (fun op => op.bufs ⊆ tcRefs τ sig) from ⟨unary_bufs_sub .., binary_bufs_sub .., unary_bufs_sub ..⟩)
theorem feat_x33_fresh : ∀ op ∈ (feat_x33 : List (HloOp τ sig (Elt F))), op.fresh = ∅ := by
  intro _ h; (repeat (cases h with | head => rfl | tail _ h => ?_)); exact nomatch h
/-- The buffers the stage writes. -/
abbrev feat_x33_W : List (Ref sig .tc) := [main_v111, main_v112, main_v113]
theorem feat_x33_writes : (feat_x33 : List (HloOp τ sig (Elt F))).Forall fun op => op.writes ⊆ (feat_x33_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x33_keep (W : Valuation τ sig (Elt F)) (r : Ref sig .tc) (h : r ∉ feat_x33_W) :
    after feat_x33 W (no_index (Proc.devRef .tc r)) = W (Proc.devRef .tc r) :=
  after_of_writes_sub feat_x33 W feat_x33_writes h
attribute [local irreducible] extractStridedSlice in
set_option maxRecDepth 100000 in
set_option maxHeartbeats 4000000 in
@[ref_read] theorem feat_x33_main_v113 (W : Valuation τ sig (Elt F)) :
    after feat_x33 W (no_index (Proc.devRef .tc main_v113)) = RefTerm.feat (F := F) (W (main_v10 : DevRef τ sig)) (W (main_v11 : DevRef τ sig)) ![0, 0, 4, 6] slices_S8x1x518x518_S8x1x512x512_0_0_4_6 := by
  simp only [feat_x33]
  after_results_simp
  all_goals rfl

/-- 2 operations: the census feature at window offset (5, 0): the padded gray image sliced there, the gray image compared against it, the truth value as 0 or 1 (its slice and comparison). -/
abbrev feat_x34a : List (HloOp τ sig (Elt F)) :=
  [ unary main_v11 main_v114 ((extractStridedSlice S8x1x512x512 ![0, 0, 5, 0] · slices_S8x1x518x518_S8x1x512x512_0_0_5_0) : (⟨S8x1x518x518, .f32⟩ : BufTy).Contents (Elt F) → (⟨S8x1x512x512, .f32⟩ : BufTy).Contents (Elt F)),
    binary main_v10 main_v114 main_v115 (cmpf .ogt : (⟨S8x1x512x512, .f32⟩ : BufTy).Contents (Elt F) → (⟨S8x1x512x512, .f32⟩ : BufTy).Contents (Elt F) → (⟨S8x1x512x512, .i1⟩ : BufTy).Contents (Elt F)) ]
theorem feat_x34a_sub : ∀ op ∈ (feat_x34a : List (HloOp τ sig (Elt F))), op.bufs ⊆ tcRefs τ sig :=
  List.forall_iff_forall_mem.mp (show (feat_x34a : List (HloOp τ sig (Elt F))).Forall (fun op => op.bufs ⊆ tcRefs τ sig) from ⟨unary_bufs_sub .., binary_bufs_sub ..⟩)
theorem feat_x34a_fresh : ∀ op ∈ (feat_x34a : List (HloOp τ sig (Elt F))), op.fresh = ∅ := by
  intro _ h; (repeat (cases h with | head => rfl | tail _ h => ?_)); exact nomatch h
/-- The buffers the stage writes. -/
abbrev feat_x34a_W : List (Ref sig .tc) := [main_v114, main_v115]
theorem feat_x34a_writes : (feat_x34a : List (HloOp τ sig (Elt F))).Forall fun op => op.writes ⊆ (feat_x34a_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x34a_keep (W : Valuation τ sig (Elt F)) (r : Ref sig .tc) (h : r ∉ feat_x34a_W) :
    after feat_x34a W (no_index (Proc.devRef .tc r)) = W (Proc.devRef .tc r) :=
  after_of_writes_sub feat_x34a W feat_x34a_writes h
attribute [local irreducible] extractStridedSlice in
set_option maxRecDepth 100000 in
set_option maxHeartbeats 4000000 in
@[ref_read] theorem feat_x34a_main_v115 (W : Valuation τ sig (Elt F)) :
    after feat_x34a W (no_index (Proc.devRef .tc main_v115)) = gt (F := F) (W (main_v10 : DevRef τ sig)) (W (main_v11 : DevRef τ sig)) ![0, 0, 5, 0] slices_S8x1x518x518_S8x1x512x512_0_0_5_0 := by
  simp only [feat_x34a]
  after_results_simp
  all_goals rfl

/-- Window main_part1's 60 operations, as printed. -/
abbrev ops1_flat : List (HloOp τ sig (Elt F)) :=
  [ unary main_v55 main_v56 (uitofp .f32 : (⟨S8x1x512x512, .i1⟩ : BufTy).Contents (Elt F) → (⟨S8x1x512x512, .f32⟩ : BufTy).Contents (Elt F)),
    unary main_v11 main_v57 ((extractStridedSlice S8x1x512x512 ![0, 0, 2, 1] · slices_S8x1x518x518_S8x1x512x512_0_0_2_1) : (⟨S8x1x518x518, .f32⟩ : BufTy).Contents (Elt F) → (⟨S8x1x512x512, .f32⟩ : BufTy).Contents (Elt F)),
    binary main_v10 main_v57 main_v58 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v58 main_v59 (uitofp .f32 : (⟨S8x1x512x512, .i1⟩ : BufTy).Contents (Elt F) → (⟨S8x1x512x512, .f32⟩ : BufTy).Contents (Elt F)),
    unary main_v11 main_v60 ((extractStridedSlice S8x1x512x512 ![0, 0, 2, 2] · slices_S8x1x518x518_S8x1x512x512_0_0_2_2) : (⟨S8x1x518x518, .f32⟩ : BufTy).Contents (Elt F) → (⟨S8x1x512x512, .f32⟩ : BufTy).Contents (Elt F)),
    binary main_v10 main_v60 main_v61 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v61 main_v62 (uitofp .f32 : (⟨S8x1x512x512, .i1⟩ : BufTy).Contents (Elt F) → (⟨S8x1x512x512, .f32⟩ : BufTy).Contents (Elt F)),
    unary main_v11 main_v63 ((extractStridedSlice S8x1x512x512 ![0, 0, 2, 3] · slices_S8x1x518x518_S8x1x512x512_0_0_2_3) : (⟨S8x1x518x518, .f32⟩ : BufTy).Contents (Elt F) → (⟨S8x1x512x512, .f32⟩ : BufTy).Contents (Elt F)),
    binary main_v10 main_v63 main_v64 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v64 main_v65 (uitofp .f32 : (⟨S8x1x512x512, .i1⟩ : BufTy).Contents (Elt F) → (⟨S8x1x512x512, .f32⟩ : BufTy).Contents (Elt F)),
    unary main_v11 main_v66 ((extractStridedSlice S8x1x512x512 ![0, 0, 2, 4] · slices_S8x1x518x518_S8x1x512x512_0_0_2_4) : (⟨S8x1x518x518, .f32⟩ : BufTy).Contents (Elt F) → (⟨S8x1x512x512, .f32⟩ : BufTy).Contents (Elt F)),
    binary main_v10 main_v66 main_v67 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v67 main_v68 (uitofp .f32 : (⟨S8x1x512x512, .i1⟩ : BufTy).Contents (Elt F) → (⟨S8x1x512x512, .f32⟩ : BufTy).Contents (Elt F)),
    unary main_v11 main_v69 ((extractStridedSlice S8x1x512x512 ![0, 0, 2, 5] · slices_S8x1x518x518_S8x1x512x512_0_0_2_5) : (⟨S8x1x518x518, .f32⟩ : BufTy).Contents (Elt F) → (⟨S8x1x512x512, .f32⟩ : BufTy).Contents (Elt F)),
    binary main_v10 main_v69 main_v70 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v70 main_v71 (uitofp .f32 : (⟨S8x1x512x512, .i1⟩ : BufTy).Contents (Elt F) → (⟨S8x1x512x512, .f32⟩ : BufTy).Contents (Elt F)),
    unary main_v11 main_v72 ((extractStridedSlice S8x1x512x512 ![0, 0, 2, 6] · slices_S8x1x518x518_S8x1x512x512_0_0_2_6) : (⟨S8x1x518x518, .f32⟩ : BufTy).Contents (Elt F) → (⟨S8x1x512x512, .f32⟩ : BufTy).Contents (Elt F)),
    binary main_v10 main_v72 main_v73 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v73 main_v74 (uitofp .f32 : (⟨S8x1x512x512, .i1⟩ : BufTy).Contents (Elt F) → (⟨S8x1x512x512, .f32⟩ : BufTy).Contents (Elt F)),
    unary main_v11 main_v75 ((extractStridedSlice S8x1x512x512 ![0, 0, 3, 0] · slices_S8x1x518x518_S8x1x512x512_0_0_3_0) : (⟨S8x1x518x518, .f32⟩ : BufTy).Contents (Elt F) → (⟨S8x1x512x512, .f32⟩ : BufTy).Contents (Elt F)),
    binary main_v10 main_v75 main_v76 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v76 main_v77 (uitofp .f32 : (⟨S8x1x512x512, .i1⟩ : BufTy).Contents (Elt F) → (⟨S8x1x512x512, .f32⟩ : BufTy).Contents (Elt F)),
    unary main_v11 main_v78 ((extractStridedSlice S8x1x512x512 ![0, 0, 3, 1] · slices_S8x1x518x518_S8x1x512x512_0_0_3_1) : (⟨S8x1x518x518, .f32⟩ : BufTy).Contents (Elt F) → (⟨S8x1x512x512, .f32⟩ : BufTy).Contents (Elt F)),
    binary main_v10 main_v78 main_v79 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v79 main_v80 (uitofp .f32 : (⟨S8x1x512x512, .i1⟩ : BufTy).Contents (Elt F) → (⟨S8x1x512x512, .f32⟩ : BufTy).Contents (Elt F)),
    unary main_v11 main_v81 ((extractStridedSlice S8x1x512x512 ![0, 0, 3, 2] · slices_S8x1x518x518_S8x1x512x512_0_0_3_2) : (⟨S8x1x518x518, .f32⟩ : BufTy).Contents (Elt F) → (⟨S8x1x512x512, .f32⟩ : BufTy).Contents (Elt F)),
    binary main_v10 main_v81 main_v82 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v82 main_v83 (uitofp .f32 : (⟨S8x1x512x512, .i1⟩ : BufTy).Contents (Elt F) → (⟨S8x1x512x512, .f32⟩ : BufTy).Contents (Elt F)),
    unary main_v11 main_v84 ((extractStridedSlice S8x1x512x512 ![0, 0, 3, 4] · slices_S8x1x518x518_S8x1x512x512_0_0_3_4) : (⟨S8x1x518x518, .f32⟩ : BufTy).Contents (Elt F) → (⟨S8x1x512x512, .f32⟩ : BufTy).Contents (Elt F)),
    binary main_v10 main_v84 main_v85 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v85 main_v86 (uitofp .f32 : (⟨S8x1x512x512, .i1⟩ : BufTy).Contents (Elt F) → (⟨S8x1x512x512, .f32⟩ : BufTy).Contents (Elt F)),
    unary main_v11 main_v87 ((extractStridedSlice S8x1x512x512 ![0, 0, 3, 5] · slices_S8x1x518x518_S8x1x512x512_0_0_3_5) : (⟨S8x1x518x518, .f32⟩ : BufTy).Contents (Elt F) → (⟨S8x1x512x512, .f32⟩ : BufTy).Contents (Elt F)),
    binary main_v10 main_v87 main_v88 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v88 main_v89 (uitofp .f32 : (⟨S8x1x512x512, .i1⟩ : BufTy).Contents (Elt F) → (⟨S8x1x512x512, .f32⟩ : BufTy).Contents (Elt F)),
    unary main_v11 main_v90 ((extractStridedSlice S8x1x512x512 ![0, 0, 3, 6] · slices_S8x1x518x518_S8x1x512x512_0_0_3_6) : (⟨S8x1x518x518, .f32⟩ : BufTy).Contents (Elt F) → (⟨S8x1x512x512, .f32⟩ : BufTy).Contents (Elt F)),
    binary main_v10 main_v90 main_v91 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v91 main_v92 (uitofp .f32 : (⟨S8x1x512x512, .i1⟩ : BufTy).Contents (Elt F) → (⟨S8x1x512x512, .f32⟩ : BufTy).Contents (Elt F)),
    unary main_v11 main_v93 ((extractStridedSlice S8x1x512x512 ![0, 0, 4, 0] · slices_S8x1x518x518_S8x1x512x512_0_0_4_0) : (⟨S8x1x518x518, .f32⟩ : BufTy).Contents (Elt F) → (⟨S8x1x512x512, .f32⟩ : BufTy).Contents (Elt F)),
    binary main_v10 main_v93 main_v94 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v94 main_v95 (uitofp .f32 : (⟨S8x1x512x512, .i1⟩ : BufTy).Contents (Elt F) → (⟨S8x1x512x512, .f32⟩ : BufTy).Contents (Elt F)),
    unary main_v11 main_v96 ((extractStridedSlice S8x1x512x512 ![0, 0, 4, 1] · slices_S8x1x518x518_S8x1x512x512_0_0_4_1) : (⟨S8x1x518x518, .f32⟩ : BufTy).Contents (Elt F) → (⟨S8x1x512x512, .f32⟩ : BufTy).Contents (Elt F)),
    binary main_v10 main_v96 main_v97 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v97 main_v98 (uitofp .f32 : (⟨S8x1x512x512, .i1⟩ : BufTy).Contents (Elt F) → (⟨S8x1x512x512, .f32⟩ : BufTy).Contents (Elt F)),
    unary main_v11 main_v99 ((extractStridedSlice S8x1x512x512 ![0, 0, 4, 2] · slices_S8x1x518x518_S8x1x512x512_0_0_4_2) : (⟨S8x1x518x518, .f32⟩ : BufTy).Contents (Elt F) → (⟨S8x1x512x512, .f32⟩ : BufTy).Contents (Elt F)),
    binary main_v10 main_v99 main_v100 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v100 main_v101 (uitofp .f32 : (⟨S8x1x512x512, .i1⟩ : BufTy).Contents (Elt F) → (⟨S8x1x512x512, .f32⟩ : BufTy).Contents (Elt F)),
    unary main_v11 main_v102 ((extractStridedSlice S8x1x512x512 ![0, 0, 4, 3] · slices_S8x1x518x518_S8x1x512x512_0_0_4_3) : (⟨S8x1x518x518, .f32⟩ : BufTy).Contents (Elt F) → (⟨S8x1x512x512, .f32⟩ : BufTy).Contents (Elt F)),
    binary main_v10 main_v102 main_v103 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v103 main_v104 (uitofp .f32 : (⟨S8x1x512x512, .i1⟩ : BufTy).Contents (Elt F) → (⟨S8x1x512x512, .f32⟩ : BufTy).Contents (Elt F)),
    unary main_v11 main_v105 ((extractStridedSlice S8x1x512x512 ![0, 0, 4, 4] · slices_S8x1x518x518_S8x1x512x512_0_0_4_4) : (⟨S8x1x518x518, .f32⟩ : BufTy).Contents (Elt F) → (⟨S8x1x512x512, .f32⟩ : BufTy).Contents (Elt F)),
    binary main_v10 main_v105 main_v106 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v106 main_v107 (uitofp .f32 : (⟨S8x1x512x512, .i1⟩ : BufTy).Contents (Elt F) → (⟨S8x1x512x512, .f32⟩ : BufTy).Contents (Elt F)),
    unary main_v11 main_v108 ((extractStridedSlice S8x1x512x512 ![0, 0, 4, 5] · slices_S8x1x518x518_S8x1x512x512_0_0_4_5) : (⟨S8x1x518x518, .f32⟩ : BufTy).Contents (Elt F) → (⟨S8x1x512x512, .f32⟩ : BufTy).Contents (Elt F)),
    binary main_v10 main_v108 main_v109 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v109 main_v110 (uitofp .f32 : (⟨S8x1x512x512, .i1⟩ : BufTy).Contents (Elt F) → (⟨S8x1x512x512, .f32⟩ : BufTy).Contents (Elt F)),
    unary main_v11 main_v111 ((extractStridedSlice S8x1x512x512 ![0, 0, 4, 6] · slices_S8x1x518x518_S8x1x512x512_0_0_4_6) : (⟨S8x1x518x518, .f32⟩ : BufTy).Contents (Elt F) → (⟨S8x1x512x512, .f32⟩ : BufTy).Contents (Elt F)),
    binary main_v10 main_v111 main_v112 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v112 main_v113 (uitofp .f32 : (⟨S8x1x512x512, .i1⟩ : BufTy).Contents (Elt F) → (⟨S8x1x512x512, .f32⟩ : BufTy).Contents (Elt F)),
    unary main_v11 main_v114 ((extractStridedSlice S8x1x512x512 ![0, 0, 5, 0] · slices_S8x1x518x518_S8x1x512x512_0_0_5_0) : (⟨S8x1x518x518, .f32⟩ : BufTy).Contents (Elt F) → (⟨S8x1x512x512, .f32⟩ : BufTy).Contents (Elt F)),
    binary main_v10 main_v114 main_v115 (cmpf .ogt : (⟨S8x1x512x512, .f32⟩ : BufTy).Contents (Elt F) → (⟨S8x1x512x512, .f32⟩ : BufTy).Contents (Elt F) → (⟨S8x1x512x512, .i1⟩ : BufTy).Contents (Elt F)) ]

set_option maxRecDepth 100000 in
set_option maxHeartbeats 4000000 in
theorem main_part1_flat_eq (c : Dev nD) : main_part1 (F := F) c = seq ops1_flat := rfl

/-- Window main_part1's operations: its stages in order. -/
def ops1 : List (HloOp τ sig (Elt F)) := feat_x14b ++ (feat_x15 ++ (feat_x16 ++ (feat_x17 ++ (feat_x18 ++ (feat_x19 ++ (feat_x20 ++ (feat_x21 ++ (feat_x22 ++ (feat_x23 ++ (feat_x24 ++ (feat_x25 ++ (feat_x26 ++ (feat_x27 ++ (feat_x28 ++ (feat_x29 ++ (feat_x30 ++ (feat_x31 ++ (feat_x32 ++ (feat_x33 ++ (feat_x34a))))))))))))))))))))

set_option maxRecDepth 100000 in
set_option maxHeartbeats 4000000 in
/-- The stages in order are the window's operations: the same list, cut. -/
theorem ops1_flat_eq : (ops1_flat : List (HloOp τ sig (Elt F))) = ops1 := by
  simp only [ops1, ops1_flat, feat_x14b, feat_x15, feat_x16, feat_x17, feat_x18, feat_x19, feat_x20, feat_x21, feat_x22, feat_x23, feat_x24, feat_x25, feat_x26, feat_x27, feat_x28, feat_x29, feat_x30, feat_x31, feat_x32, feat_x33, feat_x34a, List.cons_append, List.nil_append]

theorem main_part1_eq (c : Dev nD) : main_part1 (F := F) c = seq ops1 :=
  (main_part1_flat_eq c).trans (congrArg seq ops1_flat_eq)

theorem ops1_sub : ∀ op ∈ (ops1 : List (HloOp τ sig (Elt F))), op.bufs ⊆ tcRefs τ sig := by
  unfold ops1; exact forall_mem_append feat_x14b_sub (forall_mem_append feat_x15_sub (forall_mem_append feat_x16_sub (forall_mem_append feat_x17_sub (forall_mem_append feat_x18_sub (forall_mem_append feat_x19_sub (forall_mem_append feat_x20_sub (forall_mem_append feat_x21_sub (forall_mem_append feat_x22_sub (forall_mem_append feat_x23_sub (forall_mem_append feat_x24_sub (forall_mem_append feat_x25_sub (forall_mem_append feat_x26_sub (forall_mem_append feat_x27_sub (forall_mem_append feat_x28_sub (forall_mem_append feat_x29_sub (forall_mem_append feat_x30_sub (forall_mem_append feat_x31_sub (forall_mem_append feat_x32_sub (forall_mem_append feat_x33_sub feat_x34a_sub)))))))))))))))))))
theorem ops1_fresh : ∀ op ∈ (ops1 : List (HloOp τ sig (Elt F))), op.fresh = ∅ := by
  unfold ops1; exact forall_mem_append feat_x14b_fresh (forall_mem_append feat_x15_fresh (forall_mem_append feat_x16_fresh (forall_mem_append feat_x17_fresh (forall_mem_append feat_x18_fresh (forall_mem_append feat_x19_fresh (forall_mem_append feat_x20_fresh (forall_mem_append feat_x21_fresh (forall_mem_append feat_x22_fresh (forall_mem_append feat_x23_fresh (forall_mem_append feat_x24_fresh (forall_mem_append feat_x25_fresh (forall_mem_append feat_x26_fresh (forall_mem_append feat_x27_fresh (forall_mem_append feat_x28_fresh (forall_mem_append feat_x29_fresh (forall_mem_append feat_x30_fresh (forall_mem_append feat_x31_fresh (forall_mem_append feat_x32_fresh (forall_mem_append feat_x33_fresh feat_x34a_fresh)))))))))))))))))))

end Cert.ReferenceIdeal.RefRun

end
-- ==== Proof.RefCat.lean ====
/-
  The two concatenations of the census stage as functions of their operands: sixteen images laid along the channel axis,
  and three such bands laid along it. The reference's feature array is the three bands of its 48 features.
-/
import proofs.«131024_j38895223833176_2_alg».proof.Proof.RefBase

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Sixteen images along the channel axis. -/
def cat16 (f0 f1 f2 f3 f4 f5 f6 f7 f8 f9 f10 f11 f12 f13 f14 f15 : FVec F S8x1x512x512 .f32) : FVec F S8x16x512x512 .f32 :=
  concatenate S8x16x512x512 1
    [⟨S8x1x512x512, f0⟩, ⟨S8x1x512x512, f1⟩, ⟨S8x1x512x512, f2⟩, ⟨S8x1x512x512, f3⟩, ⟨S8x1x512x512, f4⟩, ⟨S8x1x512x512, f5⟩, ⟨S8x1x512x512, f6⟩, ⟨S8x1x512x512, f7⟩, ⟨S8x1x512x512, f8⟩, ⟨S8x1x512x512, f9⟩, ⟨S8x1x512x512, f10⟩, ⟨S8x1x512x512, f11⟩, ⟨S8x1x512x512, f12⟩, ⟨S8x1x512x512, f13⟩, ⟨S8x1x512x512, f14⟩, ⟨S8x1x512x512, f15⟩]
    concatenates_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x16x512x512_d1

/-- Three bands of sixteen along the channel axis. -/
def cat3 (b0 b1 b2 : FVec F S8x16x512x512 .f32) : FVec F S8x48x512x512 .f32 :=
  concatenate S8x48x512x512 1 [⟨S8x16x512x512, b0⟩, ⟨S8x16x512x512, b1⟩, ⟨S8x16x512x512, b2⟩]
    concatenates_S8x16x512x512_S8x16x512x512_S8x16x512x512_S8x48x512x512_d1

/-- The feature array of a gray image and its padding is the three bands of its features. -/
theorem censusOf_eq (g : FVec F S8x1x512x512 .f32) (gp : FVec F S8x1x518x518 .f32) :
    RefTerm.censusOf g gp = cat3 (RefTerm.band0 g gp) (RefTerm.band1 g gp) (RefTerm.band2 g gp) := rfl

end Cert.ReferenceIdeal.RefRun

end
-- ==== Proof.RefOps2.lean ====
/- The reference program's statements 121 … 180 (its window main_part2) as lists of host operations, a call of an
   outlined function as the callee's operations over the call's buffers, cut into the program's stages. Of each stage:
   its operations use the device's buffers and allocate none; it writes the listed buffers and leaves every other as it
   was; and the buffers later stages read hold, after it, the stated term of the contents before it. The window is its
   stages run in order. -/
import proofs.«131024_j38895223833176_2_alg».proof.Proof.RefCat

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- 1 operation: the census feature at window offset (5, 0): the padded gray image sliced there, the gray image compared against it, the truth value as 0 or 1 (its conversion). -/
abbrev feat_x34b : List (HloOp τ sig (Elt F)) :=
  [ unary main_v115 main_v116 (uitofp .f32 : (⟨S8x1x512x512, .i1⟩ : BufTy).Contents (Elt F) → (⟨S8x1x512x512, .f32⟩ : BufTy).Contents (Elt F)) ]
theorem feat_x34b_sub : ∀ op ∈ (feat_x34b : List (HloOp τ sig (Elt F))), op.bufs ⊆ tcRefs τ sig :=
  List.forall_iff_forall_mem.mp (show (feat_x34b : List (HloOp τ sig (Elt F))).Forall (fun op => op.bufs ⊆ tcRefs τ sig) from unary_bufs_sub ..)
theorem feat_x34b_fresh : ∀ op ∈ (feat_x34b : List (HloOp τ sig (Elt F))), op.fresh = ∅ := by
  intro _ h; (repeat (cases h with | head => rfl | tail _ h => ?_)); exact nomatch h
/-- The buffers the stage writes. -/
abbrev feat_x34b_W : List (Ref sig .tc) := [main_v116]
theorem feat_x34b_writes : (feat_x34b : List (HloOp τ sig (Elt F))).Forall fun op => op.writes ⊆ (feat_x34b_W.map (Proc.devRef (τ := τ) .tc)).toFinset := by
  simp only [List.Forall]; exact (by simp only [nullary_writes, unary_writes, binary_writes, nary_writes, Finset.singleton_subset_iff, List.mem_toFinset]; exact List.mem_map_of_mem (by decide))
/-- A buffer the stage does not write keeps its contents through it. -/
@[ref_read] theorem feat_x34b_keep (W : Valuation τ sig (Elt F)) (r : Ref sig .tc) (h : r ∉ feat_x34b_W) :
    after feat_x34b W (no_index (Proc.devRef .tc r)) = W (Proc.devRef .tc r) :=
  after_of_writes_sub feat_x34b W feat_x34b_writes h
attribute [local irreducible] extractStridedSlice in
set_option maxRecDepth 100000 in
set_option maxHeartbeats 4000000 in
@[ref_read] theorem feat_x34b_main_v116 (W : Valuation τ sig (Elt F)) :
    after feat_x34b W (no_index (Proc.devRef .tc main_v116)) = ofMask (F := F) (W (main_v115 : DevRef τ sig)) := by
  simp only [feat_x34b]
  after_results_simp
  all_goals rfl

/-- 3 operations: the census feature at window offset (5, 1): the padded gray image sliced there, the gray image compared against it, the truth value as 0 or 1. -/
abbrev feat_x35 : List (HloOp τ sig (Elt F)) :=
  [ unary main_v11 main_v117 ((extractStridedSlice S8x1x512x512 ![0, 0, 5, 1] · slices_S8x1x518x518_S8x1x512x512_0_0_5_1) : (⟨S8x1x518x518, .f32⟩ : BufTy).Contents (Elt F) → (⟨S8x1x512x512, .f32⟩ : BufTy).Contents (Elt F)),
    binary main_v10 main_v117 main_v118 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v118 main_v119 (uitofp .f32 : (⟨S8x1x512x512, .i1⟩ : BufTy).Contents (Elt F) → (⟨S8x1x512x512, .f32⟩ : BufTy).Contents (Elt F)) ]
theorem feat_x35_sub : ∀ op ∈ (feat_x35 : List (HloOp τ sig (Elt F))), op.bufs ⊆ tcRefs τ sig :=
  List.forall_iff_forall_mem.mp (show (feat_x35 : List (HloOp τ sig (Elt F))).Forall (fun op => op.bufs ⊆ tcRefs τ sig) from ⟨unary_bufs_sub .., binary_bufs_sub .., unary_bufs_sub ..⟩)
theorem feat_x35_fresh : ∀ op ∈ (feat_x35 : List (HloOp τ sig (Elt F))), op.fresh = ∅ := by
  intro _ h; (repeat (cases h with | head => rfl | tail _ h => ?_)); exact nomatch h
/-- The buffers the stage writes. -/
abbrev feat_x35_W : List (Ref sig .tc) := [main_v117, main_v118, main_v119]
theorem feat_x35_writes : (feat_x35 : List (HloOp τ sig (Elt F))).Forall fun op => op.writes ⊆ (feat_x35_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x35_keep (W : Valuation τ sig (Elt F)) (r : Ref sig .tc) (h : r ∉ feat_x35_W) :
    after feat_x35 W (no_index (Proc.devRef .tc r)) = W (Proc.devRef .tc r) :=
  after_of_writes_sub feat_x35 W feat_x35_writes h
attribute [local irreducible] extractStridedSlice in
set_option maxRecDepth 100000 in
set_option maxHeartbeats 4000000 in
@[ref_read] theorem feat_x35_main_v119 (W : Valuation τ sig (Elt F)) :
    after feat_x35 W (no_index (Proc.devRef .tc main_v119)) = RefTerm.feat (F := F) (W (main_v10 : DevRef τ sig)) (W (main_v11 : DevRef τ sig)) ![0, 0, 5, 1] slices_S8x1x518x518_S8x1x512x512_0_0_5_1 := by
  simp only [feat_x35]
  after_results_simp
  all_goals rfl

/-- 3 operations: the census feature at window offset (5, 2): the padded gray image sliced there, the gray image compared against it, the truth value as 0 or 1. -/
abbrev feat_x36 : List (HloOp τ sig (Elt F)) :=
  [ unary main_v11 main_v120 ((extractStridedSlice S8x1x512x512 ![0, 0, 5, 2] · slices_S8x1x518x518_S8x1x512x512_0_0_5_2) : (⟨S8x1x518x518, .f32⟩ : BufTy).Contents (Elt F) → (⟨S8x1x512x512, .f32⟩ : BufTy).Contents (Elt F)),
    binary main_v10 main_v120 main_v121 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v121 main_v122 (uitofp .f32 : (⟨S8x1x512x512, .i1⟩ : BufTy).Contents (Elt F) → (⟨S8x1x512x512, .f32⟩ : BufTy).Contents (Elt F)) ]
theorem feat_x36_sub : ∀ op ∈ (feat_x36 : List (HloOp τ sig (Elt F))), op.bufs ⊆ tcRefs τ sig :=
  List.forall_iff_forall_mem.mp (show (feat_x36 : List (HloOp τ sig (Elt F))).Forall (fun op => op.bufs ⊆ tcRefs τ sig) from ⟨unary_bufs_sub .., binary_bufs_sub .., unary_bufs_sub ..⟩)
theorem feat_x36_fresh : ∀ op ∈ (feat_x36 : List (HloOp τ sig (Elt F))), op.fresh = ∅ := by
  intro _ h; (repeat (cases h with | head => rfl | tail _ h => ?_)); exact nomatch h
/-- The buffers the stage writes. -/
abbrev feat_x36_W : List (Ref sig .tc) := [main_v120, main_v121, main_v122]
theorem feat_x36_writes : (feat_x36 : List (HloOp τ sig (Elt F))).Forall fun op => op.writes ⊆ (feat_x36_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x36_keep (W : Valuation τ sig (Elt F)) (r : Ref sig .tc) (h : r ∉ feat_x36_W) :
    after feat_x36 W (no_index (Proc.devRef .tc r)) = W (Proc.devRef .tc r) :=
  after_of_writes_sub feat_x36 W feat_x36_writes h
attribute [local irreducible] extractStridedSlice in
set_option maxRecDepth 100000 in
set_option maxHeartbeats 4000000 in
@[ref_read] theorem feat_x36_main_v122 (W : Valuation τ sig (Elt F)) :
    after feat_x36 W (no_index (Proc.devRef .tc main_v122)) = RefTerm.feat (F := F) (W (main_v10 : DevRef τ sig)) (W (main_v11 : DevRef τ sig)) ![0, 0, 5, 2] slices_S8x1x518x518_S8x1x512x512_0_0_5_2 := by
  simp only [feat_x36]
  after_results_simp
  all_goals rfl

/-- 3 operations: the census feature at window offset (5, 3): the padded gray image sliced there, the gray image compared against it, the truth value as 0 or 1. -/
abbrev feat_x37 : List (HloOp τ sig (Elt F)) :=
  [ unary main_v11 main_v123 ((extractStridedSlice S8x1x512x512 ![0, 0, 5, 3] · slices_S8x1x518x518_S8x1x512x512_0_0_5_3) : (⟨S8x1x518x518, .f32⟩ : BufTy).Contents (Elt F) → (⟨S8x1x512x512, .f32⟩ : BufTy).Contents (Elt F)),
    binary main_v10 main_v123 main_v124 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v124 main_v125 (uitofp .f32 : (⟨S8x1x512x512, .i1⟩ : BufTy).Contents (Elt F) → (⟨S8x1x512x512, .f32⟩ : BufTy).Contents (Elt F)) ]
theorem feat_x37_sub : ∀ op ∈ (feat_x37 : List (HloOp τ sig (Elt F))), op.bufs ⊆ tcRefs τ sig :=
  List.forall_iff_forall_mem.mp (show (feat_x37 : List (HloOp τ sig (Elt F))).Forall (fun op => op.bufs ⊆ tcRefs τ sig) from ⟨unary_bufs_sub .., binary_bufs_sub .., unary_bufs_sub ..⟩)
theorem feat_x37_fresh : ∀ op ∈ (feat_x37 : List (HloOp τ sig (Elt F))), op.fresh = ∅ := by
  intro _ h; (repeat (cases h with | head => rfl | tail _ h => ?_)); exact nomatch h
/-- The buffers the stage writes. -/
abbrev feat_x37_W : List (Ref sig .tc) := [main_v123, main_v124, main_v125]
theorem feat_x37_writes : (feat_x37 : List (HloOp τ sig (Elt F))).Forall fun op => op.writes ⊆ (feat_x37_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x37_keep (W : Valuation τ sig (Elt F)) (r : Ref sig .tc) (h : r ∉ feat_x37_W) :
    after feat_x37 W (no_index (Proc.devRef .tc r)) = W (Proc.devRef .tc r) :=
  after_of_writes_sub feat_x37 W feat_x37_writes h
attribute [local irreducible] extractStridedSlice in
set_option maxRecDepth 100000 in
set_option maxHeartbeats 4000000 in
@[ref_read] theorem feat_x37_main_v125 (W : Valuation τ sig (Elt F)) :
    after feat_x37 W (no_index (Proc.devRef .tc main_v125)) = RefTerm.feat (F := F) (W (main_v10 : DevRef τ sig)) (W (main_v11 : DevRef τ sig)) ![0, 0, 5, 3] slices_S8x1x518x518_S8x1x512x512_0_0_5_3 := by
  simp only [feat_x37]
  after_results_simp
  all_goals rfl

/-- 3 operations: the census feature at window offset (5, 4): the padded gray image sliced there, the gray image compared against it, the truth value as 0 or 1. -/
abbrev feat_x38 : List (HloOp τ sig (Elt F)) :=
  [ unary main_v11 main_v126 ((extractStridedSlice S8x1x512x512 ![0, 0, 5, 4] · slices_S8x1x518x518_S8x1x512x512_0_0_5_4) : (⟨S8x1x518x518, .f32⟩ : BufTy).Contents (Elt F) → (⟨S8x1x512x512, .f32⟩ : BufTy).Contents (Elt F)),
    binary main_v10 main_v126 main_v127 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v127 main_v128 (uitofp .f32 : (⟨S8x1x512x512, .i1⟩ : BufTy).Contents (Elt F) → (⟨S8x1x512x512, .f32⟩ : BufTy).Contents (Elt F)) ]
theorem feat_x38_sub : ∀ op ∈ (feat_x38 : List (HloOp τ sig (Elt F))), op.bufs ⊆ tcRefs τ sig :=
  List.forall_iff_forall_mem.mp (show (feat_x38 : List (HloOp τ sig (Elt F))).Forall (fun op => op.bufs ⊆ tcRefs τ sig) from ⟨unary_bufs_sub .., binary_bufs_sub .., unary_bufs_sub ..⟩)
theorem feat_x38_fresh : ∀ op ∈ (feat_x38 : List (HloOp τ sig (Elt F))), op.fresh = ∅ := by
  intro _ h; (repeat (cases h with | head => rfl | tail _ h => ?_)); exact nomatch h
/-- The buffers the stage writes. -/
abbrev feat_x38_W : List (Ref sig .tc) := [main_v126, main_v127, main_v128]
theorem feat_x38_writes : (feat_x38 : List (HloOp τ sig (Elt F))).Forall fun op => op.writes ⊆ (feat_x38_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x38_keep (W : Valuation τ sig (Elt F)) (r : Ref sig .tc) (h : r ∉ feat_x38_W) :
    after feat_x38 W (no_index (Proc.devRef .tc r)) = W (Proc.devRef .tc r) :=
  after_of_writes_sub feat_x38 W feat_x38_writes h
attribute [local irreducible] extractStridedSlice in
set_option maxRecDepth 100000 in
set_option maxHeartbeats 4000000 in
@[ref_read] theorem feat_x38_main_v128 (W : Valuation τ sig (Elt F)) :
    after feat_x38 W (no_index (Proc.devRef .tc main_v128)) = RefTerm.feat (F := F) (W (main_v10 : DevRef τ sig)) (W (main_v11 : DevRef τ sig)) ![0, 0, 5, 4] slices_S8x1x518x518_S8x1x512x512_0_0_5_4 := by
  simp only [feat_x38]
  after_results_simp
  all_goals rfl

/-- 3 operations: the census feature at window offset (5, 5): the padded gray image sliced there, the gray image compared against it, the truth value as 0 or 1. -/
abbrev feat_x39 : List (HloOp τ sig (Elt F)) :=
  [ unary main_v11 main_v129 ((extractStridedSlice S8x1x512x512 ![0, 0, 5, 5] · slices_S8x1x518x518_S8x1x512x512_0_0_5_5) : (⟨S8x1x518x518, .f32⟩ : BufTy).Contents (Elt F) → (⟨S8x1x512x512, .f32⟩ : BufTy).Contents (Elt F)),
    binary main_v10 main_v129 main_v130 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v130 main_v131 (uitofp .f32 : (⟨S8x1x512x512, .i1⟩ : BufTy).Contents (Elt F) → (⟨S8x1x512x512, .f32⟩ : BufTy).Contents (Elt F)) ]
theorem feat_x39_sub : ∀ op ∈ (feat_x39 : List (HloOp τ sig (Elt F))), op.bufs ⊆ tcRefs τ sig :=
  List.forall_iff_forall_mem.mp (show (feat_x39 : List (HloOp τ sig (Elt F))).Forall (fun op => op.bufs ⊆ tcRefs τ sig) from ⟨unary_bufs_sub .., binary_bufs_sub .., unary_bufs_sub ..⟩)
theorem feat_x39_fresh : ∀ op ∈ (feat_x39 : List (HloOp τ sig (Elt F))), op.fresh = ∅ := by
  intro _ h; (repeat (cases h with | head => rfl | tail _ h => ?_)); exact nomatch h
/-- The buffers the stage writes. -/
abbrev feat_x39_W : List (Ref sig .tc) := [main_v129, main_v130, main_v131]
theorem feat_x39_writes : (feat_x39 : List (HloOp τ sig (Elt F))).Forall fun op => op.writes ⊆ (feat_x39_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x39_keep (W : Valuation τ sig (Elt F)) (r : Ref sig .tc) (h : r ∉ feat_x39_W) :
    after feat_x39 W (no_index (Proc.devRef .tc r)) = W (Proc.devRef .tc r) :=
  after_of_writes_sub feat_x39 W feat_x39_writes h
attribute [local irreducible] extractStridedSlice in
set_option maxRecDepth 100000 in
set_option maxHeartbeats 4000000 in
@[ref_read] theorem feat_x39_main_v131 (W : Valuation τ sig (Elt F)) :
    after feat_x39 W (no_index (Proc.devRef .tc main_v131)) = RefTerm.feat (F := F) (W (main_v10 : DevRef τ sig)) (W (main_v11 : DevRef τ sig)) ![0, 0, 5, 5] slices_S8x1x518x518_S8x1x512x512_0_0_5_5 := by
  simp only [feat_x39]
  after_results_simp
  all_goals rfl

/-- 3 operations: the census feature at window offset (5, 6): the padded gray image sliced there, the gray image compared against it, the truth value as 0 or 1. -/
abbrev feat_x40 : List (HloOp τ sig (Elt F)) :=
  [ unary main_v11 main_v132 ((extractStridedSlice S8x1x512x512 ![0, 0, 5, 6] · slices_S8x1x518x518_S8x1x512x512_0_0_5_6) : (⟨S8x1x518x518, .f32⟩ : BufTy).Contents (Elt F) → (⟨S8x1x512x512, .f32⟩ : BufTy).Contents (Elt F)),
    binary main_v10 main_v132 main_v133 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v133 main_v134 (uitofp .f32 : (⟨S8x1x512x512, .i1⟩ : BufTy).Contents (Elt F) → (⟨S8x1x512x512, .f32⟩ : BufTy).Contents (Elt F)) ]
theorem feat_x40_sub : ∀ op ∈ (feat_x40 : List (HloOp τ sig (Elt F))), op.bufs ⊆ tcRefs τ sig :=
  List.forall_iff_forall_mem.mp (show (feat_x40 : List (HloOp τ sig (Elt F))).Forall (fun op => op.bufs ⊆ tcRefs τ sig) from ⟨unary_bufs_sub .., binary_bufs_sub .., unary_bufs_sub ..⟩)
theorem feat_x40_fresh : ∀ op ∈ (feat_x40 : List (HloOp τ sig (Elt F))), op.fresh = ∅ := by
  intro _ h; (repeat (cases h with | head => rfl | tail _ h => ?_)); exact nomatch h
/-- The buffers the stage writes. -/
abbrev feat_x40_W : List (Ref sig .tc) := [main_v132, main_v133, main_v134]
theorem feat_x40_writes : (feat_x40 : List (HloOp τ sig (Elt F))).Forall fun op => op.writes ⊆ (feat_x40_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x40_keep (W : Valuation τ sig (Elt F)) (r : Ref sig .tc) (h : r ∉ feat_x40_W) :
    after feat_x40 W (no_index (Proc.devRef .tc r)) = W (Proc.devRef .tc r) :=
  after_of_writes_sub feat_x40 W feat_x40_writes h
attribute [local irreducible] extractStridedSlice in
set_option maxRecDepth 100000 in
set_option maxHeartbeats 4000000 in
@[ref_read] theorem feat_x40_main_v134 (W : Valuation τ sig (Elt F)) :
    after feat_x40 W (no_index (Proc.devRef .tc main_v134)) = RefTerm.feat (F := F) (W (main_v10 : DevRef τ sig)) (W (main_v11 : DevRef τ sig)) ![0, 0, 5, 6] slices_S8x1x518x518_S8x1x512x512_0_0_5_6 := by
  simp only [feat_x40]
  after_results_simp
  all_goals rfl

/-- 3 operations: the census feature at window offset (6, 0): the padded gray image sliced there, the gray image compared against it, the truth value as 0 or 1. -/
abbrev feat_x41 : List (HloOp τ sig (Elt F)) :=
  [ unary main_v11 main_v135 ((extractStridedSlice S8x1x512x512 ![0, 0, 6, 0] · slices_S8x1x518x518_S8x1x512x512_0_0_6_0) : (⟨S8x1x518x518, .f32⟩ : BufTy).Contents (Elt F) → (⟨S8x1x512x512, .f32⟩ : BufTy).Contents (Elt F)),
    binary main_v10 main_v135 main_v136 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v136 main_v137 (uitofp .f32 : (⟨S8x1x512x512, .i1⟩ : BufTy).Contents (Elt F) → (⟨S8x1x512x512, .f32⟩ : BufTy).Contents (Elt F)) ]
theorem feat_x41_sub : ∀ op ∈ (feat_x41 : List (HloOp τ sig (Elt F))), op.bufs ⊆ tcRefs τ sig :=
  List.forall_iff_forall_mem.mp (show (feat_x41 : List (HloOp τ sig (Elt F))).Forall (fun op => op.bufs ⊆ tcRefs τ sig) from ⟨unary_bufs_sub .., binary_bufs_sub .., unary_bufs_sub ..⟩)
theorem feat_x41_fresh : ∀ op ∈ (feat_x41 : List (HloOp τ sig (Elt F))), op.fresh = ∅ := by
  intro _ h; (repeat (cases h with | head => rfl | tail _ h => ?_)); exact nomatch h
/-- The buffers the stage writes. -/
abbrev feat_x41_W : List (Ref sig .tc) := [main_v135, main_v136, main_v137]
theorem feat_x41_writes : (feat_x41 : List (HloOp τ sig (Elt F))).Forall fun op => op.writes ⊆ (feat_x41_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x41_keep (W : Valuation τ sig (Elt F)) (r : Ref sig .tc) (h : r ∉ feat_x41_W) :
    after feat_x41 W (no_index (Proc.devRef .tc r)) = W (Proc.devRef .tc r) :=
  after_of_writes_sub feat_x41 W feat_x41_writes h
attribute [local irreducible] extractStridedSlice in
set_option maxRecDepth 100000 in
set_option maxHeartbeats 4000000 in
@[ref_read] theorem feat_x41_main_v137 (W : Valuation τ sig (Elt F)) :
    after feat_x41 W (no_index (Proc.devRef .tc main_v137)) = RefTerm.feat (F := F) (W (main_v10 : DevRef τ sig)) (W (main_v11 : DevRef τ sig)) ![0, 0, 6, 0] slices_S8x1x518x518_S8x1x512x512_0_0_6_0 := by
  simp only [feat_x41]
  after_results_simp
  all_goals rfl

/-- 3 operations: the census feature at window offset (6, 1): the padded gray image sliced there, the gray image compared against it, the truth value as 0 or 1. -/
abbrev feat_x42 : List (HloOp τ sig (Elt F)) :=
  [ unary main_v11 main_v138 ((extractStridedSlice S8x1x512x512 ![0, 0, 6, 1] · slices_S8x1x518x518_S8x1x512x512_0_0_6_1) : (⟨S8x1x518x518, .f32⟩ : BufTy).Contents (Elt F) → (⟨S8x1x512x512, .f32⟩ : BufTy).Contents (Elt F)),
    binary main_v10 main_v138 main_v139 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v139 main_v140 (uitofp .f32 : (⟨S8x1x512x512, .i1⟩ : BufTy).Contents (Elt F) → (⟨S8x1x512x512, .f32⟩ : BufTy).Contents (Elt F)) ]
theorem feat_x42_sub : ∀ op ∈ (feat_x42 : List (HloOp τ sig (Elt F))), op.bufs ⊆ tcRefs τ sig :=
  List.forall_iff_forall_mem.mp (show (feat_x42 : List (HloOp τ sig (Elt F))).Forall (fun op => op.bufs ⊆ tcRefs τ sig) from ⟨unary_bufs_sub .., binary_bufs_sub .., unary_bufs_sub ..⟩)
theorem feat_x42_fresh : ∀ op ∈ (feat_x42 : List (HloOp τ sig (Elt F))), op.fresh = ∅ := by
  intro _ h; (repeat (cases h with | head => rfl | tail _ h => ?_)); exact nomatch h
/-- The buffers the stage writes. -/
abbrev feat_x42_W : List (Ref sig .tc) := [main_v138, main_v139, main_v140]
theorem feat_x42_writes : (feat_x42 : List (HloOp τ sig (Elt F))).Forall fun op => op.writes ⊆ (feat_x42_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x42_keep (W : Valuation τ sig (Elt F)) (r : Ref sig .tc) (h : r ∉ feat_x42_W) :
    after feat_x42 W (no_index (Proc.devRef .tc r)) = W (Proc.devRef .tc r) :=
  after_of_writes_sub feat_x42 W feat_x42_writes h
attribute [local irreducible] extractStridedSlice in
set_option maxRecDepth 100000 in
set_option maxHeartbeats 4000000 in
@[ref_read] theorem feat_x42_main_v140 (W : Valuation τ sig (Elt F)) :
    after feat_x42 W (no_index (Proc.devRef .tc main_v140)) = RefTerm.feat (F := F) (W (main_v10 : DevRef τ sig)) (W (main_v11 : DevRef τ sig)) ![0, 0, 6, 1] slices_S8x1x518x518_S8x1x512x512_0_0_6_1 := by
  simp only [feat_x42]
  after_results_simp
  all_goals rfl

/-- 3 operations: the census feature at window offset (6, 2): the padded gray image sliced there, the gray image compared against it, the truth value as 0 or 1. -/
abbrev feat_x43 : List (HloOp τ sig (Elt F)) :=
  [ unary main_v11 main_v141 ((extractStridedSlice S8x1x512x512 ![0, 0, 6, 2] · slices_S8x1x518x518_S8x1x512x512_0_0_6_2) : (⟨S8x1x518x518, .f32⟩ : BufTy).Contents (Elt F) → (⟨S8x1x512x512, .f32⟩ : BufTy).Contents (Elt F)),
    binary main_v10 main_v141 main_v142 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v142 main_v143 (uitofp .f32 : (⟨S8x1x512x512, .i1⟩ : BufTy).Contents (Elt F) → (⟨S8x1x512x512, .f32⟩ : BufTy).Contents (Elt F)) ]
theorem feat_x43_sub : ∀ op ∈ (feat_x43 : List (HloOp τ sig (Elt F))), op.bufs ⊆ tcRefs τ sig :=
  List.forall_iff_forall_mem.mp (show (feat_x43 : List (HloOp τ sig (Elt F))).Forall (fun op => op.bufs ⊆ tcRefs τ sig) from ⟨unary_bufs_sub .., binary_bufs_sub .., unary_bufs_sub ..⟩)
theorem feat_x43_fresh : ∀ op ∈ (feat_x43 : List (HloOp τ sig (Elt F))), op.fresh = ∅ := by
  intro _ h; (repeat (cases h with | head => rfl | tail _ h => ?_)); exact nomatch h
/-- The buffers the stage writes. -/
abbrev feat_x43_W : List (Ref sig .tc) := [main_v141, main_v142, main_v143]
theorem feat_x43_writes : (feat_x43 : List (HloOp τ sig (Elt F))).Forall fun op => op.writes ⊆ (feat_x43_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x43_keep (W : Valuation τ sig (Elt F)) (r : Ref sig .tc) (h : r ∉ feat_x43_W) :
    after feat_x43 W (no_index (Proc.devRef .tc r)) = W (Proc.devRef .tc r) :=
  after_of_writes_sub feat_x43 W feat_x43_writes h
attribute [local irreducible] extractStridedSlice in
set_option maxRecDepth 100000 in
set_option maxHeartbeats 4000000 in
@[ref_read] theorem feat_x43_main_v143 (W : Valuation τ sig (Elt F)) :
    after feat_x43 W (no_index (Proc.devRef .tc main_v143)) = RefTerm.feat (F := F) (W (main_v10 : DevRef τ sig)) (W (main_v11 : DevRef τ sig)) ![0, 0, 6, 2] slices_S8x1x518x518_S8x1x512x512_0_0_6_2 := by
  simp only [feat_x43]
  after_results_simp
  all_goals rfl

/-- 3 operations: the census feature at window offset (6, 3): the padded gray image sliced there, the gray image compared against it, the truth value as 0 or 1. -/
abbrev feat_x44 : List (HloOp τ sig (Elt F)) :=
  [ unary main_v11 main_v144 ((extractStridedSlice S8x1x512x512 ![0, 0, 6, 3] · slices_S8x1x518x518_S8x1x512x512_0_0_6_3) : (⟨S8x1x518x518, .f32⟩ : BufTy).Contents (Elt F) → (⟨S8x1x512x512, .f32⟩ : BufTy).Contents (Elt F)),
    binary main_v10 main_v144 main_v145 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v145 main_v146 (uitofp .f32 : (⟨S8x1x512x512, .i1⟩ : BufTy).Contents (Elt F) → (⟨S8x1x512x512, .f32⟩ : BufTy).Contents (Elt F)) ]
theorem feat_x44_sub : ∀ op ∈ (feat_x44 : List (HloOp τ sig (Elt F))), op.bufs ⊆ tcRefs τ sig :=
  List.forall_iff_forall_mem.mp (show (feat_x44 : List (HloOp τ sig (Elt F))).Forall (fun op => op.bufs ⊆ tcRefs τ sig) from ⟨unary_bufs_sub .., binary_bufs_sub .., unary_bufs_sub ..⟩)
theorem feat_x44_fresh : ∀ op ∈ (feat_x44 : List (HloOp τ sig (Elt F))), op.fresh = ∅ := by
  intro _ h; (repeat (cases h with | head => rfl | tail _ h => ?_)); exact nomatch h
/-- The buffers the stage writes. -/
abbrev feat_x44_W : List (Ref sig .tc) := [main_v144, main_v145, main_v146]
theorem feat_x44_writes : (feat_x44 : List (HloOp τ sig (Elt F))).Forall fun op => op.writes ⊆ (feat_x44_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x44_keep (W : Valuation τ sig (Elt F)) (r : Ref sig .tc) (h : r ∉ feat_x44_W) :
    after feat_x44 W (no_index (Proc.devRef .tc r)) = W (Proc.devRef .tc r) :=
  after_of_writes_sub feat_x44 W feat_x44_writes h
attribute [local irreducible] extractStridedSlice in
set_option maxRecDepth 100000 in
set_option maxHeartbeats 4000000 in
@[ref_read] theorem feat_x44_main_v146 (W : Valuation τ sig (Elt F)) :
    after feat_x44 W (no_index (Proc.devRef .tc main_v146)) = RefTerm.feat (F := F) (W (main_v10 : DevRef τ sig)) (W (main_v11 : DevRef τ sig)) ![0, 0, 6, 3] slices_S8x1x518x518_S8x1x512x512_0_0_6_3 := by
  simp only [feat_x44]
  after_results_simp
  all_goals rfl

/-- 3 operations: the census feature at window offset (6, 4): the padded gray image sliced there, the gray image compared against it, the truth value as 0 or 1. -/
abbrev feat_x45 : List (HloOp τ sig (Elt F)) :=
  [ unary main_v11 main_v147 ((extractStridedSlice S8x1x512x512 ![0, 0, 6, 4] · slices_S8x1x518x518_S8x1x512x512_0_0_6_4) : (⟨S8x1x518x518, .f32⟩ : BufTy).Contents (Elt F) → (⟨S8x1x512x512, .f32⟩ : BufTy).Contents (Elt F)),
    binary main_v10 main_v147 main_v148 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v148 main_v149 (uitofp .f32 : (⟨S8x1x512x512, .i1⟩ : BufTy).Contents (Elt F) → (⟨S8x1x512x512, .f32⟩ : BufTy).Contents (Elt F)) ]
theorem feat_x45_sub : ∀ op ∈ (feat_x45 : List (HloOp τ sig (Elt F))), op.bufs ⊆ tcRefs τ sig :=
  List.forall_iff_forall_mem.mp (show (feat_x45 : List (HloOp τ sig (Elt F))).Forall (fun op => op.bufs ⊆ tcRefs τ sig) from ⟨unary_bufs_sub .., binary_bufs_sub .., unary_bufs_sub ..⟩)
theorem feat_x45_fresh : ∀ op ∈ (feat_x45 : List (HloOp τ sig (Elt F))), op.fresh = ∅ := by
  intro _ h; (repeat (cases h with | head => rfl | tail _ h => ?_)); exact nomatch h
/-- The buffers the stage writes. -/
abbrev feat_x45_W : List (Ref sig .tc) := [main_v147, main_v148, main_v149]
theorem feat_x45_writes : (feat_x45 : List (HloOp τ sig (Elt F))).Forall fun op => op.writes ⊆ (feat_x45_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x45_keep (W : Valuation τ sig (Elt F)) (r : Ref sig .tc) (h : r ∉ feat_x45_W) :
    after feat_x45 W (no_index (Proc.devRef .tc r)) = W (Proc.devRef .tc r) :=
  after_of_writes_sub feat_x45 W feat_x45_writes h
attribute [local irreducible] extractStridedSlice in
set_option maxRecDepth 100000 in
set_option maxHeartbeats 4000000 in
@[ref_read] theorem feat_x45_main_v149 (W : Valuation τ sig (Elt F)) :
    after feat_x45 W (no_index (Proc.devRef .tc main_v149)) = RefTerm.feat (F := F) (W (main_v10 : DevRef τ sig)) (W (main_v11 : DevRef τ sig)) ![0, 0, 6, 4] slices_S8x1x518x518_S8x1x512x512_0_0_6_4 := by
  simp only [feat_x45]
  after_results_simp
  all_goals rfl

/-- 3 operations: the census feature at window offset (6, 5): the padded gray image sliced there, the gray image compared against it, the truth value as 0 or 1. -/
abbrev feat_x46 : List (HloOp τ sig (Elt F)) :=
  [ unary main_v11 main_v150 ((extractStridedSlice S8x1x512x512 ![0, 0, 6, 5] · slices_S8x1x518x518_S8x1x512x512_0_0_6_5) : (⟨S8x1x518x518, .f32⟩ : BufTy).Contents (Elt F) → (⟨S8x1x512x512, .f32⟩ : BufTy).Contents (Elt F)),
    binary main_v10 main_v150 main_v151 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v151 main_v152 (uitofp .f32 : (⟨S8x1x512x512, .i1⟩ : BufTy).Contents (Elt F) → (⟨S8x1x512x512, .f32⟩ : BufTy).Contents (Elt F)) ]
theorem feat_x46_sub : ∀ op ∈ (feat_x46 : List (HloOp τ sig (Elt F))), op.bufs ⊆ tcRefs τ sig :=
  List.forall_iff_forall_mem.mp (show (feat_x46 : List (HloOp τ sig (Elt F))).Forall (fun op => op.bufs ⊆ tcRefs τ sig) from ⟨unary_bufs_sub .., binary_bufs_sub .., unary_bufs_sub ..⟩)
theorem feat_x46_fresh : ∀ op ∈ (feat_x46 : List (HloOp τ sig (Elt F))), op.fresh = ∅ := by
  intro _ h; (repeat (cases h with | head => rfl | tail _ h => ?_)); exact nomatch h
/-- The buffers the stage writes. -/
abbrev feat_x46_W : List (Ref sig .tc) := [main_v150, main_v151, main_v152]
theorem feat_x46_writes : (feat_x46 : List (HloOp τ sig (Elt F))).Forall fun op => op.writes ⊆ (feat_x46_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x46_keep (W : Valuation τ sig (Elt F)) (r : Ref sig .tc) (h : r ∉ feat_x46_W) :
    after feat_x46 W (no_index (Proc.devRef .tc r)) = W (Proc.devRef .tc r) :=
  after_of_writes_sub feat_x46 W feat_x46_writes h
attribute [local irreducible] extractStridedSlice in
set_option maxRecDepth 100000 in
set_option maxHeartbeats 4000000 in
@[ref_read] theorem feat_x46_main_v152 (W : Valuation τ sig (Elt F)) :
    after feat_x46 W (no_index (Proc.devRef .tc main_v152)) = RefTerm.feat (F := F) (W (main_v10 : DevRef τ sig)) (W (main_v11 : DevRef τ sig)) ![0, 0, 6, 5] slices_S8x1x518x518_S8x1x512x512_0_0_6_5 := by
  simp only [feat_x46]
  after_results_simp
  all_goals rfl

/-- 3 operations: the census feature at window offset (6, 6): the padded gray image sliced there, the gray image compared against it, the truth value as 0 or 1. -/
abbrev feat_x47 : List (HloOp τ sig (Elt F)) :=
  [ unary main_v11 main_v153 ((extractStridedSlice S8x1x512x512 ![0, 0, 6, 6] · slices_S8x1x518x518_S8x1x512x512_0_0_6_6) : (⟨S8x1x518x518, .f32⟩ : BufTy).Contents (Elt F) → (⟨S8x1x512x512, .f32⟩ : BufTy).Contents (Elt F)),
    binary main_v10 main_v153 main_v154 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v154 main_v155 (uitofp .f32 : (⟨S8x1x512x512, .i1⟩ : BufTy).Contents (Elt F) → (⟨S8x1x512x512, .f32⟩ : BufTy).Contents (Elt F)) ]
theorem feat_x47_sub : ∀ op ∈ (feat_x47 : List (HloOp τ sig (Elt F))), op.bufs ⊆ tcRefs τ sig :=
  List.forall_iff_forall_mem.mp (show (feat_x47 : List (HloOp τ sig (Elt F))).Forall (fun op => op.bufs ⊆ tcRefs τ sig) from ⟨unary_bufs_sub .., binary_bufs_sub .., unary_bufs_sub ..⟩)
theorem feat_x47_fresh : ∀ op ∈ (feat_x47 : List (HloOp τ sig (Elt F))), op.fresh = ∅ := by
  intro _ h; (repeat (cases h with | head => rfl | tail _ h => ?_)); exact nomatch h
/-- The buffers the stage writes. -/
abbrev feat_x47_W : List (Ref sig .tc) := [main_v153, main_v154, main_v155]
theorem feat_x47_writes : (feat_x47 : List (HloOp τ sig (Elt F))).Forall fun op => op.writes ⊆ (feat_x47_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_x47_keep (W : Valuation τ sig (Elt F)) (r : Ref sig .tc) (h : r ∉ feat_x47_W) :
    after feat_x47 W (no_index (Proc.devRef .tc r)) = W (Proc.devRef .tc r) :=
  after_of_writes_sub feat_x47 W feat_x47_writes h
attribute [local irreducible] extractStridedSlice in
set_option maxRecDepth 100000 in
set_option maxHeartbeats 4000000 in
@[ref_read] theorem feat_x47_main_v155 (W : Valuation τ sig (Elt F)) :
    after feat_x47 W (no_index (Proc.devRef .tc main_v155)) = RefTerm.feat (F := F) (W (main_v10 : DevRef τ sig)) (W (main_v11 : DevRef τ sig)) ![0, 0, 6, 6] slices_S8x1x518x518_S8x1x512x512_0_0_6_6 := by
  simp only [feat_x47]
  after_results_simp
  all_goals rfl

/-- 4 operations: the 48 features laid along the channel axis: three concatenations of sixteen, then the concatenation of the three. -/
abbrev cats_x : List (HloOp τ sig (Elt F)) :=
  [ nary ![main_v14, main_v17, main_v20, main_v23, main_v26, main_v29, main_v32, main_v35, main_v38, main_v41, main_v44, main_v47, main_v50, main_v53, main_v56, main_v59] main_v156 (fun u => concatenate S8x16x512x512 1 [⟨S8x1x512x512, u 0⟩, ⟨S8x1x512x512, u 1⟩, ⟨S8x1x512x512, u 2⟩, ⟨S8x1x512x512, u 3⟩, ⟨S8x1x512x512, u 4⟩, ⟨S8x1x512x512, u 5⟩, ⟨S8x1x512x512, u 6⟩, ⟨S8x1x512x512, u 7⟩, ⟨S8x1x512x512, u 8⟩, ⟨S8x1x512x512, u 9⟩, ⟨S8x1x512x512, u 10⟩, ⟨S8x1x512x512, u 11⟩, ⟨S8x1x512x512, u 12⟩, ⟨S8x1x512x512, u 13⟩, ⟨S8x1x512x512, u 14⟩, ⟨S8x1x512x512, u 15⟩] concatenates_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x16x512x512_d1),
    nary ![main_v62, main_v65, main_v68, main_v71, main_v74, main_v77, main_v80, main_v83, main_v86, main_v89, main_v92, main_v95, main_v98, main_v101, main_v104, main_v107] main_v157 (fun u => concatenate S8x16x512x512 1 [⟨S8x1x512x512, u 0⟩, ⟨S8x1x512x512, u 1⟩, ⟨S8x1x512x512, u 2⟩, ⟨S8x1x512x512, u 3⟩, ⟨S8x1x512x512, u 4⟩, ⟨S8x1x512x512, u 5⟩, ⟨S8x1x512x512, u 6⟩, ⟨S8x1x512x512, u 7⟩, ⟨S8x1x512x512, u 8⟩, ⟨S8x1x512x512, u 9⟩, ⟨S8x1x512x512, u 10⟩, ⟨S8x1x512x512, u 11⟩, ⟨S8x1x512x512, u 12⟩, ⟨S8x1x512x512, u 13⟩, ⟨S8x1x512x512, u 14⟩, ⟨S8x1x512x512, u 15⟩] concatenates_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x16x512x512_d1),
    nary ![main_v110, main_v113, main_v116, main_v119, main_v122, main_v125, main_v128, main_v131, main_v134, main_v137, main_v140, main_v143, main_v146, main_v149, main_v152, main_v155] main_v158 (fun u => concatenate S8x16x512x512 1 [⟨S8x1x512x512, u 0⟩, ⟨S8x1x512x512, u 1⟩, ⟨S8x1x512x512, u 2⟩, ⟨S8x1x512x512, u 3⟩, ⟨S8x1x512x512, u 4⟩, ⟨S8x1x512x512, u 5⟩, ⟨S8x1x512x512, u 6⟩, ⟨S8x1x512x512, u 7⟩, ⟨S8x1x512x512, u 8⟩, ⟨S8x1x512x512, u 9⟩, ⟨S8x1x512x512, u 10⟩, ⟨S8x1x512x512, u 11⟩, ⟨S8x1x512x512, u 12⟩, ⟨S8x1x512x512, u 13⟩, ⟨S8x1x512x512, u 14⟩, ⟨S8x1x512x512, u 15⟩] concatenates_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x16x512x512_d1),
    nary ![main_v156, main_v157, main_v158] main_v159 (fun u => concatenate S8x48x512x512 1 [⟨S8x16x512x512, u 0⟩, ⟨S8x16x512x512, u 1⟩, ⟨S8x16x512x512, u 2⟩] concatenates_S8x16x512x512_S8x16x512x512_S8x16x512x512_S8x48x512x512_d1) ]
theorem cats_x_sub : ∀ op ∈ (cats_x : List (HloOp τ sig (Elt F))), op.bufs ⊆ tcRefs τ sig :=
  List.forall_iff_forall_mem.mp (show (cats_x : List (HloOp τ sig (Elt F))).Forall (fun op => op.bufs ⊆ tcRefs τ sig) from ⟨nary_bufs_sub .., nary_bufs_sub .., nary_bufs_sub .., nary_bufs_sub ..⟩)
theorem cats_x_fresh : ∀ op ∈ (cats_x : List (HloOp τ sig (Elt F))), op.fresh = ∅ := by
  intro _ h; (repeat (cases h with | head => rfl | tail _ h => ?_)); exact nomatch h
/-- The buffers the stage writes. -/
abbrev cats_x_W : List (Ref sig .tc) := [main_v156, main_v157, main_v158, main_v159]
theorem cats_x_writes : (cats_x : List (HloOp τ sig (Elt F))).Forall fun op => op.writes ⊆ (cats_x_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem cats_x_keep (W : Valuation τ sig (Elt F)) (r : Ref sig .tc) (h : r ∉ cats_x_W) :
    after cats_x W (no_index (Proc.devRef .tc r)) = W (Proc.devRef .tc r) :=
  after_of_writes_sub cats_x W cats_x_writes h
set_option backward.isDefEq.respectTransparency.types false in
attribute [local irreducible] concatenate in
set_option maxRecDepth 100000 in
set_option maxHeartbeats 4000000 in
@[ref_read] theorem cats_x_main_v159 (W : Valuation τ sig (Elt F)) :
    after cats_x W (no_index (Proc.devRef .tc main_v159)) = cat3 (F := F)
      (cat16 (F := F) (W (main_v14 : DevRef τ sig)) (W (main_v17 : DevRef τ sig)) (W (main_v20 : DevRef τ sig)) (W (main_v23 : DevRef τ sig)) (W (main_v26 : DevRef τ sig)) (W (main_v29 : DevRef τ sig)) (W (main_v32 : DevRef τ sig)) (W (main_v35 : DevRef τ sig)) (W (main_v38 : DevRef τ sig)) (W (main_v41 : DevRef τ sig)) (W (main_v44 : DevRef τ sig)) (W (main_v47 : DevRef τ sig)) (W (main_v50 : DevRef τ sig)) (W (main_v53 : DevRef τ sig)) (W (main_v56 : DevRef τ sig)) (W (main_v59 : DevRef τ sig)))
      (cat16 (F := F) (W (main_v62 : DevRef τ sig)) (W (main_v65 : DevRef τ sig)) (W (main_v68 : DevRef τ sig)) (W (main_v71 : DevRef τ sig)) (W (main_v74 : DevRef τ sig)) (W (main_v77 : DevRef τ sig)) (W (main_v80 : DevRef τ sig)) (W (main_v83 : DevRef τ sig)) (W (main_v86 : DevRef τ sig)) (W (main_v89 : DevRef τ sig)) (W (main_v92 : DevRef τ sig)) (W (main_v95 : DevRef τ sig)) (W (main_v98 : DevRef τ sig)) (W (main_v101 : DevRef τ sig)) (W (main_v104 : DevRef τ sig)) (W (main_v107 : DevRef τ sig)))
      (cat16 (F := F) (W (main_v110 : DevRef τ sig)) (W (main_v113 : DevRef τ sig)) (W (main_v116 : DevRef τ sig)) (W (main_v119 : DevRef τ sig)) (W (main_v122 : DevRef τ sig)) (W (main_v125 : DevRef τ sig)) (W (main_v128 : DevRef τ sig)) (W (main_v131 : DevRef τ sig)) (W (main_v134 : DevRef τ sig)) (W (main_v137 : DevRef τ sig)) (W (main_v140 : DevRef τ sig)) (W (main_v143 : DevRef τ sig)) (W (main_v146 : DevRef τ sig)) (W (main_v149 : DevRef τ sig)) (W (main_v152 : DevRef τ sig)) (W (main_v155 : DevRef τ sig))) := by
  simp only [cats_x]
  after_results_simp
  try dsimp only [Matrix.cons_val]
  try after_results_simp
  try dsimp only [Matrix.cons_val]
  try after_results_simp
  all_goals rfl

/-- 15 operations: an image made gray: three channel slices, each times its broadcast weight, added (and the padding call's integer operand). -/
abbrev gray_y : List (HloOp τ sig (Elt F)) :=
  [ unary main_arg1 main_v160 ((extractStridedSlice S8x1x512x512 ![0, 0, 0, 0] · slices_S8x3x512x512_S8x1x512x512_0_0_0_0) : (⟨S8x3x512x512, .f32⟩ : BufTy).Contents (Elt F) → (⟨S8x1x512x512, .f32⟩ : BufTy).Contents (Elt F)),
    nullary main_cst_2 (constant S_ .f32 0x3E991687#32),
    unary main_cst_2 main_v161 (broadcastInDim S8x1x512x512 ![] bcast_S_S8x1x512x512 : (⟨S_, .f32⟩ : BufTy).Contents (Elt F) → (⟨S8x1x512x512, .f32⟩ : BufTy).Contents (Elt F)),
    binary main_v161 main_v160 main_v162 (mulf : (⟨S8x1x512x512, .f32⟩ : BufTy).Contents (Elt F) → (⟨S8x1x512x512, .f32⟩ : BufTy).Contents (Elt F) → (⟨S8x1x512x512, .f32⟩ : BufTy).Contents (Elt F)),
    unary main_arg1 main_v163 ((extractStridedSlice S8x1x512x512 ![0, 1, 0, 0] · slices_S8x3x512x512_S8x1x512x512_0_1_0_0) : (⟨S8x3x512x512, .f32⟩ : BufTy).Contents (Elt F) → (⟨S8x1x512x512, .f32⟩ : BufTy).Contents (Elt F)),
    nullary main_cst_3 (constant S_ .f32 0x3F1645A2#32),
    unary main_cst_3 main_v164 (broadcastInDim S8x1x512x512 ![] bcast_S_S8x1x512x512 : (⟨S_, .f32⟩ : BufTy).Contents (Elt F) → (⟨S8x1x512x512, .f32⟩ : BufTy).Contents (Elt F)),
    binary main_v164 main_v163 main_v165 (mulf : (⟨S8x1x512x512, .f32⟩ : BufTy).Contents (Elt F) → (⟨S8x1x512x512, .f32⟩ : BufTy).Contents (Elt F) → (⟨S8x1x512x512, .f32⟩ : BufTy).Contents (Elt F)),
    binary main_v162 main_v165 main_v166 (addf : (⟨S8x1x512x512, .f32⟩ : BufTy).Contents (Elt F) → (⟨S8x1x512x512, .f32⟩ : BufTy).Contents (Elt F) → (⟨S8x1x512x512, .f32⟩ : BufTy).Contents (Elt F)),
    unary main_arg1 main_v167 ((extractStridedSlice S8x1x512x512 ![0, 2, 0, 0] · slices_S8x3x512x512_S8x1x512x512_0_2_0_0) : (⟨S8x3x512x512, .f32⟩ : BufTy).Contents (Elt F) → (⟨S8x1x512x512, .f32⟩ : BufTy).Contents (Elt F)),
    nullary main_cst_4 (constant S_ .f32 0x3DE978D5#32),
    unary main_cst_4 main_v168 (broadcastInDim S8x1x512x512 ![] bcast_S_S8x1x512x512 : (⟨S_, .f32⟩ : BufTy).Contents (Elt F) → (⟨S8x1x512x512, .f32⟩ : BufTy).Contents (Elt F)),
    binary main_v168 main_v167 main_v169 (mulf : (⟨S8x1x512x512, .f32⟩ : BufTy).Contents (Elt F) → (⟨S8x1x512x512, .f32⟩ : BufTy).Contents (Elt F) → (⟨S8x1x512x512, .f32⟩ : BufTy).Contents (Elt F)),
    binary main_v166 main_v169 main_v170 (addf : (⟨S8x1x512x512, .f32⟩ : BufTy).Contents (Elt F) → (⟨S8x1x512x512, .f32⟩ : BufTy).Contents (Elt F) → (⟨S8x1x512x512, .f32⟩ : BufTy).Contents (Elt F)),
    nullary main_c_5 (constantI S_ 32 0#32) ]
theorem gray_y_sub : ∀ op ∈ (gray_y : List (HloOp τ sig (Elt F))), op.bufs ⊆ tcRefs τ sig :=
  List.forall_iff_forall_mem.mp (show (gray_y : List (HloOp τ sig (Elt F))).Forall (fun op => op.bufs ⊆ tcRefs τ sig) from ⟨unary_bufs_sub .., nullary_bufs_sub .., unary_bufs_sub .., binary_bufs_sub .., unary_bufs_sub .., nullary_bufs_sub .., unary_bufs_sub .., binary_bufs_sub .., binary_bufs_sub .., unary_bufs_sub .., nullary_bufs_sub .., unary_bufs_sub .., binary_bufs_sub .., binary_bufs_sub .., nullary_bufs_sub ..⟩)
theorem gray_y_fresh : ∀ op ∈ (gray_y : List (HloOp τ sig (Elt F))), op.fresh = ∅ := by
  intro _ h; (repeat (cases h with | head => rfl | tail _ h => ?_)); exact nomatch h
/-- The buffers the stage writes. -/
abbrev gray_y_W : List (Ref sig .tc) := [main_v160, main_cst_2, main_v161, main_v162, main_v163, main_cst_3, main_v164, main_v165, main_v166, main_v167, main_cst_4, main_v168, main_v169, main_v170, main_c_5]
theorem gray_y_writes : (gray_y : List (HloOp τ sig (Elt F))).Forall fun op => op.writes ⊆ (gray_y_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem gray_y_keep (W : Valuation τ sig (Elt F)) (r : Ref sig .tc) (h : r ∉ gray_y_W) :
    after gray_y W (no_index (Proc.devRef .tc r)) = W (Proc.devRef .tc r) :=
  after_of_writes_sub gray_y W gray_y_writes h
attribute [local irreducible] extractStridedSlice broadcastInDim in
set_option maxRecDepth 100000 in
set_option maxHeartbeats 4000000 in
@[ref_read] theorem gray_y_main_v170 (W : Valuation τ sig (Elt F)) :
    after gray_y W (no_index (Proc.devRef .tc main_v170)) = RefTerm.gray (F := F) (W (main_arg1 : DevRef τ sig)) := by
  simp only [gray_y]
  after_results_simp
  all_goals rfl

/-- 16 operations: the gray image's reflect padding: the padding function's sixteen operations over the call's buffers. -/
abbrev pad_y : List (HloOp τ sig (Elt F)) :=
  [ TRef.unary (.of main_v170 : StableHlo.TRef sig ⟨S8x1x512x512, .f32⟩) main_call1.v0 (extractStridedSlice S8x1x1x512 ![0, 0, 0, 0] · slices_S8x1x512x512_S8x1x1x512_0_0_0_0),
    TRef.unary (.of main_v170 : StableHlo.TRef sig ⟨S8x1x512x512, .f32⟩) main_call1.v1 (extractStridedSlice S8x1x3x512 ![0, 0, 1, 0] · slices_S8x1x512x512_S8x1x3x512_0_0_1_0),
    TRef.unary main_call1.v1 main_call1.call0.v0 (Host.reverse [2]),
    TRef.binary main_call1.call0.v0 (.of main_v170 : StableHlo.TRef sig ⟨S8x1x512x512, .f32⟩) main_call1.v3 (fun a b => concatenate S8x1x515x512 2 [⟨S8x1x3x512, a⟩, ⟨S8x1x512x512, b⟩] concatenates_S8x1x3x512_S8x1x512x512_S8x1x515x512_d2),
    TRef.unary main_call1.v3 main_call1.v4 (extractStridedSlice S8x1x1x512 ![0, 0, 514, 0] · slices_S8x1x515x512_S8x1x1x512_0_0_514_0),
    TRef.unary main_call1.v3 main_call1.v5 (extractStridedSlice S8x1x3x512 ![0, 0, 511, 0] · slices_S8x1x515x512_S8x1x3x512_0_0_511_0),
    TRef.unary main_call1.v5 main_call1.call1.v0 (Host.reverse [2]),
    TRef.binary main_call1.v3 main_call1.call1.v0 main_call1.v7 (fun a b => concatenate S8x1x518x512 2 [⟨S8x1x515x512, a⟩, ⟨S8x1x3x512, b⟩] concatenates_S8x1x515x512_S8x1x3x512_S8x1x518x512_d2),
    TRef.unary main_call1.v7 main_call1.v8 (extractStridedSlice S8x1x518x1 ![0, 0, 0, 0] · slices_S8x1x518x512_S8x1x518x1_0_0_0_0),
    TRef.unary main_call1.v7 main_call1.v9 (extractStridedSlice S8x1x518x3 ![0, 0, 0, 1] · slices_S8x1x518x512_S8x1x518x3_0_0_0_1),
    TRef.unary main_call1.v9 main_call1.call2.v0 (Host.reverse [3]),
    TRef.binary main_call1.call2.v0 main_call1.v7 main_call1.v11 (fun a b => concatenate S8x1x518x515 3 [⟨S8x1x518x3, a⟩, ⟨S8x1x518x512, b⟩] concatenates_S8x1x518x3_S8x1x518x512_S8x1x518x515_d3),
    TRef.unary main_call1.v11 main_call1.v12 (extractStridedSlice S8x1x518x1 ![0, 0, 0, 514] · slices_S8x1x518x515_S8x1x518x1_0_0_0_514),
    TRef.unary main_call1.v11 main_call1.v13 (extractStridedSlice S8x1x518x3 ![0, 0, 0, 511] · slices_S8x1x518x515_S8x1x518x3_0_0_0_511),
    TRef.unary main_call1.v13 main_call1.call3.v0 (Host.reverse [3]),
    TRef.binary main_call1.v11 main_call1.call3.v0 main_call1.v15 (fun a b => concatenate S8x1x518x518 3 [⟨S8x1x518x515, a⟩, ⟨S8x1x518x3, b⟩] concatenates_S8x1x518x515_S8x1x518x3_S8x1x518x518_d3) ]
theorem pad_y_sub : ∀ op ∈ (pad_y : List (HloOp τ sig (Elt F))), op.bufs ⊆ tcRefs τ sig :=
  List.forall_iff_forall_mem.mp (show (pad_y : List (HloOp τ sig (Elt F))).Forall (fun op => op.bufs ⊆ tcRefs τ sig) from ⟨unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub ..⟩)
theorem pad_y_fresh : ∀ op ∈ (pad_y : List (HloOp τ sig (Elt F))), op.fresh = ∅ := by
  intro _ h; (repeat (cases h with | head => rfl | tail _ h => ?_)); exact nomatch h
/-- The buffers the stage writes. -/
abbrev pad_y_W : List (Ref sig .tc) := [main_call1_v0, main_call1_v1, main_call1_v2, main_call1_v3, main_call1_v4, main_call1_v5, main_call1_v6, main_call1_v7, main_call1_v8, main_call1_v9, main_call1_v10, main_call1_v11, main_call1_v12, main_call1_v13, main_call1_v14, main_v171]
theorem pad_y_writes : (pad_y : List (HloOp τ sig (Elt F))).Forall fun op => op.writes ⊆ (pad_y_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem pad_y_keep (W : Valuation τ sig (Elt F)) (r : Ref sig .tc) (h : r ∉ pad_y_W) :
    after pad_y W (no_index (Proc.devRef .tc r)) = W (Proc.devRef .tc r) :=
  after_of_writes_sub pad_y W pad_y_writes h
attribute [local irreducible] concatenate extractStridedSlice Host.reverse in
set_option maxRecDepth 100000 in
set_option maxHeartbeats 4000000 in
@[ref_read] theorem pad_y_main_v171 (W : Valuation τ sig (Elt F)) :
    after pad_y W (no_index (Proc.devRef .tc main_v171)) = RefTerm.pad (F := F) (W (main_v170 : DevRef τ sig)) := by
  simp only [pad_y]
  after_results_simp
  all_goals rfl

/-- Window main_part2's 75 operations, as printed. -/
abbrev ops2_flat : List (HloOp τ sig (Elt F)) :=
  [ unary main_v115 main_v116 (uitofp .f32 : (⟨S8x1x512x512, .i1⟩ : BufTy).Contents (Elt F) → (⟨S8x1x512x512, .f32⟩ : BufTy).Contents (Elt F)),
    unary main_v11 main_v117 ((extractStridedSlice S8x1x512x512 ![0, 0, 5, 1] · slices_S8x1x518x518_S8x1x512x512_0_0_5_1) : (⟨S8x1x518x518, .f32⟩ : BufTy).Contents (Elt F) → (⟨S8x1x512x512, .f32⟩ : BufTy).Contents (Elt F)),
    binary main_v10 main_v117 main_v118 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v118 main_v119 (uitofp .f32 : (⟨S8x1x512x512, .i1⟩ : BufTy).Contents (Elt F) → (⟨S8x1x512x512, .f32⟩ : BufTy).Contents (Elt F)),
    unary main_v11 main_v120 ((extractStridedSlice S8x1x512x512 ![0, 0, 5, 2] · slices_S8x1x518x518_S8x1x512x512_0_0_5_2) : (⟨S8x1x518x518, .f32⟩ : BufTy).Contents (Elt F) → (⟨S8x1x512x512, .f32⟩ : BufTy).Contents (Elt F)),
    binary main_v10 main_v120 main_v121 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v121 main_v122 (uitofp .f32 : (⟨S8x1x512x512, .i1⟩ : BufTy).Contents (Elt F) → (⟨S8x1x512x512, .f32⟩ : BufTy).Contents (Elt F)),
    unary main_v11 main_v123 ((extractStridedSlice S8x1x512x512 ![0, 0, 5, 3] · slices_S8x1x518x518_S8x1x512x512_0_0_5_3) : (⟨S8x1x518x518, .f32⟩ : BufTy).Contents (Elt F) → (⟨S8x1x512x512, .f32⟩ : BufTy).Contents (Elt F)),
    binary main_v10 main_v123 main_v124 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v124 main_v125 (uitofp .f32 : (⟨S8x1x512x512, .i1⟩ : BufTy).Contents (Elt F) → (⟨S8x1x512x512, .f32⟩ : BufTy).Contents (Elt F)),
    unary main_v11 main_v126 ((extractStridedSlice S8x1x512x512 ![0, 0, 5, 4] · slices_S8x1x518x518_S8x1x512x512_0_0_5_4) : (⟨S8x1x518x518, .f32⟩ : BufTy).Contents (Elt F) → (⟨S8x1x512x512, .f32⟩ : BufTy).Contents (Elt F)),
    binary main_v10 main_v126 main_v127 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v127 main_v128 (uitofp .f32 : (⟨S8x1x512x512, .i1⟩ : BufTy).Contents (Elt F) → (⟨S8x1x512x512, .f32⟩ : BufTy).Contents (Elt F)),
    unary main_v11 main_v129 ((extractStridedSlice S8x1x512x512 ![0, 0, 5, 5] · slices_S8x1x518x518_S8x1x512x512_0_0_5_5) : (⟨S8x1x518x518, .f32⟩ : BufTy).Contents (Elt F) → (⟨S8x1x512x512, .f32⟩ : BufTy).Contents (Elt F)),
    binary main_v10 main_v129 main_v130 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v130 main_v131 (uitofp .f32 : (⟨S8x1x512x512, .i1⟩ : BufTy).Contents (Elt F) → (⟨S8x1x512x512, .f32⟩ : BufTy).Contents (Elt F)),
    unary main_v11 main_v132 ((extractStridedSlice S8x1x512x512 ![0, 0, 5, 6] · slices_S8x1x518x518_S8x1x512x512_0_0_5_6) : (⟨S8x1x518x518, .f32⟩ : BufTy).Contents (Elt F) → (⟨S8x1x512x512, .f32⟩ : BufTy).Contents (Elt F)),
    binary main_v10 main_v132 main_v133 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v133 main_v134 (uitofp .f32 : (⟨S8x1x512x512, .i1⟩ : BufTy).Contents (Elt F) → (⟨S8x1x512x512, .f32⟩ : BufTy).Contents (Elt F)),
    unary main_v11 main_v135 ((extractStridedSlice S8x1x512x512 ![0, 0, 6, 0] · slices_S8x1x518x518_S8x1x512x512_0_0_6_0) : (⟨S8x1x518x518, .f32⟩ : BufTy).Contents (Elt F) → (⟨S8x1x512x512, .f32⟩ : BufTy).Contents (Elt F)),
    binary main_v10 main_v135 main_v136 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v136 main_v137 (uitofp .f32 : (⟨S8x1x512x512, .i1⟩ : BufTy).Contents (Elt F) → (⟨S8x1x512x512, .f32⟩ : BufTy).Contents (Elt F)),
    unary main_v11 main_v138 ((extractStridedSlice S8x1x512x512 ![0, 0, 6, 1] · slices_S8x1x518x518_S8x1x512x512_0_0_6_1) : (⟨S8x1x518x518, .f32⟩ : BufTy).Contents (Elt F) → (⟨S8x1x512x512, .f32⟩ : BufTy).Contents (Elt F)),
    binary main_v10 main_v138 main_v139 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v139 main_v140 (uitofp .f32 : (⟨S8x1x512x512, .i1⟩ : BufTy).Contents (Elt F) → (⟨S8x1x512x512, .f32⟩ : BufTy).Contents (Elt F)),
    unary main_v11 main_v141 ((extractStridedSlice S8x1x512x512 ![0, 0, 6, 2] · slices_S8x1x518x518_S8x1x512x512_0_0_6_2) : (⟨S8x1x518x518, .f32⟩ : BufTy).Contents (Elt F) → (⟨S8x1x512x512, .f32⟩ : BufTy).Contents (Elt F)),
    binary main_v10 main_v141 main_v142 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v142 main_v143 (uitofp .f32 : (⟨S8x1x512x512, .i1⟩ : BufTy).Contents (Elt F) → (⟨S8x1x512x512, .f32⟩ : BufTy).Contents (Elt F)),
    unary main_v11 main_v144 ((extractStridedSlice S8x1x512x512 ![0, 0, 6, 3] · slices_S8x1x518x518_S8x1x512x512_0_0_6_3) : (⟨S8x1x518x518, .f32⟩ : BufTy).Contents (Elt F) → (⟨S8x1x512x512, .f32⟩ : BufTy).Contents (Elt F)),
    binary main_v10 main_v144 main_v145 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v145 main_v146 (uitofp .f32 : (⟨S8x1x512x512, .i1⟩ : BufTy).Contents (Elt F) → (⟨S8x1x512x512, .f32⟩ : BufTy).Contents (Elt F)),
    unary main_v11 main_v147 ((extractStridedSlice S8x1x512x512 ![0, 0, 6, 4] · slices_S8x1x518x518_S8x1x512x512_0_0_6_4) : (⟨S8x1x518x518, .f32⟩ : BufTy).Contents (Elt F) → (⟨S8x1x512x512, .f32⟩ : BufTy).Contents (Elt F)),
    binary main_v10 main_v147 main_v148 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v148 main_v149 (uitofp .f32 : (⟨S8x1x512x512, .i1⟩ : BufTy).Contents (Elt F) → (⟨S8x1x512x512, .f32⟩ : BufTy).Contents (Elt F)),
    unary main_v11 main_v150 ((extractStridedSlice S8x1x512x512 ![0, 0, 6, 5] · slices_S8x1x518x518_S8x1x512x512_0_0_6_5) : (⟨S8x1x518x518, .f32⟩ : BufTy).Contents (Elt F) → (⟨S8x1x512x512, .f32⟩ : BufTy).Contents (Elt F)),
    binary main_v10 main_v150 main_v151 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v151 main_v152 (uitofp .f32 : (⟨S8x1x512x512, .i1⟩ : BufTy).Contents (Elt F) → (⟨S8x1x512x512, .f32⟩ : BufTy).Contents (Elt F)),
    unary main_v11 main_v153 ((extractStridedSlice S8x1x512x512 ![0, 0, 6, 6] · slices_S8x1x518x518_S8x1x512x512_0_0_6_6) : (⟨S8x1x518x518, .f32⟩ : BufTy).Contents (Elt F) → (⟨S8x1x512x512, .f32⟩ : BufTy).Contents (Elt F)),
    binary main_v10 main_v153 main_v154 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v154 main_v155 (uitofp .f32 : (⟨S8x1x512x512, .i1⟩ : BufTy).Contents (Elt F) → (⟨S8x1x512x512, .f32⟩ : BufTy).Contents (Elt F)),
    nary ![main_v14, main_v17, main_v20, main_v23, main_v26, main_v29, main_v32, main_v35, main_v38, main_v41, main_v44, main_v47, main_v50, main_v53, main_v56, main_v59] main_v156 (fun u => concatenate S8x16x512x512 1 [⟨S8x1x512x512, u 0⟩, ⟨S8x1x512x512, u 1⟩, ⟨S8x1x512x512, u 2⟩, ⟨S8x1x512x512, u 3⟩, ⟨S8x1x512x512, u 4⟩, ⟨S8x1x512x512, u 5⟩, ⟨S8x1x512x512, u 6⟩, ⟨S8x1x512x512, u 7⟩, ⟨S8x1x512x512, u 8⟩, ⟨S8x1x512x512, u 9⟩, ⟨S8x1x512x512, u 10⟩, ⟨S8x1x512x512, u 11⟩, ⟨S8x1x512x512, u 12⟩, ⟨S8x1x512x512, u 13⟩, ⟨S8x1x512x512, u 14⟩, ⟨S8x1x512x512, u 15⟩] concatenates_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x16x512x512_d1),
    nary ![main_v62, main_v65, main_v68, main_v71, main_v74, main_v77, main_v80, main_v83, main_v86, main_v89, main_v92, main_v95, main_v98, main_v101, main_v104, main_v107] main_v157 (fun u => concatenate S8x16x512x512 1 [⟨S8x1x512x512, u 0⟩, ⟨S8x1x512x512, u 1⟩, ⟨S8x1x512x512, u 2⟩, ⟨S8x1x512x512, u 3⟩, ⟨S8x1x512x512, u 4⟩, ⟨S8x1x512x512, u 5⟩, ⟨S8x1x512x512, u 6⟩, ⟨S8x1x512x512, u 7⟩, ⟨S8x1x512x512, u 8⟩, ⟨S8x1x512x512, u 9⟩, ⟨S8x1x512x512, u 10⟩, ⟨S8x1x512x512, u 11⟩, ⟨S8x1x512x512, u 12⟩, ⟨S8x1x512x512, u 13⟩, ⟨S8x1x512x512, u 14⟩, ⟨S8x1x512x512, u 15⟩] concatenates_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x16x512x512_d1),
    nary ![main_v110, main_v113, main_v116, main_v119, main_v122, main_v125, main_v128, main_v131, main_v134, main_v137, main_v140, main_v143, main_v146, main_v149, main_v152, main_v155] main_v158 (fun u => concatenate S8x16x512x512 1 [⟨S8x1x512x512, u 0⟩, ⟨S8x1x512x512, u 1⟩, ⟨S8x1x512x512, u 2⟩, ⟨S8x1x512x512, u 3⟩, ⟨S8x1x512x512, u 4⟩, ⟨S8x1x512x512, u 5⟩, ⟨S8x1x512x512, u 6⟩, ⟨S8x1x512x512, u 7⟩, ⟨S8x1x512x512, u 8⟩, ⟨S8x1x512x512, u 9⟩, ⟨S8x1x512x512, u 10⟩, ⟨S8x1x512x512, u 11⟩, ⟨S8x1x512x512, u 12⟩, ⟨S8x1x512x512, u 13⟩, ⟨S8x1x512x512, u 14⟩, ⟨S8x1x512x512, u 15⟩] concatenates_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x16x512x512_d1),
    nary ![main_v156, main_v157, main_v158] main_v159 (fun u => concatenate S8x48x512x512 1 [⟨S8x16x512x512, u 0⟩, ⟨S8x16x512x512, u 1⟩, ⟨S8x16x512x512, u 2⟩] concatenates_S8x16x512x512_S8x16x512x512_S8x16x512x512_S8x48x512x512_d1),
    unary main_arg1 main_v160 ((extractStridedSlice S8x1x512x512 ![0, 0, 0, 0] · slices_S8x3x512x512_S8x1x512x512_0_0_0_0) : (⟨S8x3x512x512, .f32⟩ : BufTy).Contents (Elt F) → (⟨S8x1x512x512, .f32⟩ : BufTy).Contents (Elt F)),
    nullary main_cst_2 (constant S_ .f32 0x3E991687#32),
    unary main_cst_2 main_v161 (broadcastInDim S8x1x512x512 ![] bcast_S_S8x1x512x512 : (⟨S_, .f32⟩ : BufTy).Contents (Elt F) → (⟨S8x1x512x512, .f32⟩ : BufTy).Contents (Elt F)),
    binary main_v161 main_v160 main_v162 (mulf : (⟨S8x1x512x512, .f32⟩ : BufTy).Contents (Elt F) → (⟨S8x1x512x512, .f32⟩ : BufTy).Contents (Elt F) → (⟨S8x1x512x512, .f32⟩ : BufTy).Contents (Elt F)),
    unary main_arg1 main_v163 ((extractStridedSlice S8x1x512x512 ![0, 1, 0, 0] · slices_S8x3x512x512_S8x1x512x512_0_1_0_0) : (⟨S8x3x512x512, .f32⟩ : BufTy).Contents (Elt F) → (⟨S8x1x512x512, .f32⟩ : BufTy).Contents (Elt F)),
    nullary main_cst_3 (constant S_ .f32 0x3F1645A2#32),
    unary main_cst_3 main_v164 (broadcastInDim S8x1x512x512 ![] bcast_S_S8x1x512x512 : (⟨S_, .f32⟩ : BufTy).Contents (Elt F) → (⟨S8x1x512x512, .f32⟩ : BufTy).Contents (Elt F)),
    binary main_v164 main_v163 main_v165 (mulf : (⟨S8x1x512x512, .f32⟩ : BufTy).Contents (Elt F) → (⟨S8x1x512x512, .f32⟩ : BufTy).Contents (Elt F) → (⟨S8x1x512x512, .f32⟩ : BufTy).Contents (Elt F)),
    binary main_v162 main_v165 main_v166 (addf : (⟨S8x1x512x512, .f32⟩ : BufTy).Contents (Elt F) → (⟨S8x1x512x512, .f32⟩ : BufTy).Contents (Elt F) → (⟨S8x1x512x512, .f32⟩ : BufTy).Contents (Elt F)),
    unary main_arg1 main_v167 ((extractStridedSlice S8x1x512x512 ![0, 2, 0, 0] · slices_S8x3x512x512_S8x1x512x512_0_2_0_0) : (⟨S8x3x512x512, .f32⟩ : BufTy).Contents (Elt F) → (⟨S8x1x512x512, .f32⟩ : BufTy).Contents (Elt F)),
    nullary main_cst_4 (constant S_ .f32 0x3DE978D5#32),
    unary main_cst_4 main_v168 (broadcastInDim S8x1x512x512 ![] bcast_S_S8x1x512x512 : (⟨S_, .f32⟩ : BufTy).Contents (Elt F) → (⟨S8x1x512x512, .f32⟩ : BufTy).Contents (Elt F)),
    binary main_v168 main_v167 main_v169 (mulf : (⟨S8x1x512x512, .f32⟩ : BufTy).Contents (Elt F) → (⟨S8x1x512x512, .f32⟩ : BufTy).Contents (Elt F) → (⟨S8x1x512x512, .f32⟩ : BufTy).Contents (Elt F)),
    binary main_v166 main_v169 main_v170 (addf : (⟨S8x1x512x512, .f32⟩ : BufTy).Contents (Elt F) → (⟨S8x1x512x512, .f32⟩ : BufTy).Contents (Elt F) → (⟨S8x1x512x512, .f32⟩ : BufTy).Contents (Elt F)),
    nullary main_c_5 (constantI S_ 32 0#32),
    TRef.unary (.of main_v170 : StableHlo.TRef sig ⟨S8x1x512x512, .f32⟩) main_call1.v0 (extractStridedSlice S8x1x1x512 ![0, 0, 0, 0] · slices_S8x1x512x512_S8x1x1x512_0_0_0_0),
    TRef.unary (.of main_v170 : StableHlo.TRef sig ⟨S8x1x512x512, .f32⟩) main_call1.v1 (extractStridedSlice S8x1x3x512 ![0, 0, 1, 0] · slices_S8x1x512x512_S8x1x3x512_0_0_1_0),
    TRef.unary main_call1.v1 main_call1.call0.v0 (Host.reverse [2]),
    TRef.binary main_call1.call0.v0 (.of main_v170 : StableHlo.TRef sig ⟨S8x1x512x512, .f32⟩) main_call1.v3 (fun a b => concatenate S8x1x515x512 2 [⟨S8x1x3x512, a⟩, ⟨S8x1x512x512, b⟩] concatenates_S8x1x3x512_S8x1x512x512_S8x1x515x512_d2),
    TRef.unary main_call1.v3 main_call1.v4 (extractStridedSlice S8x1x1x512 ![0, 0, 514, 0] · slices_S8x1x515x512_S8x1x1x512_0_0_514_0),
    TRef.unary main_call1.v3 main_call1.v5 (extractStridedSlice S8x1x3x512 ![0, 0, 511, 0] · slices_S8x1x515x512_S8x1x3x512_0_0_511_0),
    TRef.unary main_call1.v5 main_call1.call1.v0 (Host.reverse [2]),
    TRef.binary main_call1.v3 main_call1.call1.v0 main_call1.v7 (fun a b => concatenate S8x1x518x512 2 [⟨S8x1x515x512, a⟩, ⟨S8x1x3x512, b⟩] concatenates_S8x1x515x512_S8x1x3x512_S8x1x518x512_d2),
    TRef.unary main_call1.v7 main_call1.v8 (extractStridedSlice S8x1x518x1 ![0, 0, 0, 0] · slices_S8x1x518x512_S8x1x518x1_0_0_0_0),
    TRef.unary main_call1.v7 main_call1.v9 (extractStridedSlice S8x1x518x3 ![0, 0, 0, 1] · slices_S8x1x518x512_S8x1x518x3_0_0_0_1),
    TRef.unary main_call1.v9 main_call1.call2.v0 (Host.reverse [3]),
    TRef.binary main_call1.call2.v0 main_call1.v7 main_call1.v11 (fun a b => concatenate S8x1x518x515 3 [⟨S8x1x518x3, a⟩, ⟨S8x1x518x512, b⟩] concatenates_S8x1x518x3_S8x1x518x512_S8x1x518x515_d3),
    TRef.unary main_call1.v11 main_call1.v12 (extractStridedSlice S8x1x518x1 ![0, 0, 0, 514] · slices_S8x1x518x515_S8x1x518x1_0_0_0_514),
    TRef.unary main_call1.v11 main_call1.v13 (extractStridedSlice S8x1x518x3 ![0, 0, 0, 511] · slices_S8x1x518x515_S8x1x518x3_0_0_0_511),
    TRef.unary main_call1.v13 main_call1.call3.v0 (Host.reverse [3]),
    TRef.binary main_call1.v11 main_call1.call3.v0 main_call1.v15 (fun a b => concatenate S8x1x518x518 3 [⟨S8x1x518x515, a⟩, ⟨S8x1x518x3, b⟩] concatenates_S8x1x518x515_S8x1x518x3_S8x1x518x518_d3) ]

set_option maxRecDepth 100000 in
set_option maxHeartbeats 4000000 in
theorem main_part2_flat_eq (c : Dev nD) : main_part2 (F := F) c = seq ops2_flat := by
  simp only [main_part2, fn_pad.body, fn_flip.body, fn_flip_0.body, seq, bind_assoc, pure_bind]
  all_goals rfl

/-- Window main_part2's operations: its stages in order. -/
def ops2 : List (HloOp τ sig (Elt F)) := feat_x34b ++ (feat_x35 ++ (feat_x36 ++ (feat_x37 ++ (feat_x38 ++ (feat_x39 ++ (feat_x40 ++ (feat_x41 ++ (feat_x42 ++ (feat_x43 ++ (feat_x44 ++ (feat_x45 ++ (feat_x46 ++ (feat_x47 ++ (cats_x ++ (gray_y ++ (pad_y))))))))))))))))

set_option maxRecDepth 100000 in
set_option maxHeartbeats 4000000 in
/-- The stages in order are the window's operations: the same list, cut. -/
theorem ops2_flat_eq : (ops2_flat : List (HloOp τ sig (Elt F))) = ops2 := by
  simp only [ops2, ops2_flat, feat_x34b, feat_x35, feat_x36, feat_x37, feat_x38, feat_x39, feat_x40, feat_x41, feat_x42, feat_x43, feat_x44, feat_x45, feat_x46, feat_x47, cats_x, gray_y, pad_y, List.cons_append, List.nil_append]

theorem main_part2_eq (c : Dev nD) : main_part2 (F := F) c = seq ops2 :=
  (main_part2_flat_eq c).trans (congrArg seq ops2_flat_eq)

theorem ops2_sub : ∀ op ∈ (ops2 : List (HloOp τ sig (Elt F))), op.bufs ⊆ tcRefs τ sig := by
  unfold ops2; exact forall_mem_append feat_x34b_sub (forall_mem_append feat_x35_sub (forall_mem_append feat_x36_sub (forall_mem_append feat_x37_sub (forall_mem_append feat_x38_sub (forall_mem_append feat_x39_sub (forall_mem_append feat_x40_sub (forall_mem_append feat_x41_sub (forall_mem_append feat_x42_sub (forall_mem_append feat_x43_sub (forall_mem_append feat_x44_sub (forall_mem_append feat_x45_sub (forall_mem_append feat_x46_sub (forall_mem_append feat_x47_sub (forall_mem_append cats_x_sub (forall_mem_append gray_y_sub pad_y_sub)))))))))))))))
theorem ops2_fresh : ∀ op ∈ (ops2 : List (HloOp τ sig (Elt F))), op.fresh = ∅ := by
  unfold ops2; exact forall_mem_append feat_x34b_fresh (forall_mem_append feat_x35_fresh (forall_mem_append feat_x36_fresh (forall_mem_append feat_x37_fresh (forall_mem_append feat_x38_fresh (forall_mem_append feat_x39_fresh (forall_mem_append feat_x40_fresh (forall_mem_append feat_x41_fresh (forall_mem_append feat_x42_fresh (forall_mem_append feat_x43_fresh (forall_mem_append feat_x44_fresh (forall_mem_append feat_x45_fresh (forall_mem_append feat_x46_fresh (forall_mem_append feat_x47_fresh (forall_mem_append cats_x_fresh (forall_mem_append gray_y_fresh pad_y_fresh)))))))))))))))

end Cert.ReferenceIdeal.RefRun

end
-- ==== Proof.RefOps3.lean ====
/- The reference program's statements 181 … 240 (its window main_part3) as lists of host operations, a call of an
   outlined function as the callee's operations over the call's buffers, cut into the program's stages. Of each stage:
   its operations use the device's buffers and allocate none; it writes the listed buffers and leaves every other as it
   was; and the buffers later stages read hold, after it, the stated term of the contents before it. The window is its
   stages run in order. -/
import proofs.«131024_j38895223833176_2_alg».proof.Proof.RefBase

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- 3 operations: the census feature at window offset (0, 0): the padded gray image sliced there, the gray image compared against it, the truth value as 0 or 1. -/
abbrev feat_y0 : List (HloOp τ sig (Elt F)) :=
  [ unary main_v171 main_v172 ((extractStridedSlice S8x1x512x512 ![0, 0, 0, 0] · slices_S8x1x518x518_S8x1x512x512_0_0_0_0) : (⟨S8x1x518x518, .f32⟩ : BufTy).Contents (Elt F) → (⟨S8x1x512x512, .f32⟩ : BufTy).Contents (Elt F)),
    binary main_v170 main_v172 main_v173 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v173 main_v174 (uitofp .f32 : (⟨S8x1x512x512, .i1⟩ : BufTy).Contents (Elt F) → (⟨S8x1x512x512, .f32⟩ : BufTy).Contents (Elt F)) ]
theorem feat_y0_sub : ∀ op ∈ (feat_y0 : List (HloOp τ sig (Elt F))), op.bufs ⊆ tcRefs τ sig :=
  List.forall_iff_forall_mem.mp (show (feat_y0 : List (HloOp τ sig (Elt F))).Forall (fun op => op.bufs ⊆ tcRefs τ sig) from ⟨unary_bufs_sub .., binary_bufs_sub .., unary_bufs_sub ..⟩)
theorem feat_y0_fresh : ∀ op ∈ (feat_y0 : List (HloOp τ sig (Elt F))), op.fresh = ∅ := by
  intro _ h; (repeat (cases h with | head => rfl | tail _ h => ?_)); exact nomatch h
/-- The buffers the stage writes. -/
abbrev feat_y0_W : List (Ref sig .tc) := [main_v172, main_v173, main_v174]
theorem feat_y0_writes : (feat_y0 : List (HloOp τ sig (Elt F))).Forall fun op => op.writes ⊆ (feat_y0_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y0_keep (W : Valuation τ sig (Elt F)) (r : Ref sig .tc) (h : r ∉ feat_y0_W) :
    after feat_y0 W (no_index (Proc.devRef .tc r)) = W (Proc.devRef .tc r) :=
  after_of_writes_sub feat_y0 W feat_y0_writes h
attribute [local irreducible] extractStridedSlice in
set_option maxRecDepth 100000 in
set_option maxHeartbeats 4000000 in
@[ref_read] theorem feat_y0_main_v174 (W : Valuation τ sig (Elt F)) :
    after feat_y0 W (no_index (Proc.devRef .tc main_v174)) = RefTerm.feat (F := F) (W (main_v170 : DevRef τ sig)) (W (main_v171 : DevRef τ sig)) ![0, 0, 0, 0] slices_S8x1x518x518_S8x1x512x512_0_0_0_0 := by
  simp only [feat_y0]
  after_results_simp
  all_goals rfl

/-- 3 operations: the census feature at window offset (0, 1): the padded gray image sliced there, the gray image compared against it, the truth value as 0 or 1. -/
abbrev feat_y1 : List (HloOp τ sig (Elt F)) :=
  [ unary main_v171 main_v175 ((extractStridedSlice S8x1x512x512 ![0, 0, 0, 1] · slices_S8x1x518x518_S8x1x512x512_0_0_0_1) : (⟨S8x1x518x518, .f32⟩ : BufTy).Contents (Elt F) → (⟨S8x1x512x512, .f32⟩ : BufTy).Contents (Elt F)),
    binary main_v170 main_v175 main_v176 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v176 main_v177 (uitofp .f32 : (⟨S8x1x512x512, .i1⟩ : BufTy).Contents (Elt F) → (⟨S8x1x512x512, .f32⟩ : BufTy).Contents (Elt F)) ]
theorem feat_y1_sub : ∀ op ∈ (feat_y1 : List (HloOp τ sig (Elt F))), op.bufs ⊆ tcRefs τ sig :=
  List.forall_iff_forall_mem.mp (show (feat_y1 : List (HloOp τ sig (Elt F))).Forall (fun op => op.bufs ⊆ tcRefs τ sig) from ⟨unary_bufs_sub .., binary_bufs_sub .., unary_bufs_sub ..⟩)
theorem feat_y1_fresh : ∀ op ∈ (feat_y1 : List (HloOp τ sig (Elt F))), op.fresh = ∅ := by
  intro _ h; (repeat (cases h with | head => rfl | tail _ h => ?_)); exact nomatch h
/-- The buffers the stage writes. -/
abbrev feat_y1_W : List (Ref sig .tc) := [main_v175, main_v176, main_v177]
theorem feat_y1_writes : (feat_y1 : List (HloOp τ sig (Elt F))).Forall fun op => op.writes ⊆ (feat_y1_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y1_keep (W : Valuation τ sig (Elt F)) (r : Ref sig .tc) (h : r ∉ feat_y1_W) :
    after feat_y1 W (no_index (Proc.devRef .tc r)) = W (Proc.devRef .tc r) :=
  after_of_writes_sub feat_y1 W feat_y1_writes h
attribute [local irreducible] extractStridedSlice in
set_option maxRecDepth 100000 in
set_option maxHeartbeats 4000000 in
@[ref_read] theorem feat_y1_main_v177 (W : Valuation τ sig (Elt F)) :
    after feat_y1 W (no_index (Proc.devRef .tc main_v177)) = RefTerm.feat (F := F) (W (main_v170 : DevRef τ sig)) (W (main_v171 : DevRef τ sig)) ![0, 0, 0, 1] slices_S8x1x518x518_S8x1x512x512_0_0_0_1 := by
  simp only [feat_y1]
  after_results_simp
  all_goals rfl

/-- 3 operations: the census feature at window offset (0, 2): the padded gray image sliced there, the gray image compared against it, the truth value as 0 or 1. -/
abbrev feat_y2 : List (HloOp τ sig (Elt F)) :=
  [ unary main_v171 main_v178 ((extractStridedSlice S8x1x512x512 ![0, 0, 0, 2] · slices_S8x1x518x518_S8x1x512x512_0_0_0_2) : (⟨S8x1x518x518, .f32⟩ : BufTy).Contents (Elt F) → (⟨S8x1x512x512, .f32⟩ : BufTy).Contents (Elt F)),
    binary main_v170 main_v178 main_v179 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v179 main_v180 (uitofp .f32 : (⟨S8x1x512x512, .i1⟩ : BufTy).Contents (Elt F) → (⟨S8x1x512x512, .f32⟩ : BufTy).Contents (Elt F)) ]
theorem feat_y2_sub : ∀ op ∈ (feat_y2 : List (HloOp τ sig (Elt F))), op.bufs ⊆ tcRefs τ sig :=
  List.forall_iff_forall_mem.mp (show (feat_y2 : List (HloOp τ sig (Elt F))).Forall (fun op => op.bufs ⊆ tcRefs τ sig) from ⟨unary_bufs_sub .., binary_bufs_sub .., unary_bufs_sub ..⟩)
theorem feat_y2_fresh : ∀ op ∈ (feat_y2 : List (HloOp τ sig (Elt F))), op.fresh = ∅ := by
  intro _ h; (repeat (cases h with | head => rfl | tail _ h => ?_)); exact nomatch h
/-- The buffers the stage writes. -/
abbrev feat_y2_W : List (Ref sig .tc) := [main_v178, main_v179, main_v180]
theorem feat_y2_writes : (feat_y2 : List (HloOp τ sig (Elt F))).Forall fun op => op.writes ⊆ (feat_y2_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y2_keep (W : Valuation τ sig (Elt F)) (r : Ref sig .tc) (h : r ∉ feat_y2_W) :
    after feat_y2 W (no_index (Proc.devRef .tc r)) = W (Proc.devRef .tc r) :=
  after_of_writes_sub feat_y2 W feat_y2_writes h
attribute [local irreducible] extractStridedSlice in
set_option maxRecDepth 100000 in
set_option maxHeartbeats 4000000 in
@[ref_read] theorem feat_y2_main_v180 (W : Valuation τ sig (Elt F)) :
    after feat_y2 W (no_index (Proc.devRef .tc main_v180)) = RefTerm.feat (F := F) (W (main_v170 : DevRef τ sig)) (W (main_v171 : DevRef τ sig)) ![0, 0, 0, 2] slices_S8x1x518x518_S8x1x512x512_0_0_0_2 := by
  simp only [feat_y2]
  after_results_simp
  all_goals rfl

/-- 3 operations: the census feature at window offset (0, 3): the padded gray image sliced there, the gray image compared against it, the truth value as 0 or 1. -/
abbrev feat_y3 : List (HloOp τ sig (Elt F)) :=
  [ unary main_v171 main_v181 ((extractStridedSlice S8x1x512x512 ![0, 0, 0, 3] · slices_S8x1x518x518_S8x1x512x512_0_0_0_3) : (⟨S8x1x518x518, .f32⟩ : BufTy).Contents (Elt F) → (⟨S8x1x512x512, .f32⟩ : BufTy).Contents (Elt F)),
    binary main_v170 main_v181 main_v182 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v182 main_v183 (uitofp .f32 : (⟨S8x1x512x512, .i1⟩ : BufTy).Contents (Elt F) → (⟨S8x1x512x512, .f32⟩ : BufTy).Contents (Elt F)) ]
theorem feat_y3_sub : ∀ op ∈ (feat_y3 : List (HloOp τ sig (Elt F))), op.bufs ⊆ tcRefs τ sig :=
  List.forall_iff_forall_mem.mp (show (feat_y3 : List (HloOp τ sig (Elt F))).Forall (fun op => op.bufs ⊆ tcRefs τ sig) from ⟨unary_bufs_sub .., binary_bufs_sub .., unary_bufs_sub ..⟩)
theorem feat_y3_fresh : ∀ op ∈ (feat_y3 : List (HloOp τ sig (Elt F))), op.fresh = ∅ := by
  intro _ h; (repeat (cases h with | head => rfl | tail _ h => ?_)); exact nomatch h
/-- The buffers the stage writes. -/
abbrev feat_y3_W : List (Ref sig .tc) := [main_v181, main_v182, main_v183]
theorem feat_y3_writes : (feat_y3 : List (HloOp τ sig (Elt F))).Forall fun op => op.writes ⊆ (feat_y3_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y3_keep (W : Valuation τ sig (Elt F)) (r : Ref sig .tc) (h : r ∉ feat_y3_W) :
    after feat_y3 W (no_index (Proc.devRef .tc r)) = W (Proc.devRef .tc r) :=
  after_of_writes_sub feat_y3 W feat_y3_writes h
attribute [local irreducible] extractStridedSlice in
set_option maxRecDepth 100000 in
set_option maxHeartbeats 4000000 in
@[ref_read] theorem feat_y3_main_v183 (W : Valuation τ sig (Elt F)) :
    after feat_y3 W (no_index (Proc.devRef .tc main_v183)) = RefTerm.feat (F := F) (W (main_v170 : DevRef τ sig)) (W (main_v171 : DevRef τ sig)) ![0, 0, 0, 3] slices_S8x1x518x518_S8x1x512x512_0_0_0_3 := by
  simp only [feat_y3]
  after_results_simp
  all_goals rfl

/-- 3 operations: the census feature at window offset (0, 4): the padded gray image sliced there, the gray image compared against it, the truth value as 0 or 1. -/
abbrev feat_y4 : List (HloOp τ sig (Elt F)) :=
  [ unary main_v171 main_v184 ((extractStridedSlice S8x1x512x512 ![0, 0, 0, 4] · slices_S8x1x518x518_S8x1x512x512_0_0_0_4) : (⟨S8x1x518x518, .f32⟩ : BufTy).Contents (Elt F) → (⟨S8x1x512x512, .f32⟩ : BufTy).Contents (Elt F)),
    binary main_v170 main_v184 main_v185 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v185 main_v186 (uitofp .f32 : (⟨S8x1x512x512, .i1⟩ : BufTy).Contents (Elt F) → (⟨S8x1x512x512, .f32⟩ : BufTy).Contents (Elt F)) ]
theorem feat_y4_sub : ∀ op ∈ (feat_y4 : List (HloOp τ sig (Elt F))), op.bufs ⊆ tcRefs τ sig :=
  List.forall_iff_forall_mem.mp (show (feat_y4 : List (HloOp τ sig (Elt F))).Forall (fun op => op.bufs ⊆ tcRefs τ sig) from ⟨unary_bufs_sub .., binary_bufs_sub .., unary_bufs_sub ..⟩)
theorem feat_y4_fresh : ∀ op ∈ (feat_y4 : List (HloOp τ sig (Elt F))), op.fresh = ∅ := by
  intro _ h; (repeat (cases h with | head => rfl | tail _ h => ?_)); exact nomatch h
/-- The buffers the stage writes. -/
abbrev feat_y4_W : List (Ref sig .tc) := [main_v184, main_v185, main_v186]
theorem feat_y4_writes : (feat_y4 : List (HloOp τ sig (Elt F))).Forall fun op => op.writes ⊆ (feat_y4_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y4_keep (W : Valuation τ sig (Elt F)) (r : Ref sig .tc) (h : r ∉ feat_y4_W) :
    after feat_y4 W (no_index (Proc.devRef .tc r)) = W (Proc.devRef .tc r) :=
  after_of_writes_sub feat_y4 W feat_y4_writes h
attribute [local irreducible] extractStridedSlice in
set_option maxRecDepth 100000 in
set_option maxHeartbeats 4000000 in
@[ref_read] theorem feat_y4_main_v186 (W : Valuation τ sig (Elt F)) :
    after feat_y4 W (no_index (Proc.devRef .tc main_v186)) = RefTerm.feat (F := F) (W (main_v170 : DevRef τ sig)) (W (main_v171 : DevRef τ sig)) ![0, 0, 0, 4] slices_S8x1x518x518_S8x1x512x512_0_0_0_4 := by
  simp only [feat_y4]
  after_results_simp
  all_goals rfl

/-- 3 operations: the census feature at window offset (0, 5): the padded gray image sliced there, the gray image compared against it, the truth value as 0 or 1. -/
abbrev feat_y5 : List (HloOp τ sig (Elt F)) :=
  [ unary main_v171 main_v187 ((extractStridedSlice S8x1x512x512 ![0, 0, 0, 5] · slices_S8x1x518x518_S8x1x512x512_0_0_0_5) : (⟨S8x1x518x518, .f32⟩ : BufTy).Contents (Elt F) → (⟨S8x1x512x512, .f32⟩ : BufTy).Contents (Elt F)),
    binary main_v170 main_v187 main_v188 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v188 main_v189 (uitofp .f32 : (⟨S8x1x512x512, .i1⟩ : BufTy).Contents (Elt F) → (⟨S8x1x512x512, .f32⟩ : BufTy).Contents (Elt F)) ]
theorem feat_y5_sub : ∀ op ∈ (feat_y5 : List (HloOp τ sig (Elt F))), op.bufs ⊆ tcRefs τ sig :=
  List.forall_iff_forall_mem.mp (show (feat_y5 : List (HloOp τ sig (Elt F))).Forall (fun op => op.bufs ⊆ tcRefs τ sig) from ⟨unary_bufs_sub .., binary_bufs_sub .., unary_bufs_sub ..⟩)
theorem feat_y5_fresh : ∀ op ∈ (feat_y5 : List (HloOp τ sig (Elt F))), op.fresh = ∅ := by
  intro _ h; (repeat (cases h with | head => rfl | tail _ h => ?_)); exact nomatch h
/-- The buffers the stage writes. -/
abbrev feat_y5_W : List (Ref sig .tc) := [main_v187, main_v188, main_v189]
theorem feat_y5_writes : (feat_y5 : List (HloOp τ sig (Elt F))).Forall fun op => op.writes ⊆ (feat_y5_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y5_keep (W : Valuation τ sig (Elt F)) (r : Ref sig .tc) (h : r ∉ feat_y5_W) :
    after feat_y5 W (no_index (Proc.devRef .tc r)) = W (Proc.devRef .tc r) :=
  after_of_writes_sub feat_y5 W feat_y5_writes h
attribute [local irreducible] extractStridedSlice in
set_option maxRecDepth 100000 in
set_option maxHeartbeats 4000000 in
@[ref_read] theorem feat_y5_main_v189 (W : Valuation τ sig (Elt F)) :
    after feat_y5 W (no_index (Proc.devRef .tc main_v189)) = RefTerm.feat (F := F) (W (main_v170 : DevRef τ sig)) (W (main_v171 : DevRef τ sig)) ![0, 0, 0, 5] slices_S8x1x518x518_S8x1x512x512_0_0_0_5 := by
  simp only [feat_y5]
  after_results_simp
  all_goals rfl

/-- 3 operations: the census feature at window offset (0, 6): the padded gray image sliced there, the gray image compared against it, the truth value as 0 or 1. -/
abbrev feat_y6 : List (HloOp τ sig (Elt F)) :=
  [ unary main_v171 main_v190 ((extractStridedSlice S8x1x512x512 ![0, 0, 0, 6] · slices_S8x1x518x518_S8x1x512x512_0_0_0_6) : (⟨S8x1x518x518, .f32⟩ : BufTy).Contents (Elt F) → (⟨S8x1x512x512, .f32⟩ : BufTy).Contents (Elt F)),
    binary main_v170 main_v190 main_v191 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v191 main_v192 (uitofp .f32 : (⟨S8x1x512x512, .i1⟩ : BufTy).Contents (Elt F) → (⟨S8x1x512x512, .f32⟩ : BufTy).Contents (Elt F)) ]
theorem feat_y6_sub : ∀ op ∈ (feat_y6 : List (HloOp τ sig (Elt F))), op.bufs ⊆ tcRefs τ sig :=
  List.forall_iff_forall_mem.mp (show (feat_y6 : List (HloOp τ sig (Elt F))).Forall (fun op => op.bufs ⊆ tcRefs τ sig) from ⟨unary_bufs_sub .., binary_bufs_sub .., unary_bufs_sub ..⟩)
theorem feat_y6_fresh : ∀ op ∈ (feat_y6 : List (HloOp τ sig (Elt F))), op.fresh = ∅ := by
  intro _ h; (repeat (cases h with | head => rfl | tail _ h => ?_)); exact nomatch h
/-- The buffers the stage writes. -/
abbrev feat_y6_W : List (Ref sig .tc) := [main_v190, main_v191, main_v192]
theorem feat_y6_writes : (feat_y6 : List (HloOp τ sig (Elt F))).Forall fun op => op.writes ⊆ (feat_y6_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y6_keep (W : Valuation τ sig (Elt F)) (r : Ref sig .tc) (h : r ∉ feat_y6_W) :
    after feat_y6 W (no_index (Proc.devRef .tc r)) = W (Proc.devRef .tc r) :=
  after_of_writes_sub feat_y6 W feat_y6_writes h
attribute [local irreducible] extractStridedSlice in
set_option maxRecDepth 100000 in
set_option maxHeartbeats 4000000 in
@[ref_read] theorem feat_y6_main_v192 (W : Valuation τ sig (Elt F)) :
    after feat_y6 W (no_index (Proc.devRef .tc main_v192)) = RefTerm.feat (F := F) (W (main_v170 : DevRef τ sig)) (W (main_v171 : DevRef τ sig)) ![0, 0, 0, 6] slices_S8x1x518x518_S8x1x512x512_0_0_0_6 := by
  simp only [feat_y6]
  after_results_simp
  all_goals rfl

/-- 3 operations: the census feature at window offset (1, 0): the padded gray image sliced there, the gray image compared against it, the truth value as 0 or 1. -/
abbrev feat_y7 : List (HloOp τ sig (Elt F)) :=
  [ unary main_v171 main_v193 ((extractStridedSlice S8x1x512x512 ![0, 0, 1, 0] · slices_S8x1x518x518_S8x1x512x512_0_0_1_0) : (⟨S8x1x518x518, .f32⟩ : BufTy).Contents (Elt F) → (⟨S8x1x512x512, .f32⟩ : BufTy).Contents (Elt F)),
    binary main_v170 main_v193 main_v194 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v194 main_v195 (uitofp .f32 : (⟨S8x1x512x512, .i1⟩ : BufTy).Contents (Elt F) → (⟨S8x1x512x512, .f32⟩ : BufTy).Contents (Elt F)) ]
theorem feat_y7_sub : ∀ op ∈ (feat_y7 : List (HloOp τ sig (Elt F))), op.bufs ⊆ tcRefs τ sig :=
  List.forall_iff_forall_mem.mp (show (feat_y7 : List (HloOp τ sig (Elt F))).Forall (fun op => op.bufs ⊆ tcRefs τ sig) from ⟨unary_bufs_sub .., binary_bufs_sub .., unary_bufs_sub ..⟩)
theorem feat_y7_fresh : ∀ op ∈ (feat_y7 : List (HloOp τ sig (Elt F))), op.fresh = ∅ := by
  intro _ h; (repeat (cases h with | head => rfl | tail _ h => ?_)); exact nomatch h
/-- The buffers the stage writes. -/
abbrev feat_y7_W : List (Ref sig .tc) := [main_v193, main_v194, main_v195]
theorem feat_y7_writes : (feat_y7 : List (HloOp τ sig (Elt F))).Forall fun op => op.writes ⊆ (feat_y7_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y7_keep (W : Valuation τ sig (Elt F)) (r : Ref sig .tc) (h : r ∉ feat_y7_W) :
    after feat_y7 W (no_index (Proc.devRef .tc r)) = W (Proc.devRef .tc r) :=
  after_of_writes_sub feat_y7 W feat_y7_writes h
attribute [local irreducible] extractStridedSlice in
set_option maxRecDepth 100000 in
set_option maxHeartbeats 4000000 in
@[ref_read] theorem feat_y7_main_v195 (W : Valuation τ sig (Elt F)) :
    after feat_y7 W (no_index (Proc.devRef .tc main_v195)) = RefTerm.feat (F := F) (W (main_v170 : DevRef τ sig)) (W (main_v171 : DevRef τ sig)) ![0, 0, 1, 0] slices_S8x1x518x518_S8x1x512x512_0_0_1_0 := by
  simp only [feat_y7]
  after_results_simp
  all_goals rfl

/-- 3 operations: the census feature at window offset (1, 1): the padded gray image sliced there, the gray image compared against it, the truth value as 0 or 1. -/
abbrev feat_y8 : List (HloOp τ sig (Elt F)) :=
  [ unary main_v171 main_v196 ((extractStridedSlice S8x1x512x512 ![0, 0, 1, 1] · slices_S8x1x518x518_S8x1x512x512_0_0_1_1) : (⟨S8x1x518x518, .f32⟩ : BufTy).Contents (Elt F) → (⟨S8x1x512x512, .f32⟩ : BufTy).Contents (Elt F)),
    binary main_v170 main_v196 main_v197 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v197 main_v198 (uitofp .f32 : (⟨S8x1x512x512, .i1⟩ : BufTy).Contents (Elt F) → (⟨S8x1x512x512, .f32⟩ : BufTy).Contents (Elt F)) ]
theorem feat_y8_sub : ∀ op ∈ (feat_y8 : List (HloOp τ sig (Elt F))), op.bufs ⊆ tcRefs τ sig :=
  List.forall_iff_forall_mem.mp (show (feat_y8 : List (HloOp τ sig (Elt F))).Forall (fun op => op.bufs ⊆ tcRefs τ sig) from ⟨unary_bufs_sub .., binary_bufs_sub .., unary_bufs_sub ..⟩)
theorem feat_y8_fresh : ∀ op ∈ (feat_y8 : List (HloOp τ sig (Elt F))), op.fresh = ∅ := by
  intro _ h; (repeat (cases h with | head => rfl | tail _ h => ?_)); exact nomatch h
/-- The buffers the stage writes. -/
abbrev feat_y8_W : List (Ref sig .tc) := [main_v196, main_v197, main_v198]
theorem feat_y8_writes : (feat_y8 : List (HloOp τ sig (Elt F))).Forall fun op => op.writes ⊆ (feat_y8_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y8_keep (W : Valuation τ sig (Elt F)) (r : Ref sig .tc) (h : r ∉ feat_y8_W) :
    after feat_y8 W (no_index (Proc.devRef .tc r)) = W (Proc.devRef .tc r) :=
  after_of_writes_sub feat_y8 W feat_y8_writes h
attribute [local irreducible] extractStridedSlice in
set_option maxRecDepth 100000 in
set_option maxHeartbeats 4000000 in
@[ref_read] theorem feat_y8_main_v198 (W : Valuation τ sig (Elt F)) :
    after feat_y8 W (no_index (Proc.devRef .tc main_v198)) = RefTerm.feat (F := F) (W (main_v170 : DevRef τ sig)) (W (main_v171 : DevRef τ sig)) ![0, 0, 1, 1] slices_S8x1x518x518_S8x1x512x512_0_0_1_1 := by
  simp only [feat_y8]
  after_results_simp
  all_goals rfl

/-- 3 operations: the census feature at window offset (1, 2): the padded gray image sliced there, the gray image compared against it, the truth value as 0 or 1. -/
abbrev feat_y9 : List (HloOp τ sig (Elt F)) :=
  [ unary main_v171 main_v199 ((extractStridedSlice S8x1x512x512 ![0, 0, 1, 2] · slices_S8x1x518x518_S8x1x512x512_0_0_1_2) : (⟨S8x1x518x518, .f32⟩ : BufTy).Contents (Elt F) → (⟨S8x1x512x512, .f32⟩ : BufTy).Contents (Elt F)),
    binary main_v170 main_v199 main_v200 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v200 main_v201 (uitofp .f32 : (⟨S8x1x512x512, .i1⟩ : BufTy).Contents (Elt F) → (⟨S8x1x512x512, .f32⟩ : BufTy).Contents (Elt F)) ]
theorem feat_y9_sub : ∀ op ∈ (feat_y9 : List (HloOp τ sig (Elt F))), op.bufs ⊆ tcRefs τ sig :=
  List.forall_iff_forall_mem.mp (show (feat_y9 : List (HloOp τ sig (Elt F))).Forall (fun op => op.bufs ⊆ tcRefs τ sig) from ⟨unary_bufs_sub .., binary_bufs_sub .., unary_bufs_sub ..⟩)
theorem feat_y9_fresh : ∀ op ∈ (feat_y9 : List (HloOp τ sig (Elt F))), op.fresh = ∅ := by
  intro _ h; (repeat (cases h with | head => rfl | tail _ h => ?_)); exact nomatch h
/-- The buffers the stage writes. -/
abbrev feat_y9_W : List (Ref sig .tc) := [main_v199, main_v200, main_v201]
theorem feat_y9_writes : (feat_y9 : List (HloOp τ sig (Elt F))).Forall fun op => op.writes ⊆ (feat_y9_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y9_keep (W : Valuation τ sig (Elt F)) (r : Ref sig .tc) (h : r ∉ feat_y9_W) :
    after feat_y9 W (no_index (Proc.devRef .tc r)) = W (Proc.devRef .tc r) :=
  after_of_writes_sub feat_y9 W feat_y9_writes h
attribute [local irreducible] extractStridedSlice in
set_option maxRecDepth 100000 in
set_option maxHeartbeats 4000000 in
@[ref_read] theorem feat_y9_main_v201 (W : Valuation τ sig (Elt F)) :
    after feat_y9 W (no_index (Proc.devRef .tc main_v201)) = RefTerm.feat (F := F) (W (main_v170 : DevRef τ sig)) (W (main_v171 : DevRef τ sig)) ![0, 0, 1, 2] slices_S8x1x518x518_S8x1x512x512_0_0_1_2 := by
  simp only [feat_y9]
  after_results_simp
  all_goals rfl

/-- 3 operations: the census feature at window offset (1, 3): the padded gray image sliced there, the gray image compared against it, the truth value as 0 or 1. -/
abbrev feat_y10 : List (HloOp τ sig (Elt F)) :=
  [ unary main_v171 main_v202 ((extractStridedSlice S8x1x512x512 ![0, 0, 1, 3] · slices_S8x1x518x518_S8x1x512x512_0_0_1_3) : (⟨S8x1x518x518, .f32⟩ : BufTy).Contents (Elt F) → (⟨S8x1x512x512, .f32⟩ : BufTy).Contents (Elt F)),
    binary main_v170 main_v202 main_v203 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v203 main_v204 (uitofp .f32 : (⟨S8x1x512x512, .i1⟩ : BufTy).Contents (Elt F) → (⟨S8x1x512x512, .f32⟩ : BufTy).Contents (Elt F)) ]
theorem feat_y10_sub : ∀ op ∈ (feat_y10 : List (HloOp τ sig (Elt F))), op.bufs ⊆ tcRefs τ sig :=
  List.forall_iff_forall_mem.mp (show (feat_y10 : List (HloOp τ sig (Elt F))).Forall (fun op => op.bufs ⊆ tcRefs τ sig) from ⟨unary_bufs_sub .., binary_bufs_sub .., unary_bufs_sub ..⟩)
theorem feat_y10_fresh : ∀ op ∈ (feat_y10 : List (HloOp τ sig (Elt F))), op.fresh = ∅ := by
  intro _ h; (repeat (cases h with | head => rfl | tail _ h => ?_)); exact nomatch h
/-- The buffers the stage writes. -/
abbrev feat_y10_W : List (Ref sig .tc) := [main_v202, main_v203, main_v204]
theorem feat_y10_writes : (feat_y10 : List (HloOp τ sig (Elt F))).Forall fun op => op.writes ⊆ (feat_y10_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y10_keep (W : Valuation τ sig (Elt F)) (r : Ref sig .tc) (h : r ∉ feat_y10_W) :
    after feat_y10 W (no_index (Proc.devRef .tc r)) = W (Proc.devRef .tc r) :=
  after_of_writes_sub feat_y10 W feat_y10_writes h
attribute [local irreducible] extractStridedSlice in
set_option maxRecDepth 100000 in
set_option maxHeartbeats 4000000 in
@[ref_read] theorem feat_y10_main_v204 (W : Valuation τ sig (Elt F)) :
    after feat_y10 W (no_index (Proc.devRef .tc main_v204)) = RefTerm.feat (F := F) (W (main_v170 : DevRef τ sig)) (W (main_v171 : DevRef τ sig)) ![0, 0, 1, 3] slices_S8x1x518x518_S8x1x512x512_0_0_1_3 := by
  simp only [feat_y10]
  after_results_simp
  all_goals rfl

/-- 3 operations: the census feature at window offset (1, 4): the padded gray image sliced there, the gray image compared against it, the truth value as 0 or 1. -/
abbrev feat_y11 : List (HloOp τ sig (Elt F)) :=
  [ unary main_v171 main_v205 ((extractStridedSlice S8x1x512x512 ![0, 0, 1, 4] · slices_S8x1x518x518_S8x1x512x512_0_0_1_4) : (⟨S8x1x518x518, .f32⟩ : BufTy).Contents (Elt F) → (⟨S8x1x512x512, .f32⟩ : BufTy).Contents (Elt F)),
    binary main_v170 main_v205 main_v206 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v206 main_v207 (uitofp .f32 : (⟨S8x1x512x512, .i1⟩ : BufTy).Contents (Elt F) → (⟨S8x1x512x512, .f32⟩ : BufTy).Contents (Elt F)) ]
theorem feat_y11_sub : ∀ op ∈ (feat_y11 : List (HloOp τ sig (Elt F))), op.bufs ⊆ tcRefs τ sig :=
  List.forall_iff_forall_mem.mp (show (feat_y11 : List (HloOp τ sig (Elt F))).Forall (fun op => op.bufs ⊆ tcRefs τ sig) from ⟨unary_bufs_sub .., binary_bufs_sub .., unary_bufs_sub ..⟩)
theorem feat_y11_fresh : ∀ op ∈ (feat_y11 : List (HloOp τ sig (Elt F))), op.fresh = ∅ := by
  intro _ h; (repeat (cases h with | head => rfl | tail _ h => ?_)); exact nomatch h
/-- The buffers the stage writes. -/
abbrev feat_y11_W : List (Ref sig .tc) := [main_v205, main_v206, main_v207]
theorem feat_y11_writes : (feat_y11 : List (HloOp τ sig (Elt F))).Forall fun op => op.writes ⊆ (feat_y11_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y11_keep (W : Valuation τ sig (Elt F)) (r : Ref sig .tc) (h : r ∉ feat_y11_W) :
    after feat_y11 W (no_index (Proc.devRef .tc r)) = W (Proc.devRef .tc r) :=
  after_of_writes_sub feat_y11 W feat_y11_writes h
attribute [local irreducible] extractStridedSlice in
set_option maxRecDepth 100000 in
set_option maxHeartbeats 4000000 in
@[ref_read] theorem feat_y11_main_v207 (W : Valuation τ sig (Elt F)) :
    after feat_y11 W (no_index (Proc.devRef .tc main_v207)) = RefTerm.feat (F := F) (W (main_v170 : DevRef τ sig)) (W (main_v171 : DevRef τ sig)) ![0, 0, 1, 4] slices_S8x1x518x518_S8x1x512x512_0_0_1_4 := by
  simp only [feat_y11]
  after_results_simp
  all_goals rfl

/-- 3 operations: the census feature at window offset (1, 5): the padded gray image sliced there, the gray image compared against it, the truth value as 0 or 1. -/
abbrev feat_y12 : List (HloOp τ sig (Elt F)) :=
  [ unary main_v171 main_v208 ((extractStridedSlice S8x1x512x512 ![0, 0, 1, 5] · slices_S8x1x518x518_S8x1x512x512_0_0_1_5) : (⟨S8x1x518x518, .f32⟩ : BufTy).Contents (Elt F) → (⟨S8x1x512x512, .f32⟩ : BufTy).Contents (Elt F)),
    binary main_v170 main_v208 main_v209 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v209 main_v210 (uitofp .f32 : (⟨S8x1x512x512, .i1⟩ : BufTy).Contents (Elt F) → (⟨S8x1x512x512, .f32⟩ : BufTy).Contents (Elt F)) ]
theorem feat_y12_sub : ∀ op ∈ (feat_y12 : List (HloOp τ sig (Elt F))), op.bufs ⊆ tcRefs τ sig :=
  List.forall_iff_forall_mem.mp (show (feat_y12 : List (HloOp τ sig (Elt F))).Forall (fun op => op.bufs ⊆ tcRefs τ sig) from ⟨unary_bufs_sub .., binary_bufs_sub .., unary_bufs_sub ..⟩)
theorem feat_y12_fresh : ∀ op ∈ (feat_y12 : List (HloOp τ sig (Elt F))), op.fresh = ∅ := by
  intro _ h; (repeat (cases h with | head => rfl | tail _ h => ?_)); exact nomatch h
/-- The buffers the stage writes. -/
abbrev feat_y12_W : List (Ref sig .tc) := [main_v208, main_v209, main_v210]
theorem feat_y12_writes : (feat_y12 : List (HloOp τ sig (Elt F))).Forall fun op => op.writes ⊆ (feat_y12_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y12_keep (W : Valuation τ sig (Elt F)) (r : Ref sig .tc) (h : r ∉ feat_y12_W) :
    after feat_y12 W (no_index (Proc.devRef .tc r)) = W (Proc.devRef .tc r) :=
  after_of_writes_sub feat_y12 W feat_y12_writes h
attribute [local irreducible] extractStridedSlice in
set_option maxRecDepth 100000 in
set_option maxHeartbeats 4000000 in
@[ref_read] theorem feat_y12_main_v210 (W : Valuation τ sig (Elt F)) :
    after feat_y12 W (no_index (Proc.devRef .tc main_v210)) = RefTerm.feat (F := F) (W (main_v170 : DevRef τ sig)) (W (main_v171 : DevRef τ sig)) ![0, 0, 1, 5] slices_S8x1x518x518_S8x1x512x512_0_0_1_5 := by
  simp only [feat_y12]
  after_results_simp
  all_goals rfl

/-- 3 operations: the census feature at window offset (1, 6): the padded gray image sliced there, the gray image compared against it, the truth value as 0 or 1. -/
abbrev feat_y13 : List (HloOp τ sig (Elt F)) :=
  [ unary main_v171 main_v211 ((extractStridedSlice S8x1x512x512 ![0, 0, 1, 6] · slices_S8x1x518x518_S8x1x512x512_0_0_1_6) : (⟨S8x1x518x518, .f32⟩ : BufTy).Contents (Elt F) → (⟨S8x1x512x512, .f32⟩ : BufTy).Contents (Elt F)),
    binary main_v170 main_v211 main_v212 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v212 main_v213 (uitofp .f32 : (⟨S8x1x512x512, .i1⟩ : BufTy).Contents (Elt F) → (⟨S8x1x512x512, .f32⟩ : BufTy).Contents (Elt F)) ]
theorem feat_y13_sub : ∀ op ∈ (feat_y13 : List (HloOp τ sig (Elt F))), op.bufs ⊆ tcRefs τ sig :=
  List.forall_iff_forall_mem.mp (show (feat_y13 : List (HloOp τ sig (Elt F))).Forall (fun op => op.bufs ⊆ tcRefs τ sig) from ⟨unary_bufs_sub .., binary_bufs_sub .., unary_bufs_sub ..⟩)
theorem feat_y13_fresh : ∀ op ∈ (feat_y13 : List (HloOp τ sig (Elt F))), op.fresh = ∅ := by
  intro _ h; (repeat (cases h with | head => rfl | tail _ h => ?_)); exact nomatch h
/-- The buffers the stage writes. -/
abbrev feat_y13_W : List (Ref sig .tc) := [main_v211, main_v212, main_v213]
theorem feat_y13_writes : (feat_y13 : List (HloOp τ sig (Elt F))).Forall fun op => op.writes ⊆ (feat_y13_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y13_keep (W : Valuation τ sig (Elt F)) (r : Ref sig .tc) (h : r ∉ feat_y13_W) :
    after feat_y13 W (no_index (Proc.devRef .tc r)) = W (Proc.devRef .tc r) :=
  after_of_writes_sub feat_y13 W feat_y13_writes h
attribute [local irreducible] extractStridedSlice in
set_option maxRecDepth 100000 in
set_option maxHeartbeats 4000000 in
@[ref_read] theorem feat_y13_main_v213 (W : Valuation τ sig (Elt F)) :
    after feat_y13 W (no_index (Proc.devRef .tc main_v213)) = RefTerm.feat (F := F) (W (main_v170 : DevRef τ sig)) (W (main_v171 : DevRef τ sig)) ![0, 0, 1, 6] slices_S8x1x518x518_S8x1x512x512_0_0_1_6 := by
  simp only [feat_y13]
  after_results_simp
  all_goals rfl

/-- 3 operations: the census feature at window offset (2, 0): the padded gray image sliced there, the gray image compared against it, the truth value as 0 or 1. -/
abbrev feat_y14 : List (HloOp τ sig (Elt F)) :=
  [ unary main_v171 main_v214 ((extractStridedSlice S8x1x512x512 ![0, 0, 2, 0] · slices_S8x1x518x518_S8x1x512x512_0_0_2_0) : (⟨S8x1x518x518, .f32⟩ : BufTy).Contents (Elt F) → (⟨S8x1x512x512, .f32⟩ : BufTy).Contents (Elt F)),
    binary main_v170 main_v214 main_v215 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v215 main_v216 (uitofp .f32 : (⟨S8x1x512x512, .i1⟩ : BufTy).Contents (Elt F) → (⟨S8x1x512x512, .f32⟩ : BufTy).Contents (Elt F)) ]
theorem feat_y14_sub : ∀ op ∈ (feat_y14 : List (HloOp τ sig (Elt F))), op.bufs ⊆ tcRefs τ sig :=
  List.forall_iff_forall_mem.mp (show (feat_y14 : List (HloOp τ sig (Elt F))).Forall (fun op => op.bufs ⊆ tcRefs τ sig) from ⟨unary_bufs_sub .., binary_bufs_sub .., unary_bufs_sub ..⟩)
theorem feat_y14_fresh : ∀ op ∈ (feat_y14 : List (HloOp τ sig (Elt F))), op.fresh = ∅ := by
  intro _ h; (repeat (cases h with | head => rfl | tail _ h => ?_)); exact nomatch h
/-- The buffers the stage writes. -/
abbrev feat_y14_W : List (Ref sig .tc) := [main_v214, main_v215, main_v216]
theorem feat_y14_writes : (feat_y14 : List (HloOp τ sig (Elt F))).Forall fun op => op.writes ⊆ (feat_y14_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y14_keep (W : Valuation τ sig (Elt F)) (r : Ref sig .tc) (h : r ∉ feat_y14_W) :
    after feat_y14 W (no_index (Proc.devRef .tc r)) = W (Proc.devRef .tc r) :=
  after_of_writes_sub feat_y14 W feat_y14_writes h
attribute [local irreducible] extractStridedSlice in
set_option maxRecDepth 100000 in
set_option maxHeartbeats 4000000 in
@[ref_read] theorem feat_y14_main_v216 (W : Valuation τ sig (Elt F)) :
    after feat_y14 W (no_index (Proc.devRef .tc main_v216)) = RefTerm.feat (F := F) (W (main_v170 : DevRef τ sig)) (W (main_v171 : DevRef τ sig)) ![0, 0, 2, 0] slices_S8x1x518x518_S8x1x512x512_0_0_2_0 := by
  simp only [feat_y14]
  after_results_simp
  all_goals rfl

/-- 3 operations: the census feature at window offset (2, 1): the padded gray image sliced there, the gray image compared against it, the truth value as 0 or 1. -/
abbrev feat_y15 : List (HloOp τ sig (Elt F)) :=
  [ unary main_v171 main_v217 ((extractStridedSlice S8x1x512x512 ![0, 0, 2, 1] · slices_S8x1x518x518_S8x1x512x512_0_0_2_1) : (⟨S8x1x518x518, .f32⟩ : BufTy).Contents (Elt F) → (⟨S8x1x512x512, .f32⟩ : BufTy).Contents (Elt F)),
    binary main_v170 main_v217 main_v218 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v218 main_v219 (uitofp .f32 : (⟨S8x1x512x512, .i1⟩ : BufTy).Contents (Elt F) → (⟨S8x1x512x512, .f32⟩ : BufTy).Contents (Elt F)) ]
theorem feat_y15_sub : ∀ op ∈ (feat_y15 : List (HloOp τ sig (Elt F))), op.bufs ⊆ tcRefs τ sig :=
  List.forall_iff_forall_mem.mp (show (feat_y15 : List (HloOp τ sig (Elt F))).Forall (fun op => op.bufs ⊆ tcRefs τ sig) from ⟨unary_bufs_sub .., binary_bufs_sub .., unary_bufs_sub ..⟩)
theorem feat_y15_fresh : ∀ op ∈ (feat_y15 : List (HloOp τ sig (Elt F))), op.fresh = ∅ := by
  intro _ h; (repeat (cases h with | head => rfl | tail _ h => ?_)); exact nomatch h
/-- The buffers the stage writes. -/
abbrev feat_y15_W : List (Ref sig .tc) := [main_v217, main_v218, main_v219]
theorem feat_y15_writes : (feat_y15 : List (HloOp τ sig (Elt F))).Forall fun op => op.writes ⊆ (feat_y15_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y15_keep (W : Valuation τ sig (Elt F)) (r : Ref sig .tc) (h : r ∉ feat_y15_W) :
    after feat_y15 W (no_index (Proc.devRef .tc r)) = W (Proc.devRef .tc r) :=
  after_of_writes_sub feat_y15 W feat_y15_writes h
attribute [local irreducible] extractStridedSlice in
set_option maxRecDepth 100000 in
set_option maxHeartbeats 4000000 in
@[ref_read] theorem feat_y15_main_v219 (W : Valuation τ sig (Elt F)) :
    after feat_y15 W (no_index (Proc.devRef .tc main_v219)) = RefTerm.feat (F := F) (W (main_v170 : DevRef τ sig)) (W (main_v171 : DevRef τ sig)) ![0, 0, 2, 1] slices_S8x1x518x518_S8x1x512x512_0_0_2_1 := by
  simp only [feat_y15]
  after_results_simp
  all_goals rfl

/-- 3 operations: the census feature at window offset (2, 2): the padded gray image sliced there, the gray image compared against it, the truth value as 0 or 1. -/
abbrev feat_y16 : List (HloOp τ sig (Elt F)) :=
  [ unary main_v171 main_v220 ((extractStridedSlice S8x1x512x512 ![0, 0, 2, 2] · slices_S8x1x518x518_S8x1x512x512_0_0_2_2) : (⟨S8x1x518x518, .f32⟩ : BufTy).Contents (Elt F) → (⟨S8x1x512x512, .f32⟩ : BufTy).Contents (Elt F)),
    binary main_v170 main_v220 main_v221 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v221 main_v222 (uitofp .f32 : (⟨S8x1x512x512, .i1⟩ : BufTy).Contents (Elt F) → (⟨S8x1x512x512, .f32⟩ : BufTy).Contents (Elt F)) ]
theorem feat_y16_sub : ∀ op ∈ (feat_y16 : List (HloOp τ sig (Elt F))), op.bufs ⊆ tcRefs τ sig :=
  List.forall_iff_forall_mem.mp (show (feat_y16 : List (HloOp τ sig (Elt F))).Forall (fun op => op.bufs ⊆ tcRefs τ sig) from ⟨unary_bufs_sub .., binary_bufs_sub .., unary_bufs_sub ..⟩)
theorem feat_y16_fresh : ∀ op ∈ (feat_y16 : List (HloOp τ sig (Elt F))), op.fresh = ∅ := by
  intro _ h; (repeat (cases h with | head => rfl | tail _ h => ?_)); exact nomatch h
/-- The buffers the stage writes. -/
abbrev feat_y16_W : List (Ref sig .tc) := [main_v220, main_v221, main_v222]
theorem feat_y16_writes : (feat_y16 : List (HloOp τ sig (Elt F))).Forall fun op => op.writes ⊆ (feat_y16_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y16_keep (W : Valuation τ sig (Elt F)) (r : Ref sig .tc) (h : r ∉ feat_y16_W) :
    after feat_y16 W (no_index (Proc.devRef .tc r)) = W (Proc.devRef .tc r) :=
  after_of_writes_sub feat_y16 W feat_y16_writes h
attribute [local irreducible] extractStridedSlice in
set_option maxRecDepth 100000 in
set_option maxHeartbeats 4000000 in
@[ref_read] theorem feat_y16_main_v222 (W : Valuation τ sig (Elt F)) :
    after feat_y16 W (no_index (Proc.devRef .tc main_v222)) = RefTerm.feat (F := F) (W (main_v170 : DevRef τ sig)) (W (main_v171 : DevRef τ sig)) ![0, 0, 2, 2] slices_S8x1x518x518_S8x1x512x512_0_0_2_2 := by
  simp only [feat_y16]
  after_results_simp
  all_goals rfl

/-- 3 operations: the census feature at window offset (2, 3): the padded gray image sliced there, the gray image compared against it, the truth value as 0 or 1. -/
abbrev feat_y17 : List (HloOp τ sig (Elt F)) :=
  [ unary main_v171 main_v223 ((extractStridedSlice S8x1x512x512 ![0, 0, 2, 3] · slices_S8x1x518x518_S8x1x512x512_0_0_2_3) : (⟨S8x1x518x518, .f32⟩ : BufTy).Contents (Elt F) → (⟨S8x1x512x512, .f32⟩ : BufTy).Contents (Elt F)),
    binary main_v170 main_v223 main_v224 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v224 main_v225 (uitofp .f32 : (⟨S8x1x512x512, .i1⟩ : BufTy).Contents (Elt F) → (⟨S8x1x512x512, .f32⟩ : BufTy).Contents (Elt F)) ]
theorem feat_y17_sub : ∀ op ∈ (feat_y17 : List (HloOp τ sig (Elt F))), op.bufs ⊆ tcRefs τ sig :=
  List.forall_iff_forall_mem.mp (show (feat_y17 : List (HloOp τ sig (Elt F))).Forall (fun op => op.bufs ⊆ tcRefs τ sig) from ⟨unary_bufs_sub .., binary_bufs_sub .., unary_bufs_sub ..⟩)
theorem feat_y17_fresh : ∀ op ∈ (feat_y17 : List (HloOp τ sig (Elt F))), op.fresh = ∅ := by
  intro _ h; (repeat (cases h with | head => rfl | tail _ h => ?_)); exact nomatch h
/-- The buffers the stage writes. -/
abbrev feat_y17_W : List (Ref sig .tc) := [main_v223, main_v224, main_v225]
theorem feat_y17_writes : (feat_y17 : List (HloOp τ sig (Elt F))).Forall fun op => op.writes ⊆ (feat_y17_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y17_keep (W : Valuation τ sig (Elt F)) (r : Ref sig .tc) (h : r ∉ feat_y17_W) :
    after feat_y17 W (no_index (Proc.devRef .tc r)) = W (Proc.devRef .tc r) :=
  after_of_writes_sub feat_y17 W feat_y17_writes h
attribute [local irreducible] extractStridedSlice in
set_option maxRecDepth 100000 in
set_option maxHeartbeats 4000000 in
@[ref_read] theorem feat_y17_main_v225 (W : Valuation τ sig (Elt F)) :
    after feat_y17 W (no_index (Proc.devRef .tc main_v225)) = RefTerm.feat (F := F) (W (main_v170 : DevRef τ sig)) (W (main_v171 : DevRef τ sig)) ![0, 0, 2, 3] slices_S8x1x518x518_S8x1x512x512_0_0_2_3 := by
  simp only [feat_y17]
  after_results_simp
  all_goals rfl

/-- 3 operations: the census feature at window offset (2, 4): the padded gray image sliced there, the gray image compared against it, the truth value as 0 or 1. -/
abbrev feat_y18 : List (HloOp τ sig (Elt F)) :=
  [ unary main_v171 main_v226 ((extractStridedSlice S8x1x512x512 ![0, 0, 2, 4] · slices_S8x1x518x518_S8x1x512x512_0_0_2_4) : (⟨S8x1x518x518, .f32⟩ : BufTy).Contents (Elt F) → (⟨S8x1x512x512, .f32⟩ : BufTy).Contents (Elt F)),
    binary main_v170 main_v226 main_v227 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v227 main_v228 (uitofp .f32 : (⟨S8x1x512x512, .i1⟩ : BufTy).Contents (Elt F) → (⟨S8x1x512x512, .f32⟩ : BufTy).Contents (Elt F)) ]
theorem feat_y18_sub : ∀ op ∈ (feat_y18 : List (HloOp τ sig (Elt F))), op.bufs ⊆ tcRefs τ sig :=
  List.forall_iff_forall_mem.mp (show (feat_y18 : List (HloOp τ sig (Elt F))).Forall (fun op => op.bufs ⊆ tcRefs τ sig) from ⟨unary_bufs_sub .., binary_bufs_sub .., unary_bufs_sub ..⟩)
theorem feat_y18_fresh : ∀ op ∈ (feat_y18 : List (HloOp τ sig (Elt F))), op.fresh = ∅ := by
  intro _ h; (repeat (cases h with | head => rfl | tail _ h => ?_)); exact nomatch h
/-- The buffers the stage writes. -/
abbrev feat_y18_W : List (Ref sig .tc) := [main_v226, main_v227, main_v228]
theorem feat_y18_writes : (feat_y18 : List (HloOp τ sig (Elt F))).Forall fun op => op.writes ⊆ (feat_y18_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y18_keep (W : Valuation τ sig (Elt F)) (r : Ref sig .tc) (h : r ∉ feat_y18_W) :
    after feat_y18 W (no_index (Proc.devRef .tc r)) = W (Proc.devRef .tc r) :=
  after_of_writes_sub feat_y18 W feat_y18_writes h
attribute [local irreducible] extractStridedSlice in
set_option maxRecDepth 100000 in
set_option maxHeartbeats 4000000 in
@[ref_read] theorem feat_y18_main_v228 (W : Valuation τ sig (Elt F)) :
    after feat_y18 W (no_index (Proc.devRef .tc main_v228)) = RefTerm.feat (F := F) (W (main_v170 : DevRef τ sig)) (W (main_v171 : DevRef τ sig)) ![0, 0, 2, 4] slices_S8x1x518x518_S8x1x512x512_0_0_2_4 := by
  simp only [feat_y18]
  after_results_simp
  all_goals rfl

/-- 3 operations: the census feature at window offset (2, 5): the padded gray image sliced there, the gray image compared against it, the truth value as 0 or 1. -/
abbrev feat_y19 : List (HloOp τ sig (Elt F)) :=
  [ unary main_v171 main_v229 ((extractStridedSlice S8x1x512x512 ![0, 0, 2, 5] · slices_S8x1x518x518_S8x1x512x512_0_0_2_5) : (⟨S8x1x518x518, .f32⟩ : BufTy).Contents (Elt F) → (⟨S8x1x512x512, .f32⟩ : BufTy).Contents (Elt F)),
    binary main_v170 main_v229 main_v230 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v230 main_v231 (uitofp .f32 : (⟨S8x1x512x512, .i1⟩ : BufTy).Contents (Elt F) → (⟨S8x1x512x512, .f32⟩ : BufTy).Contents (Elt F)) ]
theorem feat_y19_sub : ∀ op ∈ (feat_y19 : List (HloOp τ sig (Elt F))), op.bufs ⊆ tcRefs τ sig :=
  List.forall_iff_forall_mem.mp (show (feat_y19 : List (HloOp τ sig (Elt F))).Forall (fun op => op.bufs ⊆ tcRefs τ sig) from ⟨unary_bufs_sub .., binary_bufs_sub .., unary_bufs_sub ..⟩)
theorem feat_y19_fresh : ∀ op ∈ (feat_y19 : List (HloOp τ sig (Elt F))), op.fresh = ∅ := by
  intro _ h; (repeat (cases h with | head => rfl | tail _ h => ?_)); exact nomatch h
/-- The buffers the stage writes. -/
abbrev feat_y19_W : List (Ref sig .tc) := [main_v229, main_v230, main_v231]
theorem feat_y19_writes : (feat_y19 : List (HloOp τ sig (Elt F))).Forall fun op => op.writes ⊆ (feat_y19_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y19_keep (W : Valuation τ sig (Elt F)) (r : Ref sig .tc) (h : r ∉ feat_y19_W) :
    after feat_y19 W (no_index (Proc.devRef .tc r)) = W (Proc.devRef .tc r) :=
  after_of_writes_sub feat_y19 W feat_y19_writes h
attribute [local irreducible] extractStridedSlice in
set_option maxRecDepth 100000 in
set_option maxHeartbeats 4000000 in
@[ref_read] theorem feat_y19_main_v231 (W : Valuation τ sig (Elt F)) :
    after feat_y19 W (no_index (Proc.devRef .tc main_v231)) = RefTerm.feat (F := F) (W (main_v170 : DevRef τ sig)) (W (main_v171 : DevRef τ sig)) ![0, 0, 2, 5] slices_S8x1x518x518_S8x1x512x512_0_0_2_5 := by
  simp only [feat_y19]
  after_results_simp
  all_goals rfl

/-- Window main_part3's 60 operations, as printed. -/
abbrev ops3_flat : List (HloOp τ sig (Elt F)) :=
  [ unary main_v171 main_v172 ((extractStridedSlice S8x1x512x512 ![0, 0, 0, 0] · slices_S8x1x518x518_S8x1x512x512_0_0_0_0) : (⟨S8x1x518x518, .f32⟩ : BufTy).Contents (Elt F) → (⟨S8x1x512x512, .f32⟩ : BufTy).Contents (Elt F)),
    binary main_v170 main_v172 main_v173 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v173 main_v174 (uitofp .f32 : (⟨S8x1x512x512, .i1⟩ : BufTy).Contents (Elt F) → (⟨S8x1x512x512, .f32⟩ : BufTy).Contents (Elt F)),
    unary main_v171 main_v175 ((extractStridedSlice S8x1x512x512 ![0, 0, 0, 1] · slices_S8x1x518x518_S8x1x512x512_0_0_0_1) : (⟨S8x1x518x518, .f32⟩ : BufTy).Contents (Elt F) → (⟨S8x1x512x512, .f32⟩ : BufTy).Contents (Elt F)),
    binary main_v170 main_v175 main_v176 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v176 main_v177 (uitofp .f32 : (⟨S8x1x512x512, .i1⟩ : BufTy).Contents (Elt F) → (⟨S8x1x512x512, .f32⟩ : BufTy).Contents (Elt F)),
    unary main_v171 main_v178 ((extractStridedSlice S8x1x512x512 ![0, 0, 0, 2] · slices_S8x1x518x518_S8x1x512x512_0_0_0_2) : (⟨S8x1x518x518, .f32⟩ : BufTy).Contents (Elt F) → (⟨S8x1x512x512, .f32⟩ : BufTy).Contents (Elt F)),
    binary main_v170 main_v178 main_v179 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v179 main_v180 (uitofp .f32 : (⟨S8x1x512x512, .i1⟩ : BufTy).Contents (Elt F) → (⟨S8x1x512x512, .f32⟩ : BufTy).Contents (Elt F)),
    unary main_v171 main_v181 ((extractStridedSlice S8x1x512x512 ![0, 0, 0, 3] · slices_S8x1x518x518_S8x1x512x512_0_0_0_3) : (⟨S8x1x518x518, .f32⟩ : BufTy).Contents (Elt F) → (⟨S8x1x512x512, .f32⟩ : BufTy).Contents (Elt F)),
    binary main_v170 main_v181 main_v182 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v182 main_v183 (uitofp .f32 : (⟨S8x1x512x512, .i1⟩ : BufTy).Contents (Elt F) → (⟨S8x1x512x512, .f32⟩ : BufTy).Contents (Elt F)),
    unary main_v171 main_v184 ((extractStridedSlice S8x1x512x512 ![0, 0, 0, 4] · slices_S8x1x518x518_S8x1x512x512_0_0_0_4) : (⟨S8x1x518x518, .f32⟩ : BufTy).Contents (Elt F) → (⟨S8x1x512x512, .f32⟩ : BufTy).Contents (Elt F)),
    binary main_v170 main_v184 main_v185 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v185 main_v186 (uitofp .f32 : (⟨S8x1x512x512, .i1⟩ : BufTy).Contents (Elt F) → (⟨S8x1x512x512, .f32⟩ : BufTy).Contents (Elt F)),
    unary main_v171 main_v187 ((extractStridedSlice S8x1x512x512 ![0, 0, 0, 5] · slices_S8x1x518x518_S8x1x512x512_0_0_0_5) : (⟨S8x1x518x518, .f32⟩ : BufTy).Contents (Elt F) → (⟨S8x1x512x512, .f32⟩ : BufTy).Contents (Elt F)),
    binary main_v170 main_v187 main_v188 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v188 main_v189 (uitofp .f32 : (⟨S8x1x512x512, .i1⟩ : BufTy).Contents (Elt F) → (⟨S8x1x512x512, .f32⟩ : BufTy).Contents (Elt F)),
    unary main_v171 main_v190 ((extractStridedSlice S8x1x512x512 ![0, 0, 0, 6] · slices_S8x1x518x518_S8x1x512x512_0_0_0_6) : (⟨S8x1x518x518, .f32⟩ : BufTy).Contents (Elt F) → (⟨S8x1x512x512, .f32⟩ : BufTy).Contents (Elt F)),
    binary main_v170 main_v190 main_v191 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v191 main_v192 (uitofp .f32 : (⟨S8x1x512x512, .i1⟩ : BufTy).Contents (Elt F) → (⟨S8x1x512x512, .f32⟩ : BufTy).Contents (Elt F)),
    unary main_v171 main_v193 ((extractStridedSlice S8x1x512x512 ![0, 0, 1, 0] · slices_S8x1x518x518_S8x1x512x512_0_0_1_0) : (⟨S8x1x518x518, .f32⟩ : BufTy).Contents (Elt F) → (⟨S8x1x512x512, .f32⟩ : BufTy).Contents (Elt F)),
    binary main_v170 main_v193 main_v194 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v194 main_v195 (uitofp .f32 : (⟨S8x1x512x512, .i1⟩ : BufTy).Contents (Elt F) → (⟨S8x1x512x512, .f32⟩ : BufTy).Contents (Elt F)),
    unary main_v171 main_v196 ((extractStridedSlice S8x1x512x512 ![0, 0, 1, 1] · slices_S8x1x518x518_S8x1x512x512_0_0_1_1) : (⟨S8x1x518x518, .f32⟩ : BufTy).Contents (Elt F) → (⟨S8x1x512x512, .f32⟩ : BufTy).Contents (Elt F)),
    binary main_v170 main_v196 main_v197 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v197 main_v198 (uitofp .f32 : (⟨S8x1x512x512, .i1⟩ : BufTy).Contents (Elt F) → (⟨S8x1x512x512, .f32⟩ : BufTy).Contents (Elt F)),
    unary main_v171 main_v199 ((extractStridedSlice S8x1x512x512 ![0, 0, 1, 2] · slices_S8x1x518x518_S8x1x512x512_0_0_1_2) : (⟨S8x1x518x518, .f32⟩ : BufTy).Contents (Elt F) → (⟨S8x1x512x512, .f32⟩ : BufTy).Contents (Elt F)),
    binary main_v170 main_v199 main_v200 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v200 main_v201 (uitofp .f32 : (⟨S8x1x512x512, .i1⟩ : BufTy).Contents (Elt F) → (⟨S8x1x512x512, .f32⟩ : BufTy).Contents (Elt F)),
    unary main_v171 main_v202 ((extractStridedSlice S8x1x512x512 ![0, 0, 1, 3] · slices_S8x1x518x518_S8x1x512x512_0_0_1_3) : (⟨S8x1x518x518, .f32⟩ : BufTy).Contents (Elt F) → (⟨S8x1x512x512, .f32⟩ : BufTy).Contents (Elt F)),
    binary main_v170 main_v202 main_v203 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v203 main_v204 (uitofp .f32 : (⟨S8x1x512x512, .i1⟩ : BufTy).Contents (Elt F) → (⟨S8x1x512x512, .f32⟩ : BufTy).Contents (Elt F)),
    unary main_v171 main_v205 ((extractStridedSlice S8x1x512x512 ![0, 0, 1, 4] · slices_S8x1x518x518_S8x1x512x512_0_0_1_4) : (⟨S8x1x518x518, .f32⟩ : BufTy).Contents (Elt F) → (⟨S8x1x512x512, .f32⟩ : BufTy).Contents (Elt F)),
    binary main_v170 main_v205 main_v206 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v206 main_v207 (uitofp .f32 : (⟨S8x1x512x512, .i1⟩ : BufTy).Contents (Elt F) → (⟨S8x1x512x512, .f32⟩ : BufTy).Contents (Elt F)),
    unary main_v171 main_v208 ((extractStridedSlice S8x1x512x512 ![0, 0, 1, 5] · slices_S8x1x518x518_S8x1x512x512_0_0_1_5) : (⟨S8x1x518x518, .f32⟩ : BufTy).Contents (Elt F) → (⟨S8x1x512x512, .f32⟩ : BufTy).Contents (Elt F)),
    binary main_v170 main_v208 main_v209 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v209 main_v210 (uitofp .f32 : (⟨S8x1x512x512, .i1⟩ : BufTy).Contents (Elt F) → (⟨S8x1x512x512, .f32⟩ : BufTy).Contents (Elt F)),
    unary main_v171 main_v211 ((extractStridedSlice S8x1x512x512 ![0, 0, 1, 6] · slices_S8x1x518x518_S8x1x512x512_0_0_1_6) : (⟨S8x1x518x518, .f32⟩ : BufTy).Contents (Elt F) → (⟨S8x1x512x512, .f32⟩ : BufTy).Contents (Elt F)),
    binary main_v170 main_v211 main_v212 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v212 main_v213 (uitofp .f32 : (⟨S8x1x512x512, .i1⟩ : BufTy).Contents (Elt F) → (⟨S8x1x512x512, .f32⟩ : BufTy).Contents (Elt F)),
    unary main_v171 main_v214 ((extractStridedSlice S8x1x512x512 ![0, 0, 2, 0] · slices_S8x1x518x518_S8x1x512x512_0_0_2_0) : (⟨S8x1x518x518, .f32⟩ : BufTy).Contents (Elt F) → (⟨S8x1x512x512, .f32⟩ : BufTy).Contents (Elt F)),
    binary main_v170 main_v214 main_v215 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v215 main_v216 (uitofp .f32 : (⟨S8x1x512x512, .i1⟩ : BufTy).Contents (Elt F) → (⟨S8x1x512x512, .f32⟩ : BufTy).Contents (Elt F)),
    unary main_v171 main_v217 ((extractStridedSlice S8x1x512x512 ![0, 0, 2, 1] · slices_S8x1x518x518_S8x1x512x512_0_0_2_1) : (⟨S8x1x518x518, .f32⟩ : BufTy).Contents (Elt F) → (⟨S8x1x512x512, .f32⟩ : BufTy).Contents (Elt F)),
    binary main_v170 main_v217 main_v218 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v218 main_v219 (uitofp .f32 : (⟨S8x1x512x512, .i1⟩ : BufTy).Contents (Elt F) → (⟨S8x1x512x512, .f32⟩ : BufTy).Contents (Elt F)),
    unary main_v171 main_v220 ((extractStridedSlice S8x1x512x512 ![0, 0, 2, 2] · slices_S8x1x518x518_S8x1x512x512_0_0_2_2) : (⟨S8x1x518x518, .f32⟩ : BufTy).Contents (Elt F) → (⟨S8x1x512x512, .f32⟩ : BufTy).Contents (Elt F)),
    binary main_v170 main_v220 main_v221 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v221 main_v222 (uitofp .f32 : (⟨S8x1x512x512, .i1⟩ : BufTy).Contents (Elt F) → (⟨S8x1x512x512, .f32⟩ : BufTy).Contents (Elt F)),
    unary main_v171 main_v223 ((extractStridedSlice S8x1x512x512 ![0, 0, 2, 3] · slices_S8x1x518x518_S8x1x512x512_0_0_2_3) : (⟨S8x1x518x518, .f32⟩ : BufTy).Contents (Elt F) → (⟨S8x1x512x512, .f32⟩ : BufTy).Contents (Elt F)),
    binary main_v170 main_v223 main_v224 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v224 main_v225 (uitofp .f32 : (⟨S8x1x512x512, .i1⟩ : BufTy).Contents (Elt F) → (⟨S8x1x512x512, .f32⟩ : BufTy).Contents (Elt F)),
    unary main_v171 main_v226 ((extractStridedSlice S8x1x512x512 ![0, 0, 2, 4] · slices_S8x1x518x518_S8x1x512x512_0_0_2_4) : (⟨S8x1x518x518, .f32⟩ : BufTy).Contents (Elt F) → (⟨S8x1x512x512, .f32⟩ : BufTy).Contents (Elt F)),
    binary main_v170 main_v226 main_v227 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v227 main_v228 (uitofp .f32 : (⟨S8x1x512x512, .i1⟩ : BufTy).Contents (Elt F) → (⟨S8x1x512x512, .f32⟩ : BufTy).Contents (Elt F)),
    unary main_v171 main_v229 ((extractStridedSlice S8x1x512x512 ![0, 0, 2, 5] · slices_S8x1x518x518_S8x1x512x512_0_0_2_5) : (⟨S8x1x518x518, .f32⟩ : BufTy).Contents (Elt F) → (⟨S8x1x512x512, .f32⟩ : BufTy).Contents (Elt F)),
    binary main_v170 main_v229 main_v230 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v230 main_v231 (uitofp .f32 : (⟨S8x1x512x512, .i1⟩ : BufTy).Contents (Elt F) → (⟨S8x1x512x512, .f32⟩ : BufTy).Contents (Elt F)) ]

set_option maxRecDepth 100000 in
set_option maxHeartbeats 4000000 in
theorem main_part3_flat_eq (c : Dev nD) : main_part3 (F := F) c = seq ops3_flat := rfl

/-- Window main_part3's operations: its stages in order. -/
def ops3 : List (HloOp τ sig (Elt F)) := feat_y0 ++ (feat_y1 ++ (feat_y2 ++ (feat_y3 ++ (feat_y4 ++ (feat_y5 ++ (feat_y6 ++ (feat_y7 ++ (feat_y8 ++ (feat_y9 ++ (feat_y10 ++ (feat_y11 ++ (feat_y12 ++ (feat_y13 ++ (feat_y14 ++ (feat_y15 ++ (feat_y16 ++ (feat_y17 ++ (feat_y18 ++ (feat_y19)))))))))))))))))))

set_option maxRecDepth 100000 in
set_option maxHeartbeats 4000000 in
/-- The stages in order are the window's operations: the same list, cut. -/
theorem ops3_flat_eq : (ops3_flat : List (HloOp τ sig (Elt F))) = ops3 := by
  simp only [ops3, ops3_flat, feat_y0, feat_y1, feat_y2, feat_y3, feat_y4, feat_y5, feat_y6, feat_y7, feat_y8, feat_y9, feat_y10, feat_y11, feat_y12, feat_y13, feat_y14, feat_y15, feat_y16, feat_y17, feat_y18, feat_y19, List.cons_append, List.nil_append]

theorem main_part3_eq (c : Dev nD) : main_part3 (F := F) c = seq ops3 :=
  (main_part3_flat_eq c).trans (congrArg seq ops3_flat_eq)

theorem ops3_sub : ∀ op ∈ (ops3 : List (HloOp τ sig (Elt F))), op.bufs ⊆ tcRefs τ sig := by
  unfold ops3; exact forall_mem_append feat_y0_sub (forall_mem_append feat_y1_sub (forall_mem_append feat_y2_sub (forall_mem_append feat_y3_sub (forall_mem_append feat_y4_sub (forall_mem_append feat_y5_sub (forall_mem_append feat_y6_sub (forall_mem_append feat_y7_sub (forall_mem_append feat_y8_sub (forall_mem_append feat_y9_sub (forall_mem_append feat_y10_sub (forall_mem_append feat_y11_sub (forall_mem_append feat_y12_sub (forall_mem_append feat_y13_sub (forall_mem_append feat_y14_sub (forall_mem_append feat_y15_sub (forall_mem_append feat_y16_sub (forall_mem_append feat_y17_sub (forall_mem_append feat_y18_sub feat_y19_sub))))))))))))))))))
theorem ops3_fresh : ∀ op ∈ (ops3 : List (HloOp τ sig (Elt F))), op.fresh = ∅ := by
  unfold ops3; exact forall_mem_append feat_y0_fresh (forall_mem_append feat_y1_fresh (forall_mem_append feat_y2_fresh (forall_mem_append feat_y3_fresh (forall_mem_append feat_y4_fresh (forall_mem_append feat_y5_fresh (forall_mem_append feat_y6_fresh (forall_mem_append feat_y7_fresh (forall_mem_append feat_y8_fresh (forall_mem_append feat_y9_fresh (forall_mem_append feat_y10_fresh (forall_mem_append feat_y11_fresh (forall_mem_append feat_y12_fresh (forall_mem_append feat_y13_fresh (forall_mem_append feat_y14_fresh (forall_mem_append feat_y15_fresh (forall_mem_append feat_y16_fresh (forall_mem_append feat_y17_fresh (forall_mem_append feat_y18_fresh feat_y19_fresh))))))))))))))))))

end Cert.ReferenceIdeal.RefRun

end
-- ==== Proof.RefOps4.lean ====
/- The reference program's statements 241 … 300 (its window main_part4) as lists of host operations, a call of an
   outlined function as the callee's operations over the call's buffers, cut into the program's stages. Of each stage:
   its operations use the device's buffers and allocate none; it writes the listed buffers and leaves every other as it
   was; and the buffers later stages read hold, after it, the stated term of the contents before it. The window is its
   stages run in order. -/
import proofs.«131024_j38895223833176_2_alg».proof.Proof.RefBase

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- 3 operations: the census feature at window offset (2, 6): the padded gray image sliced there, the gray image compared against it, the truth value as 0 or 1. -/
abbrev feat_y20 : List (HloOp τ sig (Elt F)) :=
  [ unary main_v171 main_v232 ((extractStridedSlice S8x1x512x512 ![0, 0, 2, 6] · slices_S8x1x518x518_S8x1x512x512_0_0_2_6) : (⟨S8x1x518x518, .f32⟩ : BufTy).Contents (Elt F) → (⟨S8x1x512x512, .f32⟩ : BufTy).Contents (Elt F)),
    binary main_v170 main_v232 main_v233 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v233 main_v234 (uitofp .f32 : (⟨S8x1x512x512, .i1⟩ : BufTy).Contents (Elt F) → (⟨S8x1x512x512, .f32⟩ : BufTy).Contents (Elt F)) ]
theorem feat_y20_sub : ∀ op ∈ (feat_y20 : List (HloOp τ sig (Elt F))), op.bufs ⊆ tcRefs τ sig :=
  List.forall_iff_forall_mem.mp (show (feat_y20 : List (HloOp τ sig (Elt F))).Forall (fun op => op.bufs ⊆ tcRefs τ sig) from ⟨unary_bufs_sub .., binary_bufs_sub .., unary_bufs_sub ..⟩)
theorem feat_y20_fresh : ∀ op ∈ (feat_y20 : List (HloOp τ sig (Elt F))), op.fresh = ∅ := by
  intro _ h; (repeat (cases h with | head => rfl | tail _ h => ?_)); exact nomatch h
/-- The buffers the stage writes. -/
abbrev feat_y20_W : List (Ref sig .tc) := [main_v232, main_v233, main_v234]
theorem feat_y20_writes : (feat_y20 : List (HloOp τ sig (Elt F))).Forall fun op => op.writes ⊆ (feat_y20_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y20_keep (W : Valuation τ sig (Elt F)) (r : Ref sig .tc) (h : r ∉ feat_y20_W) :
    after feat_y20 W (no_index (Proc.devRef .tc r)) = W (Proc.devRef .tc r) :=
  after_of_writes_sub feat_y20 W feat_y20_writes h
attribute [local irreducible] extractStridedSlice in
set_option maxRecDepth 100000 in
set_option maxHeartbeats 4000000 in
@[ref_read] theorem feat_y20_main_v234 (W : Valuation τ sig (Elt F)) :
    after feat_y20 W (no_index (Proc.devRef .tc main_v234)) = RefTerm.feat (F := F) (W (main_v170 : DevRef τ sig)) (W (main_v171 : DevRef τ sig)) ![0, 0, 2, 6] slices_S8x1x518x518_S8x1x512x512_0_0_2_6 := by
  simp only [feat_y20]
  after_results_simp
  all_goals rfl

/-- 3 operations: the census feature at window offset (3, 0): the padded gray image sliced there, the gray image compared against it, the truth value as 0 or 1. -/
abbrev feat_y21 : List (HloOp τ sig (Elt F)) :=
  [ unary main_v171 main_v235 ((extractStridedSlice S8x1x512x512 ![0, 0, 3, 0] · slices_S8x1x518x518_S8x1x512x512_0_0_3_0) : (⟨S8x1x518x518, .f32⟩ : BufTy).Contents (Elt F) → (⟨S8x1x512x512, .f32⟩ : BufTy).Contents (Elt F)),
    binary main_v170 main_v235 main_v236 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v236 main_v237 (uitofp .f32 : (⟨S8x1x512x512, .i1⟩ : BufTy).Contents (Elt F) → (⟨S8x1x512x512, .f32⟩ : BufTy).Contents (Elt F)) ]
theorem feat_y21_sub : ∀ op ∈ (feat_y21 : List (HloOp τ sig (Elt F))), op.bufs ⊆ tcRefs τ sig :=
  List.forall_iff_forall_mem.mp (show (feat_y21 : List (HloOp τ sig (Elt F))).Forall (fun op => op.bufs ⊆ tcRefs τ sig) from ⟨unary_bufs_sub .., binary_bufs_sub .., unary_bufs_sub ..⟩)
theorem feat_y21_fresh : ∀ op ∈ (feat_y21 : List (HloOp τ sig (Elt F))), op.fresh = ∅ := by
  intro _ h; (repeat (cases h with | head => rfl | tail _ h => ?_)); exact nomatch h
/-- The buffers the stage writes. -/
abbrev feat_y21_W : List (Ref sig .tc) := [main_v235, main_v236, main_v237]
theorem feat_y21_writes : (feat_y21 : List (HloOp τ sig (Elt F))).Forall fun op => op.writes ⊆ (feat_y21_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y21_keep (W : Valuation τ sig (Elt F)) (r : Ref sig .tc) (h : r ∉ feat_y21_W) :
    after feat_y21 W (no_index (Proc.devRef .tc r)) = W (Proc.devRef .tc r) :=
  after_of_writes_sub feat_y21 W feat_y21_writes h
attribute [local irreducible] extractStridedSlice in
set_option maxRecDepth 100000 in
set_option maxHeartbeats 4000000 in
@[ref_read] theorem feat_y21_main_v237 (W : Valuation τ sig (Elt F)) :
    after feat_y21 W (no_index (Proc.devRef .tc main_v237)) = RefTerm.feat (F := F) (W (main_v170 : DevRef τ sig)) (W (main_v171 : DevRef τ sig)) ![0, 0, 3, 0] slices_S8x1x518x518_S8x1x512x512_0_0_3_0 := by
  simp only [feat_y21]
  after_results_simp
  all_goals rfl

/-- 3 operations: the census feature at window offset (3, 1): the padded gray image sliced there, the gray image compared against it, the truth value as 0 or 1. -/
abbrev feat_y22 : List (HloOp τ sig (Elt F)) :=
  [ unary main_v171 main_v238 ((extractStridedSlice S8x1x512x512 ![0, 0, 3, 1] · slices_S8x1x518x518_S8x1x512x512_0_0_3_1) : (⟨S8x1x518x518, .f32⟩ : BufTy).Contents (Elt F) → (⟨S8x1x512x512, .f32⟩ : BufTy).Contents (Elt F)),
    binary main_v170 main_v238 main_v239 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v239 main_v240 (uitofp .f32 : (⟨S8x1x512x512, .i1⟩ : BufTy).Contents (Elt F) → (⟨S8x1x512x512, .f32⟩ : BufTy).Contents (Elt F)) ]
theorem feat_y22_sub : ∀ op ∈ (feat_y22 : List (HloOp τ sig (Elt F))), op.bufs ⊆ tcRefs τ sig :=
  List.forall_iff_forall_mem.mp (show (feat_y22 : List (HloOp τ sig (Elt F))).Forall (fun op => op.bufs ⊆ tcRefs τ sig) from ⟨unary_bufs_sub .., binary_bufs_sub .., unary_bufs_sub ..⟩)
theorem feat_y22_fresh : ∀ op ∈ (feat_y22 : List (HloOp τ sig (Elt F))), op.fresh = ∅ := by
  intro _ h; (repeat (cases h with | head => rfl | tail _ h => ?_)); exact nomatch h
/-- The buffers the stage writes. -/
abbrev feat_y22_W : List (Ref sig .tc) := [main_v238, main_v239, main_v240]
theorem feat_y22_writes : (feat_y22 : List (HloOp τ sig (Elt F))).Forall fun op => op.writes ⊆ (feat_y22_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y22_keep (W : Valuation τ sig (Elt F)) (r : Ref sig .tc) (h : r ∉ feat_y22_W) :
    after feat_y22 W (no_index (Proc.devRef .tc r)) = W (Proc.devRef .tc r) :=
  after_of_writes_sub feat_y22 W feat_y22_writes h
attribute [local irreducible] extractStridedSlice in
set_option maxRecDepth 100000 in
set_option maxHeartbeats 4000000 in
@[ref_read] theorem feat_y22_main_v240 (W : Valuation τ sig (Elt F)) :
    after feat_y22 W (no_index (Proc.devRef .tc main_v240)) = RefTerm.feat (F := F) (W (main_v170 : DevRef τ sig)) (W (main_v171 : DevRef τ sig)) ![0, 0, 3, 1] slices_S8x1x518x518_S8x1x512x512_0_0_3_1 := by
  simp only [feat_y22]
  after_results_simp
  all_goals rfl

/-- 3 operations: the census feature at window offset (3, 2): the padded gray image sliced there, the gray image compared against it, the truth value as 0 or 1. -/
abbrev feat_y23 : List (HloOp τ sig (Elt F)) :=
  [ unary main_v171 main_v241 ((extractStridedSlice S8x1x512x512 ![0, 0, 3, 2] · slices_S8x1x518x518_S8x1x512x512_0_0_3_2) : (⟨S8x1x518x518, .f32⟩ : BufTy).Contents (Elt F) → (⟨S8x1x512x512, .f32⟩ : BufTy).Contents (Elt F)),
    binary main_v170 main_v241 main_v242 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v242 main_v243 (uitofp .f32 : (⟨S8x1x512x512, .i1⟩ : BufTy).Contents (Elt F) → (⟨S8x1x512x512, .f32⟩ : BufTy).Contents (Elt F)) ]
theorem feat_y23_sub : ∀ op ∈ (feat_y23 : List (HloOp τ sig (Elt F))), op.bufs ⊆ tcRefs τ sig :=
  List.forall_iff_forall_mem.mp (show (feat_y23 : List (HloOp τ sig (Elt F))).Forall (fun op => op.bufs ⊆ tcRefs τ sig) from ⟨unary_bufs_sub .., binary_bufs_sub .., unary_bufs_sub ..⟩)
theorem feat_y23_fresh : ∀ op ∈ (feat_y23 : List (HloOp τ sig (Elt F))), op.fresh = ∅ := by
  intro _ h; (repeat (cases h with | head => rfl | tail _ h => ?_)); exact nomatch h
/-- The buffers the stage writes. -/
abbrev feat_y23_W : List (Ref sig .tc) := [main_v241, main_v242, main_v243]
theorem feat_y23_writes : (feat_y23 : List (HloOp τ sig (Elt F))).Forall fun op => op.writes ⊆ (feat_y23_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y23_keep (W : Valuation τ sig (Elt F)) (r : Ref sig .tc) (h : r ∉ feat_y23_W) :
    after feat_y23 W (no_index (Proc.devRef .tc r)) = W (Proc.devRef .tc r) :=
  after_of_writes_sub feat_y23 W feat_y23_writes h
attribute [local irreducible] extractStridedSlice in
set_option maxRecDepth 100000 in
set_option maxHeartbeats 4000000 in
@[ref_read] theorem feat_y23_main_v243 (W : Valuation τ sig (Elt F)) :
    after feat_y23 W (no_index (Proc.devRef .tc main_v243)) = RefTerm.feat (F := F) (W (main_v170 : DevRef τ sig)) (W (main_v171 : DevRef τ sig)) ![0, 0, 3, 2] slices_S8x1x518x518_S8x1x512x512_0_0_3_2 := by
  simp only [feat_y23]
  after_results_simp
  all_goals rfl

/-- 3 operations: the census feature at window offset (3, 4): the padded gray image sliced there, the gray image compared against it, the truth value as 0 or 1. -/
abbrev feat_y24 : List (HloOp τ sig (Elt F)) :=
  [ unary main_v171 main_v244 ((extractStridedSlice S8x1x512x512 ![0, 0, 3, 4] · slices_S8x1x518x518_S8x1x512x512_0_0_3_4) : (⟨S8x1x518x518, .f32⟩ : BufTy).Contents (Elt F) → (⟨S8x1x512x512, .f32⟩ : BufTy).Contents (Elt F)),
    binary main_v170 main_v244 main_v245 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v245 main_v246 (uitofp .f32 : (⟨S8x1x512x512, .i1⟩ : BufTy).Contents (Elt F) → (⟨S8x1x512x512, .f32⟩ : BufTy).Contents (Elt F)) ]
theorem feat_y24_sub : ∀ op ∈ (feat_y24 : List (HloOp τ sig (Elt F))), op.bufs ⊆ tcRefs τ sig :=
  List.forall_iff_forall_mem.mp (show (feat_y24 : List (HloOp τ sig (Elt F))).Forall (fun op => op.bufs ⊆ tcRefs τ sig) from ⟨unary_bufs_sub .., binary_bufs_sub .., unary_bufs_sub ..⟩)
theorem feat_y24_fresh : ∀ op ∈ (feat_y24 : List (HloOp τ sig (Elt F))), op.fresh = ∅ := by
  intro _ h; (repeat (cases h with | head => rfl | tail _ h => ?_)); exact nomatch h
/-- The buffers the stage writes. -/
abbrev feat_y24_W : List (Ref sig .tc) := [main_v244, main_v245, main_v246]
theorem feat_y24_writes : (feat_y24 : List (HloOp τ sig (Elt F))).Forall fun op => op.writes ⊆ (feat_y24_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y24_keep (W : Valuation τ sig (Elt F)) (r : Ref sig .tc) (h : r ∉ feat_y24_W) :
    after feat_y24 W (no_index (Proc.devRef .tc r)) = W (Proc.devRef .tc r) :=
  after_of_writes_sub feat_y24 W feat_y24_writes h
attribute [local irreducible] extractStridedSlice in
set_option maxRecDepth 100000 in
set_option maxHeartbeats 4000000 in
@[ref_read] theorem feat_y24_main_v246 (W : Valuation τ sig (Elt F)) :
    after feat_y24 W (no_index (Proc.devRef .tc main_v246)) = RefTerm.feat (F := F) (W (main_v170 : DevRef τ sig)) (W (main_v171 : DevRef τ sig)) ![0, 0, 3, 4] slices_S8x1x518x518_S8x1x512x512_0_0_3_4 := by
  simp only [feat_y24]
  after_results_simp
  all_goals rfl

/-- 3 operations: the census feature at window offset (3, 5): the padded gray image sliced there, the gray image compared against it, the truth value as 0 or 1. -/
abbrev feat_y25 : List (HloOp τ sig (Elt F)) :=
  [ unary main_v171 main_v247 ((extractStridedSlice S8x1x512x512 ![0, 0, 3, 5] · slices_S8x1x518x518_S8x1x512x512_0_0_3_5) : (⟨S8x1x518x518, .f32⟩ : BufTy).Contents (Elt F) → (⟨S8x1x512x512, .f32⟩ : BufTy).Contents (Elt F)),
    binary main_v170 main_v247 main_v248 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v248 main_v249 (uitofp .f32 : (⟨S8x1x512x512, .i1⟩ : BufTy).Contents (Elt F) → (⟨S8x1x512x512, .f32⟩ : BufTy).Contents (Elt F)) ]
theorem feat_y25_sub : ∀ op ∈ (feat_y25 : List (HloOp τ sig (Elt F))), op.bufs ⊆ tcRefs τ sig :=
  List.forall_iff_forall_mem.mp (show (feat_y25 : List (HloOp τ sig (Elt F))).Forall (fun op => op.bufs ⊆ tcRefs τ sig) from ⟨unary_bufs_sub .., binary_bufs_sub .., unary_bufs_sub ..⟩)
theorem feat_y25_fresh : ∀ op ∈ (feat_y25 : List (HloOp τ sig (Elt F))), op.fresh = ∅ := by
  intro _ h; (repeat (cases h with | head => rfl | tail _ h => ?_)); exact nomatch h
/-- The buffers the stage writes. -/
abbrev feat_y25_W : List (Ref sig .tc) := [main_v247, main_v248, main_v249]
theorem feat_y25_writes : (feat_y25 : List (HloOp τ sig (Elt F))).Forall fun op => op.writes ⊆ (feat_y25_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y25_keep (W : Valuation τ sig (Elt F)) (r : Ref sig .tc) (h : r ∉ feat_y25_W) :
    after feat_y25 W (no_index (Proc.devRef .tc r)) = W (Proc.devRef .tc r) :=
  after_of_writes_sub feat_y25 W feat_y25_writes h
attribute [local irreducible] extractStridedSlice in
set_option maxRecDepth 100000 in
set_option maxHeartbeats 4000000 in
@[ref_read] theorem feat_y25_main_v249 (W : Valuation τ sig (Elt F)) :
    after feat_y25 W (no_index (Proc.devRef .tc main_v249)) = RefTerm.feat (F := F) (W (main_v170 : DevRef τ sig)) (W (main_v171 : DevRef τ sig)) ![0, 0, 3, 5] slices_S8x1x518x518_S8x1x512x512_0_0_3_5 := by
  simp only [feat_y25]
  after_results_simp
  all_goals rfl

/-- 3 operations: the census feature at window offset (3, 6): the padded gray image sliced there, the gray image compared against it, the truth value as 0 or 1. -/
abbrev feat_y26 : List (HloOp τ sig (Elt F)) :=
  [ unary main_v171 main_v250 ((extractStridedSlice S8x1x512x512 ![0, 0, 3, 6] · slices_S8x1x518x518_S8x1x512x512_0_0_3_6) : (⟨S8x1x518x518, .f32⟩ : BufTy).Contents (Elt F) → (⟨S8x1x512x512, .f32⟩ : BufTy).Contents (Elt F)),
    binary main_v170 main_v250 main_v251 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v251 main_v252 (uitofp .f32 : (⟨S8x1x512x512, .i1⟩ : BufTy).Contents (Elt F) → (⟨S8x1x512x512, .f32⟩ : BufTy).Contents (Elt F)) ]
theorem feat_y26_sub : ∀ op ∈ (feat_y26 : List (HloOp τ sig (Elt F))), op.bufs ⊆ tcRefs τ sig :=
  List.forall_iff_forall_mem.mp (show (feat_y26 : List (HloOp τ sig (Elt F))).Forall (fun op => op.bufs ⊆ tcRefs τ sig) from ⟨unary_bufs_sub .., binary_bufs_sub .., unary_bufs_sub ..⟩)
theorem feat_y26_fresh : ∀ op ∈ (feat_y26 : List (HloOp τ sig (Elt F))), op.fresh = ∅ := by
  intro _ h; (repeat (cases h with | head => rfl | tail _ h => ?_)); exact nomatch h
/-- The buffers the stage writes. -/
abbrev feat_y26_W : List (Ref sig .tc) := [main_v250, main_v251, main_v252]
theorem feat_y26_writes : (feat_y26 : List (HloOp τ sig (Elt F))).Forall fun op => op.writes ⊆ (feat_y26_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y26_keep (W : Valuation τ sig (Elt F)) (r : Ref sig .tc) (h : r ∉ feat_y26_W) :
    after feat_y26 W (no_index (Proc.devRef .tc r)) = W (Proc.devRef .tc r) :=
  after_of_writes_sub feat_y26 W feat_y26_writes h
attribute [local irreducible] extractStridedSlice in
set_option maxRecDepth 100000 in
set_option maxHeartbeats 4000000 in
@[ref_read] theorem feat_y26_main_v252 (W : Valuation τ sig (Elt F)) :
    after feat_y26 W (no_index (Proc.devRef .tc main_v252)) = RefTerm.feat (F := F) (W (main_v170 : DevRef τ sig)) (W (main_v171 : DevRef τ sig)) ![0, 0, 3, 6] slices_S8x1x518x518_S8x1x512x512_0_0_3_6 := by
  simp only [feat_y26]
  after_results_simp
  all_goals rfl

/-- 3 operations: the census feature at window offset (4, 0): the padded gray image sliced there, the gray image compared against it, the truth value as 0 or 1. -/
abbrev feat_y27 : List (HloOp τ sig (Elt F)) :=
  [ unary main_v171 main_v253 ((extractStridedSlice S8x1x512x512 ![0, 0, 4, 0] · slices_S8x1x518x518_S8x1x512x512_0_0_4_0) : (⟨S8x1x518x518, .f32⟩ : BufTy).Contents (Elt F) → (⟨S8x1x512x512, .f32⟩ : BufTy).Contents (Elt F)),
    binary main_v170 main_v253 main_v254 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v254 main_v255 (uitofp .f32 : (⟨S8x1x512x512, .i1⟩ : BufTy).Contents (Elt F) → (⟨S8x1x512x512, .f32⟩ : BufTy).Contents (Elt F)) ]
theorem feat_y27_sub : ∀ op ∈ (feat_y27 : List (HloOp τ sig (Elt F))), op.bufs ⊆ tcRefs τ sig :=
  List.forall_iff_forall_mem.mp (show (feat_y27 : List (HloOp τ sig (Elt F))).Forall (fun op => op.bufs ⊆ tcRefs τ sig) from ⟨unary_bufs_sub .., binary_bufs_sub .., unary_bufs_sub ..⟩)
theorem feat_y27_fresh : ∀ op ∈ (feat_y27 : List (HloOp τ sig (Elt F))), op.fresh = ∅ := by
  intro _ h; (repeat (cases h with | head => rfl | tail _ h => ?_)); exact nomatch h
/-- The buffers the stage writes. -/
abbrev feat_y27_W : List (Ref sig .tc) := [main_v253, main_v254, main_v255]
theorem feat_y27_writes : (feat_y27 : List (HloOp τ sig (Elt F))).Forall fun op => op.writes ⊆ (feat_y27_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y27_keep (W : Valuation τ sig (Elt F)) (r : Ref sig .tc) (h : r ∉ feat_y27_W) :
    after feat_y27 W (no_index (Proc.devRef .tc r)) = W (Proc.devRef .tc r) :=
  after_of_writes_sub feat_y27 W feat_y27_writes h
attribute [local irreducible] extractStridedSlice in
set_option maxRecDepth 100000 in
set_option maxHeartbeats 4000000 in
@[ref_read] theorem feat_y27_main_v255 (W : Valuation τ sig (Elt F)) :
    after feat_y27 W (no_index (Proc.devRef .tc main_v255)) = RefTerm.feat (F := F) (W (main_v170 : DevRef τ sig)) (W (main_v171 : DevRef τ sig)) ![0, 0, 4, 0] slices_S8x1x518x518_S8x1x512x512_0_0_4_0 := by
  simp only [feat_y27]
  after_results_simp
  all_goals rfl

/-- 3 operations: the census feature at window offset (4, 1): the padded gray image sliced there, the gray image compared against it, the truth value as 0 or 1. -/
abbrev feat_y28 : List (HloOp τ sig (Elt F)) :=
  [ unary main_v171 main_v256 ((extractStridedSlice S8x1x512x512 ![0, 0, 4, 1] · slices_S8x1x518x518_S8x1x512x512_0_0_4_1) : (⟨S8x1x518x518, .f32⟩ : BufTy).Contents (Elt F) → (⟨S8x1x512x512, .f32⟩ : BufTy).Contents (Elt F)),
    binary main_v170 main_v256 main_v257 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v257 main_v258 (uitofp .f32 : (⟨S8x1x512x512, .i1⟩ : BufTy).Contents (Elt F) → (⟨S8x1x512x512, .f32⟩ : BufTy).Contents (Elt F)) ]
theorem feat_y28_sub : ∀ op ∈ (feat_y28 : List (HloOp τ sig (Elt F))), op.bufs ⊆ tcRefs τ sig :=
  List.forall_iff_forall_mem.mp (show (feat_y28 : List (HloOp τ sig (Elt F))).Forall (fun op => op.bufs ⊆ tcRefs τ sig) from ⟨unary_bufs_sub .., binary_bufs_sub .., unary_bufs_sub ..⟩)
theorem feat_y28_fresh : ∀ op ∈ (feat_y28 : List (HloOp τ sig (Elt F))), op.fresh = ∅ := by
  intro _ h; (repeat (cases h with | head => rfl | tail _ h => ?_)); exact nomatch h
/-- The buffers the stage writes. -/
abbrev feat_y28_W : List (Ref sig .tc) := [main_v256, main_v257, main_v258]
theorem feat_y28_writes : (feat_y28 : List (HloOp τ sig (Elt F))).Forall fun op => op.writes ⊆ (feat_y28_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y28_keep (W : Valuation τ sig (Elt F)) (r : Ref sig .tc) (h : r ∉ feat_y28_W) :
    after feat_y28 W (no_index (Proc.devRef .tc r)) = W (Proc.devRef .tc r) :=
  after_of_writes_sub feat_y28 W feat_y28_writes h
attribute [local irreducible] extractStridedSlice in
set_option maxRecDepth 100000 in
set_option maxHeartbeats 4000000 in
@[ref_read] theorem feat_y28_main_v258 (W : Valuation τ sig (Elt F)) :
    after feat_y28 W (no_index (Proc.devRef .tc main_v258)) = RefTerm.feat (F := F) (W (main_v170 : DevRef τ sig)) (W (main_v171 : DevRef τ sig)) ![0, 0, 4, 1] slices_S8x1x518x518_S8x1x512x512_0_0_4_1 := by
  simp only [feat_y28]
  after_results_simp
  all_goals rfl

/-- 3 operations: the census feature at window offset (4, 2): the padded gray image sliced there, the gray image compared against it, the truth value as 0 or 1. -/
abbrev feat_y29 : List (HloOp τ sig (Elt F)) :=
  [ unary main_v171 main_v259 ((extractStridedSlice S8x1x512x512 ![0, 0, 4, 2] · slices_S8x1x518x518_S8x1x512x512_0_0_4_2) : (⟨S8x1x518x518, .f32⟩ : BufTy).Contents (Elt F) → (⟨S8x1x512x512, .f32⟩ : BufTy).Contents (Elt F)),
    binary main_v170 main_v259 main_v260 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v260 main_v261 (uitofp .f32 : (⟨S8x1x512x512, .i1⟩ : BufTy).Contents (Elt F) → (⟨S8x1x512x512, .f32⟩ : BufTy).Contents (Elt F)) ]
theorem feat_y29_sub : ∀ op ∈ (feat_y29 : List (HloOp τ sig (Elt F))), op.bufs ⊆ tcRefs τ sig :=
  List.forall_iff_forall_mem.mp (show (feat_y29 : List (HloOp τ sig (Elt F))).Forall (fun op => op.bufs ⊆ tcRefs τ sig) from ⟨unary_bufs_sub .., binary_bufs_sub .., unary_bufs_sub ..⟩)
theorem feat_y29_fresh : ∀ op ∈ (feat_y29 : List (HloOp τ sig (Elt F))), op.fresh = ∅ := by
  intro _ h; (repeat (cases h with | head => rfl | tail _ h => ?_)); exact nomatch h
/-- The buffers the stage writes. -/
abbrev feat_y29_W : List (Ref sig .tc) := [main_v259, main_v260, main_v261]
theorem feat_y29_writes : (feat_y29 : List (HloOp τ sig (Elt F))).Forall fun op => op.writes ⊆ (feat_y29_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y29_keep (W : Valuation τ sig (Elt F)) (r : Ref sig .tc) (h : r ∉ feat_y29_W) :
    after feat_y29 W (no_index (Proc.devRef .tc r)) = W (Proc.devRef .tc r) :=
  after_of_writes_sub feat_y29 W feat_y29_writes h
attribute [local irreducible] extractStridedSlice in
set_option maxRecDepth 100000 in
set_option maxHeartbeats 4000000 in
@[ref_read] theorem feat_y29_main_v261 (W : Valuation τ sig (Elt F)) :
    after feat_y29 W (no_index (Proc.devRef .tc main_v261)) = RefTerm.feat (F := F) (W (main_v170 : DevRef τ sig)) (W (main_v171 : DevRef τ sig)) ![0, 0, 4, 2] slices_S8x1x518x518_S8x1x512x512_0_0_4_2 := by
  simp only [feat_y29]
  after_results_simp
  all_goals rfl

/-- 3 operations: the census feature at window offset (4, 3): the padded gray image sliced there, the gray image compared against it, the truth value as 0 or 1. -/
abbrev feat_y30 : List (HloOp τ sig (Elt F)) :=
  [ unary main_v171 main_v262 ((extractStridedSlice S8x1x512x512 ![0, 0, 4, 3] · slices_S8x1x518x518_S8x1x512x512_0_0_4_3) : (⟨S8x1x518x518, .f32⟩ : BufTy).Contents (Elt F) → (⟨S8x1x512x512, .f32⟩ : BufTy).Contents (Elt F)),
    binary main_v170 main_v262 main_v263 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v263 main_v264 (uitofp .f32 : (⟨S8x1x512x512, .i1⟩ : BufTy).Contents (Elt F) → (⟨S8x1x512x512, .f32⟩ : BufTy).Contents (Elt F)) ]
theorem feat_y30_sub : ∀ op ∈ (feat_y30 : List (HloOp τ sig (Elt F))), op.bufs ⊆ tcRefs τ sig :=
  List.forall_iff_forall_mem.mp (show (feat_y30 : List (HloOp τ sig (Elt F))).Forall (fun op => op.bufs ⊆ tcRefs τ sig) from ⟨unary_bufs_sub .., binary_bufs_sub .., unary_bufs_sub ..⟩)
theorem feat_y30_fresh : ∀ op ∈ (feat_y30 : List (HloOp τ sig (Elt F))), op.fresh = ∅ := by
  intro _ h; (repeat (cases h with | head => rfl | tail _ h => ?_)); exact nomatch h
/-- The buffers the stage writes. -/
abbrev feat_y30_W : List (Ref sig .tc) := [main_v262, main_v263, main_v264]
theorem feat_y30_writes : (feat_y30 : List (HloOp τ sig (Elt F))).Forall fun op => op.writes ⊆ (feat_y30_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y30_keep (W : Valuation τ sig (Elt F)) (r : Ref sig .tc) (h : r ∉ feat_y30_W) :
    after feat_y30 W (no_index (Proc.devRef .tc r)) = W (Proc.devRef .tc r) :=
  after_of_writes_sub feat_y30 W feat_y30_writes h
attribute [local irreducible] extractStridedSlice in
set_option maxRecDepth 100000 in
set_option maxHeartbeats 4000000 in
@[ref_read] theorem feat_y30_main_v264 (W : Valuation τ sig (Elt F)) :
    after feat_y30 W (no_index (Proc.devRef .tc main_v264)) = RefTerm.feat (F := F) (W (main_v170 : DevRef τ sig)) (W (main_v171 : DevRef τ sig)) ![0, 0, 4, 3] slices_S8x1x518x518_S8x1x512x512_0_0_4_3 := by
  simp only [feat_y30]
  after_results_simp
  all_goals rfl

/-- 3 operations: the census feature at window offset (4, 4): the padded gray image sliced there, the gray image compared against it, the truth value as 0 or 1. -/
abbrev feat_y31 : List (HloOp τ sig (Elt F)) :=
  [ unary main_v171 main_v265 ((extractStridedSlice S8x1x512x512 ![0, 0, 4, 4] · slices_S8x1x518x518_S8x1x512x512_0_0_4_4) : (⟨S8x1x518x518, .f32⟩ : BufTy).Contents (Elt F) → (⟨S8x1x512x512, .f32⟩ : BufTy).Contents (Elt F)),
    binary main_v170 main_v265 main_v266 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v266 main_v267 (uitofp .f32 : (⟨S8x1x512x512, .i1⟩ : BufTy).Contents (Elt F) → (⟨S8x1x512x512, .f32⟩ : BufTy).Contents (Elt F)) ]
theorem feat_y31_sub : ∀ op ∈ (feat_y31 : List (HloOp τ sig (Elt F))), op.bufs ⊆ tcRefs τ sig :=
  List.forall_iff_forall_mem.mp (show (feat_y31 : List (HloOp τ sig (Elt F))).Forall (fun op => op.bufs ⊆ tcRefs τ sig) from ⟨unary_bufs_sub .., binary_bufs_sub .., unary_bufs_sub ..⟩)
theorem feat_y31_fresh : ∀ op ∈ (feat_y31 : List (HloOp τ sig (Elt F))), op.fresh = ∅ := by
  intro _ h; (repeat (cases h with | head => rfl | tail _ h => ?_)); exact nomatch h
/-- The buffers the stage writes. -/
abbrev feat_y31_W : List (Ref sig .tc) := [main_v265, main_v266, main_v267]
theorem feat_y31_writes : (feat_y31 : List (HloOp τ sig (Elt F))).Forall fun op => op.writes ⊆ (feat_y31_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y31_keep (W : Valuation τ sig (Elt F)) (r : Ref sig .tc) (h : r ∉ feat_y31_W) :
    after feat_y31 W (no_index (Proc.devRef .tc r)) = W (Proc.devRef .tc r) :=
  after_of_writes_sub feat_y31 W feat_y31_writes h
attribute [local irreducible] extractStridedSlice in
set_option maxRecDepth 100000 in
set_option maxHeartbeats 4000000 in
@[ref_read] theorem feat_y31_main_v267 (W : Valuation τ sig (Elt F)) :
    after feat_y31 W (no_index (Proc.devRef .tc main_v267)) = RefTerm.feat (F := F) (W (main_v170 : DevRef τ sig)) (W (main_v171 : DevRef τ sig)) ![0, 0, 4, 4] slices_S8x1x518x518_S8x1x512x512_0_0_4_4 := by
  simp only [feat_y31]
  after_results_simp
  all_goals rfl

/-- 3 operations: the census feature at window offset (4, 5): the padded gray image sliced there, the gray image compared against it, the truth value as 0 or 1. -/
abbrev feat_y32 : List (HloOp τ sig (Elt F)) :=
  [ unary main_v171 main_v268 ((extractStridedSlice S8x1x512x512 ![0, 0, 4, 5] · slices_S8x1x518x518_S8x1x512x512_0_0_4_5) : (⟨S8x1x518x518, .f32⟩ : BufTy).Contents (Elt F) → (⟨S8x1x512x512, .f32⟩ : BufTy).Contents (Elt F)),
    binary main_v170 main_v268 main_v269 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v269 main_v270 (uitofp .f32 : (⟨S8x1x512x512, .i1⟩ : BufTy).Contents (Elt F) → (⟨S8x1x512x512, .f32⟩ : BufTy).Contents (Elt F)) ]
theorem feat_y32_sub : ∀ op ∈ (feat_y32 : List (HloOp τ sig (Elt F))), op.bufs ⊆ tcRefs τ sig :=
  List.forall_iff_forall_mem.mp (show (feat_y32 : List (HloOp τ sig (Elt F))).Forall (fun op => op.bufs ⊆ tcRefs τ sig) from ⟨unary_bufs_sub .., binary_bufs_sub .., unary_bufs_sub ..⟩)
theorem feat_y32_fresh : ∀ op ∈ (feat_y32 : List (HloOp τ sig (Elt F))), op.fresh = ∅ := by
  intro _ h; (repeat (cases h with | head => rfl | tail _ h => ?_)); exact nomatch h
/-- The buffers the stage writes. -/
abbrev feat_y32_W : List (Ref sig .tc) := [main_v268, main_v269, main_v270]
theorem feat_y32_writes : (feat_y32 : List (HloOp τ sig (Elt F))).Forall fun op => op.writes ⊆ (feat_y32_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y32_keep (W : Valuation τ sig (Elt F)) (r : Ref sig .tc) (h : r ∉ feat_y32_W) :
    after feat_y32 W (no_index (Proc.devRef .tc r)) = W (Proc.devRef .tc r) :=
  after_of_writes_sub feat_y32 W feat_y32_writes h
attribute [local irreducible] extractStridedSlice in
set_option maxRecDepth 100000 in
set_option maxHeartbeats 4000000 in
@[ref_read] theorem feat_y32_main_v270 (W : Valuation τ sig (Elt F)) :
    after feat_y32 W (no_index (Proc.devRef .tc main_v270)) = RefTerm.feat (F := F) (W (main_v170 : DevRef τ sig)) (W (main_v171 : DevRef τ sig)) ![0, 0, 4, 5] slices_S8x1x518x518_S8x1x512x512_0_0_4_5 := by
  simp only [feat_y32]
  after_results_simp
  all_goals rfl

/-- 3 operations: the census feature at window offset (4, 6): the padded gray image sliced there, the gray image compared against it, the truth value as 0 or 1. -/
abbrev feat_y33 : List (HloOp τ sig (Elt F)) :=
  [ unary main_v171 main_v271 ((extractStridedSlice S8x1x512x512 ![0, 0, 4, 6] · slices_S8x1x518x518_S8x1x512x512_0_0_4_6) : (⟨S8x1x518x518, .f32⟩ : BufTy).Contents (Elt F) → (⟨S8x1x512x512, .f32⟩ : BufTy).Contents (Elt F)),
    binary main_v170 main_v271 main_v272 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v272 main_v273 (uitofp .f32 : (⟨S8x1x512x512, .i1⟩ : BufTy).Contents (Elt F) → (⟨S8x1x512x512, .f32⟩ : BufTy).Contents (Elt F)) ]
theorem feat_y33_sub : ∀ op ∈ (feat_y33 : List (HloOp τ sig (Elt F))), op.bufs ⊆ tcRefs τ sig :=
  List.forall_iff_forall_mem.mp (show (feat_y33 : List (HloOp τ sig (Elt F))).Forall (fun op => op.bufs ⊆ tcRefs τ sig) from ⟨unary_bufs_sub .., binary_bufs_sub .., unary_bufs_sub ..⟩)
theorem feat_y33_fresh : ∀ op ∈ (feat_y33 : List (HloOp τ sig (Elt F))), op.fresh = ∅ := by
  intro _ h; (repeat (cases h with | head => rfl | tail _ h => ?_)); exact nomatch h
/-- The buffers the stage writes. -/
abbrev feat_y33_W : List (Ref sig .tc) := [main_v271, main_v272, main_v273]
theorem feat_y33_writes : (feat_y33 : List (HloOp τ sig (Elt F))).Forall fun op => op.writes ⊆ (feat_y33_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y33_keep (W : Valuation τ sig (Elt F)) (r : Ref sig .tc) (h : r ∉ feat_y33_W) :
    after feat_y33 W (no_index (Proc.devRef .tc r)) = W (Proc.devRef .tc r) :=
  after_of_writes_sub feat_y33 W feat_y33_writes h
attribute [local irreducible] extractStridedSlice in
set_option maxRecDepth 100000 in
set_option maxHeartbeats 4000000 in
@[ref_read] theorem feat_y33_main_v273 (W : Valuation τ sig (Elt F)) :
    after feat_y33 W (no_index (Proc.devRef .tc main_v273)) = RefTerm.feat (F := F) (W (main_v170 : DevRef τ sig)) (W (main_v171 : DevRef τ sig)) ![0, 0, 4, 6] slices_S8x1x518x518_S8x1x512x512_0_0_4_6 := by
  simp only [feat_y33]
  after_results_simp
  all_goals rfl

/-- 3 operations: the census feature at window offset (5, 0): the padded gray image sliced there, the gray image compared against it, the truth value as 0 or 1. -/
abbrev feat_y34 : List (HloOp τ sig (Elt F)) :=
  [ unary main_v171 main_v274 ((extractStridedSlice S8x1x512x512 ![0, 0, 5, 0] · slices_S8x1x518x518_S8x1x512x512_0_0_5_0) : (⟨S8x1x518x518, .f32⟩ : BufTy).Contents (Elt F) → (⟨S8x1x512x512, .f32⟩ : BufTy).Contents (Elt F)),
    binary main_v170 main_v274 main_v275 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v275 main_v276 (uitofp .f32 : (⟨S8x1x512x512, .i1⟩ : BufTy).Contents (Elt F) → (⟨S8x1x512x512, .f32⟩ : BufTy).Contents (Elt F)) ]
theorem feat_y34_sub : ∀ op ∈ (feat_y34 : List (HloOp τ sig (Elt F))), op.bufs ⊆ tcRefs τ sig :=
  List.forall_iff_forall_mem.mp (show (feat_y34 : List (HloOp τ sig (Elt F))).Forall (fun op => op.bufs ⊆ tcRefs τ sig) from ⟨unary_bufs_sub .., binary_bufs_sub .., unary_bufs_sub ..⟩)
theorem feat_y34_fresh : ∀ op ∈ (feat_y34 : List (HloOp τ sig (Elt F))), op.fresh = ∅ := by
  intro _ h; (repeat (cases h with | head => rfl | tail _ h => ?_)); exact nomatch h
/-- The buffers the stage writes. -/
abbrev feat_y34_W : List (Ref sig .tc) := [main_v274, main_v275, main_v276]
theorem feat_y34_writes : (feat_y34 : List (HloOp τ sig (Elt F))).Forall fun op => op.writes ⊆ (feat_y34_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y34_keep (W : Valuation τ sig (Elt F)) (r : Ref sig .tc) (h : r ∉ feat_y34_W) :
    after feat_y34 W (no_index (Proc.devRef .tc r)) = W (Proc.devRef .tc r) :=
  after_of_writes_sub feat_y34 W feat_y34_writes h
attribute [local irreducible] extractStridedSlice in
set_option maxRecDepth 100000 in
set_option maxHeartbeats 4000000 in
@[ref_read] theorem feat_y34_main_v276 (W : Valuation τ sig (Elt F)) :
    after feat_y34 W (no_index (Proc.devRef .tc main_v276)) = RefTerm.feat (F := F) (W (main_v170 : DevRef τ sig)) (W (main_v171 : DevRef τ sig)) ![0, 0, 5, 0] slices_S8x1x518x518_S8x1x512x512_0_0_5_0 := by
  simp only [feat_y34]
  after_results_simp
  all_goals rfl

/-- 3 operations: the census feature at window offset (5, 1): the padded gray image sliced there, the gray image compared against it, the truth value as 0 or 1. -/
abbrev feat_y35 : List (HloOp τ sig (Elt F)) :=
  [ unary main_v171 main_v277 ((extractStridedSlice S8x1x512x512 ![0, 0, 5, 1] · slices_S8x1x518x518_S8x1x512x512_0_0_5_1) : (⟨S8x1x518x518, .f32⟩ : BufTy).Contents (Elt F) → (⟨S8x1x512x512, .f32⟩ : BufTy).Contents (Elt F)),
    binary main_v170 main_v277 main_v278 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v278 main_v279 (uitofp .f32 : (⟨S8x1x512x512, .i1⟩ : BufTy).Contents (Elt F) → (⟨S8x1x512x512, .f32⟩ : BufTy).Contents (Elt F)) ]
theorem feat_y35_sub : ∀ op ∈ (feat_y35 : List (HloOp τ sig (Elt F))), op.bufs ⊆ tcRefs τ sig :=
  List.forall_iff_forall_mem.mp (show (feat_y35 : List (HloOp τ sig (Elt F))).Forall (fun op => op.bufs ⊆ tcRefs τ sig) from ⟨unary_bufs_sub .., binary_bufs_sub .., unary_bufs_sub ..⟩)
theorem feat_y35_fresh : ∀ op ∈ (feat_y35 : List (HloOp τ sig (Elt F))), op.fresh = ∅ := by
  intro _ h; (repeat (cases h with | head => rfl | tail _ h => ?_)); exact nomatch h
/-- The buffers the stage writes. -/
abbrev feat_y35_W : List (Ref sig .tc) := [main_v277, main_v278, main_v279]
theorem feat_y35_writes : (feat_y35 : List (HloOp τ sig (Elt F))).Forall fun op => op.writes ⊆ (feat_y35_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y35_keep (W : Valuation τ sig (Elt F)) (r : Ref sig .tc) (h : r ∉ feat_y35_W) :
    after feat_y35 W (no_index (Proc.devRef .tc r)) = W (Proc.devRef .tc r) :=
  after_of_writes_sub feat_y35 W feat_y35_writes h
attribute [local irreducible] extractStridedSlice in
set_option maxRecDepth 100000 in
set_option maxHeartbeats 4000000 in
@[ref_read] theorem feat_y35_main_v279 (W : Valuation τ sig (Elt F)) :
    after feat_y35 W (no_index (Proc.devRef .tc main_v279)) = RefTerm.feat (F := F) (W (main_v170 : DevRef τ sig)) (W (main_v171 : DevRef τ sig)) ![0, 0, 5, 1] slices_S8x1x518x518_S8x1x512x512_0_0_5_1 := by
  simp only [feat_y35]
  after_results_simp
  all_goals rfl

/-- 3 operations: the census feature at window offset (5, 2): the padded gray image sliced there, the gray image compared against it, the truth value as 0 or 1. -/
abbrev feat_y36 : List (HloOp τ sig (Elt F)) :=
  [ unary main_v171 main_v280 ((extractStridedSlice S8x1x512x512 ![0, 0, 5, 2] · slices_S8x1x518x518_S8x1x512x512_0_0_5_2) : (⟨S8x1x518x518, .f32⟩ : BufTy).Contents (Elt F) → (⟨S8x1x512x512, .f32⟩ : BufTy).Contents (Elt F)),
    binary main_v170 main_v280 main_v281 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v281 main_v282 (uitofp .f32 : (⟨S8x1x512x512, .i1⟩ : BufTy).Contents (Elt F) → (⟨S8x1x512x512, .f32⟩ : BufTy).Contents (Elt F)) ]
theorem feat_y36_sub : ∀ op ∈ (feat_y36 : List (HloOp τ sig (Elt F))), op.bufs ⊆ tcRefs τ sig :=
  List.forall_iff_forall_mem.mp (show (feat_y36 : List (HloOp τ sig (Elt F))).Forall (fun op => op.bufs ⊆ tcRefs τ sig) from ⟨unary_bufs_sub .., binary_bufs_sub .., unary_bufs_sub ..⟩)
theorem feat_y36_fresh : ∀ op ∈ (feat_y36 : List (HloOp τ sig (Elt F))), op.fresh = ∅ := by
  intro _ h; (repeat (cases h with | head => rfl | tail _ h => ?_)); exact nomatch h
/-- The buffers the stage writes. -/
abbrev feat_y36_W : List (Ref sig .tc) := [main_v280, main_v281, main_v282]
theorem feat_y36_writes : (feat_y36 : List (HloOp τ sig (Elt F))).Forall fun op => op.writes ⊆ (feat_y36_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y36_keep (W : Valuation τ sig (Elt F)) (r : Ref sig .tc) (h : r ∉ feat_y36_W) :
    after feat_y36 W (no_index (Proc.devRef .tc r)) = W (Proc.devRef .tc r) :=
  after_of_writes_sub feat_y36 W feat_y36_writes h
attribute [local irreducible] extractStridedSlice in
set_option maxRecDepth 100000 in
set_option maxHeartbeats 4000000 in
@[ref_read] theorem feat_y36_main_v282 (W : Valuation τ sig (Elt F)) :
    after feat_y36 W (no_index (Proc.devRef .tc main_v282)) = RefTerm.feat (F := F) (W (main_v170 : DevRef τ sig)) (W (main_v171 : DevRef τ sig)) ![0, 0, 5, 2] slices_S8x1x518x518_S8x1x512x512_0_0_5_2 := by
  simp only [feat_y36]
  after_results_simp
  all_goals rfl

/-- 3 operations: the census feature at window offset (5, 3): the padded gray image sliced there, the gray image compared against it, the truth value as 0 or 1. -/
abbrev feat_y37 : List (HloOp τ sig (Elt F)) :=
  [ unary main_v171 main_v283 ((extractStridedSlice S8x1x512x512 ![0, 0, 5, 3] · slices_S8x1x518x518_S8x1x512x512_0_0_5_3) : (⟨S8x1x518x518, .f32⟩ : BufTy).Contents (Elt F) → (⟨S8x1x512x512, .f32⟩ : BufTy).Contents (Elt F)),
    binary main_v170 main_v283 main_v284 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v284 main_v285 (uitofp .f32 : (⟨S8x1x512x512, .i1⟩ : BufTy).Contents (Elt F) → (⟨S8x1x512x512, .f32⟩ : BufTy).Contents (Elt F)) ]
theorem feat_y37_sub : ∀ op ∈ (feat_y37 : List (HloOp τ sig (Elt F))), op.bufs ⊆ tcRefs τ sig :=
  List.forall_iff_forall_mem.mp (show (feat_y37 : List (HloOp τ sig (Elt F))).Forall (fun op => op.bufs ⊆ tcRefs τ sig) from ⟨unary_bufs_sub .., binary_bufs_sub .., unary_bufs_sub ..⟩)
theorem feat_y37_fresh : ∀ op ∈ (feat_y37 : List (HloOp τ sig (Elt F))), op.fresh = ∅ := by
  intro _ h; (repeat (cases h with | head => rfl | tail _ h => ?_)); exact nomatch h
/-- The buffers the stage writes. -/
abbrev feat_y37_W : List (Ref sig .tc) := [main_v283, main_v284, main_v285]
theorem feat_y37_writes : (feat_y37 : List (HloOp τ sig (Elt F))).Forall fun op => op.writes ⊆ (feat_y37_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y37_keep (W : Valuation τ sig (Elt F)) (r : Ref sig .tc) (h : r ∉ feat_y37_W) :
    after feat_y37 W (no_index (Proc.devRef .tc r)) = W (Proc.devRef .tc r) :=
  after_of_writes_sub feat_y37 W feat_y37_writes h
attribute [local irreducible] extractStridedSlice in
set_option maxRecDepth 100000 in
set_option maxHeartbeats 4000000 in
@[ref_read] theorem feat_y37_main_v285 (W : Valuation τ sig (Elt F)) :
    after feat_y37 W (no_index (Proc.devRef .tc main_v285)) = RefTerm.feat (F := F) (W (main_v170 : DevRef τ sig)) (W (main_v171 : DevRef τ sig)) ![0, 0, 5, 3] slices_S8x1x518x518_S8x1x512x512_0_0_5_3 := by
  simp only [feat_y37]
  after_results_simp
  all_goals rfl

/-- 3 operations: the census feature at window offset (5, 4): the padded gray image sliced there, the gray image compared against it, the truth value as 0 or 1. -/
abbrev feat_y38 : List (HloOp τ sig (Elt F)) :=
  [ unary main_v171 main_v286 ((extractStridedSlice S8x1x512x512 ![0, 0, 5, 4] · slices_S8x1x518x518_S8x1x512x512_0_0_5_4) : (⟨S8x1x518x518, .f32⟩ : BufTy).Contents (Elt F) → (⟨S8x1x512x512, .f32⟩ : BufTy).Contents (Elt F)),
    binary main_v170 main_v286 main_v287 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v287 main_v288 (uitofp .f32 : (⟨S8x1x512x512, .i1⟩ : BufTy).Contents (Elt F) → (⟨S8x1x512x512, .f32⟩ : BufTy).Contents (Elt F)) ]
theorem feat_y38_sub : ∀ op ∈ (feat_y38 : List (HloOp τ sig (Elt F))), op.bufs ⊆ tcRefs τ sig :=
  List.forall_iff_forall_mem.mp (show (feat_y38 : List (HloOp τ sig (Elt F))).Forall (fun op => op.bufs ⊆ tcRefs τ sig) from ⟨unary_bufs_sub .., binary_bufs_sub .., unary_bufs_sub ..⟩)
theorem feat_y38_fresh : ∀ op ∈ (feat_y38 : List (HloOp τ sig (Elt F))), op.fresh = ∅ := by
  intro _ h; (repeat (cases h with | head => rfl | tail _ h => ?_)); exact nomatch h
/-- The buffers the stage writes. -/
abbrev feat_y38_W : List (Ref sig .tc) := [main_v286, main_v287, main_v288]
theorem feat_y38_writes : (feat_y38 : List (HloOp τ sig (Elt F))).Forall fun op => op.writes ⊆ (feat_y38_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y38_keep (W : Valuation τ sig (Elt F)) (r : Ref sig .tc) (h : r ∉ feat_y38_W) :
    after feat_y38 W (no_index (Proc.devRef .tc r)) = W (Proc.devRef .tc r) :=
  after_of_writes_sub feat_y38 W feat_y38_writes h
attribute [local irreducible] extractStridedSlice in
set_option maxRecDepth 100000 in
set_option maxHeartbeats 4000000 in
@[ref_read] theorem feat_y38_main_v288 (W : Valuation τ sig (Elt F)) :
    after feat_y38 W (no_index (Proc.devRef .tc main_v288)) = RefTerm.feat (F := F) (W (main_v170 : DevRef τ sig)) (W (main_v171 : DevRef τ sig)) ![0, 0, 5, 4] slices_S8x1x518x518_S8x1x512x512_0_0_5_4 := by
  simp only [feat_y38]
  after_results_simp
  all_goals rfl

/-- 3 operations: the census feature at window offset (5, 5): the padded gray image sliced there, the gray image compared against it, the truth value as 0 or 1. -/
abbrev feat_y39 : List (HloOp τ sig (Elt F)) :=
  [ unary main_v171 main_v289 ((extractStridedSlice S8x1x512x512 ![0, 0, 5, 5] · slices_S8x1x518x518_S8x1x512x512_0_0_5_5) : (⟨S8x1x518x518, .f32⟩ : BufTy).Contents (Elt F) → (⟨S8x1x512x512, .f32⟩ : BufTy).Contents (Elt F)),
    binary main_v170 main_v289 main_v290 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v290 main_v291 (uitofp .f32 : (⟨S8x1x512x512, .i1⟩ : BufTy).Contents (Elt F) → (⟨S8x1x512x512, .f32⟩ : BufTy).Contents (Elt F)) ]
theorem feat_y39_sub : ∀ op ∈ (feat_y39 : List (HloOp τ sig (Elt F))), op.bufs ⊆ tcRefs τ sig :=
  List.forall_iff_forall_mem.mp (show (feat_y39 : List (HloOp τ sig (Elt F))).Forall (fun op => op.bufs ⊆ tcRefs τ sig) from ⟨unary_bufs_sub .., binary_bufs_sub .., unary_bufs_sub ..⟩)
theorem feat_y39_fresh : ∀ op ∈ (feat_y39 : List (HloOp τ sig (Elt F))), op.fresh = ∅ := by
  intro _ h; (repeat (cases h with | head => rfl | tail _ h => ?_)); exact nomatch h
/-- The buffers the stage writes. -/
abbrev feat_y39_W : List (Ref sig .tc) := [main_v289, main_v290, main_v291]
theorem feat_y39_writes : (feat_y39 : List (HloOp τ sig (Elt F))).Forall fun op => op.writes ⊆ (feat_y39_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y39_keep (W : Valuation τ sig (Elt F)) (r : Ref sig .tc) (h : r ∉ feat_y39_W) :
    after feat_y39 W (no_index (Proc.devRef .tc r)) = W (Proc.devRef .tc r) :=
  after_of_writes_sub feat_y39 W feat_y39_writes h
attribute [local irreducible] extractStridedSlice in
set_option maxRecDepth 100000 in
set_option maxHeartbeats 4000000 in
@[ref_read] theorem feat_y39_main_v291 (W : Valuation τ sig (Elt F)) :
    after feat_y39 W (no_index (Proc.devRef .tc main_v291)) = RefTerm.feat (F := F) (W (main_v170 : DevRef τ sig)) (W (main_v171 : DevRef τ sig)) ![0, 0, 5, 5] slices_S8x1x518x518_S8x1x512x512_0_0_5_5 := by
  simp only [feat_y39]
  after_results_simp
  all_goals rfl

/-- Window main_part4's 60 operations, as printed. -/
abbrev ops4_flat : List (HloOp τ sig (Elt F)) :=
  [ unary main_v171 main_v232 ((extractStridedSlice S8x1x512x512 ![0, 0, 2, 6] · slices_S8x1x518x518_S8x1x512x512_0_0_2_6) : (⟨S8x1x518x518, .f32⟩ : BufTy).Contents (Elt F) → (⟨S8x1x512x512, .f32⟩ : BufTy).Contents (Elt F)),
    binary main_v170 main_v232 main_v233 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v233 main_v234 (uitofp .f32 : (⟨S8x1x512x512, .i1⟩ : BufTy).Contents (Elt F) → (⟨S8x1x512x512, .f32⟩ : BufTy).Contents (Elt F)),
    unary main_v171 main_v235 ((extractStridedSlice S8x1x512x512 ![0, 0, 3, 0] · slices_S8x1x518x518_S8x1x512x512_0_0_3_0) : (⟨S8x1x518x518, .f32⟩ : BufTy).Contents (Elt F) → (⟨S8x1x512x512, .f32⟩ : BufTy).Contents (Elt F)),
    binary main_v170 main_v235 main_v236 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v236 main_v237 (uitofp .f32 : (⟨S8x1x512x512, .i1⟩ : BufTy).Contents (Elt F) → (⟨S8x1x512x512, .f32⟩ : BufTy).Contents (Elt F)),
    unary main_v171 main_v238 ((extractStridedSlice S8x1x512x512 ![0, 0, 3, 1] · slices_S8x1x518x518_S8x1x512x512_0_0_3_1) : (⟨S8x1x518x518, .f32⟩ : BufTy).Contents (Elt F) → (⟨S8x1x512x512, .f32⟩ : BufTy).Contents (Elt F)),
    binary main_v170 main_v238 main_v239 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v239 main_v240 (uitofp .f32 : (⟨S8x1x512x512, .i1⟩ : BufTy).Contents (Elt F) → (⟨S8x1x512x512, .f32⟩ : BufTy).Contents (Elt F)),
    unary main_v171 main_v241 ((extractStridedSlice S8x1x512x512 ![0, 0, 3, 2] · slices_S8x1x518x518_S8x1x512x512_0_0_3_2) : (⟨S8x1x518x518, .f32⟩ : BufTy).Contents (Elt F) → (⟨S8x1x512x512, .f32⟩ : BufTy).Contents (Elt F)),
    binary main_v170 main_v241 main_v242 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v242 main_v243 (uitofp .f32 : (⟨S8x1x512x512, .i1⟩ : BufTy).Contents (Elt F) → (⟨S8x1x512x512, .f32⟩ : BufTy).Contents (Elt F)),
    unary main_v171 main_v244 ((extractStridedSlice S8x1x512x512 ![0, 0, 3, 4] · slices_S8x1x518x518_S8x1x512x512_0_0_3_4) : (⟨S8x1x518x518, .f32⟩ : BufTy).Contents (Elt F) → (⟨S8x1x512x512, .f32⟩ : BufTy).Contents (Elt F)),
    binary main_v170 main_v244 main_v245 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v245 main_v246 (uitofp .f32 : (⟨S8x1x512x512, .i1⟩ : BufTy).Contents (Elt F) → (⟨S8x1x512x512, .f32⟩ : BufTy).Contents (Elt F)),
    unary main_v171 main_v247 ((extractStridedSlice S8x1x512x512 ![0, 0, 3, 5] · slices_S8x1x518x518_S8x1x512x512_0_0_3_5) : (⟨S8x1x518x518, .f32⟩ : BufTy).Contents (Elt F) → (⟨S8x1x512x512, .f32⟩ : BufTy).Contents (Elt F)),
    binary main_v170 main_v247 main_v248 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v248 main_v249 (uitofp .f32 : (⟨S8x1x512x512, .i1⟩ : BufTy).Contents (Elt F) → (⟨S8x1x512x512, .f32⟩ : BufTy).Contents (Elt F)),
    unary main_v171 main_v250 ((extractStridedSlice S8x1x512x512 ![0, 0, 3, 6] · slices_S8x1x518x518_S8x1x512x512_0_0_3_6) : (⟨S8x1x518x518, .f32⟩ : BufTy).Contents (Elt F) → (⟨S8x1x512x512, .f32⟩ : BufTy).Contents (Elt F)),
    binary main_v170 main_v250 main_v251 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v251 main_v252 (uitofp .f32 : (⟨S8x1x512x512, .i1⟩ : BufTy).Contents (Elt F) → (⟨S8x1x512x512, .f32⟩ : BufTy).Contents (Elt F)),
    unary main_v171 main_v253 ((extractStridedSlice S8x1x512x512 ![0, 0, 4, 0] · slices_S8x1x518x518_S8x1x512x512_0_0_4_0) : (⟨S8x1x518x518, .f32⟩ : BufTy).Contents (Elt F) → (⟨S8x1x512x512, .f32⟩ : BufTy).Contents (Elt F)),
    binary main_v170 main_v253 main_v254 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v254 main_v255 (uitofp .f32 : (⟨S8x1x512x512, .i1⟩ : BufTy).Contents (Elt F) → (⟨S8x1x512x512, .f32⟩ : BufTy).Contents (Elt F)),
    unary main_v171 main_v256 ((extractStridedSlice S8x1x512x512 ![0, 0, 4, 1] · slices_S8x1x518x518_S8x1x512x512_0_0_4_1) : (⟨S8x1x518x518, .f32⟩ : BufTy).Contents (Elt F) → (⟨S8x1x512x512, .f32⟩ : BufTy).Contents (Elt F)),
    binary main_v170 main_v256 main_v257 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v257 main_v258 (uitofp .f32 : (⟨S8x1x512x512, .i1⟩ : BufTy).Contents (Elt F) → (⟨S8x1x512x512, .f32⟩ : BufTy).Contents (Elt F)),
    unary main_v171 main_v259 ((extractStridedSlice S8x1x512x512 ![0, 0, 4, 2] · slices_S8x1x518x518_S8x1x512x512_0_0_4_2) : (⟨S8x1x518x518, .f32⟩ : BufTy).Contents (Elt F) → (⟨S8x1x512x512, .f32⟩ : BufTy).Contents (Elt F)),
    binary main_v170 main_v259 main_v260 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v260 main_v261 (uitofp .f32 : (⟨S8x1x512x512, .i1⟩ : BufTy).Contents (Elt F) → (⟨S8x1x512x512, .f32⟩ : BufTy).Contents (Elt F)),
    unary main_v171 main_v262 ((extractStridedSlice S8x1x512x512 ![0, 0, 4, 3] · slices_S8x1x518x518_S8x1x512x512_0_0_4_3) : (⟨S8x1x518x518, .f32⟩ : BufTy).Contents (Elt F) → (⟨S8x1x512x512, .f32⟩ : BufTy).Contents (Elt F)),
    binary main_v170 main_v262 main_v263 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v263 main_v264 (uitofp .f32 : (⟨S8x1x512x512, .i1⟩ : BufTy).Contents (Elt F) → (⟨S8x1x512x512, .f32⟩ : BufTy).Contents (Elt F)),
    unary main_v171 main_v265 ((extractStridedSlice S8x1x512x512 ![0, 0, 4, 4] · slices_S8x1x518x518_S8x1x512x512_0_0_4_4) : (⟨S8x1x518x518, .f32⟩ : BufTy).Contents (Elt F) → (⟨S8x1x512x512, .f32⟩ : BufTy).Contents (Elt F)),
    binary main_v170 main_v265 main_v266 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v266 main_v267 (uitofp .f32 : (⟨S8x1x512x512, .i1⟩ : BufTy).Contents (Elt F) → (⟨S8x1x512x512, .f32⟩ : BufTy).Contents (Elt F)),
    unary main_v171 main_v268 ((extractStridedSlice S8x1x512x512 ![0, 0, 4, 5] · slices_S8x1x518x518_S8x1x512x512_0_0_4_5) : (⟨S8x1x518x518, .f32⟩ : BufTy).Contents (Elt F) → (⟨S8x1x512x512, .f32⟩ : BufTy).Contents (Elt F)),
    binary main_v170 main_v268 main_v269 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v269 main_v270 (uitofp .f32 : (⟨S8x1x512x512, .i1⟩ : BufTy).Contents (Elt F) → (⟨S8x1x512x512, .f32⟩ : BufTy).Contents (Elt F)),
    unary main_v171 main_v271 ((extractStridedSlice S8x1x512x512 ![0, 0, 4, 6] · slices_S8x1x518x518_S8x1x512x512_0_0_4_6) : (⟨S8x1x518x518, .f32⟩ : BufTy).Contents (Elt F) → (⟨S8x1x512x512, .f32⟩ : BufTy).Contents (Elt F)),
    binary main_v170 main_v271 main_v272 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v272 main_v273 (uitofp .f32 : (⟨S8x1x512x512, .i1⟩ : BufTy).Contents (Elt F) → (⟨S8x1x512x512, .f32⟩ : BufTy).Contents (Elt F)),
    unary main_v171 main_v274 ((extractStridedSlice S8x1x512x512 ![0, 0, 5, 0] · slices_S8x1x518x518_S8x1x512x512_0_0_5_0) : (⟨S8x1x518x518, .f32⟩ : BufTy).Contents (Elt F) → (⟨S8x1x512x512, .f32⟩ : BufTy).Contents (Elt F)),
    binary main_v170 main_v274 main_v275 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v275 main_v276 (uitofp .f32 : (⟨S8x1x512x512, .i1⟩ : BufTy).Contents (Elt F) → (⟨S8x1x512x512, .f32⟩ : BufTy).Contents (Elt F)),
    unary main_v171 main_v277 ((extractStridedSlice S8x1x512x512 ![0, 0, 5, 1] · slices_S8x1x518x518_S8x1x512x512_0_0_5_1) : (⟨S8x1x518x518, .f32⟩ : BufTy).Contents (Elt F) → (⟨S8x1x512x512, .f32⟩ : BufTy).Contents (Elt F)),
    binary main_v170 main_v277 main_v278 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v278 main_v279 (uitofp .f32 : (⟨S8x1x512x512, .i1⟩ : BufTy).Contents (Elt F) → (⟨S8x1x512x512, .f32⟩ : BufTy).Contents (Elt F)),
    unary main_v171 main_v280 ((extractStridedSlice S8x1x512x512 ![0, 0, 5, 2] · slices_S8x1x518x518_S8x1x512x512_0_0_5_2) : (⟨S8x1x518x518, .f32⟩ : BufTy).Contents (Elt F) → (⟨S8x1x512x512, .f32⟩ : BufTy).Contents (Elt F)),
    binary main_v170 main_v280 main_v281 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v281 main_v282 (uitofp .f32 : (⟨S8x1x512x512, .i1⟩ : BufTy).Contents (Elt F) → (⟨S8x1x512x512, .f32⟩ : BufTy).Contents (Elt F)),
    unary main_v171 main_v283 ((extractStridedSlice S8x1x512x512 ![0, 0, 5, 3] · slices_S8x1x518x518_S8x1x512x512_0_0_5_3) : (⟨S8x1x518x518, .f32⟩ : BufTy).Contents (Elt F) → (⟨S8x1x512x512, .f32⟩ : BufTy).Contents (Elt F)),
    binary main_v170 main_v283 main_v284 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v284 main_v285 (uitofp .f32 : (⟨S8x1x512x512, .i1⟩ : BufTy).Contents (Elt F) → (⟨S8x1x512x512, .f32⟩ : BufTy).Contents (Elt F)),
    unary main_v171 main_v286 ((extractStridedSlice S8x1x512x512 ![0, 0, 5, 4] · slices_S8x1x518x518_S8x1x512x512_0_0_5_4) : (⟨S8x1x518x518, .f32⟩ : BufTy).Contents (Elt F) → (⟨S8x1x512x512, .f32⟩ : BufTy).Contents (Elt F)),
    binary main_v170 main_v286 main_v287 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v287 main_v288 (uitofp .f32 : (⟨S8x1x512x512, .i1⟩ : BufTy).Contents (Elt F) → (⟨S8x1x512x512, .f32⟩ : BufTy).Contents (Elt F)),
    unary main_v171 main_v289 ((extractStridedSlice S8x1x512x512 ![0, 0, 5, 5] · slices_S8x1x518x518_S8x1x512x512_0_0_5_5) : (⟨S8x1x518x518, .f32⟩ : BufTy).Contents (Elt F) → (⟨S8x1x512x512, .f32⟩ : BufTy).Contents (Elt F)),
    binary main_v170 main_v289 main_v290 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v290 main_v291 (uitofp .f32 : (⟨S8x1x512x512, .i1⟩ : BufTy).Contents (Elt F) → (⟨S8x1x512x512, .f32⟩ : BufTy).Contents (Elt F)) ]

set_option maxRecDepth 100000 in
set_option maxHeartbeats 4000000 in
theorem main_part4_flat_eq (c : Dev nD) : main_part4 (F := F) c = seq ops4_flat := rfl

/-- Window main_part4's operations: its stages in order. -/
def ops4 : List (HloOp τ sig (Elt F)) := feat_y20 ++ (feat_y21 ++ (feat_y22 ++ (feat_y23 ++ (feat_y24 ++ (feat_y25 ++ (feat_y26 ++ (feat_y27 ++ (feat_y28 ++ (feat_y29 ++ (feat_y30 ++ (feat_y31 ++ (feat_y32 ++ (feat_y33 ++ (feat_y34 ++ (feat_y35 ++ (feat_y36 ++ (feat_y37 ++ (feat_y38 ++ (feat_y39)))))))))))))))))))

set_option maxRecDepth 100000 in
set_option maxHeartbeats 4000000 in
/-- The stages in order are the window's operations: the same list, cut. -/
theorem ops4_flat_eq : (ops4_flat : List (HloOp τ sig (Elt F))) = ops4 := by
  simp only [ops4, ops4_flat, feat_y20, feat_y21, feat_y22, feat_y23, feat_y24, feat_y25, feat_y26, feat_y27, feat_y28, feat_y29, feat_y30, feat_y31, feat_y32, feat_y33, feat_y34, feat_y35, feat_y36, feat_y37, feat_y38, feat_y39, List.cons_append, List.nil_append]

theorem main_part4_eq (c : Dev nD) : main_part4 (F := F) c = seq ops4 :=
  (main_part4_flat_eq c).trans (congrArg seq ops4_flat_eq)

theorem ops4_sub : ∀ op ∈ (ops4 : List (HloOp τ sig (Elt F))), op.bufs ⊆ tcRefs τ sig := by
  unfold ops4; exact forall_mem_append feat_y20_sub (forall_mem_append feat_y21_sub (forall_mem_append feat_y22_sub (forall_mem_append feat_y23_sub (forall_mem_append feat_y24_sub (forall_mem_append feat_y25_sub (forall_mem_append feat_y26_sub (forall_mem_append feat_y27_sub (forall_mem_append feat_y28_sub (forall_mem_append feat_y29_sub (forall_mem_append feat_y30_sub (forall_mem_append feat_y31_sub (forall_mem_append feat_y32_sub (forall_mem_append feat_y33_sub (forall_mem_append feat_y34_sub (forall_mem_append feat_y35_sub (forall_mem_append feat_y36_sub (forall_mem_append feat_y37_sub (forall_mem_append feat_y38_sub feat_y39_sub))))))))))))))))))
theorem ops4_fresh : ∀ op ∈ (ops4 : List (HloOp τ sig (Elt F))), op.fresh = ∅ := by
  unfold ops4; exact forall_mem_append feat_y20_fresh (forall_mem_append feat_y21_fresh (forall_mem_append feat_y22_fresh (forall_mem_append feat_y23_fresh (forall_mem_append feat_y24_fresh (forall_mem_append feat_y25_fresh (forall_mem_append feat_y26_fresh (forall_mem_append feat_y27_fresh (forall_mem_append feat_y28_fresh (forall_mem_append feat_y29_fresh (forall_mem_append feat_y30_fresh (forall_mem_append feat_y31_fresh (forall_mem_append feat_y32_fresh (forall_mem_append feat_y33_fresh (forall_mem_append feat_y34_fresh (forall_mem_append feat_y35_fresh (forall_mem_append feat_y36_fresh (forall_mem_append feat_y37_fresh (forall_mem_append feat_y38_fresh feat_y39_fresh))))))))))))))))))

end Cert.ReferenceIdeal.RefRun

end
-- ==== Proof.RefOps5.lean ====
/- The reference program's statements 301 … 335 (its window main_part5) as lists of host operations, a call of an
   outlined function as the callee's operations over the call's buffers, cut into the program's stages. Of each stage:
   its operations use the device's buffers and allocate none; it writes the listed buffers and leaves every other as it
   was; and the buffers later stages read hold, after it, the stated term of the contents before it. The window is its
   stages run in order. -/
import proofs.«131024_j38895223833176_2_alg».proof.Proof.RefCat

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- 3 operations: the census feature at window offset (5, 6): the padded gray image sliced there, the gray image compared against it, the truth value as 0 or 1. -/
abbrev feat_y40 : List (HloOp τ sig (Elt F)) :=
  [ unary main_v171 main_v292 ((extractStridedSlice S8x1x512x512 ![0, 0, 5, 6] · slices_S8x1x518x518_S8x1x512x512_0_0_5_6) : (⟨S8x1x518x518, .f32⟩ : BufTy).Contents (Elt F) → (⟨S8x1x512x512, .f32⟩ : BufTy).Contents (Elt F)),
    binary main_v170 main_v292 main_v293 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v293 main_v294 (uitofp .f32 : (⟨S8x1x512x512, .i1⟩ : BufTy).Contents (Elt F) → (⟨S8x1x512x512, .f32⟩ : BufTy).Contents (Elt F)) ]
theorem feat_y40_sub : ∀ op ∈ (feat_y40 : List (HloOp τ sig (Elt F))), op.bufs ⊆ tcRefs τ sig :=
  List.forall_iff_forall_mem.mp (show (feat_y40 : List (HloOp τ sig (Elt F))).Forall (fun op => op.bufs ⊆ tcRefs τ sig) from ⟨unary_bufs_sub .., binary_bufs_sub .., unary_bufs_sub ..⟩)
theorem feat_y40_fresh : ∀ op ∈ (feat_y40 : List (HloOp τ sig (Elt F))), op.fresh = ∅ := by
  intro _ h; (repeat (cases h with | head => rfl | tail _ h => ?_)); exact nomatch h
/-- The buffers the stage writes. -/
abbrev feat_y40_W : List (Ref sig .tc) := [main_v292, main_v293, main_v294]
theorem feat_y40_writes : (feat_y40 : List (HloOp τ sig (Elt F))).Forall fun op => op.writes ⊆ (feat_y40_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y40_keep (W : Valuation τ sig (Elt F)) (r : Ref sig .tc) (h : r ∉ feat_y40_W) :
    after feat_y40 W (no_index (Proc.devRef .tc r)) = W (Proc.devRef .tc r) :=
  after_of_writes_sub feat_y40 W feat_y40_writes h
attribute [local irreducible] extractStridedSlice in
set_option maxRecDepth 100000 in
set_option maxHeartbeats 4000000 in
@[ref_read] theorem feat_y40_main_v294 (W : Valuation τ sig (Elt F)) :
    after feat_y40 W (no_index (Proc.devRef .tc main_v294)) = RefTerm.feat (F := F) (W (main_v170 : DevRef τ sig)) (W (main_v171 : DevRef τ sig)) ![0, 0, 5, 6] slices_S8x1x518x518_S8x1x512x512_0_0_5_6 := by
  simp only [feat_y40]
  after_results_simp
  all_goals rfl

/-- 3 operations: the census feature at window offset (6, 0): the padded gray image sliced there, the gray image compared against it, the truth value as 0 or 1. -/
abbrev feat_y41 : List (HloOp τ sig (Elt F)) :=
  [ unary main_v171 main_v295 ((extractStridedSlice S8x1x512x512 ![0, 0, 6, 0] · slices_S8x1x518x518_S8x1x512x512_0_0_6_0) : (⟨S8x1x518x518, .f32⟩ : BufTy).Contents (Elt F) → (⟨S8x1x512x512, .f32⟩ : BufTy).Contents (Elt F)),
    binary main_v170 main_v295 main_v296 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v296 main_v297 (uitofp .f32 : (⟨S8x1x512x512, .i1⟩ : BufTy).Contents (Elt F) → (⟨S8x1x512x512, .f32⟩ : BufTy).Contents (Elt F)) ]
theorem feat_y41_sub : ∀ op ∈ (feat_y41 : List (HloOp τ sig (Elt F))), op.bufs ⊆ tcRefs τ sig :=
  List.forall_iff_forall_mem.mp (show (feat_y41 : List (HloOp τ sig (Elt F))).Forall (fun op => op.bufs ⊆ tcRefs τ sig) from ⟨unary_bufs_sub .., binary_bufs_sub .., unary_bufs_sub ..⟩)
theorem feat_y41_fresh : ∀ op ∈ (feat_y41 : List (HloOp τ sig (Elt F))), op.fresh = ∅ := by
  intro _ h; (repeat (cases h with | head => rfl | tail _ h => ?_)); exact nomatch h
/-- The buffers the stage writes. -/
abbrev feat_y41_W : List (Ref sig .tc) := [main_v295, main_v296, main_v297]
theorem feat_y41_writes : (feat_y41 : List (HloOp τ sig (Elt F))).Forall fun op => op.writes ⊆ (feat_y41_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y41_keep (W : Valuation τ sig (Elt F)) (r : Ref sig .tc) (h : r ∉ feat_y41_W) :
    after feat_y41 W (no_index (Proc.devRef .tc r)) = W (Proc.devRef .tc r) :=
  after_of_writes_sub feat_y41 W feat_y41_writes h
attribute [local irreducible] extractStridedSlice in
set_option maxRecDepth 100000 in
set_option maxHeartbeats 4000000 in
@[ref_read] theorem feat_y41_main_v297 (W : Valuation τ sig (Elt F)) :
    after feat_y41 W (no_index (Proc.devRef .tc main_v297)) = RefTerm.feat (F := F) (W (main_v170 : DevRef τ sig)) (W (main_v171 : DevRef τ sig)) ![0, 0, 6, 0] slices_S8x1x518x518_S8x1x512x512_0_0_6_0 := by
  simp only [feat_y41]
  after_results_simp
  all_goals rfl

/-- 3 operations: the census feature at window offset (6, 1): the padded gray image sliced there, the gray image compared against it, the truth value as 0 or 1. -/
abbrev feat_y42 : List (HloOp τ sig (Elt F)) :=
  [ unary main_v171 main_v298 ((extractStridedSlice S8x1x512x512 ![0, 0, 6, 1] · slices_S8x1x518x518_S8x1x512x512_0_0_6_1) : (⟨S8x1x518x518, .f32⟩ : BufTy).Contents (Elt F) → (⟨S8x1x512x512, .f32⟩ : BufTy).Contents (Elt F)),
    binary main_v170 main_v298 main_v299 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v299 main_v300 (uitofp .f32 : (⟨S8x1x512x512, .i1⟩ : BufTy).Contents (Elt F) → (⟨S8x1x512x512, .f32⟩ : BufTy).Contents (Elt F)) ]
theorem feat_y42_sub : ∀ op ∈ (feat_y42 : List (HloOp τ sig (Elt F))), op.bufs ⊆ tcRefs τ sig :=
  List.forall_iff_forall_mem.mp (show (feat_y42 : List (HloOp τ sig (Elt F))).Forall (fun op => op.bufs ⊆ tcRefs τ sig) from ⟨unary_bufs_sub .., binary_bufs_sub .., unary_bufs_sub ..⟩)
theorem feat_y42_fresh : ∀ op ∈ (feat_y42 : List (HloOp τ sig (Elt F))), op.fresh = ∅ := by
  intro _ h; (repeat (cases h with | head => rfl | tail _ h => ?_)); exact nomatch h
/-- The buffers the stage writes. -/
abbrev feat_y42_W : List (Ref sig .tc) := [main_v298, main_v299, main_v300]
theorem feat_y42_writes : (feat_y42 : List (HloOp τ sig (Elt F))).Forall fun op => op.writes ⊆ (feat_y42_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y42_keep (W : Valuation τ sig (Elt F)) (r : Ref sig .tc) (h : r ∉ feat_y42_W) :
    after feat_y42 W (no_index (Proc.devRef .tc r)) = W (Proc.devRef .tc r) :=
  after_of_writes_sub feat_y42 W feat_y42_writes h
attribute [local irreducible] extractStridedSlice in
set_option maxRecDepth 100000 in
set_option maxHeartbeats 4000000 in
@[ref_read] theorem feat_y42_main_v300 (W : Valuation τ sig (Elt F)) :
    after feat_y42 W (no_index (Proc.devRef .tc main_v300)) = RefTerm.feat (F := F) (W (main_v170 : DevRef τ sig)) (W (main_v171 : DevRef τ sig)) ![0, 0, 6, 1] slices_S8x1x518x518_S8x1x512x512_0_0_6_1 := by
  simp only [feat_y42]
  after_results_simp
  all_goals rfl

/-- 3 operations: the census feature at window offset (6, 2): the padded gray image sliced there, the gray image compared against it, the truth value as 0 or 1. -/
abbrev feat_y43 : List (HloOp τ sig (Elt F)) :=
  [ unary main_v171 main_v301 ((extractStridedSlice S8x1x512x512 ![0, 0, 6, 2] · slices_S8x1x518x518_S8x1x512x512_0_0_6_2) : (⟨S8x1x518x518, .f32⟩ : BufTy).Contents (Elt F) → (⟨S8x1x512x512, .f32⟩ : BufTy).Contents (Elt F)),
    binary main_v170 main_v301 main_v302 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v302 main_v303 (uitofp .f32 : (⟨S8x1x512x512, .i1⟩ : BufTy).Contents (Elt F) → (⟨S8x1x512x512, .f32⟩ : BufTy).Contents (Elt F)) ]
theorem feat_y43_sub : ∀ op ∈ (feat_y43 : List (HloOp τ sig (Elt F))), op.bufs ⊆ tcRefs τ sig :=
  List.forall_iff_forall_mem.mp (show (feat_y43 : List (HloOp τ sig (Elt F))).Forall (fun op => op.bufs ⊆ tcRefs τ sig) from ⟨unary_bufs_sub .., binary_bufs_sub .., unary_bufs_sub ..⟩)
theorem feat_y43_fresh : ∀ op ∈ (feat_y43 : List (HloOp τ sig (Elt F))), op.fresh = ∅ := by
  intro _ h; (repeat (cases h with | head => rfl | tail _ h => ?_)); exact nomatch h
/-- The buffers the stage writes. -/
abbrev feat_y43_W : List (Ref sig .tc) := [main_v301, main_v302, main_v303]
theorem feat_y43_writes : (feat_y43 : List (HloOp τ sig (Elt F))).Forall fun op => op.writes ⊆ (feat_y43_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y43_keep (W : Valuation τ sig (Elt F)) (r : Ref sig .tc) (h : r ∉ feat_y43_W) :
    after feat_y43 W (no_index (Proc.devRef .tc r)) = W (Proc.devRef .tc r) :=
  after_of_writes_sub feat_y43 W feat_y43_writes h
attribute [local irreducible] extractStridedSlice in
set_option maxRecDepth 100000 in
set_option maxHeartbeats 4000000 in
@[ref_read] theorem feat_y43_main_v303 (W : Valuation τ sig (Elt F)) :
    after feat_y43 W (no_index (Proc.devRef .tc main_v303)) = RefTerm.feat (F := F) (W (main_v170 : DevRef τ sig)) (W (main_v171 : DevRef τ sig)) ![0, 0, 6, 2] slices_S8x1x518x518_S8x1x512x512_0_0_6_2 := by
  simp only [feat_y43]
  after_results_simp
  all_goals rfl

/-- 3 operations: the census feature at window offset (6, 3): the padded gray image sliced there, the gray image compared against it, the truth value as 0 or 1. -/
abbrev feat_y44 : List (HloOp τ sig (Elt F)) :=
  [ unary main_v171 main_v304 ((extractStridedSlice S8x1x512x512 ![0, 0, 6, 3] · slices_S8x1x518x518_S8x1x512x512_0_0_6_3) : (⟨S8x1x518x518, .f32⟩ : BufTy).Contents (Elt F) → (⟨S8x1x512x512, .f32⟩ : BufTy).Contents (Elt F)),
    binary main_v170 main_v304 main_v305 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v305 main_v306 (uitofp .f32 : (⟨S8x1x512x512, .i1⟩ : BufTy).Contents (Elt F) → (⟨S8x1x512x512, .f32⟩ : BufTy).Contents (Elt F)) ]
theorem feat_y44_sub : ∀ op ∈ (feat_y44 : List (HloOp τ sig (Elt F))), op.bufs ⊆ tcRefs τ sig :=
  List.forall_iff_forall_mem.mp (show (feat_y44 : List (HloOp τ sig (Elt F))).Forall (fun op => op.bufs ⊆ tcRefs τ sig) from ⟨unary_bufs_sub .., binary_bufs_sub .., unary_bufs_sub ..⟩)
theorem feat_y44_fresh : ∀ op ∈ (feat_y44 : List (HloOp τ sig (Elt F))), op.fresh = ∅ := by
  intro _ h; (repeat (cases h with | head => rfl | tail _ h => ?_)); exact nomatch h
/-- The buffers the stage writes. -/
abbrev feat_y44_W : List (Ref sig .tc) := [main_v304, main_v305, main_v306]
theorem feat_y44_writes : (feat_y44 : List (HloOp τ sig (Elt F))).Forall fun op => op.writes ⊆ (feat_y44_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y44_keep (W : Valuation τ sig (Elt F)) (r : Ref sig .tc) (h : r ∉ feat_y44_W) :
    after feat_y44 W (no_index (Proc.devRef .tc r)) = W (Proc.devRef .tc r) :=
  after_of_writes_sub feat_y44 W feat_y44_writes h
attribute [local irreducible] extractStridedSlice in
set_option maxRecDepth 100000 in
set_option maxHeartbeats 4000000 in
@[ref_read] theorem feat_y44_main_v306 (W : Valuation τ sig (Elt F)) :
    after feat_y44 W (no_index (Proc.devRef .tc main_v306)) = RefTerm.feat (F := F) (W (main_v170 : DevRef τ sig)) (W (main_v171 : DevRef τ sig)) ![0, 0, 6, 3] slices_S8x1x518x518_S8x1x512x512_0_0_6_3 := by
  simp only [feat_y44]
  after_results_simp
  all_goals rfl

/-- 3 operations: the census feature at window offset (6, 4): the padded gray image sliced there, the gray image compared against it, the truth value as 0 or 1. -/
abbrev feat_y45 : List (HloOp τ sig (Elt F)) :=
  [ unary main_v171 main_v307 ((extractStridedSlice S8x1x512x512 ![0, 0, 6, 4] · slices_S8x1x518x518_S8x1x512x512_0_0_6_4) : (⟨S8x1x518x518, .f32⟩ : BufTy).Contents (Elt F) → (⟨S8x1x512x512, .f32⟩ : BufTy).Contents (Elt F)),
    binary main_v170 main_v307 main_v308 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v308 main_v309 (uitofp .f32 : (⟨S8x1x512x512, .i1⟩ : BufTy).Contents (Elt F) → (⟨S8x1x512x512, .f32⟩ : BufTy).Contents (Elt F)) ]
theorem feat_y45_sub : ∀ op ∈ (feat_y45 : List (HloOp τ sig (Elt F))), op.bufs ⊆ tcRefs τ sig :=
  List.forall_iff_forall_mem.mp (show (feat_y45 : List (HloOp τ sig (Elt F))).Forall (fun op => op.bufs ⊆ tcRefs τ sig) from ⟨unary_bufs_sub .., binary_bufs_sub .., unary_bufs_sub ..⟩)
theorem feat_y45_fresh : ∀ op ∈ (feat_y45 : List (HloOp τ sig (Elt F))), op.fresh = ∅ := by
  intro _ h; (repeat (cases h with | head => rfl | tail _ h => ?_)); exact nomatch h
/-- The buffers the stage writes. -/
abbrev feat_y45_W : List (Ref sig .tc) := [main_v307, main_v308, main_v309]
theorem feat_y45_writes : (feat_y45 : List (HloOp τ sig (Elt F))).Forall fun op => op.writes ⊆ (feat_y45_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y45_keep (W : Valuation τ sig (Elt F)) (r : Ref sig .tc) (h : r ∉ feat_y45_W) :
    after feat_y45 W (no_index (Proc.devRef .tc r)) = W (Proc.devRef .tc r) :=
  after_of_writes_sub feat_y45 W feat_y45_writes h
attribute [local irreducible] extractStridedSlice in
set_option maxRecDepth 100000 in
set_option maxHeartbeats 4000000 in
@[ref_read] theorem feat_y45_main_v309 (W : Valuation τ sig (Elt F)) :
    after feat_y45 W (no_index (Proc.devRef .tc main_v309)) = RefTerm.feat (F := F) (W (main_v170 : DevRef τ sig)) (W (main_v171 : DevRef τ sig)) ![0, 0, 6, 4] slices_S8x1x518x518_S8x1x512x512_0_0_6_4 := by
  simp only [feat_y45]
  after_results_simp
  all_goals rfl

/-- 3 operations: the census feature at window offset (6, 5): the padded gray image sliced there, the gray image compared against it, the truth value as 0 or 1. -/
abbrev feat_y46 : List (HloOp τ sig (Elt F)) :=
  [ unary main_v171 main_v310 ((extractStridedSlice S8x1x512x512 ![0, 0, 6, 5] · slices_S8x1x518x518_S8x1x512x512_0_0_6_5) : (⟨S8x1x518x518, .f32⟩ : BufTy).Contents (Elt F) → (⟨S8x1x512x512, .f32⟩ : BufTy).Contents (Elt F)),
    binary main_v170 main_v310 main_v311 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v311 main_v312 (uitofp .f32 : (⟨S8x1x512x512, .i1⟩ : BufTy).Contents (Elt F) → (⟨S8x1x512x512, .f32⟩ : BufTy).Contents (Elt F)) ]
theorem feat_y46_sub : ∀ op ∈ (feat_y46 : List (HloOp τ sig (Elt F))), op.bufs ⊆ tcRefs τ sig :=
  List.forall_iff_forall_mem.mp (show (feat_y46 : List (HloOp τ sig (Elt F))).Forall (fun op => op.bufs ⊆ tcRefs τ sig) from ⟨unary_bufs_sub .., binary_bufs_sub .., unary_bufs_sub ..⟩)
theorem feat_y46_fresh : ∀ op ∈ (feat_y46 : List (HloOp τ sig (Elt F))), op.fresh = ∅ := by
  intro _ h; (repeat (cases h with | head => rfl | tail _ h => ?_)); exact nomatch h
/-- The buffers the stage writes. -/
abbrev feat_y46_W : List (Ref sig .tc) := [main_v310, main_v311, main_v312]
theorem feat_y46_writes : (feat_y46 : List (HloOp τ sig (Elt F))).Forall fun op => op.writes ⊆ (feat_y46_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y46_keep (W : Valuation τ sig (Elt F)) (r : Ref sig .tc) (h : r ∉ feat_y46_W) :
    after feat_y46 W (no_index (Proc.devRef .tc r)) = W (Proc.devRef .tc r) :=
  after_of_writes_sub feat_y46 W feat_y46_writes h
attribute [local irreducible] extractStridedSlice in
set_option maxRecDepth 100000 in
set_option maxHeartbeats 4000000 in
@[ref_read] theorem feat_y46_main_v312 (W : Valuation τ sig (Elt F)) :
    after feat_y46 W (no_index (Proc.devRef .tc main_v312)) = RefTerm.feat (F := F) (W (main_v170 : DevRef τ sig)) (W (main_v171 : DevRef τ sig)) ![0, 0, 6, 5] slices_S8x1x518x518_S8x1x512x512_0_0_6_5 := by
  simp only [feat_y46]
  after_results_simp
  all_goals rfl

/-- 3 operations: the census feature at window offset (6, 6): the padded gray image sliced there, the gray image compared against it, the truth value as 0 or 1. -/
abbrev feat_y47 : List (HloOp τ sig (Elt F)) :=
  [ unary main_v171 main_v313 ((extractStridedSlice S8x1x512x512 ![0, 0, 6, 6] · slices_S8x1x518x518_S8x1x512x512_0_0_6_6) : (⟨S8x1x518x518, .f32⟩ : BufTy).Contents (Elt F) → (⟨S8x1x512x512, .f32⟩ : BufTy).Contents (Elt F)),
    binary main_v170 main_v313 main_v314 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v314 main_v315 (uitofp .f32 : (⟨S8x1x512x512, .i1⟩ : BufTy).Contents (Elt F) → (⟨S8x1x512x512, .f32⟩ : BufTy).Contents (Elt F)) ]
theorem feat_y47_sub : ∀ op ∈ (feat_y47 : List (HloOp τ sig (Elt F))), op.bufs ⊆ tcRefs τ sig :=
  List.forall_iff_forall_mem.mp (show (feat_y47 : List (HloOp τ sig (Elt F))).Forall (fun op => op.bufs ⊆ tcRefs τ sig) from ⟨unary_bufs_sub .., binary_bufs_sub .., unary_bufs_sub ..⟩)
theorem feat_y47_fresh : ∀ op ∈ (feat_y47 : List (HloOp τ sig (Elt F))), op.fresh = ∅ := by
  intro _ h; (repeat (cases h with | head => rfl | tail _ h => ?_)); exact nomatch h
/-- The buffers the stage writes. -/
abbrev feat_y47_W : List (Ref sig .tc) := [main_v313, main_v314, main_v315]
theorem feat_y47_writes : (feat_y47 : List (HloOp τ sig (Elt F))).Forall fun op => op.writes ⊆ (feat_y47_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem feat_y47_keep (W : Valuation τ sig (Elt F)) (r : Ref sig .tc) (h : r ∉ feat_y47_W) :
    after feat_y47 W (no_index (Proc.devRef .tc r)) = W (Proc.devRef .tc r) :=
  after_of_writes_sub feat_y47 W feat_y47_writes h
attribute [local irreducible] extractStridedSlice in
set_option maxRecDepth 100000 in
set_option maxHeartbeats 4000000 in
@[ref_read] theorem feat_y47_main_v315 (W : Valuation τ sig (Elt F)) :
    after feat_y47 W (no_index (Proc.devRef .tc main_v315)) = RefTerm.feat (F := F) (W (main_v170 : DevRef τ sig)) (W (main_v171 : DevRef τ sig)) ![0, 0, 6, 6] slices_S8x1x518x518_S8x1x512x512_0_0_6_6 := by
  simp only [feat_y47]
  after_results_simp
  all_goals rfl

/-- 4 operations: the 48 features laid along the channel axis: three concatenations of sixteen, then the concatenation of the three. -/
abbrev cats_y : List (HloOp τ sig (Elt F)) :=
  [ nary ![main_v174, main_v177, main_v180, main_v183, main_v186, main_v189, main_v192, main_v195, main_v198, main_v201, main_v204, main_v207, main_v210, main_v213, main_v216, main_v219] main_v316 (fun u => concatenate S8x16x512x512 1 [⟨S8x1x512x512, u 0⟩, ⟨S8x1x512x512, u 1⟩, ⟨S8x1x512x512, u 2⟩, ⟨S8x1x512x512, u 3⟩, ⟨S8x1x512x512, u 4⟩, ⟨S8x1x512x512, u 5⟩, ⟨S8x1x512x512, u 6⟩, ⟨S8x1x512x512, u 7⟩, ⟨S8x1x512x512, u 8⟩, ⟨S8x1x512x512, u 9⟩, ⟨S8x1x512x512, u 10⟩, ⟨S8x1x512x512, u 11⟩, ⟨S8x1x512x512, u 12⟩, ⟨S8x1x512x512, u 13⟩, ⟨S8x1x512x512, u 14⟩, ⟨S8x1x512x512, u 15⟩] concatenates_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x16x512x512_d1),
    nary ![main_v222, main_v225, main_v228, main_v231, main_v234, main_v237, main_v240, main_v243, main_v246, main_v249, main_v252, main_v255, main_v258, main_v261, main_v264, main_v267] main_v317 (fun u => concatenate S8x16x512x512 1 [⟨S8x1x512x512, u 0⟩, ⟨S8x1x512x512, u 1⟩, ⟨S8x1x512x512, u 2⟩, ⟨S8x1x512x512, u 3⟩, ⟨S8x1x512x512, u 4⟩, ⟨S8x1x512x512, u 5⟩, ⟨S8x1x512x512, u 6⟩, ⟨S8x1x512x512, u 7⟩, ⟨S8x1x512x512, u 8⟩, ⟨S8x1x512x512, u 9⟩, ⟨S8x1x512x512, u 10⟩, ⟨S8x1x512x512, u 11⟩, ⟨S8x1x512x512, u 12⟩, ⟨S8x1x512x512, u 13⟩, ⟨S8x1x512x512, u 14⟩, ⟨S8x1x512x512, u 15⟩] concatenates_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x16x512x512_d1),
    nary ![main_v270, main_v273, main_v276, main_v279, main_v282, main_v285, main_v288, main_v291, main_v294, main_v297, main_v300, main_v303, main_v306, main_v309, main_v312, main_v315] main_v318 (fun u => concatenate S8x16x512x512 1 [⟨S8x1x512x512, u 0⟩, ⟨S8x1x512x512, u 1⟩, ⟨S8x1x512x512, u 2⟩, ⟨S8x1x512x512, u 3⟩, ⟨S8x1x512x512, u 4⟩, ⟨S8x1x512x512, u 5⟩, ⟨S8x1x512x512, u 6⟩, ⟨S8x1x512x512, u 7⟩, ⟨S8x1x512x512, u 8⟩, ⟨S8x1x512x512, u 9⟩, ⟨S8x1x512x512, u 10⟩, ⟨S8x1x512x512, u 11⟩, ⟨S8x1x512x512, u 12⟩, ⟨S8x1x512x512, u 13⟩, ⟨S8x1x512x512, u 14⟩, ⟨S8x1x512x512, u 15⟩] concatenates_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x16x512x512_d1),
    nary ![main_v316, main_v317, main_v318] main_v319 (fun u => concatenate S8x48x512x512 1 [⟨S8x16x512x512, u 0⟩, ⟨S8x16x512x512, u 1⟩, ⟨S8x16x512x512, u 2⟩] concatenates_S8x16x512x512_S8x16x512x512_S8x16x512x512_S8x48x512x512_d1) ]
theorem cats_y_sub : ∀ op ∈ (cats_y : List (HloOp τ sig (Elt F))), op.bufs ⊆ tcRefs τ sig :=
  List.forall_iff_forall_mem.mp (show (cats_y : List (HloOp τ sig (Elt F))).Forall (fun op => op.bufs ⊆ tcRefs τ sig) from ⟨nary_bufs_sub .., nary_bufs_sub .., nary_bufs_sub .., nary_bufs_sub ..⟩)
theorem cats_y_fresh : ∀ op ∈ (cats_y : List (HloOp τ sig (Elt F))), op.fresh = ∅ := by
  intro _ h; (repeat (cases h with | head => rfl | tail _ h => ?_)); exact nomatch h
/-- The buffers the stage writes. -/
abbrev cats_y_W : List (Ref sig .tc) := [main_v316, main_v317, main_v318, main_v319]
theorem cats_y_writes : (cats_y : List (HloOp τ sig (Elt F))).Forall fun op => op.writes ⊆ (cats_y_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem cats_y_keep (W : Valuation τ sig (Elt F)) (r : Ref sig .tc) (h : r ∉ cats_y_W) :
    after cats_y W (no_index (Proc.devRef .tc r)) = W (Proc.devRef .tc r) :=
  after_of_writes_sub cats_y W cats_y_writes h
set_option backward.isDefEq.respectTransparency.types false in
attribute [local irreducible] concatenate in
set_option maxRecDepth 100000 in
set_option maxHeartbeats 4000000 in
@[ref_read] theorem cats_y_main_v319 (W : Valuation τ sig (Elt F)) :
    after cats_y W (no_index (Proc.devRef .tc main_v319)) = cat3 (F := F)
      (cat16 (F := F) (W (main_v174 : DevRef τ sig)) (W (main_v177 : DevRef τ sig)) (W (main_v180 : DevRef τ sig)) (W (main_v183 : DevRef τ sig)) (W (main_v186 : DevRef τ sig)) (W (main_v189 : DevRef τ sig)) (W (main_v192 : DevRef τ sig)) (W (main_v195 : DevRef τ sig)) (W (main_v198 : DevRef τ sig)) (W (main_v201 : DevRef τ sig)) (W (main_v204 : DevRef τ sig)) (W (main_v207 : DevRef τ sig)) (W (main_v210 : DevRef τ sig)) (W (main_v213 : DevRef τ sig)) (W (main_v216 : DevRef τ sig)) (W (main_v219 : DevRef τ sig)))
      (cat16 (F := F) (W (main_v222 : DevRef τ sig)) (W (main_v225 : DevRef τ sig)) (W (main_v228 : DevRef τ sig)) (W (main_v231 : DevRef τ sig)) (W (main_v234 : DevRef τ sig)) (W (main_v237 : DevRef τ sig)) (W (main_v240 : DevRef τ sig)) (W (main_v243 : DevRef τ sig)) (W (main_v246 : DevRef τ sig)) (W (main_v249 : DevRef τ sig)) (W (main_v252 : DevRef τ sig)) (W (main_v255 : DevRef τ sig)) (W (main_v258 : DevRef τ sig)) (W (main_v261 : DevRef τ sig)) (W (main_v264 : DevRef τ sig)) (W (main_v267 : DevRef τ sig)))
      (cat16 (F := F) (W (main_v270 : DevRef τ sig)) (W (main_v273 : DevRef τ sig)) (W (main_v276 : DevRef τ sig)) (W (main_v279 : DevRef τ sig)) (W (main_v282 : DevRef τ sig)) (W (main_v285 : DevRef τ sig)) (W (main_v288 : DevRef τ sig)) (W (main_v291 : DevRef τ sig)) (W (main_v294 : DevRef τ sig)) (W (main_v297 : DevRef τ sig)) (W (main_v300 : DevRef τ sig)) (W (main_v303 : DevRef τ sig)) (W (main_v306 : DevRef τ sig)) (W (main_v309 : DevRef τ sig)) (W (main_v312 : DevRef τ sig)) (W (main_v315 : DevRef τ sig))) := by
  simp only [cats_y]
  after_results_simp
  try dsimp only [Matrix.cons_val]
  try after_results_simp
  try dsimp only [Matrix.cons_val]
  try after_results_simp
  all_goals rfl

/-- 6 operations: the closing mean: the two feature arrays subtracted, the absolute value, the sum over every axis from zero, the division by a constant. -/
abbrev mean : List (HloOp τ sig (Elt F)) :=
  [ binary main_v159 main_v319 main_v320 (subf : (⟨S8x48x512x512, .f32⟩ : BufTy).Contents (Elt F) → (⟨S8x48x512x512, .f32⟩ : BufTy).Contents (Elt F) → (⟨S8x48x512x512, .f32⟩ : BufTy).Contents (Elt F)),
    unary main_v320 main_v321 (Host.absf : (⟨S8x48x512x512, .f32⟩ : BufTy).Contents (Elt F) → (⟨S8x48x512x512, .f32⟩ : BufTy).Contents (Elt F)),
    nullary main_cst_6 (constant S_ .f32 0x00000000#32),
    binary main_v321 main_cst_6 main_v322 ((fun x v => Host.reduceAdd x v reducesTo_S8x48x512x512_S_d0_1_2_3 h_S_) : (⟨S8x48x512x512, .f32⟩ : BufTy).Contents (Elt F) → (⟨S_, .f32⟩ : BufTy).Contents (Elt F) → (⟨S_, .f32⟩ : BufTy).Contents (Elt F)),
    nullary main_cst_7 (constant S_ .f32 0x4CC00000#32),
    binary main_v322 main_cst_7 main_v323 (Host.divf : (⟨S_, .f32⟩ : BufTy).Contents (Elt F) → (⟨S_, .f32⟩ : BufTy).Contents (Elt F) → (⟨S_, .f32⟩ : BufTy).Contents (Elt F)) ]
theorem mean_sub : ∀ op ∈ (mean : List (HloOp τ sig (Elt F))), op.bufs ⊆ tcRefs τ sig :=
  List.forall_iff_forall_mem.mp (show (mean : List (HloOp τ sig (Elt F))).Forall (fun op => op.bufs ⊆ tcRefs τ sig) from ⟨binary_bufs_sub .., unary_bufs_sub .., nullary_bufs_sub .., binary_bufs_sub .., nullary_bufs_sub .., binary_bufs_sub ..⟩)
theorem mean_fresh : ∀ op ∈ (mean : List (HloOp τ sig (Elt F))), op.fresh = ∅ := by
  intro _ h; (repeat (cases h with | head => rfl | tail _ h => ?_)); exact nomatch h
/-- The buffers the stage writes. -/
abbrev mean_W : List (Ref sig .tc) := [main_v320, main_v321, main_cst_6, main_v322, main_cst_7, main_v323]
theorem mean_writes : (mean : List (HloOp τ sig (Elt F))).Forall fun op => op.writes ⊆ (mean_W.map (Proc.devRef (τ := τ) .tc)).toFinset := by
  simp only [List.Forall]; exact ⟨by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide), by simp only [nullary_writes, unary_writes, binary_writes, nary_writes, Finset.singleton_subset_iff, List.mem_toFinset]; exact List.mem_map_of_mem (by decide)⟩
/-- A buffer the stage does not write keeps its contents through it. -/
@[ref_read] theorem mean_keep (W : Valuation τ sig (Elt F)) (r : Ref sig .tc) (h : r ∉ mean_W) :
    after mean W (no_index (Proc.devRef .tc r)) = W (Proc.devRef .tc r) :=
  after_of_writes_sub mean W mean_writes h
attribute [local irreducible] Host.reduceAdd Host.divf Host.absf in
set_option maxRecDepth 100000 in
set_option maxHeartbeats 4000000 in
@[ref_read] theorem mean_main_v323 (W : Valuation τ sig (Elt F)) :
    after mean W (no_index (Proc.devRef .tc main_v323)) = meanAbs (F := F) (W (main_v159 : DevRef τ sig)) (W (main_v319 : DevRef τ sig)) := by
  simp only [mean]
  after_results_simp
  all_goals rfl

/-- Window main_part5's 34 operations, as printed. -/
abbrev ops5_flat : List (HloOp τ sig (Elt F)) :=
  [ unary main_v171 main_v292 ((extractStridedSlice S8x1x512x512 ![0, 0, 5, 6] · slices_S8x1x518x518_S8x1x512x512_0_0_5_6) : (⟨S8x1x518x518, .f32⟩ : BufTy).Contents (Elt F) → (⟨S8x1x512x512, .f32⟩ : BufTy).Contents (Elt F)),
    binary main_v170 main_v292 main_v293 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v293 main_v294 (uitofp .f32 : (⟨S8x1x512x512, .i1⟩ : BufTy).Contents (Elt F) → (⟨S8x1x512x512, .f32⟩ : BufTy).Contents (Elt F)),
    unary main_v171 main_v295 ((extractStridedSlice S8x1x512x512 ![0, 0, 6, 0] · slices_S8x1x518x518_S8x1x512x512_0_0_6_0) : (⟨S8x1x518x518, .f32⟩ : BufTy).Contents (Elt F) → (⟨S8x1x512x512, .f32⟩ : BufTy).Contents (Elt F)),
    binary main_v170 main_v295 main_v296 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v296 main_v297 (uitofp .f32 : (⟨S8x1x512x512, .i1⟩ : BufTy).Contents (Elt F) → (⟨S8x1x512x512, .f32⟩ : BufTy).Contents (Elt F)),
    unary main_v171 main_v298 ((extractStridedSlice S8x1x512x512 ![0, 0, 6, 1] · slices_S8x1x518x518_S8x1x512x512_0_0_6_1) : (⟨S8x1x518x518, .f32⟩ : BufTy).Contents (Elt F) → (⟨S8x1x512x512, .f32⟩ : BufTy).Contents (Elt F)),
    binary main_v170 main_v298 main_v299 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v299 main_v300 (uitofp .f32 : (⟨S8x1x512x512, .i1⟩ : BufTy).Contents (Elt F) → (⟨S8x1x512x512, .f32⟩ : BufTy).Contents (Elt F)),
    unary main_v171 main_v301 ((extractStridedSlice S8x1x512x512 ![0, 0, 6, 2] · slices_S8x1x518x518_S8x1x512x512_0_0_6_2) : (⟨S8x1x518x518, .f32⟩ : BufTy).Contents (Elt F) → (⟨S8x1x512x512, .f32⟩ : BufTy).Contents (Elt F)),
    binary main_v170 main_v301 main_v302 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v302 main_v303 (uitofp .f32 : (⟨S8x1x512x512, .i1⟩ : BufTy).Contents (Elt F) → (⟨S8x1x512x512, .f32⟩ : BufTy).Contents (Elt F)),
    unary main_v171 main_v304 ((extractStridedSlice S8x1x512x512 ![0, 0, 6, 3] · slices_S8x1x518x518_S8x1x512x512_0_0_6_3) : (⟨S8x1x518x518, .f32⟩ : BufTy).Contents (Elt F) → (⟨S8x1x512x512, .f32⟩ : BufTy).Contents (Elt F)),
    binary main_v170 main_v304 main_v305 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v305 main_v306 (uitofp .f32 : (⟨S8x1x512x512, .i1⟩ : BufTy).Contents (Elt F) → (⟨S8x1x512x512, .f32⟩ : BufTy).Contents (Elt F)),
    unary main_v171 main_v307 ((extractStridedSlice S8x1x512x512 ![0, 0, 6, 4] · slices_S8x1x518x518_S8x1x512x512_0_0_6_4) : (⟨S8x1x518x518, .f32⟩ : BufTy).Contents (Elt F) → (⟨S8x1x512x512, .f32⟩ : BufTy).Contents (Elt F)),
    binary main_v170 main_v307 main_v308 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v308 main_v309 (uitofp .f32 : (⟨S8x1x512x512, .i1⟩ : BufTy).Contents (Elt F) → (⟨S8x1x512x512, .f32⟩ : BufTy).Contents (Elt F)),
    unary main_v171 main_v310 ((extractStridedSlice S8x1x512x512 ![0, 0, 6, 5] · slices_S8x1x518x518_S8x1x512x512_0_0_6_5) : (⟨S8x1x518x518, .f32⟩ : BufTy).Contents (Elt F) → (⟨S8x1x512x512, .f32⟩ : BufTy).Contents (Elt F)),
    binary main_v170 main_v310 main_v311 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v311 main_v312 (uitofp .f32 : (⟨S8x1x512x512, .i1⟩ : BufTy).Contents (Elt F) → (⟨S8x1x512x512, .f32⟩ : BufTy).Contents (Elt F)),
    unary main_v171 main_v313 ((extractStridedSlice S8x1x512x512 ![0, 0, 6, 6] · slices_S8x1x518x518_S8x1x512x512_0_0_6_6) : (⟨S8x1x518x518, .f32⟩ : BufTy).Contents (Elt F) → (⟨S8x1x512x512, .f32⟩ : BufTy).Contents (Elt F)),
    binary main_v170 main_v313 main_v314 (cmpf .ogt : (⟨S8x1x512x512, .f32⟩ : BufTy).Contents (Elt F) → (⟨S8x1x512x512, .f32⟩ : BufTy).Contents (Elt F) → (⟨S8x1x512x512, .i1⟩ : BufTy).Contents (Elt F)),
    unary main_v314 main_v315 (uitofp .f32 : (⟨S8x1x512x512, .i1⟩ : BufTy).Contents (Elt F) → (⟨S8x1x512x512, .f32⟩ : BufTy).Contents (Elt F)),
    nary ![main_v174, main_v177, main_v180, main_v183, main_v186, main_v189, main_v192, main_v195, main_v198, main_v201, main_v204, main_v207, main_v210, main_v213, main_v216, main_v219] main_v316 (fun u => concatenate S8x16x512x512 1 [⟨S8x1x512x512, u 0⟩, ⟨S8x1x512x512, u 1⟩, ⟨S8x1x512x512, u 2⟩, ⟨S8x1x512x512, u 3⟩, ⟨S8x1x512x512, u 4⟩, ⟨S8x1x512x512, u 5⟩, ⟨S8x1x512x512, u 6⟩, ⟨S8x1x512x512, u 7⟩, ⟨S8x1x512x512, u 8⟩, ⟨S8x1x512x512, u 9⟩, ⟨S8x1x512x512, u 10⟩, ⟨S8x1x512x512, u 11⟩, ⟨S8x1x512x512, u 12⟩, ⟨S8x1x512x512, u 13⟩, ⟨S8x1x512x512, u 14⟩, ⟨S8x1x512x512, u 15⟩] concatenates_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x16x512x512_d1),
    nary ![main_v222, main_v225, main_v228, main_v231, main_v234, main_v237, main_v240, main_v243, main_v246, main_v249, main_v252, main_v255, main_v258, main_v261, main_v264, main_v267] main_v317 (fun u => concatenate S8x16x512x512 1 [⟨S8x1x512x512, u 0⟩, ⟨S8x1x512x512, u 1⟩, ⟨S8x1x512x512, u 2⟩, ⟨S8x1x512x512, u 3⟩, ⟨S8x1x512x512, u 4⟩, ⟨S8x1x512x512, u 5⟩, ⟨S8x1x512x512, u 6⟩, ⟨S8x1x512x512, u 7⟩, ⟨S8x1x512x512, u 8⟩, ⟨S8x1x512x512, u 9⟩, ⟨S8x1x512x512, u 10⟩, ⟨S8x1x512x512, u 11⟩, ⟨S8x1x512x512, u 12⟩, ⟨S8x1x512x512, u 13⟩, ⟨S8x1x512x512, u 14⟩, ⟨S8x1x512x512, u 15⟩] concatenates_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x16x512x512_d1),
    nary ![main_v270, main_v273, main_v276, main_v279, main_v282, main_v285, main_v288, main_v291, main_v294, main_v297, main_v300, main_v303, main_v306, main_v309, main_v312, main_v315] main_v318 (fun u => concatenate S8x16x512x512 1 [⟨S8x1x512x512, u 0⟩, ⟨S8x1x512x512, u 1⟩, ⟨S8x1x512x512, u 2⟩, ⟨S8x1x512x512, u 3⟩, ⟨S8x1x512x512, u 4⟩, ⟨S8x1x512x512, u 5⟩, ⟨S8x1x512x512, u 6⟩, ⟨S8x1x512x512, u 7⟩, ⟨S8x1x512x512, u 8⟩, ⟨S8x1x512x512, u 9⟩, ⟨S8x1x512x512, u 10⟩, ⟨S8x1x512x512, u 11⟩, ⟨S8x1x512x512, u 12⟩, ⟨S8x1x512x512, u 13⟩, ⟨S8x1x512x512, u 14⟩, ⟨S8x1x512x512, u 15⟩] concatenates_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x1x512x512_S8x16x512x512_d1),
    nary ![main_v316, main_v317, main_v318] main_v319 (fun u => concatenate S8x48x512x512 1 [⟨S8x16x512x512, u 0⟩, ⟨S8x16x512x512, u 1⟩, ⟨S8x16x512x512, u 2⟩] concatenates_S8x16x512x512_S8x16x512x512_S8x16x512x512_S8x48x512x512_d1),
    binary main_v159 main_v319 main_v320 (subf : (⟨S8x48x512x512, .f32⟩ : BufTy).Contents (Elt F) → (⟨S8x48x512x512, .f32⟩ : BufTy).Contents (Elt F) → (⟨S8x48x512x512, .f32⟩ : BufTy).Contents (Elt F)),
    unary main_v320 main_v321 (Host.absf : (⟨S8x48x512x512, .f32⟩ : BufTy).Contents (Elt F) → (⟨S8x48x512x512, .f32⟩ : BufTy).Contents (Elt F)),
    nullary main_cst_6 (constant S_ .f32 0x00000000#32),
    binary main_v321 main_cst_6 main_v322 ((fun x v => Host.reduceAdd x v reducesTo_S8x48x512x512_S_d0_1_2_3 h_S_) : (⟨S8x48x512x512, .f32⟩ : BufTy).Contents (Elt F) → (⟨S_, .f32⟩ : BufTy).Contents (Elt F) → (⟨S_, .f32⟩ : BufTy).Contents (Elt F)),
    nullary main_cst_7 (constant S_ .f32 0x4CC00000#32),
    binary main_v322 main_cst_7 main_v323 (Host.divf : (⟨S_, .f32⟩ : BufTy).Contents (Elt F) → (⟨S_, .f32⟩ : BufTy).Contents (Elt F) → (⟨S_, .f32⟩ : BufTy).Contents (Elt F)) ]

set_option maxRecDepth 100000 in
set_option maxHeartbeats 4000000 in
theorem main_part5_flat_eq (c : Dev nD) : main_part5 (F := F) c = seq ops5_flat := rfl

/-- Window main_part5's operations: its stages in order. -/
def ops5 : List (HloOp τ sig (Elt F)) := feat_y40 ++ (feat_y41 ++ (feat_y42 ++ (feat_y43 ++ (feat_y44 ++ (feat_y45 ++ (feat_y46 ++ (feat_y47 ++ (cats_y ++ (mean)))))))))

set_option maxRecDepth 100000 in
set_option maxHeartbeats 4000000 in
/-- The stages in order are the window's operations: the same list, cut. -/
theorem ops5_flat_eq : (ops5_flat : List (HloOp τ sig (Elt F))) = ops5 := by
  simp only [ops5, ops5_flat, feat_y40, feat_y41, feat_y42, feat_y43, feat_y44, feat_y45, feat_y46, feat_y47, cats_y, mean, List.cons_append, List.nil_append]

theorem main_part5_eq (c : Dev nD) : main_part5 (F := F) c = seq ops5 :=
  (main_part5_flat_eq c).trans (congrArg seq ops5_flat_eq)

theorem ops5_sub : ∀ op ∈ (ops5 : List (HloOp τ sig (Elt F))), op.bufs ⊆ tcRefs τ sig := by
  unfold ops5; exact forall_mem_append feat_y40_sub (forall_mem_append feat_y41_sub (forall_mem_append feat_y42_sub (forall_mem_append feat_y43_sub (forall_mem_append feat_y44_sub (forall_mem_append feat_y45_sub (forall_mem_append feat_y46_sub (forall_mem_append feat_y47_sub (forall_mem_append cats_y_sub mean_sub))))))))
theorem ops5_fresh : ∀ op ∈ (ops5 : List (HloOp τ sig (Elt F))), op.fresh = ∅ := by
  unfold ops5; exact forall_mem_append feat_y40_fresh (forall_mem_append feat_y41_fresh (forall_mem_append feat_y42_fresh (forall_mem_append feat_y43_fresh (forall_mem_append feat_y44_fresh (forall_mem_append feat_y45_fresh (forall_mem_append feat_y46_fresh (forall_mem_append feat_y47_fresh (forall_mem_append cats_y_fresh mean_fresh))))))))

end Cert.ReferenceIdeal.RefRun

end
-- ==== Proof.RefRun.lean ====
/-
  The reference program's run, read back as one term. Its @main is the straight line of its host operations (the six
  printed windows in order, the calls of the padding function as the callee's operations), so every weakly fair execution
  ends with each buffer at the fold of the operations' results over the launch contents. That fold at the result buffer
  is read stage by stage — gray image, padding, the 48 census features and their concatenations, for each argument, then
  the closing mean — each stage's result at the contents the earlier stages left, every other buffer kept: it is the
  reference's result term of the two arguments, and no operation writes an argument.
-/
import proofs.«131024_j38895223833176_2_alg».proof.Proof.RefOps0
import proofs.«131024_j38895223833176_2_alg».proof.Proof.RefOps1
import proofs.«131024_j38895223833176_2_alg».proof.Proof.RefOps2
import proofs.«131024_j38895223833176_2_alg».proof.Proof.RefOps3
import proofs.«131024_j38895223833176_2_alg».proof.Proof.RefOps4
import proofs.«131024_j38895223833176_2_alg».proof.Proof.RefOps5
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 364 host operations: the six windows' lists in order. -/
def ops : List (HloOp τ sig (Elt F)) := ops0 ++ ops1 ++ ops2 ++ ops3 ++ ops4 ++ ops5

/-- @main runs its windows in order, each the straight line of its operations. -/
theorem main_eq (c : Dev nD) : main (F := F) c = seq ops := by
  simp only [ops, seq_append, bind_assoc, ← main_part0_eq c, ← main_part1_eq c, ← main_part2_eq c, ← main_part3_eq c,
    ← main_part4_eq c, ← main_part5_eq c]
  all_goals rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr (by
    unfold ops
    exact forall_mem_append (forall_mem_append (forall_mem_append (forall_mem_append (forall_mem_append
      ops0_sub ops1_sub) ops2_sub) ops3_sub) ops4_sub) ops5_sub)

theorem ops_fresh : ∀ op ∈ (ops : List (HloOp τ sig (Elt F))), op.fresh = ∅ := by
  unfold ops
  exact forall_mem_append (forall_mem_append (forall_mem_append (forall_mem_append (forall_mem_append
    ops0_fresh ops1_fresh) ops2_fresh) ops3_fresh) ops4_fresh) ops5_fresh

/-- On every device, for any float values, from any memory with zero counters: every weakly fair execution of @main
    terminates, each buffer at the fold of the operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

attribute [local irreducible] concatenate extractStridedSlice Host.reverse broadcastInDim Host.reduceAdd Host.divf Host.absf in
set_option maxRecDepth 100000 in
set_option maxHeartbeats 16000000 in
/-- The fold at the result buffer is the reference's result term of the two arguments' contents: the closing mean of the
    two feature arrays, each the 48 features of its argument's gray image against that image's padding. -/
theorem out_eq (V : Valuation τ sig (Elt F)) :
    after ops V (main_v323 : DevRef τ sig)
      = RefTerm.out (F := F) (V (main_arg0 : DevRef τ sig)) (V (main_arg1 : DevRef τ sig)) := by
  simp only [ops, ops0, ops1, ops2, ops3, ops4, ops5, after_append]
  simp (disch := decide) only [ref_read]
  rfl

set_option maxRecDepth 100000 in
set_option maxHeartbeats 4000000 in
/-- No operation writes the first argument. -/
theorem arg0_eq (V : Valuation τ sig (Elt F)) :
    after ops V (main_arg0 : DevRef τ sig) = V (main_arg0 : DevRef τ sig) := by
  simp only [ops, ops0, ops1, ops2, ops3, ops4, ops5, after_append]
  simp (disch := decide) only [ref_read]

set_option maxRecDepth 100000 in
set_option maxHeartbeats 4000000 in
/-- No operation writes the second argument. -/
theorem arg1_eq (V : Valuation τ sig (Elt F)) :
    after ops V (main_arg1 : DevRef τ sig) = V (main_arg1 : DevRef τ sig) := by
  simp only [ops, ops0, ops1, ops2, ops3, ops4, ops5, after_append]
  simp (disch := decide) only [ref_read]

/-- On every device, for any float values, from any memory with zero counters: every weakly fair execution of @main
    terminates with the result buffer at the reference's result term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v323) = RefTerm.out (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v323).trans (out_eq (launchContents m c)),
      (h c main_arg0).trans (arg0_eq (launchContents m c)),
      (h c main_arg1).trans (arg1_eq (launchContents m c))⟩)
    (run_main m ρ)

end Cert.ReferenceIdeal.RefRun

end
-- ==== Proof.RefFeat.lean ====
/-
  One census feature of the reference read at a pixel, at the ideal values: the comparison of the gray value at the pixel
  with the padded gray value at the pixel shifted by the feature's window offset, as the number 0 or 1. And one piece of a
  concatenation of sixteen one-channel pieces along the channel axis, read at a pixel: the piece the channel names.
-/
import proofs.«131024_j38895223833176_2_alg».proof.Proof.Spec
import proofs.«131024_j38895223833176_2_alg».proof.Proof.RefTerm
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.ValueIdx

/-- Feature `f` of a gray image `g` against a padded gray image `gp`, at a pixel: whether the gray value exceeds the
    padded gray value at the pixel shifted by the feature's offset, as the number 0 or 1. -/
def featAt (g : FVec Ideal S8x1x512x512 .f32) (gp : FVec Ideal S8x1x518x518 .f32) (b : Fin 8) (f : Fin 48) (h w : Fin 512) :
    Ideal .f32 :=
  FloatOps.uitofp (F := Ideal) .f32 (FloatOps.cmpf (F := Ideal) (φ := .f32) .ogt (g (ix4 b (0 : Fin 1) h w))
    (gp (ix4 b (0 : Fin 1) (Cert.Census.shift h (Cert.Census.oi f) (Cert.Census.oi_le f))
      (Cert.Census.shift w (Cert.Census.oj f) (Cert.Census.oj_le f)))))

/-- The feature stage whose slice offsets are feature `f`'s window offset, read at a pixel. -/
theorem feat_apply (g : FVec Ideal S8x1x512x512 .f32) (gp : FVec Ideal S8x1x518x518 .f32) (off : Fin 4 → Nat)
    (hs : S8x1x518x518.Slices off S8x1x512x512) (f : Fin 48) (h0 : off 0 = 0) (h1 : off 1 = 0)
    (h2 : off 2 = Cert.Census.oi f) (h3 : off 3 = Cert.Census.oj f) (b : Fin 8) (h w : Fin 512) :
    RefTerm.feat g gp off hs (ix4 b (0 : Fin 1) h w) = featAt g gp b f h w := by
  unfold RefTerm.feat featAt
  show FloatOps.uitofp (F := Ideal) .f32 (FloatOps.cmpf (F := Ideal) (φ := .f32) .ogt (g (ix4 b (0 : Fin 1) h w))
    (extractStridedSlice S8x1x512x512 off gp hs (ix4 b (0 : Fin 1) h w))) = _
  rw [extractStridedSlice_apply off gp hs (ix4 b (0 : Fin 1) h w)
    (ix4 b (0 : Fin 1) (Cert.Census.shift h (Cert.Census.oi f) (Cert.Census.oi_le f))
      (Cert.Census.shift w (Cert.Census.oj f) (Cert.Census.oj_le f)))
    (fun a => by
      match a with
      | ⟨0, _⟩ => show b.val = off 0 + b.val; omega
      | ⟨1, _⟩ => show (0 : Nat) = off 1 + 0; omega
      | ⟨2, _⟩ => show h.val + Cert.Census.oi f = off 2 + h.val; omega
      | ⟨3, _⟩ => show w.val + Cert.Census.oj f = off 3 + w.val; omega)]

/-- Among pieces that all have one channel, the pieces before position `k` make up `k` channels. -/
theorem unit_prefix (xs : List ((s : Shape) × (s.Idx → Ideal .f32)))
    (hshape : xs.map (·.1) = List.replicate 16 S8x1x512x512) (k : Nat) (hk : k < 16) :
    (((xs.take k).map (·.1)).map fun s =>
      if h : s.rank = S8x16x512x512.rank then s.size ((1 : Fin S8x16x512x512.rank).cast h.symm) else 0).sum = k := by
  rw [List.map_take, hshape, List.take_replicate, List.map_replicate]
  show (List.replicate (min k 16) 1).sum = k
  rw [List.sum_replicate, smul_eq_mul, Nat.mul_one]
  omega

/-- A concatenation along the channel axis of sixteen one-channel pieces, read at channel `c`: the piece at position `c`,
    at the pixel. -/
theorem unit_piece (xs : List ((s : Shape) × (s.Idx → Ideal .f32))) (hc : Shape.Concatenates (xs.map (·.1)) S8x16x512x512 1)
    (hshape : xs.map (·.1) = List.replicate 16 S8x1x512x512)
    (k : Nat) (hk : k < xs.length) (x₁ : S8x1x512x512.Idx → Ideal .f32) (hxk : xs[k] = ⟨S8x1x512x512, x₁⟩)
    (b : Fin 8) (c : Fin 16) (hck : c.val = k) (h w : Fin 512) :
    concatenate S8x16x512x512 1 xs hc (ix4 b c h w) = x₁ (ix4 b (0 : Fin 1) h w) :=
  concatenate_apply_piece 1 xs hc (ix4 b c h w) k hk S8x1x512x512 x₁ hxk rfl k
    (unit_prefix xs hshape k (by have := c.isLt; omega)) (ix4 b (0 : Fin 1) h w)
    (fun a ha => by
      match a with
      | ⟨0, _⟩ => rfl
      | ⟨1, _⟩ => exact absurd (Fin.ext rfl) ha
      | ⟨2, _⟩ => rfl
      | ⟨3, _⟩ => rfl)
    (by show k + 0 = c.val; omega)

/-- The slice offsets of feature `f`: none on the batch and channel axes, the feature's window offset on the image axes. -/
def offs (f : Fin 48) : Fin 4 → Nat := ![0, 0, Cert.Census.oi f, Cert.Census.oj f]

/-- They keep a 512 × 512 window inside the 518 × 518 padded image. -/
theorem offs_slices (f : Fin 48) : S8x1x518x518.Slices (offs f) S8x1x512x512 :=
  ⟨rfl, fun a => by
    have hi := Cert.Census.oi_le f
    have hj := Cert.Census.oj_le f
    match a with
    | ⟨0, _⟩ => show 0 + 8 ≤ 8; omega
    | ⟨1, _⟩ => show 0 + 1 ≤ 1; omega
    | ⟨2, _⟩ => show Cert.Census.oi f + 512 ≤ 518; omega
    | ⟨3, _⟩ => show Cert.Census.oj f + 512 ≤ 518; omega⟩

/-- The two together: when the sixteen pieces have one channel each and the piece at channel `c`'s position is the feature
    stage at feature `f`'s offsets, the concatenation read at channel `c` of a pixel is feature `f` there. -/
theorem band_piece (g : FVec Ideal S8x1x512x512 .f32) (gp : FVec Ideal S8x1x518x518 .f32)
    (xs : List ((s : Shape) × (s.Idx → Ideal .f32))) (hc : Shape.Concatenates (xs.map (·.1)) S8x16x512x512 1)
    (hshape : xs.map (·.1) = List.replicate 16 S8x1x512x512) (c : Fin 16) (hlen : xs.length = 16) (f : Fin 48)
    (hxk : xs[c.val]'(Nat.lt_of_lt_of_eq c.isLt hlen.symm) = ⟨S8x1x512x512, RefTerm.feat g gp (offs f) (offs_slices f)⟩)
    (b : Fin 8) (h w : Fin 512) :
    concatenate S8x16x512x512 1 xs hc (ix4 b c h w) = featAt g gp b f h w :=
  (unit_piece xs hc hshape c.val (Nat.lt_of_lt_of_eq c.isLt hlen.symm) _ hxk b c rfl h w).trans
    (feat_apply g gp (offs f) (offs_slices f) f rfl rfl rfl rfl b h w)

/-- Feature number `c + k` of the 48, for `c` one of sixteen. -/
def fidx (k : Nat) (hk : k ≤ 32) (c : Fin 16) : Fin 48 := ⟨c.val + k, by have := c.isLt; omega⟩

end Cert.ReferenceIdeal.RefValue

end
-- ==== Proof.RefBand0.lean ====
/-
  Features 0 … 15 of the reference, laid along the channel axis, read at a pixel: channel `c` of the band is feature
  `c + 0` of the gray image against its padded copy. The sixteen pieces have one channel each, and the piece at position `c`
  of the list is the feature stage whose slice offsets are that feature's window offset; the sixteen channels are checked one
  by one, each by computation.
-/
import proofs.«131024_j38895223833176_2_alg».proof.Proof.RefFeat

noncomputable section

namespace Cert.ReferenceIdeal.RefValue

open Cert.ReferenceIdeal Cert.ReferenceIdeal.Gen Idealize.ShloMosaic Idealize.ShloMosaic.ValueIdx

theorem band0_apply (g : FVec Ideal S8x1x512x512 .f32) (gp : FVec Ideal S8x1x518x518 .f32) (b : Fin 8) (c : Fin 16)
    (h w : Fin 512) : RefTerm.band0 g gp (ix4 b c h w) = featAt g gp b (fidx 0 (by omega) c) h w := by
  unfold RefTerm.band0
  fin_cases c <;>
    exact band_piece g gp _ _ rfl _ rfl _ rfl b h w

end Cert.ReferenceIdeal.RefValue

end
-- ==== Proof.RefBand1.lean ====
/-
  Features 16 … 31 of the reference, laid along the channel axis, read at a pixel: channel `c` of the band is feature
  `c + 16` of the gray image against its padded copy. The sixteen pieces have one channel each, and the piece at position `c`
  of the list is the feature stage whose slice offsets are that feature's window offset; the sixteen channels are checked one
  by one, each by computation.
-/
import proofs.«131024_j38895223833176_2_alg».proof.Proof.RefFeat

noncomputable section

namespace Cert.ReferenceIdeal.RefValue

open Cert.ReferenceIdeal Cert.ReferenceIdeal.Gen Idealize.ShloMosaic Idealize.ShloMosaic.ValueIdx

theorem band1_apply (g : FVec Ideal S8x1x512x512 .f32) (gp : FVec Ideal S8x1x518x518 .f32) (b : Fin 8) (c : Fin 16)
    (h w : Fin 512) : RefTerm.band1 g gp (ix4 b c h w) = featAt g gp b (fidx 16 (by omega) c) h w := by
  unfold RefTerm.band1
  fin_cases c <;>
    exact band_piece g gp _ _ rfl _ rfl _ rfl b h w

end Cert.ReferenceIdeal.RefValue

end
-- ==== Proof.RefBand2.lean ====
/-
  Features 32 … 47 of the reference, laid along the channel axis, read at a pixel: channel `c` of the band is feature
  `c + 32` of the gray image against its padded copy. The sixteen pieces have one channel each, and the piece at position `c`
  of the list is the feature stage whose slice offsets are that feature's window offset; the sixteen channels are checked one
  by one, each by computation.
-/
import proofs.«131024_j38895223833176_2_alg».proof.Proof.RefFeat

noncomputable section

namespace Cert.ReferenceIdeal.RefValue

open Cert.ReferenceIdeal Cert.ReferenceIdeal.Gen Idealize.ShloMosaic Idealize.ShloMosaic.ValueIdx

theorem band2_apply (g : FVec Ideal S8x1x512x512 .f32) (gp : FVec Ideal S8x1x518x518 .f32) (b : Fin 8) (c : Fin 16)
    (h w : Fin 512) : RefTerm.band2 g gp (ix4 b c h w) = featAt g gp b (fidx 32 (by omega) c) h w := by
  unfold RefTerm.band2
  fin_cases c <;>
    exact band_piece g gp _ _ rfl _ rfl _ rfl b h w

end Cert.ReferenceIdeal.RefValue

end
-- ==== Proof.RefGray.lean ====
/-
  The reference's grayscale stage read at an index, at the ideal values: the weighted sum of the three channel slices at a
  pixel is the specification's grayscale value of that pixel. The three weights are the same binary words on both sides and
  are never evaluated.
-/
import proofs.«131024_j38895223833176_2_alg».proof.Proof.Spec
import proofs.«131024_j38895223833176_2_alg».proof.Proof.RefPad
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.ValueIdx

/-- The slice that keeps channel 0, read at a pixel. -/
theorem slice_ch0 (x : FVec Ideal S8x3x512x512 .f32) (b : Fin 8) (h w : Fin 512) :
    extractStridedSlice S8x1x512x512 ![0, 0, 0, 0] x slices_S8x3x512x512_S8x1x512x512_0_0_0_0 (ix4 b (0 : Fin 1) h w)
      = x (ix4 b (0 : Fin 3) h w) :=
  extractStridedSlice_apply _ x _ _ _ (fun a => by
    match a with
    | ⟨0, _⟩ => show b.val = 0 + b.val; omega
    | ⟨1, _⟩ => show (0 : Nat) = 0 + 0; rfl
    | ⟨2, _⟩ => show h.val = 0 + h.val; omega
    | ⟨3, _⟩ => show w.val = 0 + w.val; omega)

/-- The slice that keeps channel 1, read at a pixel. -/
theorem slice_ch1 (x : FVec Ideal S8x3x512x512 .f32) (b : Fin 8) (h w : Fin 512) :
    extractStridedSlice S8x1x512x512 ![0, 1, 0, 0] x slices_S8x3x512x512_S8x1x512x512_0_1_0_0 (ix4 b (0 : Fin 1) h w)
      = x (ix4 b (1 : Fin 3) h w) :=
  extractStridedSlice_apply _ x _ _ _ (fun a => by
    match a with
    | ⟨0, _⟩ => show b.val = 0 + b.val; omega
    | ⟨1, _⟩ => show (1 : Nat) = 1 + 0; rfl
    | ⟨2, _⟩ => show h.val = 0 + h.val; omega
    | ⟨3, _⟩ => show w.val = 0 + w.val; omega)

/-- The slice that keeps channel 2, read at a pixel. -/
theorem slice_ch2 (x : FVec Ideal S8x3x512x512 .f32) (b : Fin 8) (h w : Fin 512) :
    extractStridedSlice S8x1x512x512 ![0, 2, 0, 0] x slices_S8x3x512x512_S8x1x512x512_0_2_0_0 (ix4 b (0 : Fin 1) h w)
      = x (ix4 b (2 : Fin 3) h w) :=
  extractStridedSlice_apply _ x _ _ _ (fun a => by
    match a with
    | ⟨0, _⟩ => show b.val = 0 + b.val; omega
    | ⟨1, _⟩ => show (2 : Nat) = 2 + 0; rfl
    | ⟨2, _⟩ => show h.val = 0 + h.val; omega
    | ⟨3, _⟩ => show w.val = 0 + w.val; omega)

/-- The grayscale stage at a pixel is `(w0 · R + w1 · G) + w2 · B` of that pixel's three channels. -/
theorem gray_apply (x : FVec Ideal S8x3x512x512 .f32) (b : Fin 8) (h w : Fin 512) :
    RefTerm.gray (F := Ideal) x (ix4 b (0 : Fin 1) h w) = Cert.Census.gray (Cert.Census.img x) b h w := by
  unfold RefTerm.gray
  rw [addf_apply, addf_apply, mulf_apply, mulf_apply, mulf_apply, slice_ch0, slice_ch1, slice_ch2]
  rfl

end Cert.ReferenceIdeal.RefValue

end
-- ==== Proof.RefPadIdx.lean ====
/-
  The reflect padding read at an index: padded coordinates (k, l) of the padded array read coordinates
  (refl k, refl l) of the image, where refl mirrors three pixels about each border pixel.

  Each of the four stages is a two-piece concatenation along one axis, one piece the operand and the other a
  three-wide slice of the operand reversed along that axis. Putting the mirrored piece FIRST makes coordinate r read
  3 - r for r < 3 (slice offset 1, reversed: 1 + (2 - r)) and r - 3 otherwise (`lo`); putting it LAST makes coordinate r
  read r for r < 515 and 1028 - r otherwise (slice offset 511, reversed: 511 + (2 - (r - 515))) (`hi`). The padding is
  `hi` then `lo` on each image axis, and lo (hi k) = refl k.
-/
import proofs.«131024_j38895223833176_2_alg».proof.Proof.RefPad
import proofs.«131024_j38895223833176_2_alg».proof.Proof.Spec
import Idealize.ShloMosaic.Lib.Pipeline.Value

noncomputable section

namespace Cert.ReferenceIdeal.RefTerm

open Cert.ReferenceIdeal Cert.ReferenceIdeal.Gen Idealize.ShloMosaic

variable {F : FTy → Type} [FloatOps F]

/-- Where a coordinate of an axis with three mirrored entries put in front reads the original axis. -/
def lo (r : Fin 515) : Fin 512 := ⟨if r.val < 3 then 3 - r.val else r.val - 3, by have := r.isLt; split_ifs <;> omega⟩

/-- Where a coordinate of an axis with three mirrored entries put behind reads the 515-long axis. -/
def hi (r : Fin 518) : Fin 515 := ⟨if r.val < 515 then r.val else 1028 - r.val, by have := r.isLt; split_ifs <;> omega⟩

/-- Mirrored entries behind, then in front, is the reflection about both border pixels. -/
theorem lo_hi (k : Fin 518) : lo (hi k) = Cert.Census.refl k := by
  apply Fin.ext
  have := k.isLt
  show (if (if k.val < 515 then k.val else 1028 - k.val) < 3 then 3 - (if k.val < 515 then k.val else 1028 - k.val)
      else (if k.val < 515 then k.val else 1028 - k.val) - 3)
    = if k.val < 3 then 3 - k.val else if k.val < 515 then k.val - 3 else 1025 - k.val
  split_ifs <;> omega

/-- Three mirrored rows above: row r reads row lo r of the image. -/
theorem padTop_apply (x : FVec F S8x1x512x512 .f32) (b : Fin 8) (ch : Fin 1) (r : Fin 515) (c : Fin 512) :
    padTop x (ValueIdx.ix4 b ch r c) = x (ValueIdx.ix4 b ch (lo r) c) := by
  unfold padTop
  by_cases hr : r.val < 3
  · refine (concatenate_pair_apply_left (t := S8x1x515x512) (s₁ := S8x1x3x512) (s₂ := S8x1x512x512) 2 _ _ _
      (ValueIdx.ix4 b ch r c) rfl (ValueIdx.ix4 b ch (⟨r.val, hr⟩ : Fin 3) c) ?_).trans ?_
    · intro a; match a with | ⟨0, _⟩ => rfl | ⟨1, _⟩ => rfl | ⟨2, _⟩ => rfl | ⟨3, _⟩ => rfl
    · unfold Host.reverse
      refine extractStridedSlice_apply _ x _ _ _ ?_
      intro a
      match a with
      | ⟨0, _⟩ => simp
      | ⟨1, _⟩ => simp
      | ⟨2, _⟩ => simp [lo, hr]; omega
      | ⟨3, _⟩ => simp
  · have hr' : 3 ≤ r.val := Nat.le_of_not_lt hr
    have hlt := r.isLt
    refine (concatenate_pair_apply_right (t := S8x1x515x512) (s₁ := S8x1x3x512) (s₂ := S8x1x512x512) 2 _ _ _
      (ValueIdx.ix4 b ch r c) rfl rfl (ValueIdx.ix4 b ch (lo r) c) ?_ ?_).trans rfl
    · intro a; match a with
      | ⟨0, _⟩ => intro _; rfl
      | ⟨1, _⟩ => intro _; rfl
      | ⟨2, _⟩ => intro h; exact absurd rfl h
      | ⟨3, _⟩ => intro _; rfl
    · show (lo r).val + 3 = r.val
      simp [lo, hr]; omega

/-- Three mirrored rows below: row r reads row hi r of the operand. -/
theorem padBottom_apply (x : FVec F S8x1x515x512 .f32) (b : Fin 8) (ch : Fin 1) (r : Fin 518) (c : Fin 512) :
    padBottom x (ValueIdx.ix4 b ch r c) = x (ValueIdx.ix4 b ch (hi r) c) := by
  unfold padBottom
  have hlt := r.isLt
  by_cases hr : r.val < 515
  · refine (concatenate_pair_apply_left (t := S8x1x518x512) (s₁ := S8x1x515x512) (s₂ := S8x1x3x512) 2 _ _ _
      (ValueIdx.ix4 b ch r c) rfl (ValueIdx.ix4 b ch (hi r) c) ?_).trans rfl
    intro a; match a with
    | ⟨0, _⟩ => rfl
    | ⟨1, _⟩ => rfl
    | ⟨2, _⟩ => show (hi r).val = r.val; simp [hi, hr]
    | ⟨3, _⟩ => rfl
  · have hr' : 515 ≤ r.val := Nat.le_of_not_lt hr
    refine (concatenate_pair_apply_right (t := S8x1x518x512) (s₁ := S8x1x515x512) (s₂ := S8x1x3x512) 2 _ _ _
      (ValueIdx.ix4 b ch r c) rfl rfl (ValueIdx.ix4 b ch (⟨r.val - 515, by omega⟩ : Fin 3) c) ?_ ?_).trans ?_
    · intro a; match a with
      | ⟨0, _⟩ => intro _; rfl
      | ⟨1, _⟩ => intro _; rfl
      | ⟨2, _⟩ => intro h; exact absurd rfl h
      | ⟨3, _⟩ => intro _; rfl
    · show r.val - 515 + 515 = r.val
      omega
    · unfold Host.reverse
      refine extractStridedSlice_apply _ x _ _ _ ?_
      intro a
      match a with
      | ⟨0, _⟩ => simp
      | ⟨1, _⟩ => simp
      | ⟨2, _⟩ => simp [hi, hr]; omega
      | ⟨3, _⟩ => simp

/-- Three mirrored columns on the left: column c reads column lo c of the operand. -/
theorem padLeft_apply (x : FVec F S8x1x518x512 .f32) (b : Fin 8) (ch : Fin 1) (r : Fin 518) (c : Fin 515) :
    padLeft x (ValueIdx.ix4 b ch r c) = x (ValueIdx.ix4 b ch r (lo c)) := by
  unfold padLeft
  by_cases hc : c.val < 3
  · refine (concatenate_pair_apply_left (t := S8x1x518x515) (s₁ := S8x1x518x3) (s₂ := S8x1x518x512) 3 _ _ _
      (ValueIdx.ix4 b ch r c) rfl (ValueIdx.ix4 b ch r (⟨c.val, hc⟩ : Fin 3)) ?_).trans ?_
    · intro a; match a with | ⟨0, _⟩ => rfl | ⟨1, _⟩ => rfl | ⟨2, _⟩ => rfl | ⟨3, _⟩ => rfl
    · unfold Host.reverse
      refine extractStridedSlice_apply _ x _ _ _ ?_
      intro a
      match a with
      | ⟨0, _⟩ => simp
      | ⟨1, _⟩ => simp
      | ⟨2, _⟩ => simp
      | ⟨3, _⟩ => simp [lo, hc]; omega
  · have hc' : 3 ≤ c.val := Nat.le_of_not_lt hc
    have hlt := c.isLt
    refine (concatenate_pair_apply_right (t := S8x1x518x515) (s₁ := S8x1x518x3) (s₂ := S8x1x518x512) 3 _ _ _
      (ValueIdx.ix4 b ch r c) rfl rfl (ValueIdx.ix4 b ch r (lo c)) ?_ ?_).trans rfl
    · intro a; match a with
      | ⟨0, _⟩ => intro _; rfl
      | ⟨1, _⟩ => intro _; rfl
      | ⟨2, _⟩ => intro _; rfl
      | ⟨3, _⟩ => intro h; exact absurd rfl h
    · show (lo c).val + 3 = c.val
      simp [lo, hc]; omega

/-- Three mirrored columns on the right: column c reads column hi c of the operand. -/
theorem padRight_apply (x : FVec F S8x1x518x515 .f32) (b : Fin 8) (ch : Fin 1) (r : Fin 518) (c : Fin 518) :
    padRight x (ValueIdx.ix4 b ch r c) = x (ValueIdx.ix4 b ch r (hi c)) := by
  unfold padRight
  have hlt := c.isLt
  by_cases hc : c.val < 515
  · refine (concatenate_pair_apply_left (t := S8x1x518x518) (s₁ := S8x1x518x515) (s₂ := S8x1x518x3) 3 _ _ _
      (ValueIdx.ix4 b ch r c) rfl (ValueIdx.ix4 b ch r (hi c)) ?_).trans rfl
    intro a; match a with
    | ⟨0, _⟩ => rfl
    | ⟨1, _⟩ => rfl
    | ⟨2, _⟩ => rfl
    | ⟨3, _⟩ => show (hi c).val = c.val; simp [hi, hc]
  · have hc' : 515 ≤ c.val := Nat.le_of_not_lt hc
    refine (concatenate_pair_apply_right (t := S8x1x518x518) (s₁ := S8x1x518x515) (s₂ := S8x1x518x3) 3 _ _ _
      (ValueIdx.ix4 b ch r c) rfl rfl (ValueIdx.ix4 b ch r (⟨c.val - 515, by omega⟩ : Fin 3)) ?_ ?_).trans ?_
    · intro a; match a with
      | ⟨0, _⟩ => intro _; rfl
      | ⟨1, _⟩ => intro _; rfl
      | ⟨2, _⟩ => intro _; rfl
      | ⟨3, _⟩ => intro h; exact absurd rfl h
    · show c.val - 515 + 515 = c.val
      omega
    · unfold Host.reverse
      refine extractStridedSlice_apply _ x _ _ _ ?_
      intro a
      match a with
      | ⟨0, _⟩ => simp
      | ⟨1, _⟩ => simp
      | ⟨2, _⟩ => simp
      | ⟨3, _⟩ => simp [hi, hc]; omega

/-- The padded array at padded coordinates (k, l) is the image at the reflected coordinates. -/
theorem pad_apply (x : FVec F S8x1x512x512 .f32) (b : Fin 8) (ch : Fin 1) (k l : Fin 518) :
    pad x (ValueIdx.ix4 b ch k l) = x (ValueIdx.ix4 b ch (Cert.Census.refl k) (Cert.Census.refl l)) := by
  unfold pad
  rw [padRight_apply, padLeft_apply, padBottom_apply, padTop_apply, lo_hi, lo_hi]

end Cert.ReferenceIdeal.RefTerm

end
-- ==== Proof.RefCensus.lean ====
/-
  The reference's 48 census features read at an index: channel `f` of the feature array at a pixel is the one-bit census
  feature `f` of the specification at that pixel, as the number 0 or 1. The three bands of sixteen lie one after the other
  along the channel axis; the padded gray image is the gray image at the reflected coordinates; the gray image is the
  specification's gray value.
-/
import proofs.«131024_j38895223833176_2_alg».proof.Proof.RefBand0
import proofs.«131024_j38895223833176_2_alg».proof.Proof.RefBand1
import proofs.«131024_j38895223833176_2_alg».proof.Proof.RefBand2
import proofs.«131024_j38895223833176_2_alg».proof.Proof.RefGray
import proofs.«131024_j38895223833176_2_alg».proof.Proof.RefPadIdx

noncomputable section

namespace Cert.ReferenceIdeal.RefValue

open Cert.ReferenceIdeal Cert.ReferenceIdeal.Gen Idealize.ShloMosaic Idealize.ShloMosaic.ValueIdx

/-- A concatenation along the channel axis into 48 channels, read at channel `f = 16 k + c`: when piece number `k` has
    sixteen channels and the pieces before it make up `16 k`, it is that piece at channel `c`. -/
theorem wide_piece (xs : List ((s : Shape) × (s.Idx → Ideal .f32))) (hc : Shape.Concatenates (xs.map (·.1)) S8x48x512x512 1)
    (k : Nat) (hk : k < xs.length) (x₁ : S8x16x512x512.Idx → Ideal .f32) (hxk : xs[k] = ⟨S8x16x512x512, x₁⟩)
    (hpre : (((xs.take k).map (·.1)).map fun s =>
      if h : s.rank = S8x48x512x512.rank then s.size ((1 : Fin S8x48x512x512.rank).cast h.symm) else 0).sum = 16 * k)
    (b : Fin 8) (f : Fin 48) (c : Fin 16) (hfc : f.val = 16 * k + c.val) (h w : Fin 512) :
    concatenate S8x48x512x512 1 xs hc (ix4 b f h w) = x₁ (ix4 b c h w) :=
  concatenate_apply_piece 1 xs hc (ix4 b f h w) k hk S8x16x512x512 x₁ hxk rfl (16 * k) hpre (ix4 b c h w)
    (fun a ha => by
      match a with
      | ⟨0, _⟩ => rfl
      | ⟨1, _⟩ => exact absurd (Fin.ext rfl) ha
      | ⟨2, _⟩ => rfl
      | ⟨3, _⟩ => rfl)
    (by show 16 * k + c.val = f.val; omega)

/-- The 48 features of a gray image against a padded gray image, read at an index. -/
theorem censusOf_apply (g : FVec Ideal S8x1x512x512 .f32) (gp : FVec Ideal S8x1x518x518 .f32) (b : Fin 8) (f : Fin 48)
    (h w : Fin 512) : RefTerm.censusOf g gp (ix4 b f h w) = featAt g gp b f h w := by
  unfold RefTerm.censusOf
  have hf := f.isLt
  by_cases h1 : f.val < 16
  · refine Eq.trans (wide_piece _ _ 0 (Nat.lt_of_lt_of_eq (by omega : 0 < 3) rfl) (RefTerm.band0 g gp) rfl rfl b f ⟨f.val, h1⟩ (by simp) h w) ?_
    rw [band0_apply]
    exact congrArg (fun z => featAt g gp b z h w) (Fin.ext (by simp [fidx]))
  · by_cases h2 : f.val < 32
    · refine Eq.trans (wide_piece _ _ 1 (Nat.lt_of_lt_of_eq (by omega : 1 < 3) rfl) (RefTerm.band1 g gp) rfl rfl b f ⟨f.val - 16, by omega⟩
        (by simp; omega) h w) ?_
      rw [band1_apply]
      exact congrArg (fun z => featAt g gp b z h w) (Fin.ext (by simp [fidx]; omega))
    · refine Eq.trans (wide_piece _ _ 2 (Nat.lt_of_lt_of_eq (by omega : 2 < 3) rfl) (RefTerm.band2 g gp) rfl rfl b f ⟨f.val - 32, by omega⟩
        (by simp; omega) h w) ?_
      rw [band2_apply]
      exact congrArg (fun z => featAt g gp b z h w) (Fin.ext (by simp [fidx]; omega))

/-- The reference's feature array of an image at an index is the specification's census feature, as 0 or 1. -/
theorem census_apply (x : FVec Ideal S8x3x512x512 .f32) (b : Fin 8) (f : Fin 48) (h w : Fin 512) :
    RefTerm.census (F := Ideal) x (ix4 b f h w)
      = FloatOps.uitofp (F := Ideal) .f32 (Cert.Census.feat (Cert.Census.img x) b f h w) := by
  unfold RefTerm.census
  rw [censusOf_apply]
  unfold featAt
  rw [RefTerm.pad_apply, gray_apply, gray_apply]
  rfl

end Cert.ReferenceIdeal.RefValue

end
-- ==== Proof.RefDelta.lean ====
/-
  The absolute difference of two one-bit features, each read as the number 0 or 1, is 0 where the bits agree and 1 where
  they differ. The four cases are computed in the reals and carried to the extended reals through the coercion, which
  commutes with subtraction, negation and (being monotone) with the maximum.
-/
import proofs.«131024_j38895223833176_2_alg».proof.Proof.Spec

noncomputable section

namespace Cert.ReferenceIdeal.RefValue

open Idealize.ShloMosaic

/-- In the extended reals, `max (r - s) (-(r - s))` of two reals is the real `|r - s|`. -/
theorem max_sub_neg_coe (r s : ℝ) :
    max ((r : EReal) - (s : EReal)) (-((r : EReal) - (s : EReal))) = ((|r - s| : ℝ) : EReal) := by
  rw [← EReal.coe_sub, ← EReal.coe_neg, abs_eq_max_neg]
  exact (EReal.coe_strictMono.monotone.map_max).symm

/-- `|a - b|` of two bits read as numbers is whether they differ. -/
theorem abs_sub_uitofp (a b : BitVec 1) :
    FloatOps.hostAbsf (F := Ideal) (φ := .f32)
        (FloatOps.subf (FloatOps.uitofp (F := Ideal) .f32 a) (FloatOps.uitofp (F := Ideal) .f32 b))
      = Cert.Census.delta a b := by
  show max (((a.toNat : ℝ) : EReal) - ((b.toNat : ℝ) : EReal)) (-(((a.toNat : ℝ) : EReal) - ((b.toNat : ℝ) : EReal))) = _
  rw [max_sub_neg_coe]
  unfold Cert.Census.delta
  rcases BitVec.eq_zero_or_eq_one a with rfl | rfl <;> rcases BitVec.eq_zero_or_eq_one b with rfl | rfl <;> simp

end Cert.ReferenceIdeal.RefValue

end
-- ==== Proof.RefSum.lean ====
/-
  A sum over the indices of a rank-4 array is the fourfold sum over its coordinates, and the host's float sum over all four
  axes of the feature array, at the ideal values, is its initial value (the zero word, the number 0) plus that fourfold sum.
-/
import proofs.«131024_j38895223833176_2_alg».proof.Proof.Gen.ReferenceIdeal
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  simp only [Fintype.sum_prod_type]
  rfl

/-- The host's sum of the feature array over all four axes, started from the zero word: `0` plus the fourfold sum. -/
theorem reduceAdd_all (v : FVec Ideal S8x48x512x512 .f32) (j : S_.Idx) :
    Host.reduceAdd (F := Ideal) v (constant S_ .f32 0x00000000#32) reducesTo_S8x48x512x512_S_d0_1_2_3 h_S_ j
      = 0 + ∑ b : Fin 8, ∑ f : Fin 48, ∑ h : Fin 512, ∑ w : Fin 512, v (ix4 b f h w) := by
  unfold Host.reduceAdd
  rw [Ideal.hostReduceAdd_def, Ideal.hostReduceAdd_total _ (fun b => b.elim0), sum_idx4]
  show Ideal.ofBits .f32 0x00000000#32 + _ = _
  rw [Ideal.ofBits_zero_f32]

end Cert.ReferenceIdeal.RefValue

end
-- ==== Proof.RefValue.lean ====
/-
  The reference's composed term at the ideal values is the specification: the sum over all entries of the absolute
  difference of the two feature arrays is the count of positions where the two images' census features differ, accumulated
  from zero, and the result is that count over the same single-precision constant.
-/
import proofs.«131024_j38895223833176_2_alg».proof.Proof.RefCensus
import proofs.«131024_j38895223833176_2_alg».proof.Proof.RefDelta
import proofs.«131024_j38895223833176_2_alg».proof.Proof.RefSum

noncomputable section

open scoped BigOperators

namespace Cert.ReferenceIdeal.RefValue

open Cert.ReferenceIdeal Cert.ReferenceIdeal.Gen Idealize.ShloMosaic Idealize.ShloMosaic.ValueIdx

/-- The absolute feature difference at an index is whether the two images' features differ there. -/
theorem absdiff_apply (x y : FVec Ideal S8x3x512x512 .f32) (b : Fin 8) (f : Fin 48) (h w : Fin 512) :
    Host.absf (F := Ideal) (subf (RefTerm.census x) (RefTerm.census y)) (ix4 b f h w)
      = Cert.Census.delta (Cert.Census.feat (Cert.Census.img x) b f h w) (Cert.Census.feat (Cert.Census.img y) b f h w) := by
  show FloatOps.hostAbsf (F := Ideal) (φ := .f32)
    (FloatOps.subf (RefTerm.census (F := Ideal) x (ix4 b f h w)) (RefTerm.census (F := Ideal) y (ix4 b f h w))) = _
  rw [census_apply, census_apply]
  exact abs_sub_uitofp _ _

/-- The reference's result is the specification's. -/
theorem out_eq (x y : FVec Ideal S8x3x512x512 .f32) :
    RefTerm.out (F := Ideal) x y = fun _ => Cert.Census.result (Cert.Census.img x) (Cert.Census.img y) := by
  funext j
  unfold RefTerm.out Cert.Census.result Cert.Census.count
  show Ideal.div (Host.reduceAdd (F := Ideal) (Host.absf (subf (RefTerm.census x) (RefTerm.census y)))
    (constant S_ .f32 0x00000000#32) reducesTo_S8x48x512x512_S_d0_1_2_3 h_S_ j) (Ideal.ofBits .f32 0x4CC00000#32) = _
  rw [reduceAdd_all]
  simp only [absdiff_apply]

end Cert.ReferenceIdeal.RefValue

end
-- ==== Proof.lean ====
/-
  The census loss: a fused kernel against its jnp reference, equal over the extended reals.

  Both programs compute, from two RGB batches of shape [8, 3, 512, 512], the mean absolute difference of their census
  transforms. The grayscale value of a pixel is the fixed combination (w0 · R + w1 · G) + w2 · B; the image is extended by
  three pixels on each side by reflection; a census feature is the bit "centre gray value > gray value of the padded image
  at one of the 48 non-central positions of a 7 × 7 window"; the loss is the number of (batch, feature, pixel) positions
  where the two images' bits differ, over the number of such positions (`Cert.Census.result`, Proof/Spec.lean).

  The reference forms the grayscale image first and pads it, builds the 48 feature images of each input as 0/1 floats,
  concatenates them, and takes the mean of the absolute difference: |a - b| of two 0/1 numbers is 1 exactly where the
  bits differ, and the sum over the concatenation's index is the sum over batch, feature and pixel
  (Proof/RefRun.lean: the run; Proof/RefValue.lean: its result term is the specification's).
  The kernel pads the RGB inputs first and forms the grayscale image of the padded block inside the body — the same
  value, since padding only moves pixels and the grayscale value is computed pixel by pixel with the same expression —;
  for each batch entry it accumulates, over the 48 offsets, the exclusive or of the two comparison bits as a 0/1 float,
  sums the accumulator over the pixels and writes the sum to every lane of the entry's output row; the host then adds
  lane 0 over the batch and divides by the same count (Proof/KerAcc.lean … Proof/KerRun.lean).
  The two sides differ only in the order in which the same 0/1 terms are added, so the equality uses only that addition
  of extended reals is commutative and associative: the inputs' finiteness is never used.

  The three frames are the generated frame certificates (the two kernels') and the reference's run with the result
  dropped; the idealization rewrote nothing, so `preserves` is `True`.
-/
import proofs.«131024_j38895223833176_2_alg».proof.Defs
import proofs.«131024_j38895223833176_2_alg».proof.Proof.Gen.Kernel
import proofs.«131024_j38895223833176_2_alg».proof.Proof.Gen.Kernel.Skeleton
import proofs.«131024_j38895223833176_2_alg».proof.Proof.Gen.Kernel.Launch
import proofs.«131024_j38895223833176_2_alg».proof.Proof.Gen.Kernel.Points
import proofs.«131024_j38895223833176_2_alg».proof.Proof.Gen.Kernel.Frame
import proofs.«131024_j38895223833176_2_alg».proof.Proof.Gen.KernelIdeal
import proofs.«131024_j38895223833176_2_alg».proof.Proof.Gen.KernelIdeal.Skeleton
import proofs.«131024_j38895223833176_2_alg».proof.Proof.Gen.KernelIdeal.Launch
import proofs.«131024_j38895223833176_2_alg».proof.Proof.Gen.KernelIdeal.Points
import proofs.«131024_j38895223833176_2_alg».proof.Proof.Gen.KernelIdeal.Frame
import proofs.«131024_j38895223833176_2_alg».proof.Proof.Gen.ReferenceIdeal
import proofs.«131024_j38895223833176_2_alg».proof.Proof.Gen.Pre_finite_inputs
import proofs.«131024_j38895223833176_2_alg».proof.Proof.KerRun
import proofs.«131024_j38895223833176_2_alg».proof.Proof.RefRun
import proofs.«131024_j38895223833176_2_alg».proof.Proof.RefValue
import Idealize.ShloMosaic.Adequacy
import Idealize.ShloMosaic.Init

noncomputable section

namespace Cert.Proof

open Idealize.ShloMosaic Idealize.SL.Sem

/-- The word-level kernel terminates without a fault and leaves its arguments unchanged. -/
theorem frame_kernel : @Cert.frame_Kernel Cert.Kernel.Gen.facts Cert.Pre_finite_inputs.Gen.facts :=
  fun m ρ _ => Cert.Kernel.Gen.frame m ρ

/-- So does the idealized kernel. -/
theorem frame_kernelIdeal : @Cert.frame_KernelIdeal Cert.KernelIdeal.Gen.facts Cert.Pre_finite_inputs.Gen.facts :=
  fun m ρ _ => Cert.KernelIdeal.Gen.frame m ρ

/-- So does the idealized reference: its run, with the result dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.RefRun.run (F := Ideal) m ρ)

/-- Run from memories that agree on the two arguments, both idealized programs end with the specification's loss of those
    arguments in their result buffers. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨_, Cert.KernelIdeal.KerValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.out_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
